-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v105) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_v161) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S800000x128 : Shape := ⟨2, ![800000, 128]⟩
abbrev S1x128 : Shape := ⟨2, ![1, 128]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1

variable [Facts]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def fn_part10 {F : FTy → Type} [FloatOps F] (main_arg5 : FVec F S128 .f32) (main_v112 : IVec S_ 1) (main_v174 : FVec F S100000x128 .f32) (main_v180 : FVec F S100000x128 .f32) : IVec S_ 1 :=
  let main_v181 : FVec F S100000x128 .f32 := mulf main_v174 main_v180
  let main_v182 : FVec F S1x128 .f32 := broadcastInDim S1x128 ![1] bcast_S128_S1x128_1 main_arg5
  let main_v183 : FVec F S100000x128 .f32 := broadcastInDim S100000x128 ![0, 1] bcast_S1x128_S100000x128_0_1 main_v182
  let main_v184 : FVec F S100000x128 .f32 := addf main_v181 main_v183
  let main_cst_57 : FVec F S_ .f32 := constant S_ .f32 0x00000000#32
  let main_v185 : FVec F S128 .f32 := (fun x v => Host.reduceAdd x v reducesTo_S100000x128_S128_d0 h_S_) main_v184 main_cst_57
  let main_cst_58 : FVec F S_ .f32 := constant S_ .f32 0x47C35000#32
  let main_v186 : FVec F S128 .f32 := broadcastInDim S128 ![] bcast_S_S128 main_cst_58
  let main_v187 : FVec F S128 .f32 := Host.divf main_v185 main_v186
  let main_v188 : FVec F S1x128 .f32 := broadcastInDim S1x128 ![1] bcast_S128_S1x128_1 main_v187
  let main_v189 : FVec F S100000x128 .f32 := broadcastInDim S100000x128 ![0, 1] bcast_S1x128_S100000x128_0_1 main_v188
  let main_v190 : FVec F S100000x128 .f32 := subf main_v184 main_v189
  let main_v191 : FVec F S100000x128 .f32 := mulf main_v190 main_v190
  let main_cst_59 : FVec F S_ .f32 := constant S_ .f32 0x00000000#32
  let main_v192 : FVec F S128 .f32 := (fun x v => Host.reduceAdd x v reducesTo_S100000x128_S128_d0 h_S_) main_v191 main_cst_59
  let main_cst_60 : FVec F S_ .f32 := constant S_ .f32 0x00000000#32
  let main_v193 : FVec F S128 .f32 := broadcastInDim S128 ![] bcast_S_S128 main_cst_60
  let main_v194 : IVec S128 1 := cmpf .ogt main_v192 main_v193
  let main_c_61 : IVec S_ 1 := constantI S_ 1 1#1
  let main_v195 : IVec S_ 1 := (fun x v => Host.reduce IntOp.andi x v reducesTo_S128_S_d0 h_S_) main_v194 main_c_61
  let main_v196 : IVec S_ 1 := andi main_v112 main_v195
  main_v196

def fn_part9 {F : FTy → Type} [FloatOps F] (main_arg4 : FVec F S128x128 .f32) (main_arg5 : FVec F S128 .f32) (main_arg8 : IVec S800000 32) (main_arg9 : IVec S800000 32) (main_v112 : IVec S_ 1) (main_v149 : FVec F S100000x128 .f32) (main_v156 : FVec F S100000 .f32) (main_v161 : FVec F S100000x1 .f32) : IVec S_ 1 :=
  let main_v162 : FVec F S100000x128 .f32 := broadcastInDim S100000x128 ![0, 1] bcast_S100000x1_S100000x128_0_1 main_v161
  let main_v163 : FVec F S100000x128 .f32 := mulf main_v149 main_v162
  let main_v164 : FVec F S100000x128 .f32 := (fun l r => Host.dotGeneral dot_S100000x128_S128x128_S100000x128_1_0_0_1_n_n none l r) main_v163 main_arg4
  let main_c_52 : IVec S_ 32 := constantI S_ 32 0#32
  let main_v165 : IVec S800000 32 := broadcastInDim S800000 ![] bcast_S_S800000 main_c_52
  let main_v166 : IVec S800000 1 := cmpi .slt main_arg8 main_v165
  let main_c_53 : IVec S_ 32 := constantI S_ 32 100000#32
  let main_v167 : IVec S800000 32 := broadcastInDim S800000 ![] bcast_S_S800000 main_c_53
  let main_v168 : IVec S800000 32 := addi main_arg8 main_v167
  let main_v169 : IVec S800000 32 := select main_v166 main_v168 main_arg8
  let main_v170 : IVec S800000x1 32 := broadcastInDim S800000x1 ![0] bcast_S800000_S800000x1_0 main_v169
  let main_v171 : FVec F S800000x128 .f32 := (fun x i => Host.gather gather_S100000x128_S800000x1_S800000x128_1_0_n_n_0_1_1128 x i) main_v164 main_v170
  let main_cst_54 : FVec F S_ .f32 := constant S_ .f32 0x00000000#32
  let main_v172 : FVec F S100000x128 .f32 := broadcastInDim S100000x128 ![] bcast_S_S100000x128 main_cst_54
  let main_v173 : IVec S800000x1 32 := broadcastInDim S800000x1 ![0] bcast_S800000_S800000x1_0 main_arg9
  let main_v174 : FVec F S100000x128 .f32 := (fun x i u => Host.scatterAdd scatter_S100000x128_S800000x1_S800000x128_1_0_0_1 x i u) main_v172 main_v173 main_v171
  let main_cst_55 : FVec F S_ .f32 := constant S_ .f32 0x3F800000#32
  let main_v175 : FVec F S100000 .f32 := broadcastInDim S100000 ![] bcast_S_S100000 main_cst_55
  let main_v176 : FVec F S100000 .f32 := maximumf main_v156 main_v175
  let main_cst_56 : FVec F S_ .f32 := constant S_ .f32 0xBF000000#32
  let main_v177 : FVec F S100000 .f32 := broadcastInDim S100000 ![] bcast_S_S100000 main_cst_56
  let main_v178 : FVec F S100000 .f32 := Host.powf main_v176 main_v177
  let main_v179 : FVec F S100000x1 .f32 := broadcastInDim S100000x1 ![0] bcast_S100000_S100000x1_0 main_v178
  let main_v180 : FVec F S100000x128 .f32 := broadcastInDim S100000x128 ![0, 1] bcast_S100000x1_S100000x128_0_1 main_v179
  fn_part10 (F := F) main_arg5 main_v112 main_v174 main_v180

def fn_part8 {F : FTy → Type} [FloatOps F] (main_arg3 : FVec F S128 .f32) (main_arg4 : FVec F S128x128 .f32) (main_arg5 : FVec F S128 .f32) (main_arg8 : IVec S800000 32) (main_arg9 : IVec S800000 32) (main_v112 : IVec S_ 1) (main_v137 : FVec F S100000x128 .f32) (main_v143 : FVec F S100000x128 .f32) : IVec S_ 1 :=
  let main_v144 : FVec F S100000x128 .f32 := mulf main_v137 main_v143
  let main_v145 : FVec F S1x128 .f32 := broadcastInDim S1x128 ![1] bcast_S128_S1x128_1 main_arg3
  let main_v146 : FVec F S100000x128 .f32 := broadcastInDim S100000x128 ![0, 1] bcast_S1x128_S100000x128_0_1 main_v145
  let main_v147 : FVec F S100000x128 .f32 := addf main_v144 main_v146
  let main_cst_46 : FVec F S_ .f32 := constant S_ .f32 0x00000000#32
  let main_v148 : FVec F S100000x128 .f32 := broadcastInDim S100000x128 ![] bcast_S_S100000x128 main_cst_46
  let main_v149 : FVec F S100000x128 .f32 := maximumf main_v147 main_v148
  let main_cst_47 : FVec F S_ .f32 := constant S_ .f32 0x3F800000#32
  let main_v150 : FVec F S800000 .f32 := broadcastInDim S800000 ![] bcast_S_S800000 main_cst_47
  let main_cst_48 : FVec F S_ .f32 := constant S_ .f32 0x00000000#32
  let main_v151 : FVec F S100000 .f32 := broadcastInDim S100000 ![] bcast_S_S100000 main_cst_48
  let main_v152 : IVec S800000x1 32 := broadcastInDim S800000x1 ![0] bcast_S800000_S800000x1_0 main_arg8
  let main_v153 : FVec F S100000 .f32 := (fun x i u => Host.scatterAdd scatter_S100000_S800000x1_S800000_n_0_0_1 x i u) main_v151 main_v152 main_v150
  let main_cst_49 : FVec F S_ .f32 := constant S_ .f32 0x00000000#32
  let main_v154 : FVec F S100000 .f32 := broadcastInDim S100000 ![] bcast_S_S100000 main_cst_49
  let main_v155 : IVec S800000x1 32 := broadcastInDim S800000x1 ![0] bcast_S800000_S800000x1_0 main_arg9
  let main_v156 : FVec F S100000 .f32 := (fun x i u => Host.scatterAdd scatter_S100000_S800000x1_S800000_n_0_0_1 x i u) main_v154 main_v155 main_v150
  let main_cst_50 : FVec F S_ .f32 := constant S_ .f32 0x3F800000#32
  let main_v157 : FVec F S100000 .f32 := broadcastInDim S100000 ![] bcast_S_S100000 main_cst_50
  let main_v158 : FVec F S100000 .f32 := maximumf main_v153 main_v157
  let main_cst_51 : FVec F S_ .f32 := constant S_ .f32 0xBF000000#32
  let main_v159 : FVec F S100000 .f32 := broadcastInDim S100000 ![] bcast_S_S100000 main_cst_51
  let main_v160 : FVec F S100000 .f32 := Host.powf main_v158 main_v159
  let main_v161 : FVec F S100000x1 .f32 := broadcastInDim S100000x1 ![0] bcast_S100000_S100000x1_0 main_v160
  fn_part9 (F := F) main_arg4 main_arg5 main_arg8 main_arg9 main_v112 main_v149 main_v156 main_v161

def fn_part7 {F : FTy → Type} [FloatOps F] (main_arg1 : FVec F S100000x128 .f32) (main_arg2 : FVec F S128x128 .f32) (main_arg3 : FVec F S128 .f32) (main_arg4 : FVec F S128x128 .f32) (main_arg5 : FVec F S128 .f32) (main_arg8 : IVec S800000 32) (main_arg9 : IVec S800000 32) (main_v112 : IVec S_ 1) (main_v119 : FVec F S100000 .f32) (main_v124 : FVec F S100000x1 .f32) : IVec S_ 1 :=
  let main_v125 : FVec F S100000x128 .f32 := broadcastInDim S100000x128 ![0, 1] bcast_S100000x1_S100000x128_0_1 main_v124
  let main_v126 : FVec F S100000x128 .f32 := mulf main_arg1 main_v125
  let main_v127 : FVec F S100000x128 .f32 := (fun l r => Host.dotGeneral dot_S100000x128_S128x128_S100000x128_1_0_0_1_n_n none l r) main_v126 main_arg2
  let main_c_41 : IVec S_ 32 := constantI S_ 32 0#32
  let main_v128 : IVec S800000 32 := broadcastInDim S800000 ![] bcast_S_S800000 main_c_41
  let main_v129 : IVec S800000 1 := cmpi .slt main_arg8 main_v128
  let main_c_42 : IVec S_ 32 := constantI S_ 32 100000#32
  let main_v130 : IVec S800000 32 := broadcastInDim S800000 ![] bcast_S_S800000 main_c_42
  let main_v131 : IVec S800000 32 := addi main_arg8 main_v130
  let main_v132 : IVec S800000 32 := select main_v129 main_v131 main_arg8
  let main_v133 : IVec S800000x1 32 := broadcastInDim S800000x1 ![0] bcast_S800000_S800000x1_0 main_v132
  let main_v134 : FVec F S800000x128 .f32 := (fun x i => Host.gather gather_S100000x128_S800000x1_S800000x128_1_0_n_n_0_1_1128 x i) main_v127 main_v133
  let main_cst_43 : FVec F S_ .f32 := constant S_ .f32 0x00000000#32
  let main_v135 : FVec F S100000x128 .f32 := broadcastInDim S100000x128 ![] bcast_S_S100000x128 main_cst_43
  let main_v136 : IVec S800000x1 32 := broadcastInDim S800000x1 ![0] bcast_S800000_S800000x1_0 main_arg9
  let main_v137 : FVec F S100000x128 .f32 := (fun x i u => Host.scatterAdd scatter_S100000x128_S800000x1_S800000x128_1_0_0_1 x i u) main_v135 main_v136 main_v134
  let main_cst_44 : FVec F S_ .f32 := constant S_ .f32 0x3F800000#32
  let main_v138 : FVec F S100000 .f32 := broadcastInDim S100000 ![] bcast_S_S100000 main_cst_44
  let main_v139 : FVec F S100000 .f32 := maximumf main_v119 main_v138
  let main_cst_45 : FVec F S_ .f32 := constant S_ .f32 0xBF000000#32
  let main_v140 : FVec F S100000 .f32 := broadcastInDim S100000 ![] bcast_S_S100000 main_cst_45
  let main_v141 : FVec F S100000 .f32 := Host.powf main_v139 main_v140
  let main_v142 : FVec F S100000x1 .f32 := broadcastInDim S100000x1 ![0] bcast_S100000_S100000x1_0 main_v141
  let main_v143 : FVec F S100000x128 .f32 := broadcastInDim S100000x128 ![0, 1] bcast_S100000x1_S100000x128_0_1 main_v142
  fn_part8 (F := F) main_arg3 main_arg4 main_arg5 main_arg8 main_arg9 main_v112 main_v137 main_v143

def fn_part6 {F : FTy → Type} [FloatOps F] (main_arg1 : FVec F S100000x128 .f32) (main_arg2 : FVec F S128x128 .f32) (main_arg3 : FVec F S128 .f32) (main_arg4 : FVec F S128x128 .f32) (main_arg5 : FVec F S128 .f32) (main_arg8 : IVec S800000 32) (main_arg9 : IVec S800000 32) (main_v28 : IVec S_ 1) (main_v107 : FVec F S100000x128 .f32) (main_cst_33 : FVec F S_ .f32) : IVec S_ 1 :=
  let main_v108 : FVec F S128 .f32 := (fun x v => Host.reduceAdd x v reducesTo_S100000x128_S128_d0 h_S_) main_v107 main_cst_33
  let main_cst_34 : FVec F S_ .f32 := constant S_ .f32 0x00000000#32
  let main_v109 : FVec F S128 .f32 := broadcastInDim S128 ![] bcast_S_S128 main_cst_34
  let main_v110 : IVec S128 1 := cmpf .ogt main_v108 main_v109
  let main_c_35 : IVec S_ 1 := constantI S_ 1 1#1
  let main_v111 : IVec S_ 1 := (fun x v => Host.reduce IntOp.andi x v reducesTo_S128_S_d0 h_S_) main_v110 main_c_35
  let main_v112 : IVec S_ 1 := andi main_v28 main_v111
  let main_cst_36 : FVec F S_ .f32 := constant S_ .f32 0x3F800000#32
  let main_v113 : FVec F S800000 .f32 := broadcastInDim S800000 ![] bcast_S_S800000 main_cst_36
  let main_cst_37 : FVec F S_ .f32 := constant S_ .f32 0x00000000#32
  let main_v114 : FVec F S100000 .f32 := broadcastInDim S100000 ![] bcast_S_S100000 main_cst_37
  let main_v115 : IVec S800000x1 32 := broadcastInDim S800000x1 ![0] bcast_S800000_S800000x1_0 main_arg8
  let main_v116 : FVec F S100000 .f32 := (fun x i u => Host.scatterAdd scatter_S100000_S800000x1_S800000_n_0_0_1 x i u) main_v114 main_v115 main_v113
  let main_cst_38 : FVec F S_ .f32 := constant S_ .f32 0x00000000#32
  let main_v117 : FVec F S100000 .f32 := broadcastInDim S100000 ![] bcast_S_S100000 main_cst_38
  let main_v118 : IVec S800000x1 32 := broadcastInDim S800000x1 ![0] bcast_S800000_S800000x1_0 main_arg9
  let main_v119 : FVec F S100000 .f32 := (fun x i u => Host.scatterAdd scatter_S100000_S800000x1_S800000_n_0_0_1 x i u) main_v117 main_v118 main_v113
  let main_cst_39 : FVec F S_ .f32 := constant S_ .f32 0x3F800000#32
  let main_v120 : FVec F S100000 .f32 := broadcastInDim S100000 ![] bcast_S_S100000 main_cst_39
  let main_v121 : FVec F S100000 .f32 := maximumf main_v116 main_v120
  let main_cst_40 : FVec F S_ .f32 := constant S_ .f32 0xBF000000#32
  let main_v122 : FVec F S100000 .f32 := broadcastInDim S100000 ![] bcast_S_S100000 main_cst_40
  let main_v123 : FVec F S100000 .f32 := Host.powf main_v121 main_v122
  let main_v124 : FVec F S100000x1 .f32 := broadcastInDim S100000x1 ![0] bcast_S100000_S100000x1_0 main_v123
  fn_part7 (F := F) main_arg1 main_arg2 main_arg3 main_arg4 main_arg5 main_arg8 main_arg9 main_v112 main_v119 main_v124

def fn_part5 {F : FTy → Type} [FloatOps F] (main_arg1 : FVec F S100000x128 .f32) (main_arg2 : FVec F S128x128 .f32) (main_arg3 : FVec F S128 .f32) (main_arg4 : FVec F S128x128 .f32) (main_arg5 : FVec F S128 .f32) (main_arg7 : IVec S800000 32) (main_arg8 : IVec S800000 32) (main_arg9 : IVec S800000 32) (main_v28 : IVec S_ 1) (main_v72 : FVec F S100000 .f32) (main_v87 : FVec F S800000x128 .f32) (main_v88 : FVec F S100000x128 .f32) : IVec S_ 1 :=
  let main_v89 : IVec S800000x1 32 := broadcastInDim S800000x1 ![0] bcast_S800000_S800000x1_0 main_arg7
  let main_v90 : FVec F S100000x128 .f32 := (fun x i u => Host.scatterAdd scatter_S100000x128_S800000x1_S800000x128_1_0_0_1 x i u) main_v88 main_v89 main_v87
  let main_cst_29 : FVec F S_ .f32 := constant S_ .f32 0x3F800000#32
  let main_v91 : FVec F S100000 .f32 := broadcastInDim S100000 ![] bcast_S_S100000 main_cst_29
  let main_v92 : FVec F S100000 .f32 := maximumf main_v72 main_v91
  let main_cst_30 : FVec F S_ .f32 := constant S_ .f32 0xBF000000#32
  let main_v93 : FVec F S100000 .f32 := broadcastInDim S100000 ![] bcast_S_S100000 main_cst_30
  let main_v94 : FVec F S100000 .f32 := Host.powf main_v92 main_v93
  let main_v95 : FVec F S100000x1 .f32 := broadcastInDim S100000x1 ![0] bcast_S100000_S100000x1_0 main_v94
  let main_v96 : FVec F S100000x128 .f32 := broadcastInDim S100000x128 ![0, 1] bcast_S100000x1_S100000x128_0_1 main_v95
  let main_v97 : FVec F S100000x128 .f32 := mulf main_v90 main_v96
  let main_v98 : FVec F S1x128 .f32 := broadcastInDim S1x128 ![1] bcast_S128_S1x128_1 main_arg5
  let main_v99 : FVec F S100000x128 .f32 := broadcastInDim S100000x128 ![0, 1] bcast_S1x128_S100000x128_0_1 main_v98
  let main_v100 : FVec F S100000x128 .f32 := addf main_v97 main_v99
  let main_cst_31 : FVec F S_ .f32 := constant S_ .f32 0x00000000#32
  let main_v101 : FVec F S128 .f32 := (fun x v => Host.reduceAdd x v reducesTo_S100000x128_S128_d0 h_S_) main_v100 main_cst_31
  let main_cst_32 : FVec F S_ .f32 := constant S_ .f32 0x47C35000#32
  let main_v102 : FVec F S128 .f32 := broadcastInDim S128 ![] bcast_S_S128 main_cst_32
  let main_v103 : FVec F S128 .f32 := Host.divf main_v101 main_v102
  let main_v104 : FVec F S1x128 .f32 := broadcastInDim S1x128 ![1] bcast_S128_S1x128_1 main_v103
  let main_v105 : FVec F S100000x128 .f32 := broadcastInDim S100000x128 ![0, 1] bcast_S1x128_S100000x128_0_1 main_v104
  let main_v106 : FVec F S100000x128 .f32 := subf main_v100 main_v105
  let main_v107 : FVec F S100000x128 .f32 := mulf main_v106 main_v106
  let main_cst_33 : FVec F S_ .f32 := constant S_ .f32 0x00000000#32
  fn_part6 (F := F) main_arg1 main_arg2 main_arg3 main_arg4 main_arg5 main_arg8 main_arg9 main_v28 main_v107 main_cst_33

def fn_part4 {F : FTy → Type} [FloatOps F] (main_arg1 : FVec F S100000x128 .f32) (main_arg2 : FVec F S128x128 .f32) (main_arg3 : FVec F S128 .f32) (main_arg4 : FVec F S128x128 .f32) (main_arg5 : FVec F S128 .f32) (main_arg6 : IVec S800000 32) (main_arg7 : IVec S800000 32) (main_arg8 : IVec S800000 32) (main_arg9 : IVec S800000 32) (main_v28 : IVec S_ 1) (main_v65 : FVec F S100000x128 .f32) (main_v66 : FVec F S800000 .f32) (main_v69 : FVec F S100000 .f32) (main_cst_23 : FVec F S_ .f32) : IVec S_ 1 :=
  let main_v70 : FVec F S100000 .f32 := broadcastInDim S100000 ![] bcast_S_S100000 main_cst_23
  let main_v71 : IVec S800000x1 32 := broadcastInDim S800000x1 ![0] bcast_S800000_S800000x1_0 main_arg7
  let main_v72 : FVec F S100000 .f32 := (fun x i u => Host.scatterAdd scatter_S100000_S800000x1_S800000_n_0_0_1 x i u) main_v70 main_v71 main_v66
  let main_cst_24 : FVec F S_ .f32 := constant S_ .f32 0x3F800000#32
  let main_v73 : FVec F S100000 .f32 := broadcastInDim S100000 ![] bcast_S_S100000 main_cst_24
  let main_v74 : FVec F S100000 .f32 := maximumf main_v69 main_v73
  let main_cst_25 : FVec F S_ .f32 := constant S_ .f32 0xBF000000#32
  let main_v75 : FVec F S100000 .f32 := broadcastInDim S100000 ![] bcast_S_S100000 main_cst_25
  let main_v76 : FVec F S100000 .f32 := Host.powf main_v74 main_v75
  let main_v77 : FVec F S100000x1 .f32 := broadcastInDim S100000x1 ![0] bcast_S100000_S100000x1_0 main_v76
  let main_v78 : FVec F S100000x128 .f32 := broadcastInDim S100000x128 ![0, 1] bcast_S100000x1_S100000x128_0_1 main_v77
  let main_v79 : FVec F S100000x128 .f32 := mulf main_v65 main_v78
  let main_v80 : FVec F S100000x128 .f32 := (fun l r => Host.dotGeneral dot_S100000x128_S128x128_S100000x128_1_0_0_1_n_n none l r) main_v79 main_arg4
  let main_c_26 : IVec S_ 32 := constantI S_ 32 0#32
  let main_v81 : IVec S800000 32 := broadcastInDim S800000 ![] bcast_S_S800000 main_c_26
  let main_v82 : IVec S800000 1 := cmpi .slt main_arg6 main_v81
  let main_c_27 : IVec S_ 32 := constantI S_ 32 100000#32
  let main_v83 : IVec S800000 32 := broadcastInDim S800000 ![] bcast_S_S800000 main_c_27
  let main_v84 : IVec S800000 32 := addi main_arg6 main_v83
  let main_v85 : IVec S800000 32 := select main_v82 main_v84 main_arg6
  let main_v86 : IVec S800000x1 32 := broadcastInDim S800000x1 ![0] bcast_S800000_S800000x1_0 main_v85
  let main_v87 : FVec F S800000x128 .f32 := (fun x i => Host.gather gather_S100000x128_S800000x1_S800000x128_1_0_n_n_0_1_1128 x i) main_v80 main_v86
  let main_cst_28 : FVec F S_ .f32 := constant S_ .f32 0x00000000#32
  let main_v88 : FVec F S100000x128 .f32 := broadcastInDim S100000x128 ![] bcast_S_S100000x128 main_cst_28
  fn_part5 (F := F) main_arg1 main_arg2 main_arg3 main_arg4 main_arg5 main_arg7 main_arg8 main_arg9 main_v28 main_v72 main_v87 main_v88

def fn_part3 {F : FTy → Type} [FloatOps F] (main_arg1 : FVec F S100000x128 .f32) (main_arg2 : FVec F S128x128 .f32) (main_arg3 : FVec F S128 .f32) (main_arg4 : FVec F S128x128 .f32) (main_arg5 : FVec F S128 .f32) (main_arg6 : IVec S800000 32) (main_arg7 : IVec S800000 32) (main_arg8 : IVec S800000 32) (main_arg9 : IVec S800000 32) (main_v28 : IVec S_ 1) (main_v35 : FVec F S100000 .f32) (main_v50 : FVec F S800000x128 .f32) (main_v51 : FVec F S100000x128 .f32) : IVec S_ 1 :=
  let main_v52 : IVec S800000x1 32 := broadcastInDim S800000x1 ![0] bcast_S800000_S800000x1_0 main_arg7
  let main_v53 : FVec F S100000x128 .f32 := (fun x i u => Host.scatterAdd scatter_S100000x128_S800000x1_S800000x128_1_0_0_1 x i u) main_v51 main_v52 main_v50
  let main_cst_18 : FVec F S_ .f32 := constant S_ .f32 0x3F800000#32
  let main_v54 : FVec F S100000 .f32 := broadcastInDim S100000 ![] bcast_S_S100000 main_cst_18
  let main_v55 : FVec F S100000 .f32 := maximumf main_v35 main_v54
  let main_cst_19 : FVec F S_ .f32 := constant S_ .f32 0xBF000000#32
  let main_v56 : FVec F S100000 .f32 := broadcastInDim S100000 ![] bcast_S_S100000 main_cst_19
  let main_v57 : FVec F S100000 .f32 := Host.powf main_v55 main_v56
  let main_v58 : FVec F S100000x1 .f32 := broadcastInDim S100000x1 ![0] bcast_S100000_S100000x1_0 main_v57
  let main_v59 : FVec F S100000x128 .f32 := broadcastInDim S100000x128 ![0, 1] bcast_S100000x1_S100000x128_0_1 main_v58
  let main_v60 : FVec F S100000x128 .f32 := mulf main_v53 main_v59
  let main_v61 : FVec F S1x128 .f32 := broadcastInDim S1x128 ![1] bcast_S128_S1x128_1 main_arg3
  let main_v62 : FVec F S100000x128 .f32 := broadcastInDim S100000x128 ![0, 1] bcast_S1x128_S100000x128_0_1 main_v61
  let main_v63 : FVec F S100000x128 .f32 := addf main_v60 main_v62
  let main_cst_20 : FVec F S_ .f32 := constant S_ .f32 0x00000000#32
  let main_v64 : FVec F S100000x128 .f32 := broadcastInDim S100000x128 ![] bcast_S_S100000x128 main_cst_20
  let main_v65 : FVec F S100000x128 .f32 := maximumf main_v63 main_v64
  let main_cst_21 : FVec F S_ .f32 := constant S_ .f32 0x3F800000#32
  let main_v66 : FVec F S800000 .f32 := broadcastInDim S800000 ![] bcast_S_S800000 main_cst_21
  let main_cst_22 : FVec F S_ .f32 := constant S_ .f32 0x00000000#32
  let main_v67 : FVec F S100000 .f32 := broadcastInDim S100000 ![] bcast_S_S100000 main_cst_22
  let main_v68 : IVec S800000x1 32 := broadcastInDim S800000x1 ![0] bcast_S800000_S800000x1_0 main_arg6
  let main_v69 : FVec F S100000 .f32 := (fun x i u => Host.scatterAdd scatter_S100000_S800000x1_S800000_n_0_0_1 x i u) main_v67 main_v68 main_v66
  let main_cst_23 : FVec F S_ .f32 := constant S_ .f32 0x00000000#32
  fn_part4 (F := F) main_arg1 main_arg2 main_arg3 main_arg4 main_arg5 main_arg6 main_arg7 main_arg8 main_arg9 main_v28 main_v65 main_v66 main_v69 main_cst_23

def fn_part2 {F : FTy → Type} [FloatOps F] (main_arg0 : FVec F S100000x128 .f32) (main_arg1 : FVec F S100000x128 .f32) (main_arg2 : FVec F S128x128 .f32) (main_arg3 : FVec F S128 .f32) (main_arg4 : FVec F S128x128 .f32) (main_arg5 : FVec F S128 .f32) (main_arg6 : IVec S800000 32) (main_arg7 : IVec S800000 32) (main_arg8 : IVec S800000 32) (main_arg9 : IVec S800000 32) (main_v28 : IVec S_ 1) (main_v29 : FVec F S800000 .f32) (main_v32 : FVec F S100000 .f32) (main_cst_12 : FVec F S_ .f32) : IVec S_ 1 :=
  let main_v33 : FVec F S100000 .f32 := broadcastInDim S100000 ![] bcast_S_S100000 main_cst_12
  let main_v34 : IVec S800000x1 32 := broadcastInDim S800000x1 ![0] bcast_S800000_S800000x1_0 main_arg7
  let main_v35 : FVec F S100000 .f32 := (fun x i u => Host.scatterAdd scatter_S100000_S800000x1_S800000_n_0_0_1 x i u) main_v33 main_v34 main_v29
  let main_cst_13 : FVec F S_ .f32 := constant S_ .f32 0x3F800000#32
  let main_v36 : FVec F S100000 .f32 := broadcastInDim S100000 ![] bcast_S_S100000 main_cst_13
  let main_v37 : FVec F S100000 .f32 := maximumf main_v32 main_v36
  let main_cst_14 : FVec F S_ .f32 := constant S_ .f32 0xBF000000#32
  let main_v38 : FVec F S100000 .f32 := broadcastInDim S100000 ![] bcast_S_S100000 main_cst_14
  let main_v39 : FVec F S100000 .f32 := Host.powf main_v37 main_v38
  let main_v40 : FVec F S100000x1 .f32 := broadcastInDim S100000x1 ![0] bcast_S100000_S100000x1_0 main_v39
  let main_v41 : FVec F S100000x128 .f32 := broadcastInDim S100000x128 ![0, 1] bcast_S100000x1_S100000x128_0_1 main_v40
  let main_v42 : FVec F S100000x128 .f32 := mulf main_arg0 main_v41
  let main_v43 : FVec F S100000x128 .f32 := (fun l r => Host.dotGeneral dot_S100000x128_S128x128_S100000x128_1_0_0_1_n_n none l r) main_v42 main_arg2
  let main_c_15 : IVec S_ 32 := constantI S_ 32 0#32
  let main_v44 : IVec S800000 32 := broadcastInDim S800000 ![] bcast_S_S800000 main_c_15
  let main_v45 : IVec S800000 1 := cmpi .slt main_arg6 main_v44
  let main_c_16 : IVec S_ 32 := constantI S_ 32 100000#32
  let main_v46 : IVec S800000 32 := broadcastInDim S800000 ![] bcast_S_S800000 main_c_16
  let main_v47 : IVec S800000 32 := addi main_arg6 main_v46
  let main_v48 : IVec S800000 32 := select main_v45 main_v47 main_arg6
  let main_v49 : IVec S800000x1 32 := broadcastInDim S800000x1 ![0] bcast_S800000_S800000x1_0 main_v48
  let main_v50 : FVec F S800000x128 .f32 := (fun x i => Host.gather gather_S100000x128_S800000x1_S800000x128_1_0_n_n_0_1_1128 x i) main_v43 main_v49
  let main_cst_17 : FVec F S_ .f32 := constant S_ .f32 0x00000000#32
  let main_v51 : FVec F S100000x128 .f32 := broadcastInDim S100000x128 ![] bcast_S_S100000x128 main_cst_17
  fn_part3 (F := F) main_arg1 main_arg2 main_arg3 main_arg4 main_arg5 main_arg6 main_arg7 main_arg8 main_arg9 main_v28 main_v35 main_v50 main_v51

def fn_part1 {F : FTy → Type} [FloatOps F] (main_arg0 : FVec F S100000x128 .f32) (main_arg1 : FVec F S100000x128 .f32) (main_arg2 : FVec F S128x128 .f32) (main_arg3 : FVec F S128 .f32) (main_arg4 : FVec F S128x128 .f32) (main_arg5 : FVec F S128 .f32) (main_arg6 : IVec S800000 32) (main_arg7 : IVec S800000 32) (main_arg8 : IVec S800000 32) (main_arg9 : IVec S800000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_cst_10 : FVec F S_ .f32 := constant S_ .f32 0x3F800000#32
  let main_v29 : FVec F S800000 .f32 := broadcastInDim S800000 ![] bcast_S_S800000 main_cst_10
  let main_cst_11 : FVec F S_ .f32 := constant S_ .f32 0x00000000#32
  let main_v30 : FVec F S100000 .f32 := broadcastInDim S100000 ![] bcast_S_S100000 main_cst_11
  let main_v31 : IVec S800000x1 32 := broadcastInDim S800000x1 ![0] bcast_S800000_S800000x1_0 main_arg6
  let main_v32 : FVec F S100000 .f32 := (fun x i u => Host.scatterAdd scatter_S100000_S800000x1_S800000_n_0_0_1 x i u) main_v30 main_v31 main_v29
  let main_cst_12 : FVec F S_ .f32 := constant S_ .f32 0x00000000#32
  fn_part2 (F := F) main_arg0 main_arg1 main_arg2 main_arg3 main_arg4 main_arg5 main_arg6 main_arg7 main_arg8 main_arg9 main_v28 main_v29 main_v32 main_cst_12

def fn {F : FTy → Type} [FloatOps F] (main_arg0 : FVec F S100000x128 .f32) (main_arg1 : FVec F S100000x128 .f32) (main_arg2 : FVec F S128x128 .f32) (main_arg3 : FVec F S128 .f32) (main_arg4 : FVec F S128x128 .f32) (main_arg5 : FVec F S128 .f32) (main_arg6 : IVec S800000 32) (main_arg7 : IVec S800000 32) (main_arg8 : IVec S800000 32) (main_arg9 : IVec S800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg1 main_arg2 main_arg3 main_arg4 main_arg5 main_arg6 main_arg7 main_arg8 main_arg9 main_v13 main_v16
-- ==== Kernel.lean ====
abbrev S100000x128 : Shape := ⟨2, ![100000, 128]⟩
abbrev S128x128 : Shape := ⟨2, ![128, 128]⟩
abbrev S128 : Shape := ⟨1, ![128]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S4000x128 : Shape := ⟨2, ![4000, 128]⟩
abbrev S4000x1 : Shape := ⟨2, ![4000, 1]⟩
abbrev S800000x128 : Shape := ⟨2, ![800000, 128]⟩
abbrev S1x128 : Shape := ⟨2, ![1, 128]⟩

abbrev nBuf : Space → Nat
  | .hbm => 152
  | .vmem => 72
  | .smem => 0
  | _ => 0

abbrev hbmTy0_0 (i : Nat) : BufTy := match i % 128 with
  | 0 => ⟨S100000x128, .f32⟩
  | 1 => ⟨S100000x128, .f32⟩
  | 2 => ⟨S128x128, .f32⟩
  | 3 => ⟨S128, .f32⟩
  | 4 => ⟨S128x128, .f32⟩
  | 5 => ⟨S128, .f32⟩
  | 6 => ⟨S800000, .i32⟩
  | 7 => ⟨S800000, .i32⟩
  | 8 => ⟨S800000, .i32⟩
  | 9 => ⟨S800000, .i32⟩
  | 10 => ⟨S_, .f32⟩
  | 11 => ⟨S800000, .f32⟩
  | 12 => ⟨S_, .f32⟩
  | 13 => ⟨S100000, .f32⟩
  | 14 => ⟨S800000x1, .i32⟩
  | 15 => ⟨S100000, .f32⟩
  | 16 => ⟨S_, .f32⟩
  | 17 => ⟨S100000, .f32⟩
  | 18 => ⟨S800000x1, .i32⟩
  | 19 => ⟨S100000, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S100000x1, .f32⟩
  | 33 => ⟨S100000x1, .f32⟩
  | 34 => ⟨S100000x128, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .f32⟩
  | 44 => ⟨S_, .f32⟩
  | 45 => ⟨S100000x128, .f32⟩
  | 46 => ⟨S800000x1, .i32⟩
  | 47 => ⟨S100000x128, .f32⟩
  | 48 => ⟨S1x128, .f32⟩
  | 49 => ⟨S100000x128, .f32⟩
  | 50 => ⟨S100000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S100000x128, .f32⟩
  | 62 => ⟨S800000x1, .i32⟩
  | 63 => ⟨S100000x128, .f32⟩
  | 64 => ⟨S1x128, .f32⟩
  | 65 => ⟨S100000x128, .f32⟩
  | 66 => ⟨S1x128, .f32⟩
  | 67 => ⟨S1x128, .f32⟩
  | 68 => ⟨S_, .f32⟩
  | 69 => ⟨S1x128, .f32⟩
  | 70 => ⟨S1x128, .f32⟩
  | 71 => ⟨S_, .f32⟩
  | 72 => ⟨S1x128, .f32⟩
  | 73 => ⟨S1x128, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S100000x128, .f32⟩
  | 81 => ⟨S_, .f32⟩
  | 82 => ⟨S800000, .f32⟩
  | 83 => ⟨S_, .f32⟩
  | 84 => ⟨S100000, .f32⟩
  | 85 => ⟨S800000x1, .i32⟩
  | 86 => ⟨S100000, .f32⟩
  | 87 => ⟨S_, .f32⟩
  | 88 => ⟨S100000, .f32⟩
  | 89 => ⟨S800000x1, .i32⟩
  | 90 => ⟨S100000, .f32⟩
  | 91 => ⟨S_, .f32⟩
  | 92 => ⟨S100000, .f32⟩
  | 93 => ⟨S100000, .f32⟩
  | 94 => ⟨S_, .f32⟩
  | 95 => ⟨S100000, .f32⟩
  | 96 => ⟨S100000, .f32⟩
  | 97 => ⟨S_, .f32⟩
  | 98 => ⟨S100000, .f32⟩
  | 99 => ⟨S100000, .f32⟩
  | 100 => ⟨S_, .f32⟩
  | 101 => ⟨S100000, .f32⟩
  | 102 => ⟨S100000, .f32⟩
  | 103 => ⟨S100000x1, .f32⟩
  | 104 => ⟨S100000x1, .f32⟩
  | 105 => ⟨S100000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S_, .f32⟩
  | 116 => ⟨S100000x128, .f32⟩
  | 117 => ⟨S800000x1, .i32⟩
  | 118 => ⟨S100000x128, .f32⟩
  | 119 => ⟨S1x128, .f32⟩
  | 120 => ⟨S100000x128, .f32⟩
  | 121 => ⟨S100000x128, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S100000x128, .f32⟩

abbrev hbmTy0_1 (i : Nat) : BufTy := match i % 128 with
  | 0 => ⟨S800000, .i32⟩
  | 1 => ⟨S800000x1, .i32⟩
  | 2 => ⟨S800000x128, .f32⟩
  | 3 => ⟨S_, .f32⟩
  | 4 => ⟨S100000x128, .f32⟩
  | 5 => ⟨S800000x1, .i32⟩
  | 6 => ⟨S100000x128, .f32⟩
  | 7 => ⟨S1x128, .f32⟩
  | 8 => ⟨S100000x128, .f32⟩
  | 9 => ⟨S1x128, .f32⟩
  | 10 => ⟨S1x128, .f32⟩
  | 11 => ⟨S_, .f32⟩
  | 12 => ⟨S1x128, .f32⟩
  | 13 => ⟨S1x128, .f32⟩
  | 14 => ⟨S_, .f32⟩
  | 15 => ⟨S1x128, .f32⟩
  | 16 => ⟨S1x128, .f32⟩
  | 17 => ⟨S1x128, .f32⟩
  | 18 => ⟨S1x128, .f32⟩
  | 19 => ⟨S_, .f32⟩
  | 20 => ⟨S1x128, .f32⟩
  | 21 => ⟨S1x128, .f32⟩
  | 22 => ⟨S1x128, .f32⟩
  | 23 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S128x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x1, .f32⟩
  | .local _ .vmem, ⟨17, _⟩ => ⟨S4000x1, .f32⟩
  | .local _ .vmem, ⟨18, _⟩ => ⟨S128x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x1, .f32⟩
  | .local _ .vmem, ⟨24, _⟩ => ⟨S4000x1, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | .local _ .vmem, ⟨28, _⟩ => ⟨S1x128, .f32⟩
  | .local _ .vmem, ⟨29, _⟩ => ⟨S1x128, .f32⟩
  | .local _ .vmem, ⟨30, _⟩ => ⟨S4000x128, .f32⟩
  | .local _ .vmem, ⟨31, _⟩ => ⟨S4000x128, .f32⟩
  | .local _ .vmem, ⟨32, _⟩ => ⟨S1x128, .f32⟩
  | .local _ .vmem, ⟨33, _⟩ => ⟨S1x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S4000x128, .f32⟩
  | .local _ .vmem, ⟨38, _⟩ => ⟨S4000x1, .f32⟩
  | .local _ .vmem, ⟨39, _⟩ => ⟨S4000x1, .f32⟩
  | .local _ .vmem, ⟨40, _⟩ => ⟨S128x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S4000x128, .f32⟩
  | .local _ .vmem, ⟨45, _⟩ => ⟨S4000x1, .f32⟩
  | .local _ .vmem, ⟨46, _⟩ => ⟨S4000x1, .f32⟩
  | .local _ .vmem, ⟨47, _⟩ => ⟨S1x128, .f32⟩
  | .local _ .vmem, ⟨48, _⟩ => ⟨S4000x128, .f32⟩
  | .local _ .vmem, ⟨49, _⟩ => ⟨S4000x128, .f32⟩
  | .local _ .vmem, ⟨50, _⟩ => ⟨S4000x128, .f32⟩
  | .local _ .vmem, ⟨51, _⟩ => ⟨S4000x128, .f32⟩
  | .local _ .vmem, ⟨52, _⟩ => ⟨S4000x1, .f32⟩
  | .local _ .vmem, ⟨53, _⟩ => ⟨S4000x1, .f32⟩
  | .local _ .vmem, ⟨54, _⟩ => ⟨S128x128, .f32⟩
  | .local _ .vmem, ⟨55, _⟩ => ⟨S4000x128, .f32⟩
  | .local _ .vmem, ⟨56, _⟩ => ⟨S4000x128, .f32⟩
  | .local _ .vmem, ⟨57, _⟩ => ⟨S4000x128, .f32⟩
  | .local _ .vmem, ⟨58, _⟩ => ⟨S4000x128, .f32⟩
  | .local _ .vmem, ⟨59, _⟩ => ⟨S4000x1, .f32⟩
  | .local _ .vmem, ⟨60, _⟩ => ⟨S4000x1, .f32⟩
  | .local _ .vmem, ⟨61, _⟩ => ⟨S1x128, .f32⟩
  | .local _ .vmem, ⟨62, _⟩ => ⟨S4000x128, .f32⟩
  | .local _ .vmem, ⟨63, _⟩ => ⟨S4000x128, .f32⟩
  | .local _ .vmem, ⟨64, _⟩ => ⟨S1x128, .f32⟩
  | .local _ .vmem, ⟨65, _⟩ => ⟨S1x128, .f32⟩
  | .local _ .vmem, ⟨66, _⟩ => ⟨S4000x128, .f32⟩
  | .local _ .vmem, ⟨67, _⟩ => ⟨S4000x128, .f32⟩
  | .local _ .vmem, ⟨68, _⟩ => ⟨S1x128, .f32⟩
  | .local _ .vmem, ⟨69, _⟩ => ⟨S1x128, .f32⟩
  | .local _ .vmem, ⟨70, _⟩ => ⟨S4000x128, .f32⟩
  | .local _ .vmem, ⟨71, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42_0 : Ref sig .tc := ⟨.hbm, 65, rfl⟩
abbrev main_v42_1 : Ref sig .tc := ⟨.hbm, 66, rfl⟩
abbrev main_v42_2 : Ref sig .tc := ⟨.hbm, 67, rfl⟩
abbrev main_cst_11 : Ref sig .tc := ⟨.hbm, 68, rfl⟩
abbrev main_v43 : Ref sig .tc := ⟨.hbm, 69, rfl⟩
abbrev main_v44 : Ref sig .tc := ⟨.hbm, 70, rfl⟩
abbrev main_cst_12 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_13 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_14 : Ref sig .tc := ⟨.hbm, 81, rfl⟩
abbrev main_v53 : Ref sig .tc := ⟨.hbm, 82, rfl⟩
abbrev main_cst_15 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_16 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_17 : Ref sig .tc := ⟨.hbm, 91, rfl⟩
abbrev main_v60 : Ref sig .tc := ⟨.hbm, 92, rfl⟩
abbrev main_v61 : Ref sig .tc := ⟨.hbm, 93, rfl⟩
abbrev main_cst_18 : Ref sig .tc := ⟨.hbm, 94, rfl⟩
abbrev main_v62 : Ref sig .tc := ⟨.hbm, 95, rfl⟩
abbrev main_v63 : Ref sig .tc := ⟨.hbm, 96, rfl⟩
abbrev main_cst_19 : Ref sig .tc := ⟨.hbm, 97, rfl⟩
abbrev main_v64 : Ref sig .tc := ⟨.hbm, 98, rfl⟩
abbrev main_v65 : Ref sig .tc := ⟨.hbm, 99, rfl⟩
abbrev main_cst_20 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_21 : Ref sig .tc := ⟨.hbm, 106, rfl⟩
abbrev main_v71 : Ref sig .tc := ⟨.hbm, 107, rfl⟩
abbrev main_v72 : Ref sig .tc := ⟨.hbm, 108, rfl⟩
abbrev main_c_22 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_23 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_c_24 : Ref sig .tc := ⟨.hbm, 122, rfl⟩
abbrev main_v84 : Ref sig .tc := ⟨.hbm, 123, rfl⟩
abbrev main_v85 : Ref sig .tc := ⟨.hbm, 124, rfl⟩
abbrev main_c_25 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_26 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95_0 : Ref sig .tc := ⟨.hbm, 136, rfl⟩
abbrev main_v95_1 : Ref sig .tc := ⟨.hbm, 137, rfl⟩
abbrev main_v95_2 : Ref sig .tc := ⟨.hbm, 138, rfl⟩
abbrev main_cst_27 : Ref sig .tc := ⟨.hbm, 139, rfl⟩
abbrev main_v96 : Ref sig .tc := ⟨.hbm, 140, rfl⟩
abbrev main_v97 : Ref sig .tc := ⟨.hbm, 141, rfl⟩
abbrev main_cst_28 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_29 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg5_0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg1_1 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg3_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg3_1 : Ref sig .tc := ⟨.vmem, 56, rfl⟩
abbrev cc8_stg0_0 : Ref sig .tc := ⟨.vmem, 57, rfl⟩
abbrev cc8_stg0_1 : Ref sig .tc := ⟨.vmem, 58, rfl⟩
abbrev cc8_stg1_0 : Ref sig .tc := ⟨.vmem, 59, rfl⟩
abbrev cc8_stg1_1 : Ref sig .tc := ⟨.vmem, 60, rfl⟩
abbrev cc8_stg2_0 : Ref sig .tc := ⟨.vmem, 61, rfl⟩
abbrev cc8_stg3_0 : Ref sig .tc := ⟨.vmem, 62, rfl⟩
abbrev cc8_stg3_1 : Ref sig .tc := ⟨.vmem, 63, rfl⟩
abbrev cc8_stg4_0 : Ref sig .tc := ⟨.vmem, 64, rfl⟩
abbrev cc8_stg5_0 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg2_0 : Ref sig .tc := ⟨.vmem, 69, rfl⟩
abbrev cc9_stg3_0 : Ref sig .tc := ⟨.vmem, 70, rfl⟩
abbrev cc9_stg3_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc3_sem4_0 : DmaSem sig := 28
abbrev cc3_sem5_0 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem3_1 : DmaSem sig := 42
abbrev cc6_sem0_0 : DmaSem sig := 43
abbrev cc6_sem0_1 : DmaSem sig := 44
abbrev cc6_sem1_0 : DmaSem sig := 45
abbrev cc6_sem1_1 : DmaSem sig := 46
abbrev cc6_sem2_0 : DmaSem sig := 47
abbrev cc6_sem3_0 : DmaSem sig := 48
abbrev cc6_sem3_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem3_0 : DmaSem sig := 55
abbrev cc7_sem3_1 : DmaSem sig := 56
abbrev cc8_sem0_0 : DmaSem sig := 57
abbrev cc8_sem0_1 : DmaSem sig := 58
abbrev cc8_sem1_0 : DmaSem sig := 59
abbrev cc8_sem1_1 : DmaSem sig := 60
abbrev cc8_sem2_0 : DmaSem sig := 61
abbrev cc8_sem3_0 : DmaSem sig := 62
abbrev cc8_sem3_1 : DmaSem sig := 63
abbrev cc8_sem4_0 : DmaSem sig := 64
abbrev cc8_sem5_0 : DmaSem sig := 65
abbrev cc9_sem0_0 : DmaSem sig := 66
abbrev cc9_sem0_1 : DmaSem sig := 67
abbrev cc9_sem1_0 : DmaSem sig := 68
abbrev cc9_sem2_0 : DmaSem sig := 69
abbrev cc9_sem3_0 : DmaSem sig := 70
abbrev cc9_sem3_1 : DmaSem sig := 71

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S4000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S4000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S4000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S4000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S4000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S128 : S4000x128.Reduces [0] S128
  bcast_S_S1x128 : S_.BroadcastsInDim S1x128 (![] : Fin 0 → Fin S1x128.rank)
  scatter_S100000_S800000x1_S800000_n_0_0_1_wf : ScatterDims.WF S100000 S800000x1 S800000 [] [0] [0] 1
  dot_S4000x128_S128x128_S4000x128_1_0_0_1_n_n_wf : DotDims.WF S4000x128 S128x128 S4000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .f32 = 32 ∨ (Rect.block (s := S100000x128) S4000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S100000x128.size a
  hwx3_3 : ∀ i : grid3.Coords, EltTy.bits .f32 = 32 ∨ (Rect.block (s := S100000x128) S4000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x128.size a ≤ S100000x128.size a
  hwx4_3 : ∀ i : grid4.Coords, EltTy.bits .f32 = 32 ∨ (Rect.block (s := S100000x128) S4000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x1.size a ≤ S100000x1.size a
  hwx5_1 : ∀ i : grid5.Coords, EltTy.bits .f32 = 32 ∨ (Rect.block (s := S100000x1) S4000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x128.size a ≤ S100000x128.size a
  hwx5_3 : ∀ i : grid5.Coords, EltTy.bits .f32 = 32 ∨ (Rect.block (s := S100000x128) S4000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S100000x128.size a
  hwx6_0 : ∀ i : grid6.Coords, EltTy.bits .f32 = 32 ∨ (Rect.block (s := S100000x128) S4000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x1.size a ≤ S100000x1.size a
  hwx6_1 : ∀ i : grid6.Coords, EltTy.bits .f32 = 32 ∨ (Rect.block (s := S100000x1) S4000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4000x128.size a ≤ S100000x128.size a
  hwx6_3 : ∀ i : grid6.Coords, EltTy.bits .f32 = 32 ∨ (Rect.block (s := S100000x128) S4000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S100000x128.size a
  hwx7_0 : ∀ i : grid7.Coords, EltTy.bits .f32 = 32 ∨ (Rect.block (s := S100000x128) S4000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x1.size a ≤ S100000x1.size a
  hwx7_1 : ∀ i : grid7.Coords, EltTy.bits .f32 = 32 ∨ (Rect.block (s := S100000x1) S4000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4000x128.size a ≤ S100000x128.size a
  hwx7_3 : ∀ i : grid7.Coords, EltTy.bits .f32 = 32 ∨ (Rect.block (s := S100000x128) S4000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x128.size a ≤ S100000x128.size a
  hwx8_0 : ∀ i : grid8.Coords, EltTy.bits .f32 = 32 ∨ (Rect.block (s := S100000x128) S4000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4000x1.size a ≤ S100000x1.size a
  hwx8_1 : ∀ i : grid8.Coords, EltTy.bits .f32 = 32 ∨ (Rect.block (s := S100000x1) S4000x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S4000x128.size a ≤ S100000x128.size a
  hwx8_3 : ∀ i : grid8.Coords, EltTy.bits .f32 = 32 ∨ (Rect.block (s := S100000x128) S4000x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x128.size a ≤ S100000x128.size a
  hwx9_0 : ∀ i : grid9.Coords, EltTy.bits .f32 = 32 ∨ (Rect.block (s := S100000x128) S4000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S4000x128.size a ≤ S100000x128.size a
  hwx9_3 : ∀ i : grid9.Coords, EltTy.bits .f32 = 32 ∨ (Rect.block (s := S100000x128) S4000x128.size (cc9_transform_3 i) (hinb9_3 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42_0) S4000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v42_1) S1x128.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42_2) S1x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v42_0) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v51) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v52) S4000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_arg1) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S4000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg2) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v70) S4000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v80) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v69) S4000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v81) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v82) S4000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v82) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v68) S4000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg4) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v83) S4000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v93) S4000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v69) S4000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v94) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v95_0) S4000x128.size cc8_transform_3 reads8_3 true false 2 stage8_3 sem8_3
    hrank8 hreads8_3 hinb8_3 nbuf8_3 (Memref.isWhole_whole _) hwx8_3 hstage8_3

abbrev win8_4 : Pipeline.Window sig grid8 :=
  Pipeline.Window.ofSpec (Memref.whole main_v95_1) S1x128.size cc8_transform_4 reads8_4 true true 1 stage8_4 sem8_4
    hrank8 hreads8_4 hinb8_4 nbuf8_4 (Memref.isWhole_whole _) hwx8_4 hstage8_4

abbrev win8_5 : Pipeline.Window sig grid8 :=
  Pipeline.Window.ofSpec (Memref.whole main_v95_2) S1x128.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v95_0) S4000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v97) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v104) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v105) S4000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S800000x128 : Shape := ⟨2, ![800000, 128]⟩
abbrev S1x128 : Shape := ⟨2, ![1, 128]⟩

abbrev nBuf : Space → Nat
  | .hbm => 266
  | .vmem => 0
  | .smem => 0
  | _ => 0

abbrev hbmTy0_0 (i : Nat) : BufTy := match i % 128 with
  | 0 => ⟨S100000x128, .f32⟩
  | 1 => ⟨S100000x128, .f32⟩
  | 2 => ⟨S128x128, .f32⟩
  | 3 => ⟨S128, .f32⟩
  | 4 => ⟨S128x128, .f32⟩
  | 5 => ⟨S128, .f32⟩
  | 6 => ⟨S800000, .i32⟩
  | 7 => ⟨S800000, .i32⟩
  | 8 => ⟨S800000, .i32⟩
  | 9 => ⟨S800000, .i32⟩
  | 10 => ⟨S_, .f32⟩
  | 11 => ⟨S800000, .f32⟩
  | 12 => ⟨S_, .f32⟩
  | 13 => ⟨S100000, .f32⟩
  | 14 => ⟨S800000x1, .i32⟩
  | 15 => ⟨S100000, .f32⟩
  | 16 => ⟨S_, .f32⟩
  | 17 => ⟨S100000, .f32⟩
  | 18 => ⟨S800000x1, .i32⟩
  | 19 => ⟨S100000, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .f32⟩
  | 26 => ⟨S100000x1, .f32⟩
  | 27 => ⟨S100000x128, .f32⟩
  | 28 => ⟨S100000x128, .f32⟩
  | 29 => ⟨S100000x128, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x128, .f32⟩
  | 39 => ⟨S_, .f32⟩
  | 40 => ⟨S100000x128, .f32⟩
  | 41 => ⟨S800000x1, .i32⟩
  | 42 => ⟨S100000x128, .f32⟩
  | 43 => ⟨S_, .f32⟩
  | 44 => ⟨S100000, .f32⟩
  | 45 => ⟨S100000, .f32⟩
  | 46 => ⟨S_, .f32⟩
  | 47 => ⟨S100000, .f32⟩
  | 48 => ⟨S100000, .f32⟩
  | 49 => ⟨S100000x1, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S_, .f32⟩
  | 59 => ⟨S800000, .f32⟩
  | 60 => ⟨S_, .f32⟩
  | 61 => ⟨S100000, .f32⟩
  | 62 => ⟨S800000x1, .i32⟩
  | 63 => ⟨S100000, .f32⟩
  | 64 => ⟨S_, .f32⟩
  | 65 => ⟨S100000, .f32⟩
  | 66 => ⟨S800000x1, .i32⟩
  | 67 => ⟨S100000, .f32⟩
  | 68 => ⟨S_, .f32⟩
  | 69 => ⟨S100000, .f32⟩
  | 70 => ⟨S100000, .f32⟩
  | 71 => ⟨S_, .f32⟩
  | 72 => ⟨S100000, .f32⟩
  | 73 => ⟨S100000, .f32⟩
  | 74 => ⟨S100000x1, .f32⟩
  | 75 => ⟨S100000x128, .f32⟩
  | 76 => ⟨S100000x128, .f32⟩
  | 77 => ⟨S100000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S_, .f32⟩
  | 88 => ⟨S100000x128, .f32⟩
  | 89 => ⟨S800000x1, .i32⟩
  | 90 => ⟨S100000x128, .f32⟩
  | 91 => ⟨S_, .f32⟩
  | 92 => ⟨S100000, .f32⟩
  | 93 => ⟨S100000, .f32⟩
  | 94 => ⟨S_, .f32⟩
  | 95 => ⟨S100000, .f32⟩
  | 96 => ⟨S100000, .f32⟩
  | 97 => ⟨S100000x1, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S_, .f32⟩
  | 104 => ⟨S800000, .f32⟩
  | 105 => ⟨S_, .f32⟩
  | 106 => ⟨S100000, .f32⟩
  | 107 => ⟨S800000x1, .i32⟩
  | 108 => ⟨S100000, .f32⟩
  | 109 => ⟨S_, .f32⟩
  | 110 => ⟨S100000, .f32⟩
  | 111 => ⟨S800000x1, .i32⟩
  | 112 => ⟨S100000, .f32⟩
  | 113 => ⟨S_, .f32⟩
  | 114 => ⟨S100000, .f32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x128, .f32⟩
  | 121 => ⟨S100000x128, .f32⟩
  | 122 => ⟨S100000x128, .f32⟩
  | 123 => ⟨S_, .i32⟩
  | 124 => ⟨S800000, .i32⟩
  | 125 => ⟨S800000, .i1⟩
  | 126 => ⟨S_, .i32⟩
  | 127 => ⟨S800000, .i32⟩
  | _ => ⟨S100000x128, .f32⟩

abbrev hbmTy0_1 (i : Nat) : BufTy := match i % 128 with
  | 0 => ⟨S800000, .i32⟩
  | 1 => ⟨S800000, .i32⟩
  | 2 => ⟨S800000x1, .i32⟩
  | 3 => ⟨S800000x128, .f32⟩
  | 4 => ⟨S_, .f32⟩
  | 5 => ⟨S100000x128, .f32⟩
  | 6 => ⟨S800000x1, .i32⟩
  | 7 => ⟨S100000x128, .f32⟩
  | 8 => ⟨S_, .f32⟩
  | 9 => ⟨S100000, .f32⟩
  | 10 => ⟨S100000, .f32⟩
  | 11 => ⟨S_, .f32⟩
  | 12 => ⟨S100000, .f32⟩
  | 13 => ⟨S100000, .f32⟩
  | 14 => ⟨S100000x1, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S_, .f32⟩
  | 24 => ⟨S800000, .f32⟩
  | 25 => ⟨S_, .f32⟩
  | 26 => ⟨S100000, .f32⟩
  | 27 => ⟨S800000x1, .i32⟩
  | 28 => ⟨S100000, .f32⟩
  | 29 => ⟨S_, .f32⟩
  | 30 => ⟨S100000, .f32⟩
  | 31 => ⟨S800000x1, .i32⟩
  | 32 => ⟨S100000, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x128, .f32⟩
  | 41 => ⟨S100000x128, .f32⟩
  | 42 => ⟨S100000x128, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .f32⟩
  | 52 => ⟨S_, .f32⟩
  | 53 => ⟨S100000x128, .f32⟩
  | 54 => ⟨S800000x1, .i32⟩
  | 55 => ⟨S100000x128, .f32⟩
  | 56 => ⟨S_, .f32⟩
  | 57 => ⟨S100000, .f32⟩
  | 58 => ⟨S100000, .f32⟩
  | 59 => ⟨S_, .f32⟩
  | 60 => ⟨S100000, .f32⟩
  | 61 => ⟨S100000, .f32⟩
  | 62 => ⟨S100000x1, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S128, .f32⟩
  | 70 => ⟨S_, .f32⟩
  | 71 => ⟨S128, .f32⟩
  | 72 => ⟨S128, .f32⟩
  | 73 => ⟨S1x128, .f32⟩
  | 74 => ⟨S100000x128, .f32⟩
  | 75 => ⟨S100000x128, .f32⟩
  | 76 => ⟨S_, .i32⟩
  | 77 => ⟨S_, .f32⟩
  | 78 => ⟨S128, .f32⟩
  | 79 => ⟨S1x128, .f32⟩
  | 80 => ⟨S_, .f32⟩
  | 81 => ⟨S1x128, .f32⟩
  | 82 => ⟨S1x128, .f32⟩
  | 83 => ⟨S100000x128, .f32⟩
  | 84 => ⟨S100000x128, .f32⟩
  | 85 => ⟨S100000x128, .f32⟩
  | 86 => ⟨S_, .f32⟩
  | 87 => ⟨S_, .f32⟩
  | 88 => ⟨S_, .f32⟩
  | 89 => ⟨S_, .f32⟩
  | 90 => ⟨S128, .f32⟩
  | 91 => ⟨S128, .f32⟩
  | 92 => ⟨S128, .f32⟩
  | 93 => ⟨S_, .f32⟩
  | 94 => ⟨S_, .i1⟩
  | 95 => ⟨S_, .f32⟩
  | 96 => ⟨S_, .f32⟩
  | 97 => ⟨S128, .f32⟩
  | 98 => ⟨S128, .f32⟩
  | 99 => ⟨S128, .f32⟩
  | 100 => ⟨S1x128, .f32⟩
  | 101 => ⟨S100000x128, .f32⟩
  | 102 => ⟨S100000x128, .f32⟩
  | 103 => ⟨S_, .f32⟩
  | 104 => ⟨S128, .f32⟩
  | 105 => ⟨S_, .f32⟩
  | 106 => ⟨S128, .f32⟩
  | 107 => ⟨S128, .f32⟩
  | 108 => ⟨S1x128, .f32⟩
  | 109 => ⟨S100000x128, .f32⟩
  | 110 => ⟨S100000x128, .f32⟩
  | 111 => ⟨S_, .i32⟩
  | 112 => ⟨S_, .f32⟩
  | 113 => ⟨S128, .f32⟩
  | 114 => ⟨S1x128, .f32⟩
  | 115 => ⟨S_, .f32⟩
  | 116 => ⟨S1x128, .f32⟩
  | 117 => ⟨S1x128, .f32⟩
  | 118 => ⟨S100000x128, .f32⟩
  | 119 => ⟨S100000x128, .f32⟩
  | 120 => ⟨S100000x128, .f32⟩
  | 121 => ⟨S_, .f32⟩
  | 122 => ⟨S_, .f32⟩
  | 123 => ⟨S_, .f32⟩
  | 124 => ⟨S_, .f32⟩
  | 125 => ⟨S128, .f32⟩
  | 126 => ⟨S128, .f32⟩
  | 127 => ⟨S128, .f32⟩
  | _ => ⟨S100000x128, .f32⟩

abbrev hbmTy0_2 (i : Nat) : BufTy := match i % 128 with
  | 0 => ⟨S_, .f32⟩
  | 1 => ⟨S_, .i1⟩
  | 2 => ⟨S_, .f32⟩
  | 3 => ⟨S_, .f32⟩
  | 4 => ⟨S128, .f32⟩
  | 5 => ⟨S128, .f32⟩
  | 6 => ⟨S128, .f32⟩
  | 7 => ⟨S1x128, .f32⟩
  | 8 => ⟨S100000x128, .f32⟩
  | 9 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call0_cst : Ref sig .tc := ⟨.hbm, 55, rfl⟩
abbrev main_call0_v0 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_11 : Ref sig .tc := ⟨.hbm, 68, rfl⟩
abbrev main_v43 : Ref sig .tc := ⟨.hbm, 69, rfl⟩
abbrev main_v44 : Ref sig .tc := ⟨.hbm, 70, rfl⟩
abbrev main_cst_12 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_13 : Ref sig .tc := ⟨.hbm, 78, rfl⟩
abbrev main_v51 : Ref sig .tc := ⟨.hbm, 79, rfl⟩
abbrev main_v52 : Ref sig .tc := ⟨.hbm, 80, rfl⟩
abbrev main_c_14 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_15 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_16 : Ref sig .tc := ⟨.hbm, 91, rfl⟩
abbrev main_v61 : Ref sig .tc := ⟨.hbm, 92, rfl⟩
abbrev main_v62 : Ref sig .tc := ⟨.hbm, 93, rfl⟩
abbrev main_cst_17 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_18 : Ref sig .tc := ⟨.hbm, 103, rfl⟩
abbrev main_v71 : Ref sig .tc := ⟨.hbm, 104, rfl⟩
abbrev main_cst_19 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_20 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_21 : Ref sig .tc := ⟨.hbm, 113, rfl⟩
abbrev main_v78 : Ref sig .tc := ⟨.hbm, 114, rfl⟩
abbrev main_v79 : Ref sig .tc := ⟨.hbm, 115, rfl⟩
abbrev main_cst_22 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_c_23 : Ref sig .tc := ⟨.hbm, 123, rfl⟩
abbrev main_v86 : Ref sig .tc := ⟨.hbm, 124, rfl⟩
abbrev main_v87 : Ref sig .tc := ⟨.hbm, 125, rfl⟩
abbrev main_c_24 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_25 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_26 : Ref sig .tc := ⟨.hbm, 136, rfl⟩
abbrev main_v96 : Ref sig .tc := ⟨.hbm, 137, rfl⟩
abbrev main_v97 : Ref sig .tc := ⟨.hbm, 138, rfl⟩
abbrev main_cst_27 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_call1_cst : Ref sig .tc := ⟨.hbm, 148, rfl⟩
abbrev main_call1_v0 : Ref sig .tc := ⟨.hbm, 149, rfl⟩
abbrev main_v106 : Ref sig .tc := ⟨.hbm, 150, rfl⟩
abbrev main_cst_28 : Ref sig .tc := ⟨.hbm, 151, rfl⟩
abbrev main_v107 : Ref sig .tc := ⟨.hbm, 152, rfl⟩
abbrev main_cst_29 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_30 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_31 : Ref sig .tc := ⟨.hbm, 161, rfl⟩
abbrev main_v114 : Ref sig .tc := ⟨.hbm, 162, rfl⟩
abbrev main_v115 : Ref sig .tc := ⟨.hbm, 163, rfl⟩
abbrev main_cst_32 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_c_33 : Ref sig .tc := ⟨.hbm, 171, rfl⟩
abbrev main_v122 : Ref sig .tc := ⟨.hbm, 172, rfl⟩
abbrev main_v123 : Ref sig .tc := ⟨.hbm, 173, rfl⟩
abbrev main_c_34 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_cst_35 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_cst_36 : Ref sig .tc := ⟨.hbm, 184, rfl⟩
abbrev main_v132 : Ref sig .tc := ⟨.hbm, 185, rfl⟩
abbrev main_v133 : Ref sig .tc := ⟨.hbm, 186, rfl⟩
abbrev main_cst_37 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_cst_38 : Ref sig .tc := ⟨.hbm, 196, rfl⟩
abbrev main_v142 : Ref sig .tc := ⟨.hbm, 197, rfl⟩
abbrev main_cst_39 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_c_40 : Ref sig .tc := ⟨.hbm, 204, rfl⟩
abbrev main_call2_call0_cst : Ref sig .tc := ⟨.hbm, 205, rfl⟩
abbrev main_call2_call0_v0 : Ref sig .tc := ⟨.hbm, 206, rfl⟩
abbrev main_call2_call0_v1 : Ref sig .tc := ⟨.hbm, 207, rfl⟩
abbrev main_call2_call0_cst_0 : Ref sig .tc := ⟨.hbm, 208, rfl⟩
abbrev main_call2_call0_v2 : Ref sig .tc := ⟨.hbm, 209, rfl⟩
abbrev main_call2_call0_v3 : Ref sig .tc := ⟨.hbm, 210, rfl⟩
abbrev main_call2_call0_v4 : Ref sig .tc := ⟨.hbm, 211, rfl⟩
abbrev main_call2_call0_v5 : Ref sig .tc := ⟨.hbm, 212, rfl⟩
abbrev main_call2_call0_v6 : Ref sig .tc := ⟨.hbm, 213, rfl⟩
abbrev main_call2_call0_v7 : Ref sig .tc := ⟨.hbm, 214, rfl⟩
abbrev main_call2_call0_cst_1 : Ref sig .tc := ⟨.hbm, 215, rfl⟩
abbrev main_call2_call0_v8 : Ref sig .tc := ⟨.hbm, 216, rfl⟩
abbrev main_call2_call0_cst_2 : Ref sig .tc := ⟨.hbm, 217, rfl⟩
abbrev main_call2_call0_v9 : Ref sig .tc := ⟨.hbm, 218, rfl⟩
abbrev main_call2_call0_v10 : Ref sig .tc := ⟨.hbm, 219, rfl⟩
abbrev main_call2_call0_v11 : Ref sig .tc := ⟨.hbm, 220, rfl⟩
abbrev main_call2_call0_cst_3 : Ref sig .tc := ⟨.hbm, 221, rfl⟩
abbrev main_call2_call0_v12 : Ref sig .tc := ⟨.hbm, 222, rfl⟩
abbrev main_call2_call0_cst_4 : Ref sig .tc := ⟨.hbm, 223, rfl⟩
abbrev main_call2_call0_call0_v0 : Ref sig .tc := ⟨.hbm, 224, rfl⟩
abbrev main_call2_call0_call0_v1 : Ref sig .tc := ⟨.hbm, 225, rfl⟩
abbrev main_call2_v0 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_cst_41 : Ref sig .tc := ⟨.hbm, 231, rfl⟩
abbrev main_v152 : Ref sig .tc := ⟨.hbm, 232, rfl⟩
abbrev main_cst_42 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_c_43 : Ref sig .tc := ⟨.hbm, 239, rfl⟩
abbrev main_call3_call0_cst : Ref sig .tc := ⟨.hbm, 240, rfl⟩
abbrev main_call3_call0_v0 : Ref sig .tc := ⟨.hbm, 241, rfl⟩
abbrev main_call3_call0_v1 : Ref sig .tc := ⟨.hbm, 242, rfl⟩
abbrev main_call3_call0_cst_0 : Ref sig .tc := ⟨.hbm, 243, rfl⟩
abbrev main_call3_call0_v2 : Ref sig .tc := ⟨.hbm, 244, rfl⟩
abbrev main_call3_call0_v3 : Ref sig .tc := ⟨.hbm, 245, rfl⟩
abbrev main_call3_call0_v4 : Ref sig .tc := ⟨.hbm, 246, rfl⟩
abbrev main_call3_call0_v5 : Ref sig .tc := ⟨.hbm, 247, rfl⟩
abbrev main_call3_call0_v6 : Ref sig .tc := ⟨.hbm, 248, rfl⟩
abbrev main_call3_call0_v7 : Ref sig .tc := ⟨.hbm, 249, rfl⟩
abbrev main_call3_call0_cst_1 : Ref sig .tc := ⟨.hbm, 250, rfl⟩
abbrev main_call3_call0_v8 : Ref sig .tc := ⟨.hbm, 251, rfl⟩
abbrev main_call3_call0_cst_2 : Ref sig .tc := ⟨.hbm, 252, rfl⟩
abbrev main_call3_call0_v9 : Ref sig .tc := ⟨.hbm, 253, rfl⟩
abbrev main_call3_call0_v10 : Ref sig .tc := ⟨.hbm, 254, rfl⟩
abbrev main_call3_call0_v11 : Ref sig .tc := ⟨.hbm, 255, rfl⟩
abbrev main_call3_call0_cst_3 : Ref sig .tc := ⟨.hbm, 256, rfl⟩
abbrev main_call3_call0_v12 : Ref sig .tc := ⟨.hbm, 257, rfl⟩
abbrev main_call3_call0_cst_4 : Ref sig .tc := ⟨.hbm, 258, rfl⟩
abbrev main_call3_call0_call0_v0 : Ref sig .tc := ⟨.hbm, 259, rfl⟩
abbrev main_call3_call0_call0_v1 : Ref sig .tc := ⟨.hbm, 260, rfl⟩
abbrev main_call3_v0 : Ref sig .tc := ⟨.hbm, 261, rfl⟩
abbrev main_v158 : Ref sig .tc := ⟨.hbm, 262, rfl⟩
abbrev main_v159 : Ref sig .tc := ⟨.hbm, 263, rfl⟩
abbrev main_v160 : Ref sig .tc := ⟨.hbm, 264, rfl⟩
abbrev main_v161 : Ref sig .tc := ⟨.hbm, 265, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

class Facts : Prop extends Facts₀ where

variable [Facts]
-- ==== Proof.KernelRun.lean ====
/-
  The kernel's run with its two results named.

  Every weakly fair execution of the idealized kernel's @main terminates without a fault; in the final state the two
  result buffers hold what the fold of @main's segments leaves in them (`Gen.W18`, the contents at the last segment
  boundary), and the ten argument arrays are as launched.  The argument: the launch over the eighteen
  segments (the library's launch theorem for a program of several regions among stretches of host operations), then the
  last thread state read against the final memory, which gives every unscoped buffer at the last boundary's contents;
  the post keeps the two result buffers as read and walks each argument array back to its launch contents.
-/
import proofs.«136093_j68229850464275_1_alg».proof.Proof.Gen.KernelIdeal.Frame

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the two results at the last boundary's contents and the arguments as launched. -/
theorem run_values : θ_run defs (onTc (τ := τ) (main (F := F))) ⟨m, fun _ => 0, ρ⟩ (fun r => ∀ c : Dev nD,
      r.2.mem ((c.tc : Thread nD τ).loc main_v52) = W18 m ρ c (Proc.devRef .tc main_v52)
      ∧ r.2.mem ((c.tc : Thread nD τ).loc main_v105) = W18 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v52 (by decide)),
       h c _ (mem_uc main_v105 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c)⟩)

end Cert.KernelIdeal.Walk

end
-- ==== Proof.KernelWalkSteps.lean ====
/-
  What each segment of @main leaves unchanged, buffer by buffer.

  The buffer contents at the segment boundaries are a fold `Gen.W0 … Gen.W18` from the launch memory: a stretch of host
  operations rewrites the buffers it writes and leaves the rest; a region leaves each of its arrays at what its
  write-backs fold to — for an input window that is the array as entered — and every other buffer as entered.
  Here, per boundary `K`, the lemma `WK_keep`: a buffer the segment does not write holds at boundary `K` what it held at
  boundary `K - 1`.  For a host stretch "does not write" is "is not in the list of the references the stretch writes"
  (`wrJ`, with `writesJ` the proof that the list holds them all); for a region it is "is not one of the region's output
  arrays".  Both side conditions are decided over the literal references.  Then the ten argument arrays, which no
  segment writes, at every boundary (`WK_args`).
-/
import proofs.«136093_j68229850464275_1_alg».proof.Proof.Gen.KernelIdeal.Frame

set_option maxRecDepth 16384

noncomputable section

namespace Cert.KernelIdeal.Walk

open Cert.KernelIdeal Cert.KernelIdeal.Gen
open Idealize.ShloMosaic Idealize.ShloMosaic.TcCoe
open Idealize.ShloMosaic.Pipeline (Dat)

variable {F : FTy → Type} [FloatOps F]

/-! ## The references each host stretch writes -/

abbrev wr0 : List (Ref sig .tc) := [main_cst, main_v0, main_cst_0, main_v1, main_v2, main_v3, main_cst_1, main_v4, main_v5, main_v6,
  main_cst_2, main_v7, main_v8, main_cst_3, main_v9, main_v10, main_cst_4, main_v11, main_v12, main_cst_5, main_v13, main_v14, main_v15, main_v16]
abbrev wr1 : List (Ref sig .tc) := [main_c, main_v18, main_v19, main_c_6, main_v20, main_v21, main_v22, main_v23, main_v24,
  main_cst_7, main_v25, main_v26, main_v27, main_v28]
abbrev wr3 : List (Ref sig .tc) := [main_c_8, main_v31, main_v32, main_c_9, main_v33, main_v34, main_v35, main_v36, main_v37,
  main_cst_10, main_v38, main_v39, main_v40, main_v41]
abbrev wr4 : List (Ref sig .tc) := [main_cst_11, main_v43, main_v44, main_cst_12, main_v45, main_v46, main_v47, main_v48,
  main_cst_13, main_v49, main_v50, main_v51]
abbrev wr5 : List (Ref sig .tc) := [main_cst_14, main_v53, main_cst_15, main_v54, main_v55, main_v56, main_cst_16, main_v57, main_v58, main_v59,
  main_cst_17, main_v60, main_v61, main_cst_18, main_v62, main_v63, main_cst_19, main_v64, main_v65, main_cst_20, main_v66, main_v67, main_v68, main_v69]
abbrev wr6 : List (Ref sig .tc) := [main_c_21, main_v71, main_v72, main_c_22, main_v73, main_v74, main_v75, main_v76, main_v77,
  main_cst_23, main_v78, main_v79, main_v80, main_v81]
abbrev wr8 : List (Ref sig .tc) := [main_c_24, main_v84, main_v85, main_c_25, main_v86, main_v87, main_v88, main_v89, main_v90,
  main_cst_26, main_v91, main_v92, main_v93, main_v94]
abbrev wr9 : List (Ref sig .tc) := [main_cst_27, main_v96, main_v97, main_cst_28, main_v98, main_v99, main_v100, main_v101,
  main_cst_29, main_v102, main_v103, main_v104]

theorem writes0 : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem writes1 : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem writes3 : (hostOps3 : List (HloOp τ sig (Elt F))).Forall fun op => op.writes ⊆ (wr3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem writes4 : (hostOps4 : List (HloOp τ sig (Elt F))).Forall fun op => op.writes ⊆ (wr4.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem writes5 : (hostOps5 : List (HloOp τ sig (Elt F))).Forall fun op => op.writes ⊆ (wr5.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem writes6 : (hostOps6 : List (HloOp τ sig (Elt F))).Forall fun op => op.writes ⊆ (wr6.map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem writes8 : (hostOps8 : List (HloOp τ sig (Elt F))).Forall fun op => op.writes ⊆ (wr8.map (Proc.devRef (τ := τ) .tc)).toFinset := by
  simp only [hostOps8, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem writes9 : (hostOps9 : List (HloOp τ sig (Elt F))).Forall fun op => op.writes ⊆ (wr9.map (Proc.devRef (τ := τ) .tc)).toFinset := by
  simp only [hostOps9, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

variable (m : (ℓ : Loc nD τ sig) → Buf (Elt F) ℓ) (ρ : Dev nD → PrngReg)

/-! ## One boundary back: graph 1 (boundaries 1 to 9) -/

theorem W1_keep (c : Dev nD) (r : Ref sig .tc) (h : r ∉ wr0) :
    W1 m ρ c (Proc.devRef .tc r) = W0 m ρ c (Proc.devRef .tc r) :=
  StableHlo.after_of_writes_sub hostOps0 _ writes0 h

theorem W2_keep (c : Dev nD) (r : Ref sig .tc) (h : ∀ w, Pipeline.arrRef spec0 w = r → (cfg0.win w).isOut = false) :
    W2 m ρ c (Proc.devRef .tc r) = W1 m ρ c (Proc.devRef .tc r) := by
  by_cases hx : ∃ w, Pipeline.arrRef spec0 w = r
  · obtain ⟨w, rfl⟩ := hx
    exact (W2_arr m ρ c w).trans (((dat0 (V1 m ρ) c).arrAt_in w (h w rfl) _).trans (A_eq0 (V1 m ρ) c w))
  · exact W2_of_ne m ρ c r fun w e => hx ⟨w, e⟩

theorem W3_keep (c : Dev nD) (r : Ref sig .tc) (h : r ∉ wr1) :
    W3 m ρ c (Proc.devRef .tc r) = W2 m ρ c (Proc.devRef .tc r) :=
  StableHlo.after_of_writes_sub hostOps1 _ writes1 h

theorem W4_keep (c : Dev nD) (r : Ref sig .tc) (h : ∀ w, Pipeline.arrRef spec1 w = r → (cfg1.win w).isOut = false) :
    W4 m ρ c (Proc.devRef .tc r) = W3 m ρ c (Proc.devRef .tc r) := by
  by_cases hx : ∃ w, Pipeline.arrRef spec1 w = r
  · obtain ⟨w, rfl⟩ := hx
    exact (W4_arr m ρ c w).trans (((dat1 (V3 m ρ) c).arrAt_in w (h w rfl) _).trans (A_eq1 (V3 m ρ) c w))
  · exact W4_of_ne m ρ c r fun w e => hx ⟨w, e⟩

theorem W5_keep (c : Dev nD) (r : Ref sig .tc) (h : ∀ w, Pipeline.arrRef spec2 w = r → (cfg2.win w).isOut = false) :
    W5 m ρ c (Proc.devRef .tc r) = W4 m ρ c (Proc.devRef .tc r) := by
  by_cases hx : ∃ w, Pipeline.arrRef spec2 w = r
  · obtain ⟨w, rfl⟩ := hx
    exact (W5_arr m ρ c w).trans (((dat2 (V4 m ρ) c).arrAt_in w (h w rfl) _).trans (A_eq2 (V4 m ρ) c w))
  · exact W5_of_ne m ρ c r fun w e => hx ⟨w, e⟩

theorem W6_keep (c : Dev nD) (r : Ref sig .tc) (h : r ∉ wr3) :
    W6 m ρ c (Proc.devRef .tc r) = W5 m ρ c (Proc.devRef .tc r) :=
  StableHlo.after_of_writes_sub hostOps3 _ writes3 h

theorem W7_keep (c : Dev nD) (r : Ref sig .tc) (h : ∀ w, Pipeline.arrRef spec3 w = r → (cfg3.win w).isOut = false) :
    W7 m ρ c (Proc.devRef .tc r) = W6 m ρ c (Proc.devRef .tc r) := by
  by_cases hx : ∃ w, Pipeline.arrRef spec3 w = r
  · obtain ⟨w, rfl⟩ := hx
    exact (W7_arr m ρ c w).trans (((dat3 (V6 m ρ) c).arrAt_in w (h w rfl) _).trans (A_eq3 (V6 m ρ) c w))
  · exact W7_of_ne m ρ c r fun w e => hx ⟨w, e⟩

theorem W8_keep (c : Dev nD) (r : Ref sig .tc) (h : r ∉ wr4) :
    W8 m ρ c (Proc.devRef .tc r) = W7 m ρ c (Proc.devRef .tc r) :=
  StableHlo.after_of_writes_sub hostOps4 _ writes4 h

theorem W9_keep (c : Dev nD) (r : Ref sig .tc) (h : ∀ w, Pipeline.arrRef spec4 w = r → (cfg4.win w).isOut = false) :
    W9 m ρ c (Proc.devRef .tc r) = W8 m ρ c (Proc.devRef .tc r) := by
  by_cases hx : ∃ w, Pipeline.arrRef spec4 w = r
  · obtain ⟨w, rfl⟩ := hx
    exact (W9_arr m ρ c w).trans (((dat4 (V8 m ρ) c).arrAt_in w (h w rfl) _).trans (A_eq4 (V8 m ρ) c w))
  · exact W9_of_ne m ρ c r fun w e => hx ⟨w, e⟩

/-! ## One boundary back: graph 2 (boundaries 10 to 18) -/

theorem W10_keep (c : Dev nD) (r : Ref sig .tc) (h : r ∉ wr5) :
    W10 m ρ c (Proc.devRef .tc r) = W9 m ρ c (Proc.devRef .tc r) :=
  StableHlo.after_of_writes_sub hostOps5 _ writes5 h

theorem W11_keep (c : Dev nD) (r : Ref sig .tc) (h : ∀ w, Pipeline.arrRef spec5 w = r → (cfg5.win w).isOut = false) :
    W11 m ρ c (Proc.devRef .tc r) = W10 m ρ c (Proc.devRef .tc r) := by
  by_cases hx : ∃ w, Pipeline.arrRef spec5 w = r
  · obtain ⟨w, rfl⟩ := hx
    exact (W11_arr m ρ c w).trans (((dat5 (V10 m ρ) c).arrAt_in w (h w rfl) _).trans (A_eq5 (V10 m ρ) c w))
  · exact W11_of_ne m ρ c r fun w e => hx ⟨w, e⟩

theorem W12_keep (c : Dev nD) (r : Ref sig .tc) (h : r ∉ wr6) :
    W12 m ρ c (Proc.devRef .tc r) = W11 m ρ c (Proc.devRef .tc r) :=
  StableHlo.after_of_writes_sub hostOps6 _ writes6 h

theorem W13_keep (c : Dev nD) (r : Ref sig .tc) (h : ∀ w, Pipeline.arrRef spec6 w = r → (cfg6.win w).isOut = false) :
    W13 m ρ c (Proc.devRef .tc r) = W12 m ρ c (Proc.devRef .tc r) := by
  by_cases hx : ∃ w, Pipeline.arrRef spec6 w = r
  · obtain ⟨w, rfl⟩ := hx
    exact (W13_arr m ρ c w).trans (((dat6 (V12 m ρ) c).arrAt_in w (h w rfl) _).trans (A_eq6 (V12 m ρ) c w))
  · exact W13_of_ne m ρ c r fun w e => hx ⟨w, e⟩

theorem W14_keep (c : Dev nD) (r : Ref sig .tc) (h : ∀ w, Pipeline.arrRef spec7 w = r → (cfg7.win w).isOut = false) :
    W14 m ρ c (Proc.devRef .tc r) = W13 m ρ c (Proc.devRef .tc r) := by
  by_cases hx : ∃ w, Pipeline.arrRef spec7 w = r
  · obtain ⟨w, rfl⟩ := hx
    exact (W14_arr m ρ c w).trans (((dat7 (V13 m ρ) c).arrAt_in w (h w rfl) _).trans (A_eq7 (V13 m ρ) c w))
  · exact W14_of_ne m ρ c r fun w e => hx ⟨w, e⟩

theorem W15_keep (c : Dev nD) (r : Ref sig .tc) (h : r ∉ wr8) :
    W15 m ρ c (Proc.devRef .tc r) = W14 m ρ c (Proc.devRef .tc r) :=
  StableHlo.after_of_writes_sub hostOps8 _ writes8 h

theorem W16_keep (c : Dev nD) (r : Ref sig .tc) (h : ∀ w, Pipeline.arrRef spec8 w = r → (cfg8.win w).isOut = false) :
    W16 m ρ c (Proc.devRef .tc r) = W15 m ρ c (Proc.devRef .tc r) := by
  by_cases hx : ∃ w, Pipeline.arrRef spec8 w = r
  · obtain ⟨w, rfl⟩ := hx
    exact (W16_arr m ρ c w).trans (((dat8 (V15 m ρ) c).arrAt_in w (h w rfl) _).trans (A_eq8 (V15 m ρ) c w))
  · exact W16_of_ne m ρ c r fun w e => hx ⟨w, e⟩

theorem W17_keep (c : Dev nD) (r : Ref sig .tc) (h : r ∉ wr9) :
    W17 m ρ c (Proc.devRef .tc r) = W16 m ρ c (Proc.devRef .tc r) :=
  StableHlo.after_of_writes_sub hostOps9 _ writes9 h

theorem W18_keep (c : Dev nD) (r : Ref sig .tc) (h : ∀ w, Pipeline.arrRef spec9 w = r → (cfg9.win w).isOut = false) :
    W18 m ρ c (Proc.devRef .tc r) = W17 m ρ c (Proc.devRef .tc r) := by
  by_cases hx : ∃ w, Pipeline.arrRef spec9 w = r
  · obtain ⟨w, rfl⟩ := hx
    exact (W18_arr m ρ c w).trans (((dat9 (V17 m ρ) c).arrAt_in w (h w rfl) _).trans (A_eq9 (V17 m ρ) c w))
  · exact W18_of_ne m ρ c r fun w e => hx ⟨w, e⟩

/-! ## The argument arrays at every boundary

No segment writes an argument array: a host stretch's written references are all results, and a region reads an
argument only through an input window.  So at every boundary each argument array holds its launch contents. -/

abbrev argsL : List (Ref sig .tc) :=
  [main_arg0, main_arg1, main_arg2, main_arg3, main_arg4, main_arg5, main_arg6, main_arg7, main_arg8, main_arg9]

theorem W1_args (c : Dev nD) (r : Ref sig .tc) (hr : r ∈ argsL) :
    W1 m ρ c (Proc.devRef .tc r) = m ((c.tc : Thread nD τ).loc r) :=
  (W1_keep m ρ c r ((by decide : ∀ r ∈ argsL, r ∉ wr0) r hr)).trans (by rfl)

theorem W2_args (c : Dev nD) (r : Ref sig .tc) (hr : r ∈ argsL) :
    W2 m ρ c (Proc.devRef .tc r) = m ((c.tc : Thread nD τ).loc r) :=
  (W2_keep m ρ c r ((by decide : ∀ r ∈ argsL, ∀ w, Pipeline.arrRef spec0 w = r → (cfg0.win w).isOut = false) r hr)).trans
    (W1_args m ρ c r hr)

theorem W3_args (c : Dev nD) (r : Ref sig .tc) (hr : r ∈ argsL) :
    W3 m ρ c (Proc.devRef .tc r) = m ((c.tc : Thread nD τ).loc r) :=
  (W3_keep m ρ c r ((by decide : ∀ r ∈ argsL, r ∉ wr1) r hr)).trans (W2_args m ρ c r hr)

theorem W4_args (c : Dev nD) (r : Ref sig .tc) (hr : r ∈ argsL) :
    W4 m ρ c (Proc.devRef .tc r) = m ((c.tc : Thread nD τ).loc r) :=
  (W4_keep m ρ c r ((by decide : ∀ r ∈ argsL, ∀ w, Pipeline.arrRef spec1 w = r → (cfg1.win w).isOut = false) r hr)).trans
    (W3_args m ρ c r hr)

theorem W5_args (c : Dev nD) (r : Ref sig .tc) (hr : r ∈ argsL) :
    W5 m ρ c (Proc.devRef .tc r) = m ((c.tc : Thread nD τ).loc r) :=
  (W5_keep m ρ c r ((by decide : ∀ r ∈ argsL, ∀ w, Pipeline.arrRef spec2 w = r → (cfg2.win w).isOut = false) r hr)).trans
    (W4_args m ρ c r hr)

theorem W6_args (c : Dev nD) (r : Ref sig .tc) (hr : r ∈ argsL) :
    W6 m ρ c (Proc.devRef .tc r) = m ((c.tc : Thread nD τ).loc r) :=
  (W6_keep m ρ c r ((by decide : ∀ r ∈ argsL, r ∉ wr3) r hr)).trans (W5_args m ρ c r hr)

theorem W7_args (c : Dev nD) (r : Ref sig .tc) (hr : r ∈ argsL) :
    W7 m ρ c (Proc.devRef .tc r) = m ((c.tc : Thread nD τ).loc r) :=
  (W7_keep m ρ c r ((by decide : ∀ r ∈ argsL, ∀ w, Pipeline.arrRef spec3 w = r → (cfg3.win w).isOut = false) r hr)).trans
    (W6_args m ρ c r hr)

theorem W8_args (c : Dev nD) (r : Ref sig .tc) (hr : r ∈ argsL) :
    W8 m ρ c (Proc.devRef .tc r) = m ((c.tc : Thread nD τ).loc r) :=
  (W8_keep m ρ c r ((by decide : ∀ r ∈ argsL, r ∉ wr4) r hr)).trans (W7_args m ρ c r hr)

theorem W9_args (c : Dev nD) (r : Ref sig .tc) (hr : r ∈ argsL) :
    W9 m ρ c (Proc.devRef .tc r) = m ((c.tc : Thread nD τ).loc r) :=
  (W9_keep m ρ c r ((by decide : ∀ r ∈ argsL, ∀ w, Pipeline.arrRef spec4 w = r → (cfg4.win w).isOut = false) r hr)).trans
    (W8_args m ρ c r hr)

theorem W10_args (c : Dev nD) (r : Ref sig .tc) (hr : r ∈ argsL) :
    W10 m ρ c (Proc.devRef .tc r) = m ((c.tc : Thread nD τ).loc r) :=
  (W10_keep m ρ c r ((by decide : ∀ r ∈ argsL, r ∉ wr5) r hr)).trans (W9_args m ρ c r hr)

theorem W11_args (c : Dev nD) (r : Ref sig .tc) (hr : r ∈ argsL) :
    W11 m ρ c (Proc.devRef .tc r) = m ((c.tc : Thread nD τ).loc r) :=
  (W11_keep m ρ c r ((by decide : ∀ r ∈ argsL, ∀ w, Pipeline.arrRef spec5 w = r → (cfg5.win w).isOut = false) r hr)).trans
    (W10_args m ρ c r hr)

theorem W12_args (c : Dev nD) (r : Ref sig .tc) (hr : r ∈ argsL) :
    W12 m ρ c (Proc.devRef .tc r) = m ((c.tc : Thread nD τ).loc r) :=
  (W12_keep m ρ c r ((by decide : ∀ r ∈ argsL, r ∉ wr6) r hr)).trans (W11_args m ρ c r hr)

theorem W13_args (c : Dev nD) (r : Ref sig .tc) (hr : r ∈ argsL) :
    W13 m ρ c (Proc.devRef .tc r) = m ((c.tc : Thread nD τ).loc r) :=
  (W13_keep m ρ c r ((by decide : ∀ r ∈ argsL, ∀ w, Pipeline.arrRef spec6 w = r → (cfg6.win w).isOut = false) r hr)).trans
    (W12_args m ρ c r hr)

theorem W14_args (c : Dev nD) (r : Ref sig .tc) (hr : r ∈ argsL) :
    W14 m ρ c (Proc.devRef .tc r) = m ((c.tc : Thread nD τ).loc r) :=
  (W14_keep m ρ c r ((by decide : ∀ r ∈ argsL, ∀ w, Pipeline.arrRef spec7 w = r → (cfg7.win w).isOut = false) r hr)).trans
    (W13_args m ρ c r hr)

end Cert.KernelIdeal.Walk

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«136093_j68229850464275_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LibRowBcast.lean ====
/-
  A vector spread down the rows of a table by two host broadcasts, read at an entry: `[b] → [1, b]` (the vector laid
  along axis 1 of a one-row array) and `[1, b] → [a, b]` (the row repeated); entry `(i, j)` of the result is the
  vector's entry `j`.  Generic in the extents and the entry type.
-/
import Idealize.ShloMosaic.Lib.Pipeline.Value
import Idealize.ShloMosaic.Lib.ValueIdx

noncomputable section

namespace Cert.LibRowBcast

open Idealize.ShloMosaic Idealize.ShloMosaic.ValueIdx

variable {α : Type}

/-- A vector made a one-row array reads the vector's entry. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A one-row array repeated down the rows reads the row's entry of that column. -/
theorem bcast_row_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- The two together: the vector's entry `j` at every row. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (x : (⟨1, ![b]⟩ : Shape).Idx → α) (i : Fin a) (j : Fin b) :
    broadcastInDim ⟨2, ![a, b]⟩ ![0, 1] h₂ (broadcastInDim ⟨2, ![1, b]⟩ ![1] h₁ x) (ix2 i j) = x (ix1 j) :=
  (bcast_row_rows_apply h₂ _ i j).trans (bcast_vec_row_apply h₁ x 0 j)

end Cert.LibRowBcast

end
-- ==== Proof.LibTileOps.lean ====
/-
  The three array operations a two-layer graph convolution is made of, entry by entry, and the two ways each is spelt.

  * `matProd x w`: the matrix product, entry (p, c) the sum over k of x(p, k) · w(k, c).
  * `scaleRows x n`: row p of x multiplied by the p-th entry of a one-column array n.
  * `addRow x b`: a one-row array b added to every row of x; `addRowClamp x b` the same, then the maximum with the
    zero literal's value.

  Each is what a tiled kernel computes block by block, and each is also a composition of whole-array host operations:
  a dot_general; a product with a vector broadcast to one column and then along the rows; a sum with a vector broadcast
  to one row and then down the columns; and a maximum with a broadcast scalar.  A vector cast to a column (or a row)
  and the same vector broadcast to a column (or a row) are the same array, which is where the two spellings meet.
  Nothing here needs an entry to be finite: every equation is the same product, sum or maximum of the same entries.
  Generic in the extents A, K, B and in the records of the host operations.
-/
import Idealize.ShloMosaic.PureOps.Ideal.Laws
import Idealize.ShloMosaic.Lib.ValueIdx
import Idealize.ShloMosaic.Lib.ValueLayout
import Idealize.ShloMosaic.Lib.Pipeline.Value
import proofs.«136093_j68229850464275_1_alg».proof.Proof.LibPlainDotFormats
import proofs.«136093_j68229850464275_1_alg».proof.Proof.LibKeepdims
import proofs.«136093_j68229850464275_1_alg».proof.Proof.LibJoinedRows
import proofs.«136093_j68229850464275_1_alg».proof.Proof.LibRowBcast

noncomputable section

namespace Cert.LibTileOps

open Idealize.ShloMosaic Idealize.ShloMosaic.ValueIdx
open scoped BigOperators

variable {A K B : ℕ}

/-- The matrix product, entry by entry. -/
def matProd (x : FVec Ideal ⟨2, ![A, K]⟩ .f32) (w : FVec Ideal ⟨2, ![K, B]⟩ .f32) : FVec Ideal ⟨2, ![A, B]⟩ .f32 :=
  fun i => ∑ k : Fin K, x (ix2 (i 0) k) * w (ix2 k (i 1))

/-- Row `p` multiplied by entry `p` of a one-column array. -/
def scaleRows (x : FVec Ideal ⟨2, ![A, B]⟩ .f32) (n : FVec Ideal ⟨2, ![A, 1]⟩ .f32) : FVec Ideal ⟨2, ![A, B]⟩ .f32 :=
  fun i => x i * n (ix2 (i 0) (0 : Fin 1))

/-- A one-row array added to every row. -/
def addRow (x : FVec Ideal ⟨2, ![A, B]⟩ .f32) (b : FVec Ideal ⟨2, ![1, B]⟩ .f32) : FVec Ideal ⟨2, ![A, B]⟩ .f32 :=
  fun i => x i + b (ix2 (0 : Fin 1) (i 1))

/-- A one-row array added to every row, then the maximum with the zero literal's value. -/
def addRowClamp (x : FVec Ideal ⟨2, ![A, B]⟩ .f32) (b : FVec Ideal ⟨2, ![1, B]⟩ .f32) : FVec Ideal ⟨2, ![A, B]⟩ .f32 :=
  fun i => max (x i + b (ix2 (0 : Fin 1) (i 1))) (Ideal.ofBits .f32 0x00000000#32)

theorem matProd_apply (x : FVec Ideal ⟨2, ![A, K]⟩ .f32) (w : FVec Ideal ⟨2, ![K, B]⟩ .f32) (p : Fin A) (c : Fin B) :
    matProd x w (ix2 p c) = ∑ k : Fin K, x (ix2 p k) * w (ix2 k c) := rfl

theorem scaleRows_apply (x : FVec Ideal ⟨2, ![A, B]⟩ .f32) (n : FVec Ideal ⟨2, ![A, 1]⟩ .f32) (p : Fin A) (q : Fin B) :
    scaleRows x n (ix2 p q) = x (ix2 p q) * n (ix2 p (0 : Fin 1)) := rfl

theorem addRow_apply (x : FVec Ideal ⟨2, ![A, B]⟩ .f32) (b : FVec Ideal ⟨2, ![1, B]⟩ .f32) (p : Fin A) (q : Fin B) :
    addRow x b (ix2 p q) = x (ix2 p q) + b (ix2 (0 : Fin 1) q) := rfl

theorem addRowClamp_apply (x : FVec Ideal ⟨2, ![A, B]⟩ .f32) (b : FVec Ideal ⟨2, ![1, B]⟩ .f32) (p : Fin A) (q : Fin B) :
    addRowClamp x b (ix2 p q) = max (x (ix2 p q) + b (ix2 (0 : Fin 1) q)) (Ideal.ofBits .f32 0x00000000#32) := rfl

/-! ## The host spellings -/

/-- A host dot_general of plain dimension numbers is the matrix product. -/
theorem dotGeneral_eq_matProd {D : DotDims ⟨2, ![A, K]⟩ ⟨2, ![K, B]⟩ ⟨2, ![A, B]⟩} (h : Cert.LibPlainDot.Plain D)
    (prec : Option ContractPrecision) (x : FVec Ideal ⟨2, ![A, K]⟩ .f32) (w : FVec Ideal ⟨2, ![K, B]⟩ .f32) :
    Host.dotGeneral D prec x w = matProd x w := by
  funext i
  obtain ⟨p, c, rfl⟩ : ∃ (p : Fin A) (c : Fin B), i = ix2 p c := ⟨i 0, i 1, eq_ix2 i⟩
  simp only [Host.dotGeneral]
  exact h.dotGeneral_apply prec _ x w p c

/-- A product with a vector broadcast to one column and then along the rows scales row `p` by the vector's entry
    `p`: the vector cast to a column is the same column. -/
theorem mulf_bcast_col_eq_scaleRows
    (h1 : (⟨1, ![A]⟩ : Shape).BroadcastsInDim ⟨2, ![A, 1]⟩ (![0] : Fin 1 → Fin 2))
    (h2 : (⟨2, ![A, 1]⟩ : Shape).BroadcastsInDim ⟨2, ![A, B]⟩ (![0, 1] : Fin 2 → Fin 2))
    (hc : (⟨1, ![A]⟩ : Shape).ShapeCasts ⟨2, ![A, 1]⟩)
    (y : FVec Ideal ⟨2, ![A, B]⟩ .f32) (n : FVec Ideal ⟨1, ![A]⟩ .f32) :
    mulf y (broadcastInDim ⟨2, ![A, B]⟩ ![0, 1] h2 (broadcastInDim ⟨2, ![A, 1]⟩ ![0] h1 n))
      = scaleRows y (shapeCast ⟨2, ![A, 1]⟩ n hc) := by
  funext i
  obtain ⟨p, q, rfl⟩ : ∃ (p : Fin A) (q : Fin B), i = ix2 p q := ⟨i 0, i 1, eq_ix2 i⟩
  rw [scaleRows_apply, mulf_apply, Cert.LibJoinedRows.bcast_col_rows_apply, Cert.LibJoinedRows.bcast_vec_col_apply,
    Cert.LibKeepdims.shapeCast_a_a1_apply]

/-- A sum with a vector broadcast to one row and then down the columns adds the vector's entry `q` to column `q`:
    the vector cast to a row is the same row. -/
theorem addf_bcast_row_eq_addRow
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (hc : (⟨1, ![B]⟩ : Shape).ShapeCasts ⟨2, ![1, B]⟩)
    (y : FVec Ideal ⟨2, ![A, B]⟩ .f32) (b : FVec Ideal ⟨1, ![B]⟩ .f32) :
    addf y (broadcastInDim ⟨2, ![A, B]⟩ ![0, 1] h2 (broadcastInDim ⟨2, ![1, B]⟩ ![1] h1 b))
      = addRow y (shapeCast ⟨2, ![1, B]⟩ b hc) := by
  funext i
  obtain ⟨p, q, rfl⟩ : ∃ (p : Fin A) (q : Fin B), i = ix2 p q := ⟨i 0, i 1, eq_ix2 i⟩
  rw [addRow_apply, addf_apply, Cert.LibRowBcast.bcast_vec_rows_apply, shapeCast_a_1a_apply]

/-- The same, followed by the maximum with a broadcast zero literal. -/
theorem maximumf_addf_bcast_row_eq_addRowClamp
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (hc : (⟨1, ![B]⟩ : Shape).ShapeCasts ⟨2, ![1, B]⟩)
    (h0 : (⟨0, ![]⟩ : Shape).BroadcastsInDim ⟨2, ![A, B]⟩ (![] : Fin 0 → Fin 2))
    (y : FVec Ideal ⟨2, ![A, B]⟩ .f32) (b : FVec Ideal ⟨1, ![B]⟩ .f32) :
    maximumf (addf y (broadcastInDim ⟨2, ![A, B]⟩ ![0, 1] h2 (broadcastInDim ⟨2, ![1, B]⟩ ![1] h1 b)))
        (broadcastInDim ⟨2, ![A, B]⟩ ![] h0 (constant (F := Ideal) ⟨0, ![]⟩ .f32 0x00000000#32))
      = addRowClamp y (shapeCast ⟨2, ![1, B]⟩ b hc) := by
  funext i
  obtain ⟨p, q, rfl⟩ : ∃ (p : Fin A) (q : Fin B), i = ix2 p q := ⟨i 0, i 1, eq_ix2 i⟩
  rw [addRowClamp_apply, maximumf_apply, addf_apply, Cert.LibRowBcast.bcast_vec_rows_apply, shapeCast_a_1a_apply,
    Cert.LibJoinedRows.bcast_scalar_apply, constant_apply]

end Cert.LibTileOps

end
-- ==== Proof.Stages.lean ====
/-
  The stages of the computation both programs perform, as whole-array functions over the extended reals.

  One encoder is two graph-convolution layers. A layer scales the rows of its input by a column `so` (one number per
  node), multiplies by a weight matrix, aggregates the rows along the edges (`agg`, the same function in both programs:
  a gather of source rows followed by a scatter-add into destination rows), scales the rows by a second column `si` and adds a bias row;
  the first layer is followed by the maximum with zero. The encoder's output `h` is then standardised column by column:
  each entry minus its column's mean, times the reciprocal square root of the column's sample variance (or divided by
  its square root). The two programs differ in how they compute that variance:
    * from the column sum `s` and the column sum of squares `q`, as `(q - n * (s / n) * (s / n)) / (n - 1)`;
    * from the centred entries, as `(∑ (h - s / n)²) / (n - 1)`.
  Over real entries these agree (`∑ (x - μ)² = ∑ x² - n μ²` for `μ = (∑ x) / n`); when the variance is positive,
  `a * rsqrt v = a / sqrt v`. At variance zero the two quotients differ on the extended reals (`0 * rsqrt 0 = 0`,
  `0 / sqrt 0 = 0 / 0`), which is why the statement's precondition asks for a positive centred sum of squares.
-/
import Idealize.ShloMosaic.Lib.ValueIdx
import proofs.«136093_j68229850464275_1_alg».proof.Proof.LibTileOps

noncomputable section

open scoped BigOperators

namespace Cert.Stages

open Idealize.ShloMosaic Idealize.ShloMosaic.ValueIdx Cert.LibTileOps

variable {N D : ℕ}

/-- The two layers: `agg` aggregates rows along the edges, `so` / `si` are the per-node scales. -/
def encode (agg : FVec Ideal ⟨2, ![N, D]⟩ .f32 → FVec Ideal ⟨2, ![N, D]⟩ .f32)
    (so si : FVec Ideal ⟨2, ![N, 1]⟩ .f32) (x : FVec Ideal ⟨2, ![N, D]⟩ .f32)
    (w1 : FVec Ideal ⟨2, ![D, D]⟩ .f32) (b1 : FVec Ideal ⟨2, ![1, D]⟩ .f32)
    (w2 : FVec Ideal ⟨2, ![D, D]⟩ .f32) (b2 : FVec Ideal ⟨2, ![1, D]⟩ .f32) : FVec Ideal ⟨2, ![N, D]⟩ .f32 :=
  addRow (scaleRows (agg (matProd (scaleRows
    (addRowClamp (scaleRows (agg (matProd (scaleRows x so) w1)) si) b1) so) w2)) si) b2

/-- The sum of each column, kept as one row. -/
def colSum (h : FVec Ideal ⟨2, ![N, D]⟩ .f32) : FVec Ideal ⟨2, ![1, D]⟩ .f32 :=
  fun j => ∑ r : Fin N, h (ix2 r (j 1))

/-- The sum of the squares of each column, kept as one row. -/
def colSumSq (h : FVec Ideal ⟨2, ![N, D]⟩ .f32) : FVec Ideal ⟨2, ![1, D]⟩ .f32 :=
  fun j => ∑ r : Fin N, h (ix2 r (j 1)) * h (ix2 r (j 1))

/-- Each entry minus its column's `mu`, times its column's `iv`. -/
def centreScale (h : FVec Ideal ⟨2, ![N, D]⟩ .f32) (mu iv : FVec Ideal ⟨2, ![1, D]⟩ .f32) :
    FVec Ideal ⟨2, ![N, D]⟩ .f32 :=
  fun i => (h i - mu (ix2 (0 : Fin 1) (i 1))) * iv (ix2 (0 : Fin 1) (i 1))

theorem colSum_apply (h : FVec Ideal ⟨2, ![N, D]⟩ .f32) (u : Fin 1) (j : Fin D) :
    colSum h (ix2 u j) = ∑ r : Fin N, h (ix2 r j) := rfl

theorem colSumSq_apply (h : FVec Ideal ⟨2, ![N, D]⟩ .f32) (u : Fin 1) (j : Fin D) :
    colSumSq h (ix2 u j) = ∑ r : Fin N, h (ix2 r j) * h (ix2 r j) := rfl

theorem centreScale_apply (h : FVec Ideal ⟨2, ![N, D]⟩ .f32) (mu iv : FVec Ideal ⟨2, ![1, D]⟩ .f32)
    (r : Fin N) (j : Fin D) :
    centreScale h mu iv (ix2 r j) = (h (ix2 r j) - mu (ix2 (0 : Fin 1) j)) * iv (ix2 (0 : Fin 1) j) := rfl

/-- The column mean as the first program computes it: the column sum divided by the word for the row count. -/
def meanRow (nw : BitVec 32) (h : FVec Ideal ⟨2, ![N, D]⟩ .f32) : FVec Ideal ⟨2, ![1, D]⟩ .f32 :=
  fun j => Ideal.div (colSum h j) (Ideal.ofBits .f32 nw)

/-- The sample variance from the sum and the sum of squares: `(q - n * mean * mean) / (n - 1)`, `n` and `n - 1` by their words. -/
def varRowFromSums (nw n1w : BitVec 32) (h : FVec Ideal ⟨2, ![N, D]⟩ .f32) : FVec Ideal ⟨2, ![1, D]⟩ .f32 :=
  fun j => Ideal.div (colSumSq h j - Ideal.ofBits .f32 nw * meanRow nw h j * meanRow nw h j) (Ideal.ofBits .f32 n1w)

/-- The standardised array as the first program computes it: centred, times the reciprocal square root of `varRowFromSums`. -/
def standardiseBySums (nw n1w : BitVec 32) (h : FVec Ideal ⟨2, ![N, D]⟩ .f32) : FVec Ideal ⟨2, ![N, D]⟩ .f32 :=
  centreScale h (meanRow nw h) (fun j => Ideal.rsqrt (varRowFromSums nw n1w h j))

end Cert.Stages

end
-- ==== Proof.KernelWalkDefs.lean ====
/-
  The two host functions the graph-convolution layers share, each as one definition over the edge lists.

  * `invSqrtDeg idx`: for each node, the number of edges whose entry in `idx` is that node (a scatter-add of ones into
    a zero vector), raised to at least one, to the power −1/2; kept as a column (one number per node).
  * `aggregate src dst p`: the rows of `p` gathered at the edges' source nodes (a negative index counted from the end)
    and added into the rows of a zero array at the edges' destination nodes.
  * `colMean s`, `colInvStd s q`: the column mean and the reciprocal standard deviation from the carried column sum and
    column sum of squares, by the words for the row count and the row count less one.
-/
import proofs.«136093_j68229850464275_1_alg».proof.Proof.Gen.KernelIdeal.Launch
import proofs.«136093_j68229850464275_1_alg».proof.Proof.Stages

set_option maxRecDepth 16384

noncomputable section

namespace Cert.KernelIdeal.Walk

open Cert.KernelIdeal Cert.KernelIdeal.Gen
open Idealize.ShloMosaic Idealize.ShloMosaic.TcCoe Idealize.ShloMosaic.ValueIdx

/-- Degree to the power −1/2, the degree at least one: one number per node, as a column. -/
def invSqrtDeg (idx : IVec S800000 32) : FVec Ideal S100000x1 .f32 :=
  shapeCast S100000x1
    (Host.powf
      (maximumf
        (Host.scatterAdd scatter_S100000_S800000x1_S800000_n_0_0_1
          (broadcastInDim S100000 ![] bcast_S_S100000 (constant (F := Ideal) S_ .f32 0x00000000#32))
          (broadcastInDim S800000x1 ![0] bcast_S800000_S800000x1_0 idx)
          (broadcastInDim S800000 ![] bcast_S_S800000 (constant (F := Ideal) S_ .f32 0x3F800000#32)))
        (broadcastInDim S100000 ![] bcast_S_S100000 (constant (F := Ideal) S_ .f32 0x3F800000#32)))
      (broadcastInDim S100000 ![] bcast_S_S100000 (constant (F := Ideal) S_ .f32 0xBF000000#32)))
    shapeCasts_S100000_S100000x1

/-- The rows of `p` at the edges' sources, summed into the edges' destinations. -/
def aggregate (src dst : IVec S800000 32) (p : FVec Ideal S100000x128 .f32) : FVec Ideal S100000x128 .f32 :=
  Host.scatterAdd scatter_S100000x128_S800000x1_S800000x128_1_0_0_1
    (broadcastInDim S100000x128 ![] bcast_S_S100000x128 (constant (F := Ideal) S_ .f32 0x00000000#32))
    (broadcastInDim S800000x1 ![0] bcast_S800000_S800000x1_0 dst)
    (Host.gather gather_S100000x128_S800000x1_S800000x128_1_0_n_n_0_1_1128 p
      (broadcastInDim S800000x1 ![0] bcast_S800000_S800000x1_0
        (select
          (cmpi .slt src (broadcastInDim S800000 ![] bcast_S_S800000 (constantI S_ 32 0#32)))
          (addi src (broadcastInDim S800000 ![] bcast_S_S800000 (constantI S_ 32 100000#32)))
          src)))

/-- The column mean from the column sum: the sum divided by the word for the row count. -/
def colMean (s : FVec Ideal S1x128 .f32) : FVec Ideal S1x128 .f32 :=
  Host.divf s (broadcastInDim S1x128 ![] bcast_S_S1x128 (constant (F := Ideal) S_ .f32 0x47C35000#32))

/-- The reciprocal standard deviation from the column sum `s` and the column sum of squares `q`:
    the reciprocal square root of `(q - n * mean * mean) / (n - 1)`. -/
def colInvStd (s q : FVec Ideal S1x128 .f32) : FVec Ideal S1x128 .f32 :=
  Host.rsqrt (Host.divf
    (subf q
      (mulf (mulf (broadcastInDim S1x128 ![] bcast_S_S1x128 (constant (F := Ideal) S_ .f32 0x47C35000#32))
          (Host.divf s (broadcastInDim S1x128 ![] bcast_S_S1x128 (constant (F := Ideal) S_ .f32 0x47C35000#32))))
        (Host.divf s (broadcastInDim S1x128 ![] bcast_S_S1x128 (constant (F := Ideal) S_ .f32 0x47C35000#32)))))
    (broadcastInDim S1x128 ![] bcast_S_S1x128 (constant (F := Ideal) S_ .f32 0x47C34F80#32)))

/-- A bias vector as one row. -/
abbrev rowOf (b : FVec Ideal S128 .f32) : FVec Ideal S1x128 .f32 := shapeCast S1x128 b shapeCasts_S128_S1x128

end Cert.KernelIdeal.Walk

end
-- ==== Proof.KernelWalkHostA.lean ====
/-
  What the host stretches of graph 1 leave in the buffers the regions read, from any contents `W` at the stretch's entry.

  Each lemma reads one buffer after one stretch as the stretch's operations composed over the entry contents of the
  buffers they start from: the two per-node scales after the first stretch, the aggregated rows and the bias row
  before each layer's second region, the column mean and the reciprocal standard deviation before the last region.
-/
import proofs.«136093_j68229850464275_1_alg».proof.Proof.KernelWalkDefs

set_option maxRecDepth 16384

noncomputable section

namespace Cert.KernelIdeal.Walk

open Cert.KernelIdeal Cert.KernelIdeal.Gen
open Idealize.ShloMosaic Idealize.ShloMosaic.TcCoe Idealize.ShloMosaic.ValueIdx

open Idealize.ShloMosaic.StableHlo

variable (W : Valuation τ sig (Elt Ideal))

/-! ## The per-node scales (first stretch) -/

theorem h0_v15 : StableHlo.after (hostOps0 (F := Ideal)) W (Proc.devRef .tc main_v15)
    = invSqrtDeg (W (Proc.devRef .tc main_arg6)) := by
  after_results; rfl

theorem h0_v16 : StableHlo.after (hostOps0 (F := Ideal)) W (Proc.devRef .tc main_v16)
    = invSqrtDeg (W (Proc.devRef .tc main_arg7)) := by
  after_results; rfl

/-! ## Layer 1: the aggregated rows and the bias row -/

theorem h1_v27 : StableHlo.after (hostOps1 (F := Ideal)) W (Proc.devRef .tc main_v27)
    = aggregate (W (Proc.devRef .tc main_arg6)) (W (Proc.devRef .tc main_arg7)) (W (Proc.devRef .tc main_v17)) := by
  unfold aggregate; after_results

theorem h1_v28 : StableHlo.after (hostOps1 (F := Ideal)) W (Proc.devRef .tc main_v28)
    = rowOf (W (Proc.devRef .tc main_arg3)) := by
  after_results; rfl

/-! ## Layer 2: the aggregated rows and the bias row -/

set_option maxHeartbeats 1000000 in
theorem h3_v40 : StableHlo.after (hostOps3 (F := Ideal)) W (Proc.devRef .tc main_v40)
    = aggregate (W (Proc.devRef .tc main_arg6)) (W (Proc.devRef .tc main_arg7)) (W (Proc.devRef .tc main_v30)) := by
  unfold aggregate; after_results

theorem h3_v41 : StableHlo.after (hostOps3 (F := Ideal)) W (Proc.devRef .tc main_v41)
    = rowOf (W (Proc.devRef .tc main_arg5)) := by
  after_results; rfl

/-! ## The column statistics: mean and reciprocal standard deviation from the two carried sums -/

theorem h4_v44 : StableHlo.after (hostOps4 (F := Ideal)) W (Proc.devRef .tc main_v44)
    = colMean (W (Proc.devRef .tc main_v42_1)) := by
  unfold colMean; after_results

theorem h4_v51 : StableHlo.after (hostOps4 (F := Ideal)) W (Proc.devRef .tc main_v51)
    = colInvStd (W (Proc.devRef .tc main_v42_1)) (W (Proc.devRef .tc main_v42_2)) := by
  unfold colInvStd; after_results

end Cert.KernelIdeal.Walk

end
-- ==== Proof.KernelWalkStats.lean ====
/-
  The column statistics the kernel's host operations compute, as the standardisation they amount to.

  Before its last region the kernel divides the carried column sum by the word for the row count (the mean), and takes
  the reciprocal square root of `(q - n * mean * mean) / (n - 1)` over the carried sum of squares `q`.  Centring an
  array by that mean and scaling by that reciprocal root is `standardiseBySums` of the array, when the two carried rows
  are the array's column sum and column sum of squares.
-/
import Idealize.ShloMosaic.Lib.IdealHost
import proofs.«136093_j68229850464275_1_alg».proof.Proof.KernelWalkDefs

set_option maxRecDepth 16384

noncomputable section

namespace Cert.KernelIdeal.Walk

open Cert.KernelIdeal Cert.KernelIdeal.Gen Cert.Stages
open Idealize.ShloMosaic Idealize.ShloMosaic.TcCoe Idealize.ShloMosaic.ValueIdx

/-- A constant broadcast to one row reads the constant's value everywhere. -/
theorem bcastConst_apply (w : BitVec 32) (j : S1x128.Idx) :
    broadcastInDim S1x128 ![] bcast_S_S1x128 (constant (F := Ideal) S_ .f32 w) j = Ideal.ofBits .f32 w := by
  rw [broadcastInDim_scalar_apply]; rfl

theorem hostDivf_apply (x y : FVec Ideal S1x128 .f32) (j : S1x128.Idx) : Host.divf x y j = Ideal.div (x j) (y j) := rfl

theorem hostRsqrt_apply (x : FVec Ideal S1x128 .f32) (j : S1x128.Idx) : Host.rsqrt x j = Ideal.rsqrt (x j) := rfl

/-- Centred by the mean and scaled by the reciprocal root, both from the column sum and the column sum of squares. -/
theorem centreScale_stats (h : FVec Ideal S100000x128 .f32) :
    centreScale h (colMean (colSum h)) (colInvStd (colSum h) (colSumSq h))
    = standardiseBySums 0x47C35000#32 0x47C34F80#32 h := by
  unfold standardiseBySums colMean colInvStd
  have e1 : Host.divf (colSum h) (broadcastInDim S1x128 ![] bcast_S_S1x128 (constant (F := Ideal) S_ .f32 0x47C35000#32))
      = meanRow 0x47C35000#32 h := by
    funext j; rw [hostDivf_apply, bcastConst_apply]; rfl
  rw [e1]
  refine congrArg (centreScale h (meanRow 0x47C35000#32 h)) ?_
  funext j
  rw [hostRsqrt_apply, hostDivf_apply, bcastConst_apply, subf_apply, mulf_apply, mulf_apply, bcastConst_apply]
  rfl

end Cert.KernelIdeal.Walk

end
-- ==== Proof.KernelWalkFinals.lean ====
/-
  What the boundary walk takes from the regions: each region's final arrays as whole-array functions of the arrays it
  entered with (the statements of the regions' value lemmas, bundled so that the walk can be checked against them), the
  launch contents of the ten argument arrays with their array types, and the congruences of the tile operations.
-/
import proofs.«136093_j68229850464275_1_alg».proof.Proof.Gen.KernelIdeal.Frame
import proofs.«136093_j68229850464275_1_alg».proof.Proof.KernelWalkDefs

set_option maxRecDepth 16384

noncomputable section

namespace Cert.KernelIdeal.Walk

open Cert.KernelIdeal Cert.KernelIdeal.Gen Cert.LibTileOps Cert.Stages
open Idealize.ShloMosaic Idealize.ShloMosaic.TcCoe Idealize.ShloMosaic.ValueIdx

set_option maxHeartbeats 4000000 in
/-- Every region's final arrays from the contents `V` it is entered with: the projections (regions 0, 2, 5, 7), the
    biased and clamped aggregate (1, 6), the biased aggregate with its column sum and column sum of squares (3, 8), and
    the centred and scaled array (4, 9). -/
structure Finals : Prop where
  final0 : ∀ (V : (c : Dev nD) → (b : Ref sig .tc) → Buf (Elt Ideal) ((c : Thread nD τ).loc b)) (c : Dev nD),
    (dat0 (F := Ideal) V c).arrAt 3 cfg0.N = matProd (A := 100000) (K := 128) (B := 128)
      (scaleRows (V c (Pipeline.arrRef spec0 0)) (V c (Pipeline.arrRef spec0 1))) (V c (Pipeline.arrRef spec0 2))
  final1 : ∀ (V : (c : Dev nD) → (b : Ref sig .tc) → Buf (Elt Ideal) ((c : Thread nD τ).loc b)) (c : Dev nD),
    (dat1 (F := Ideal) V c).arrAt 3 cfg1.N = addRowClamp (A := 100000) (B := 128)
      (scaleRows (V c (Pipeline.arrRef spec1 0)) (V c (Pipeline.arrRef spec1 1))) (V c (Pipeline.arrRef spec1 2))
  final2 : ∀ (V : (c : Dev nD) → (b : Ref sig .tc) → Buf (Elt Ideal) ((c : Thread nD τ).loc b)) (c : Dev nD),
    (dat2 (F := Ideal) V c).arrAt 3 cfg2.N = matProd (A := 100000) (K := 128) (B := 128)
      (scaleRows (V c (Pipeline.arrRef spec2 0)) (V c (Pipeline.arrRef spec2 1))) (V c (Pipeline.arrRef spec2 2))
  final3_h : ∀ (V : (c : Dev nD) → (b : Ref sig .tc) → Buf (Elt Ideal) ((c : Thread nD τ).loc b)) (c : Dev nD),
    (dat3 (F := Ideal) V c).arrAt 3 cfg3.N = addRow (A := 100000) (B := 128)
      (scaleRows (V c (Pipeline.arrRef spec3 0)) (V c (Pipeline.arrRef spec3 1))) (V c (Pipeline.arrRef spec3 2))
  final3_s : ∀ (V : (c : Dev nD) → (b : Ref sig .tc) → Buf (Elt Ideal) ((c : Thread nD τ).loc b)) (c : Dev nD),
    (dat3 (F := Ideal) V c).arrAt 4 cfg3.N = colSum (addRow (A := 100000) (B := 128)
      (scaleRows (V c (Pipeline.arrRef spec3 0)) (V c (Pipeline.arrRef spec3 1))) (V c (Pipeline.arrRef spec3 2)))
  final3_q : ∀ (V : (c : Dev nD) → (b : Ref sig .tc) → Buf (Elt Ideal) ((c : Thread nD τ).loc b)) (c : Dev nD),
    (dat3 (F := Ideal) V c).arrAt 5 cfg3.N = colSumSq (addRow (A := 100000) (B := 128)
      (scaleRows (V c (Pipeline.arrRef spec3 0)) (V c (Pipeline.arrRef spec3 1))) (V c (Pipeline.arrRef spec3 2)))
  final4 : ∀ (V : (c : Dev nD) → (b : Ref sig .tc) → Buf (Elt Ideal) ((c : Thread nD τ).loc b)) (c : Dev nD),
    (dat4 (F := Ideal) V c).arrAt 3 cfg4.N = centreScale (N := 100000) (D := 128)
      (V c (Pipeline.arrRef spec4 0)) (V c (Pipeline.arrRef spec4 1)) (V c (Pipeline.arrRef spec4 2))
  final5 : ∀ (V : (c : Dev nD) → (b : Ref sig .tc) → Buf (Elt Ideal) ((c : Thread nD τ).loc b)) (c : Dev nD),
    (dat5 (F := Ideal) V c).arrAt 3 cfg5.N = matProd (A := 100000) (K := 128) (B := 128)
      (scaleRows (V c (Pipeline.arrRef spec5 0)) (V c (Pipeline.arrRef spec5 1))) (V c (Pipeline.arrRef spec5 2))
  final6 : ∀ (V : (c : Dev nD) → (b : Ref sig .tc) → Buf (Elt Ideal) ((c : Thread nD τ).loc b)) (c : Dev nD),
    (dat6 (F := Ideal) V c).arrAt 3 cfg6.N = addRowClamp (A := 100000) (B := 128)
      (scaleRows (V c (Pipeline.arrRef spec6 0)) (V c (Pipeline.arrRef spec6 1))) (V c (Pipeline.arrRef spec6 2))
  final7 : ∀ (V : (c : Dev nD) → (b : Ref sig .tc) → Buf (Elt Ideal) ((c : Thread nD τ).loc b)) (c : Dev nD),
    (dat7 (F := Ideal) V c).arrAt 3 cfg7.N = matProd (A := 100000) (K := 128) (B := 128)
      (scaleRows (V c (Pipeline.arrRef spec7 0)) (V c (Pipeline.arrRef spec7 1))) (V c (Pipeline.arrRef spec7 2))
  final8_h : ∀ (V : (c : Dev nD) → (b : Ref sig .tc) → Buf (Elt Ideal) ((c : Thread nD τ).loc b)) (c : Dev nD),
    (dat8 (F := Ideal) V c).arrAt 3 cfg8.N = addRow (A := 100000) (B := 128)
      (scaleRows (V c (Pipeline.arrRef spec8 0)) (V c (Pipeline.arrRef spec8 1))) (V c (Pipeline.arrRef spec8 2))
  final8_s : ∀ (V : (c : Dev nD) → (b : Ref sig .tc) → Buf (Elt Ideal) ((c : Thread nD τ).loc b)) (c : Dev nD),
    (dat8 (F := Ideal) V c).arrAt 4 cfg8.N = colSum (addRow (A := 100000) (B := 128)
      (scaleRows (V c (Pipeline.arrRef spec8 0)) (V c (Pipeline.arrRef spec8 1))) (V c (Pipeline.arrRef spec8 2)))
  final8_q : ∀ (V : (c : Dev nD) → (b : Ref sig .tc) → Buf (Elt Ideal) ((c : Thread nD τ).loc b)) (c : Dev nD),
    (dat8 (F := Ideal) V c).arrAt 5 cfg8.N = colSumSq (addRow (A := 100000) (B := 128)
      (scaleRows (V c (Pipeline.arrRef spec8 0)) (V c (Pipeline.arrRef spec8 1))) (V c (Pipeline.arrRef spec8 2)))
  final9 : ∀ (V : (c : Dev nD) → (b : Ref sig .tc) → Buf (Elt Ideal) ((c : Thread nD τ).loc b)) (c : Dev nD),
    (dat9 (F := Ideal) V c).arrAt 3 cfg9.N = centreScale (N := 100000) (D := 128)
      (V c (Pipeline.arrRef spec9 0)) (V c (Pipeline.arrRef spec9 1)) (V c (Pipeline.arrRef spec9 2))

/-! ## The launch contents of the argument arrays -/

section Launch

variable (m : (ℓ : Loc nD τ sig) → Buf (Elt Ideal) ℓ) (c : Dev nD)

/-- The node features of graph 1 and of graph 2. -/
abbrev a0 : FVec Ideal S100000x128 .f32 := m ((c.tc : Thread nD τ).loc main_arg0)
abbrev a1 : FVec Ideal S100000x128 .f32 := m ((c.tc : Thread nD τ).loc main_arg1)
/-- The two layers' weights and biases. -/
abbrev a2 : FVec Ideal S128x128 .f32 := m ((c.tc : Thread nD τ).loc main_arg2)
abbrev a3 : FVec Ideal S128 .f32 := m ((c.tc : Thread nD τ).loc main_arg3)
abbrev a4 : FVec Ideal S128x128 .f32 := m ((c.tc : Thread nD τ).loc main_arg4)
abbrev a5 : FVec Ideal S128 .f32 := m ((c.tc : Thread nD τ).loc main_arg5)
/-- The edge lists: sources and destinations of graph 1, then of graph 2. -/
abbrev a6 : IVec S800000 32 := m ((c.tc : Thread nD τ).loc main_arg6)
abbrev a7 : IVec S800000 32 := m ((c.tc : Thread nD τ).loc main_arg7)
abbrev a8 : IVec S800000 32 := m ((c.tc : Thread nD τ).loc main_arg8)
abbrev a9 : IVec S800000 32 := m ((c.tc : Thread nD τ).loc main_arg9)

end Launch

/-! ## Congruences of the tile operations -/

section Congr

variable {A K B : ℕ}

theorem project_congr {x x' : FVec Ideal ⟨2, ![A, K]⟩ .f32} {s s' : FVec Ideal ⟨2, ![A, 1]⟩ .f32}
    {w w' : FVec Ideal ⟨2, ![K, B]⟩ .f32} (hx : x = x') (hs : s = s') (hw : w = w') :
    matProd (scaleRows x s) w = matProd (scaleRows x' s') w' := by rw [hx, hs, hw]

theorem biasClamp_congr {x x' : FVec Ideal ⟨2, ![A, B]⟩ .f32} {s s' : FVec Ideal ⟨2, ![A, 1]⟩ .f32}
    {b b' : FVec Ideal ⟨2, ![1, B]⟩ .f32} (hx : x = x') (hs : s = s') (hb : b = b') :
    addRowClamp (scaleRows x s) b = addRowClamp (scaleRows x' s') b' := by rw [hx, hs, hb]

theorem bias_congr {x x' : FVec Ideal ⟨2, ![A, B]⟩ .f32} {s s' : FVec Ideal ⟨2, ![A, 1]⟩ .f32}
    {b b' : FVec Ideal ⟨2, ![1, B]⟩ .f32} (hx : x = x') (hs : s = s') (hb : b = b') :
    addRow (scaleRows x s) b = addRow (scaleRows x' s') b' := by rw [hx, hs, hb]

theorem centre_congr {h h' : FVec Ideal ⟨2, ![A, B]⟩ .f32} {mu mu' iv iv' : FVec Ideal ⟨2, ![1, B]⟩ .f32}
    (hh : h = h') (hmu : mu = mu') (hiv : iv = iv') :
    centreScale h mu iv = centreScale h' mu' iv' := by rw [hh, hmu, hiv]

theorem aggregate_congr {s s' d d' : IVec S800000 32} {p p' : FVec Ideal S100000x128 .f32}
    (hs : s = s') (hd : d = d') (hp : p = p') : aggregate s d p = aggregate s' d' p' := by rw [hs, hd, hp]

end Congr

end Cert.KernelIdeal.Walk

end
-- ==== Proof.KernelWalkA.lean ====
/-
  Graph 1: the result buffer at the last segment boundary, as a function of the launch contents.

  Read backwards through @main's segments.  The result `%52` is written by region 4 (centre and scale) and by nothing
  after it; region 4 enters with the activations `%42#0`, the column mean `%44` and the reciprocal standard deviation
  `%51`; the last two come from region 3's carried column sum and column sum of squares through a short stretch of host
  operations; region 3 (bias after the second aggregation) enters with the aggregated rows `%40`, the per-node scale
  `%16` and the bias row `%41`; and so on down to region 0, which enters with the argument arrays and the per-node scale
  `%15` the first stretch computes.  Each region's final arrays are taken from `Finals`; each host stretch's results from
  the host lemmas at the boundary's contents; each buffer a segment does not write is carried by the segment's `keep`
  lemma.  What comes out is the two-layer encoder of the stages, standardised by its column sums.
-/
import proofs.«136093_j68229850464275_1_alg».proof.Proof.KernelWalkSteps
import proofs.«136093_j68229850464275_1_alg».proof.Proof.KernelWalkHostA
import proofs.«136093_j68229850464275_1_alg».proof.Proof.KernelWalkStats
import proofs.«136093_j68229850464275_1_alg».proof.Proof.KernelWalkFinals

set_option maxRecDepth 16384

noncomputable section

namespace Cert.KernelIdeal.Walk

open Cert.KernelIdeal Cert.KernelIdeal.Gen Cert.LibTileOps Cert.Stages
open Idealize.ShloMosaic Idealize.ShloMosaic.TcCoe Idealize.ShloMosaic.ValueIdx

variable (hf : Finals) (m : (ℓ : Loc nD τ sig) → Buf (Elt Ideal) ℓ) (ρ : Dev nD → PrngReg) (c : Dev nD)

/-! ## The stages of graph 1 over the launch contents -/

/-- Layer 1's projection: the features scaled by the source scale, times the first weight matrix. -/
abbrev proj1 : FVec Ideal S100000x128 .f32 :=
  matProd (scaleRows (a0 m c) (invSqrtDeg (a6 m c))) (a2 m c)
/-- Layer 1's output: aggregated, scaled by the destination scale, biased, clamped at zero. -/
abbrev act1 : FVec Ideal S100000x128 .f32 :=
  addRowClamp (scaleRows (aggregate (a6 m c) (a7 m c) (proj1 m c)) (invSqrtDeg (a7 m c))) (rowOf (a3 m c))
/-- Layer 2's projection. -/
abbrev proj2 : FVec Ideal S100000x128 .f32 :=
  matProd (scaleRows (act1 m c) (invSqrtDeg (a6 m c))) (a4 m c)
/-- Layer 2's output: the encoder's activations. -/
abbrev enc1 : FVec Ideal S100000x128 .f32 :=
  addRow (scaleRows (aggregate (a6 m c) (a7 m c) (proj2 m c)) (invSqrtDeg (a7 m c))) (rowOf (a5 m c))

theorem enc1_eq : enc1 m c = encode (aggregate (a6 m c) (a7 m c)) (invSqrtDeg (a6 m c)) (invSqrtDeg (a7 m c))
    (a0 m c) (a2 m c) (rowOf (a3 m c)) (a4 m c) (rowOf (a5 m c)) := rfl

/-! ## The per-node scales, carried to the boundaries where a region reads them -/

theorem so1_at1 : W1 m ρ c (Proc.devRef .tc main_v15) = invSqrtDeg (a6 m c) := h0_v15 (W0 m ρ c)
theorem so1_at2 : W2 m ρ c (Proc.devRef .tc main_v15) = invSqrtDeg (a6 m c) :=
  (W2_keep m ρ c main_v15 (by decide)).trans (so1_at1 m ρ c)
theorem so1_at3 : W3 m ρ c (Proc.devRef .tc main_v15) = invSqrtDeg (a6 m c) :=
  (W3_keep m ρ c main_v15 (by decide)).trans (so1_at2 m ρ c)
theorem so1_at4 : W4 m ρ c (Proc.devRef .tc main_v15) = invSqrtDeg (a6 m c) :=
  (W4_keep m ρ c main_v15 (by decide)).trans (so1_at3 m ρ c)

theorem si1_at1 : W1 m ρ c (Proc.devRef .tc main_v16) = invSqrtDeg (a7 m c) := h0_v16 (W0 m ρ c)
theorem si1_at2 : W2 m ρ c (Proc.devRef .tc main_v16) = invSqrtDeg (a7 m c) :=
  (W2_keep m ρ c main_v16 (by decide)).trans (si1_at1 m ρ c)
theorem si1_at3 : W3 m ρ c (Proc.devRef .tc main_v16) = invSqrtDeg (a7 m c) :=
  (W3_keep m ρ c main_v16 (by decide)).trans (si1_at2 m ρ c)
theorem si1_at4 : W4 m ρ c (Proc.devRef .tc main_v16) = invSqrtDeg (a7 m c) :=
  (W4_keep m ρ c main_v16 (by decide)).trans (si1_at3 m ρ c)
theorem si1_at5 : W5 m ρ c (Proc.devRef .tc main_v16) = invSqrtDeg (a7 m c) :=
  (W5_keep m ρ c main_v16 (by decide)).trans (si1_at4 m ρ c)
theorem si1_at6 : W6 m ρ c (Proc.devRef .tc main_v16) = invSqrtDeg (a7 m c) :=
  (W6_keep m ρ c main_v16 (by decide)).trans (si1_at5 m ρ c)

/-! ## Layer 1 -/

include hf

/-- Region 0 leaves layer 1's projection. -/
theorem v17_at2 : W2 m ρ c (Proc.devRef .tc main_v17) = proj1 m c :=
  (W2_arr m ρ c 3).trans ((hf.final0 (V1 m ρ) c).trans
    (project_congr (W1_args m ρ c main_arg0 (by decide)) (so1_at1 m ρ c) (W1_args m ρ c main_arg2 (by decide))))

/-- The stretch before region 1 aggregates it and lays the first bias out as a row. -/
theorem v27_at3 : W3 m ρ c (Proc.devRef .tc main_v27) = aggregate (a6 m c) (a7 m c) (proj1 m c) :=
  (h1_v27 (W2 m ρ c)).trans
    (aggregate_congr (W2_args m ρ c main_arg6 (by decide)) (W2_args m ρ c main_arg7 (by decide)) (v17_at2 hf m ρ c))
omit hf in
theorem v28_at3 : W3 m ρ c (Proc.devRef .tc main_v28) = rowOf (a3 m c) :=
  (h1_v28 (W2 m ρ c)).trans (congrArg rowOf (W2_args m ρ c main_arg3 (by decide)))

/-- Region 1 leaves layer 1's output. -/
theorem v29_at4 : W4 m ρ c (Proc.devRef .tc main_v29) = act1 m c :=
  (W4_arr m ρ c 3).trans ((hf.final1 (V3 m ρ) c).trans
    (biasClamp_congr (v27_at3 hf m ρ c) (si1_at3 m ρ c) (v28_at3 m ρ c)))

/-! ## Layer 2 -/

/-- Region 2 leaves layer 2's projection. -/
theorem v30_at5 : W5 m ρ c (Proc.devRef .tc main_v30) = proj2 m c :=
  (W5_arr m ρ c 3).trans ((hf.final2 (V4 m ρ) c).trans
    (project_congr (v29_at4 hf m ρ c) (so1_at4 m ρ c) (W4_args m ρ c main_arg4 (by decide))))

/-- The stretch before region 3 aggregates it and lays the second bias out as a row. -/
theorem v40_at6 : W6 m ρ c (Proc.devRef .tc main_v40) = aggregate (a6 m c) (a7 m c) (proj2 m c) :=
  (h3_v40 (W5 m ρ c)).trans
    (aggregate_congr (W5_args m ρ c main_arg6 (by decide)) (W5_args m ρ c main_arg7 (by decide)) (v30_at5 hf m ρ c))
omit hf in
theorem v41_at6 : W6 m ρ c (Proc.devRef .tc main_v41) = rowOf (a5 m c) :=
  (h3_v41 (W5 m ρ c)).trans (congrArg rowOf (W5_args m ρ c main_arg5 (by decide)))

/-- What region 3 computes from its entry contents is the encoder's activations. -/
theorem enc1_at6 : addRow (A := 100000) (B := 128)
      (scaleRows (V6 m ρ c (Pipeline.arrRef spec3 0)) (V6 m ρ c (Pipeline.arrRef spec3 1))) (V6 m ρ c (Pipeline.arrRef spec3 2))
    = enc1 m c :=
  bias_congr (v40_at6 hf m ρ c) (si1_at6 m ρ c) (v41_at6 m ρ c)

/-- Region 3 leaves the activations, their column sum and their column sum of squares. -/
theorem v42_0_at7 : W7 m ρ c (Proc.devRef .tc main_v42_0) = enc1 m c :=
  (W7_arr m ρ c 3).trans ((hf.final3_h (V6 m ρ) c).trans (enc1_at6 hf m ρ c))
theorem v42_1_at7 : W7 m ρ c (Proc.devRef .tc main_v42_1) = colSum (enc1 m c) :=
  (W7_arr m ρ c 4).trans ((hf.final3_s (V6 m ρ) c).trans (congrArg colSum (enc1_at6 hf m ρ c)))
theorem v42_2_at7 : W7 m ρ c (Proc.devRef .tc main_v42_2) = colSumSq (enc1 m c) :=
  (W7_arr m ρ c 5).trans ((hf.final3_q (V6 m ρ) c).trans (congrArg colSumSq (enc1_at6 hf m ρ c)))

/-! ## The standardisation -/

theorem v42_0_at8 : W8 m ρ c (Proc.devRef .tc main_v42_0) = enc1 m c :=
  (W8_keep m ρ c main_v42_0 (by decide)).trans (v42_0_at7 hf m ρ c)
theorem v44_at8 : W8 m ρ c (Proc.devRef .tc main_v44) = colMean (colSum (enc1 m c)) :=
  (h4_v44 (W7 m ρ c)).trans (congrArg colMean (v42_1_at7 hf m ρ c))
theorem v51_at8 : W8 m ρ c (Proc.devRef .tc main_v51) = colInvStd (colSum (enc1 m c)) (colSumSq (enc1 m c)) :=
  (h4_v51 (W7 m ρ c)).trans (congrArg₂ colInvStd (v42_1_at7 hf m ρ c) (v42_2_at7 hf m ρ c))

/-- Region 4 leaves the activations centred by the column mean and scaled by the reciprocal standard deviation. -/
theorem v52_at9 : W9 m ρ c (Proc.devRef .tc main_v52)
    = centreScale (enc1 m c) (colMean (colSum (enc1 m c))) (colInvStd (colSum (enc1 m c)) (colSumSq (enc1 m c))) :=
  (W9_arr m ρ c 3).trans ((hf.final4 (V8 m ρ) c).trans
    (centre_congr (v42_0_at8 hf m ρ c) (v44_at8 hf m ρ c) (v51_at8 hf m ρ c)))

omit hf in
/-- Nothing after region 4 writes the result. -/
theorem v52_at18 : W18 m ρ c (Proc.devRef .tc main_v52) = W9 m ρ c (Proc.devRef .tc main_v52) :=
  (W18_keep m ρ c main_v52 (by decide)).trans <|
  (W17_keep m ρ c main_v52 (by decide)).trans <|
  (W16_keep m ρ c main_v52 (by decide)).trans <|
  (W15_keep m ρ c main_v52 (by decide)).trans <|
  (W14_keep m ρ c main_v52 (by decide)).trans <|
  (W13_keep m ρ c main_v52 (by decide)).trans <|
  (W12_keep m ρ c main_v52 (by decide)).trans <|
  (W11_keep m ρ c main_v52 (by decide)).trans <|
  (W10_keep m ρ c main_v52 (by decide))

/-- Graph 1's result at the last boundary: the encoder's activations standardised by their column sums. -/
theorem kv52_of : W18 m ρ c (Proc.devRef .tc main_v52)
    = standardiseBySums 0x47C35000#32 0x47C34F80#32
        (encode (aggregate (a6 m c) (a7 m c)) (invSqrtDeg (a6 m c)) (invSqrtDeg (a7 m c))
          (a0 m c) (a2 m c) (rowOf (a3 m c)) (a4 m c) (rowOf (a5 m c))) :=
  (v52_at18 m ρ c).trans ((v52_at9 hf m ρ c).trans
    ((centreScale_stats (enc1 m c)).trans (congrArg (standardiseBySums 0x47C35000#32 0x47C34F80#32) (enc1_eq m c))))

end Cert.KernelIdeal.Walk

end
-- ==== Proof.KernelWalkHostB.lean ====
/-
  What the host stretches of graph 2 leave in the buffers the regions read, from any contents `W` at the stretch's entry.

  The second graph runs the same operations over its own features and edge lists: the two per-node scales after its
  first stretch, the aggregated rows and the bias row before each layer's second region, the column mean and the
  reciprocal standard deviation before its last region.
-/
import proofs.«136093_j68229850464275_1_alg».proof.Proof.KernelWalkDefs

set_option maxRecDepth 16384

noncomputable section

namespace Cert.KernelIdeal.Walk

open Cert.KernelIdeal Cert.KernelIdeal.Gen
open Idealize.ShloMosaic Idealize.ShloMosaic.TcCoe Idealize.ShloMosaic.ValueIdx

open Idealize.ShloMosaic.StableHlo

variable (W : Valuation τ sig (Elt Ideal))

/-! ## The per-node scales (the stretch before region 5) -/

theorem h5_v68 : StableHlo.after (hostOps5 (F := Ideal)) W (Proc.devRef .tc main_v68)
    = invSqrtDeg (W (Proc.devRef .tc main_arg8)) := by
  after_results; rfl

theorem h5_v69 : StableHlo.after (hostOps5 (F := Ideal)) W (Proc.devRef .tc main_v69)
    = invSqrtDeg (W (Proc.devRef .tc main_arg9)) := by
  after_results; rfl

/-! ## Layer 1: the aggregated rows and the bias row -/

set_option maxHeartbeats 1000000 in
theorem h6_v80 : StableHlo.after (hostOps6 (F := Ideal)) W (Proc.devRef .tc main_v80)
    = aggregate (W (Proc.devRef .tc main_arg8)) (W (Proc.devRef .tc main_arg9)) (W (Proc.devRef .tc main_v70)) := by
  unfold aggregate; after_results

theorem h6_v81 : StableHlo.after (hostOps6 (F := Ideal)) W (Proc.devRef .tc main_v81)
    = rowOf (W (Proc.devRef .tc main_arg3)) := by
  after_results; rfl

/-! ## Layer 2: the aggregated rows and the bias row -/

set_option maxHeartbeats 1000000 in
theorem h8_v93 : StableHlo.after (hostOps8 (F := Ideal)) W (Proc.devRef .tc main_v93)
    = aggregate (W (Proc.devRef .tc main_arg8)) (W (Proc.devRef .tc main_arg9)) (W (Proc.devRef .tc main_v83)) := by
  unfold aggregate; after_results

theorem h8_v94 : StableHlo.after (hostOps8 (F := Ideal)) W (Proc.devRef .tc main_v94)
    = rowOf (W (Proc.devRef .tc main_arg5)) := by
  after_results; rfl

/-! ## The column statistics: mean and reciprocal standard deviation from the two carried sums -/

theorem h9_v97 : StableHlo.after (hostOps9 (F := Ideal)) W (Proc.devRef .tc main_v97)
    = colMean (W (Proc.devRef .tc main_v95_1)) := by
  unfold colMean; after_results

theorem h9_v104 : StableHlo.after (hostOps9 (F := Ideal)) W (Proc.devRef .tc main_v104)
    = colInvStd (W (Proc.devRef .tc main_v95_1)) (W (Proc.devRef .tc main_v95_2)) := by
  unfold colInvStd; after_results

end Cert.KernelIdeal.Walk

end
-- ==== Proof.KernelWalkB.lean ====
/-
  Graph 2: the result buffer at the last segment boundary, as a function of the launch contents.

  The second graph's segments are the last nine of @main.  The result `%105` is written by region 9 (centre and scale),
  the last segment; region 9 enters with the activations `%95#0`, the column mean `%97` and the reciprocal standard
  deviation `%104`; these come from region 8 (bias after the second aggregation, with its carried column sum and column
  sum of squares), which enters with the aggregated rows `%93`, the per-node scale `%69` and the bias row `%94`; and so
  on down to region 5, which enters with the second graph's features, the first weight matrix and the per-node scale
  `%68` that the stretch after graph 1's last region computes from the second graph's edge list.  The argument arrays
  are read at those boundaries as launched, through every segment of graph 1 as well (`WK_args`).
-/
import proofs.«136093_j68229850464275_1_alg».proof.Proof.KernelWalkSteps
import proofs.«136093_j68229850464275_1_alg».proof.Proof.KernelWalkHostB
import proofs.«136093_j68229850464275_1_alg».proof.Proof.KernelWalkStats
import proofs.«136093_j68229850464275_1_alg».proof.Proof.KernelWalkFinals

set_option maxRecDepth 16384

noncomputable section

namespace Cert.KernelIdeal.Walk

open Cert.KernelIdeal Cert.KernelIdeal.Gen Cert.LibTileOps Cert.Stages
open Idealize.ShloMosaic Idealize.ShloMosaic.TcCoe Idealize.ShloMosaic.ValueIdx

variable (hf : Finals) (m : (ℓ : Loc nD τ sig) → Buf (Elt Ideal) ℓ) (ρ : Dev nD → PrngReg) (c : Dev nD)

/-! ## The stages of graph 2 over the launch contents -/

/-- Layer 1's projection: the features scaled by the source scale, times the first weight matrix. -/
abbrev proj1' : FVec Ideal S100000x128 .f32 :=
  matProd (scaleRows (a1 m c) (invSqrtDeg (a8 m c))) (a2 m c)
/-- Layer 1's output: aggregated, scaled by the destination scale, biased, clamped at zero. -/
abbrev act1' : FVec Ideal S100000x128 .f32 :=
  addRowClamp (scaleRows (aggregate (a8 m c) (a9 m c) (proj1' m c)) (invSqrtDeg (a9 m c))) (rowOf (a3 m c))
/-- Layer 2's projection. -/
abbrev proj2' : FVec Ideal S100000x128 .f32 :=
  matProd (scaleRows (act1' m c) (invSqrtDeg (a8 m c))) (a4 m c)
/-- Layer 2's output: the encoder's activations. -/
abbrev enc2 : FVec Ideal S100000x128 .f32 :=
  addRow (scaleRows (aggregate (a8 m c) (a9 m c) (proj2' m c)) (invSqrtDeg (a9 m c))) (rowOf (a5 m c))

theorem enc2_eq : enc2 m c = encode (aggregate (a8 m c) (a9 m c)) (invSqrtDeg (a8 m c)) (invSqrtDeg (a9 m c))
    (a1 m c) (a2 m c) (rowOf (a3 m c)) (a4 m c) (rowOf (a5 m c)) := rfl

/-! ## The per-node scales, carried to the boundaries where a region reads them -/

theorem so2_at10 : W10 m ρ c (Proc.devRef .tc main_v68) = invSqrtDeg (a8 m c) :=
  (h5_v68 (W9 m ρ c)).trans (congrArg invSqrtDeg (W9_args m ρ c main_arg8 (by decide)))
theorem so2_at11 : W11 m ρ c (Proc.devRef .tc main_v68) = invSqrtDeg (a8 m c) :=
  (W11_keep m ρ c main_v68 (by decide)).trans (so2_at10 m ρ c)
theorem so2_at12 : W12 m ρ c (Proc.devRef .tc main_v68) = invSqrtDeg (a8 m c) :=
  (W12_keep m ρ c main_v68 (by decide)).trans (so2_at11 m ρ c)
theorem so2_at13 : W13 m ρ c (Proc.devRef .tc main_v68) = invSqrtDeg (a8 m c) :=
  (W13_keep m ρ c main_v68 (by decide)).trans (so2_at12 m ρ c)

theorem si2_at10 : W10 m ρ c (Proc.devRef .tc main_v69) = invSqrtDeg (a9 m c) :=
  (h5_v69 (W9 m ρ c)).trans (congrArg invSqrtDeg (W9_args m ρ c main_arg9 (by decide)))
theorem si2_at11 : W11 m ρ c (Proc.devRef .tc main_v69) = invSqrtDeg (a9 m c) :=
  (W11_keep m ρ c main_v69 (by decide)).trans (si2_at10 m ρ c)
theorem si2_at12 : W12 m ρ c (Proc.devRef .tc main_v69) = invSqrtDeg (a9 m c) :=
  (W12_keep m ρ c main_v69 (by decide)).trans (si2_at11 m ρ c)
theorem si2_at13 : W13 m ρ c (Proc.devRef .tc main_v69) = invSqrtDeg (a9 m c) :=
  (W13_keep m ρ c main_v69 (by decide)).trans (si2_at12 m ρ c)
theorem si2_at14 : W14 m ρ c (Proc.devRef .tc main_v69) = invSqrtDeg (a9 m c) :=
  (W14_keep m ρ c main_v69 (by decide)).trans (si2_at13 m ρ c)
theorem si2_at15 : W15 m ρ c (Proc.devRef .tc main_v69) = invSqrtDeg (a9 m c) :=
  (W15_keep m ρ c main_v69 (by decide)).trans (si2_at14 m ρ c)

/-! ## Layer 1 -/

include hf

/-- Region 5 leaves layer 1's projection. -/
theorem v70_at11 : W11 m ρ c (Proc.devRef .tc main_v70) = proj1' m c :=
  (W11_arr m ρ c 3).trans ((hf.final5 (V10 m ρ) c).trans
    (project_congr (W10_args m ρ c main_arg1 (by decide)) (so2_at10 m ρ c) (W10_args m ρ c main_arg2 (by decide))))

/-- The stretch before region 6 aggregates it and lays the first bias out as a row. -/
theorem v80_at12 : W12 m ρ c (Proc.devRef .tc main_v80) = aggregate (a8 m c) (a9 m c) (proj1' m c) :=
  (h6_v80 (W11 m ρ c)).trans
    (aggregate_congr (W11_args m ρ c main_arg8 (by decide)) (W11_args m ρ c main_arg9 (by decide)) (v70_at11 hf m ρ c))
omit hf in
theorem v81_at12 : W12 m ρ c (Proc.devRef .tc main_v81) = rowOf (a3 m c) :=
  (h6_v81 (W11 m ρ c)).trans (congrArg rowOf (W11_args m ρ c main_arg3 (by decide)))

/-- Region 6 leaves layer 1's output. -/
theorem v82_at13 : W13 m ρ c (Proc.devRef .tc main_v82) = act1' m c :=
  (W13_arr m ρ c 3).trans ((hf.final6 (V12 m ρ) c).trans
    (biasClamp_congr (v80_at12 hf m ρ c) (si2_at12 m ρ c) (v81_at12 m ρ c)))

/-! ## Layer 2 -/

/-- Region 7 leaves layer 2's projection. -/
theorem v83_at14 : W14 m ρ c (Proc.devRef .tc main_v83) = proj2' m c :=
  (W14_arr m ρ c 3).trans ((hf.final7 (V13 m ρ) c).trans
    (project_congr (v82_at13 hf m ρ c) (so2_at13 m ρ c) (W13_args m ρ c main_arg4 (by decide))))

/-- The stretch before region 8 aggregates it and lays the second bias out as a row. -/
theorem v93_at15 : W15 m ρ c (Proc.devRef .tc main_v93) = aggregate (a8 m c) (a9 m c) (proj2' m c) :=
  (h8_v93 (W14 m ρ c)).trans
    (aggregate_congr (W14_args m ρ c main_arg8 (by decide)) (W14_args m ρ c main_arg9 (by decide)) (v83_at14 hf m ρ c))
omit hf in
theorem v94_at15 : W15 m ρ c (Proc.devRef .tc main_v94) = rowOf (a5 m c) :=
  (h8_v94 (W14 m ρ c)).trans (congrArg rowOf (W14_args m ρ c main_arg5 (by decide)))

/-- What region 8 computes from its entry contents is the encoder's activations. -/
theorem enc2_at15 : addRow (A := 100000) (B := 128)
      (scaleRows (V15 m ρ c (Pipeline.arrRef spec8 0)) (V15 m ρ c (Pipeline.arrRef spec8 1))) (V15 m ρ c (Pipeline.arrRef spec8 2))
    = enc2 m c :=
  bias_congr (v93_at15 hf m ρ c) (si2_at15 m ρ c) (v94_at15 m ρ c)

/-- Region 8 leaves the activations, their column sum and their column sum of squares. -/
theorem v95_0_at16 : W16 m ρ c (Proc.devRef .tc main_v95_0) = enc2 m c :=
  (W16_arr m ρ c 3).trans ((hf.final8_h (V15 m ρ) c).trans (enc2_at15 hf m ρ c))
theorem v95_1_at16 : W16 m ρ c (Proc.devRef .tc main_v95_1) = colSum (enc2 m c) :=
  (W16_arr m ρ c 4).trans ((hf.final8_s (V15 m ρ) c).trans (congrArg colSum (enc2_at15 hf m ρ c)))
theorem v95_2_at16 : W16 m ρ c (Proc.devRef .tc main_v95_2) = colSumSq (enc2 m c) :=
  (W16_arr m ρ c 5).trans ((hf.final8_q (V15 m ρ) c).trans (congrArg colSumSq (enc2_at15 hf m ρ c)))

/-! ## The standardisation -/

theorem v95_0_at17 : W17 m ρ c (Proc.devRef .tc main_v95_0) = enc2 m c :=
  (W17_keep m ρ c main_v95_0 (by decide)).trans (v95_0_at16 hf m ρ c)
theorem v97_at17 : W17 m ρ c (Proc.devRef .tc main_v97) = colMean (colSum (enc2 m c)) :=
  (h9_v97 (W16 m ρ c)).trans (congrArg colMean (v95_1_at16 hf m ρ c))
theorem v104_at17 : W17 m ρ c (Proc.devRef .tc main_v104) = colInvStd (colSum (enc2 m c)) (colSumSq (enc2 m c)) :=
  (h9_v104 (W16 m ρ c)).trans (congrArg₂ colInvStd (v95_1_at16 hf m ρ c) (v95_2_at16 hf m ρ c))

/-- Region 9, the last segment, leaves the activations centred by the column mean and scaled by the reciprocal
    standard deviation. -/
theorem v105_at18 : W18 m ρ c (Proc.devRef .tc main_v105)
    = centreScale (enc2 m c) (colMean (colSum (enc2 m c))) (colInvStd (colSum (enc2 m c)) (colSumSq (enc2 m c))) :=
  (W18_arr m ρ c 3).trans ((hf.final9 (V17 m ρ) c).trans
    (centre_congr (v95_0_at17 hf m ρ c) (v97_at17 hf m ρ c) (v104_at17 hf m ρ c)))

/-- Graph 2's result at the last boundary: the encoder's activations standardised by their column sums. -/
theorem kv105_of : W18 m ρ c (Proc.devRef .tc main_v105)
    = standardiseBySums 0x47C35000#32 0x47C34F80#32
        (encode (aggregate (a8 m c) (a9 m c)) (invSqrtDeg (a8 m c)) (invSqrtDeg (a9 m c))
          (a1 m c) (a2 m c) (rowOf (a3 m c)) (a4 m c) (rowOf (a5 m c))) :=
  (v105_at18 hf m ρ c).trans
    ((centreScale_stats (enc2 m c)).trans (congrArg (standardiseBySums 0x47C35000#32 0x47C34F80#32) (enc2_eq m c)))

end Cert.KernelIdeal.Walk

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.RegionPayloads.lean ====
/-
  What each tiled kernel body computes from the blocks it loads, as one of the stage functions.

  A projection body multiplies each row of its input block by that row's scale, and multiplies the result by the weight
  matrix (the change of format in between is the identity on extended reals, and the product accumulates into zero):
  entry (p, c) is the sum over k of x(p, k) · n(p) · w(k, c).  A bias body scales each row, adds the bias row and
  takes the maximum with zero.  A centring body subtracts one row from every row and multiplies by another row.
  Every equation is entry by entry: a broadcast of a column or of a row reads that column's or row's entry.
-/
import proofs.«136093_j68229850464275_1_alg».proof.Proof.Gen.KernelIdeal.Skeleton
import proofs.«136093_j68229850464275_1_alg».proof.Proof.Stages
import proofs.«136093_j68229850464275_1_alg».proof.Proof.LibRowLayout

noncomputable section

open scoped BigOperators

namespace Cert.KernelIdeal.RegionValues

open Cert.KernelIdeal Cert.KernelIdeal.Gen Cert.LibTileOps Cert.Stages
open Idealize.ShloMosaic Idealize.ShloMosaic.ValueIdx

/-- The product's dimension numbers are the plain ones: rows by columns, one contracted axis. -/
theorem plainDot : Cert.LibPlainDot.Plain dot_S4000x128_S128x128_S4000x128_1_0_0_1_n_n := ⟨rfl, rfl, rfl, rfl, rfl, rfl⟩

/-- Scaled rows times the weight matrix, at an entry. -/
theorem project_entry (x0 : FVec Ideal S4000x128 .f32) (x1 : FVec Ideal S4000x1 .f32) (x2 : FVec Ideal S128x128 .f32)
    (p : Fin 4000) (q : Fin 128) :
    matmul dot_S4000x128_S128x128_S4000x128_1_0_0_1_n_n none
        (truncf .bf16 (mulf x0 (broadcastTo S4000x128 x1 broadcasts_S4000x1_S4000x128)) bitsLt_bf16_f32)
        (truncf .bf16 x2 bitsLt_bf16_f32) (constant S4000x128 .f32 0x00000000#32) (ix2 p q)
      = matProd (scaleRows x0 x1) x2 (ix2 p q) := by
  refine (plainDot.matmul_zero_apply_formats none _ _ p q).trans ?_
  rw [matProd_apply]
  refine Finset.sum_congr rfl fun k _ => ?_
  rw [truncf_apply, truncf_apply, mulf_apply, Cert.LibKeepdims.broadcastTo_a1_ab_apply, scaleRows_apply]

theorem k0_pay1_eq (x0 : Vec Ideal S4000x128 .f32) (x1 : Vec Ideal S4000x1 .f32) (x2 : Vec Ideal S128x128 .f32) :
    k0_pay1 (F := Ideal) x0 x1 x2 = matProd (scaleRows x0 x1) x2 := by
  funext i
  obtain ⟨p, q, rfl⟩ : ∃ (p : Fin 4000) (q : Fin 128), i = ix2 p q := ⟨i 0, i 1, eq_ix2 i⟩
  unfold k0_pay1
  simp only [shapeCast_self]
  exact project_entry x0 x1 x2 p q

theorem k5_pay1_eq (x0 : Vec Ideal S4000x128 .f32) (x1 : Vec Ideal S4000x1 .f32) (x2 : Vec Ideal S128x128 .f32) :
    k5_pay1 (F := Ideal) x0 x1 x2 = matProd (scaleRows x0 x1) x2 := by
  funext i
  obtain ⟨p, q, rfl⟩ : ∃ (p : Fin 4000) (q : Fin 128), i = ix2 p q := ⟨i 0, i 1, eq_ix2 i⟩
  unfold k5_pay1
  simp only [shapeCast_self]
  exact project_entry x0 x1 x2 p q

theorem k2_pay1_eq (x0 : Vec Ideal S4000x128 .f32) (x1 : Vec Ideal S4000x1 .f32) (x2 : Vec Ideal S128x128 .f32) :
    k2_pay1 (F := Ideal) x0 x1 x2 = matProd (scaleRows x0 x1) x2 := by
  funext i
  obtain ⟨p, q, rfl⟩ : ∃ (p : Fin 4000) (q : Fin 128), i = ix2 p q := ⟨i 0, i 1, eq_ix2 i⟩
  unfold k2_pay1
  simp only [shapeCast_self]
  exact project_entry x0 x1 x2 p q

theorem k7_pay1_eq (x0 : Vec Ideal S4000x128 .f32) (x1 : Vec Ideal S4000x1 .f32) (x2 : Vec Ideal S128x128 .f32) :
    k7_pay1 (F := Ideal) x0 x1 x2 = matProd (scaleRows x0 x1) x2 := by
  funext i
  obtain ⟨p, q, rfl⟩ : ∃ (p : Fin 4000) (q : Fin 128), i = ix2 p q := ⟨i 0, i 1, eq_ix2 i⟩
  unfold k7_pay1
  simp only [shapeCast_self]
  exact project_entry x0 x1 x2 p q

/-- Scaled rows plus the bias row, then the maximum with zero, at an entry. -/
theorem biasClamp_entry (x0 : FVec Ideal S4000x128 .f32) (x1 : FVec Ideal S4000x1 .f32) (x2 : FVec Ideal S1x128 .f32)
    (p : Fin 4000) (q : Fin 128) :
    maximumf (addf (mulf x0 (broadcastTo S4000x128 x1 broadcasts_S4000x1_S4000x128))
        (broadcastTo S4000x128 x2 broadcasts_S1x128_S4000x128))
        (broadcast S4000x128 (Scalar.ofBits (F := Ideal) .f32 0x00000000#32)) (ix2 p q)
      = addRowClamp (scaleRows x0 x1) x2 (ix2 p q) := by
  rw [maximumf_apply, addf_apply, mulf_apply, Cert.LibKeepdims.broadcastTo_a1_ab_apply,
    Cert.LibRowLayout.broadcastTo_1b_ab_apply, broadcast_apply, addRowClamp_apply, scaleRows_apply]
  rfl

theorem k1_pay1_eq (x0 : Vec Ideal S4000x128 .f32) (x1 : Vec Ideal S4000x1 .f32) (x2 : Vec Ideal S1x128 .f32) :
    k1_pay1 (F := Ideal) x0 x1 x2 = addRowClamp (scaleRows x0 x1) x2 := by
  funext i
  obtain ⟨p, q, rfl⟩ : ∃ (p : Fin 4000) (q : Fin 128), i = ix2 p q := ⟨i 0, i 1, eq_ix2 i⟩
  unfold k1_pay1
  simp only [shapeCast_self]
  exact biasClamp_entry x0 x1 x2 p q

theorem k6_pay1_eq (x0 : Vec Ideal S4000x128 .f32) (x1 : Vec Ideal S4000x1 .f32) (x2 : Vec Ideal S1x128 .f32) :
    k6_pay1 (F := Ideal) x0 x1 x2 = addRowClamp (scaleRows x0 x1) x2 := by
  funext i
  obtain ⟨p, q, rfl⟩ : ∃ (p : Fin 4000) (q : Fin 128), i = ix2 p q := ⟨i 0, i 1, eq_ix2 i⟩
  unfold k6_pay1
  simp only [shapeCast_self]
  exact biasClamp_entry x0 x1 x2 p q

/-- Each entry minus its column's entry of one row, times its column's entry of another, at an entry. -/
theorem centre_entry (x0 : FVec Ideal S4000x128 .f32) (x1 x2 : FVec Ideal S1x128 .f32) (p : Fin 4000) (q : Fin 128) :
    mulf (subf x0 (broadcastTo S4000x128 x1 broadcasts_S1x128_S4000x128))
        (broadcastTo S4000x128 x2 broadcasts_S1x128_S4000x128) (ix2 p q)
      = centreScale x0 x1 x2 (ix2 p q) := by
  rw [mulf_apply, subf_apply, Cert.LibRowLayout.broadcastTo_1b_ab_apply, Cert.LibRowLayout.broadcastTo_1b_ab_apply,
    centreScale_apply]

theorem k4_pay1_eq (x0 : Vec Ideal S4000x128 .f32) (x1 x2 : Vec Ideal S1x128 .f32) :
    k4_pay1 (F := Ideal) x0 x1 x2 = centreScale x0 x1 x2 := by
  funext i
  obtain ⟨p, q, rfl⟩ : ∃ (p : Fin 4000) (q : Fin 128), i = ix2 p q := ⟨i 0, i 1, eq_ix2 i⟩
  unfold k4_pay1
  simp only [shapeCast_self]
  exact centre_entry x0 x1 x2 p q

theorem k9_pay1_eq (x0 : Vec Ideal S4000x128 .f32) (x1 x2 : Vec Ideal S1x128 .f32) :
    k9_pay1 (F := Ideal) x0 x1 x2 = centreScale x0 x1 x2 := by
  funext i
  obtain ⟨p, q, rfl⟩ : ∃ (p : Fin 4000) (q : Fin 128), i = ix2 p q := ⟨i 0, i 1, eq_ix2 i⟩
  unfold k9_pay1
  simp only [shapeCast_self]
  exact centre_entry x0 x1 x2 p q

end Cert.KernelIdeal.RegionValues

end
-- ==== Proof.RegionBlocks.lean ====
/-
  A block of rows of a stage's result is the same stage applied to the blocks of its operands.

  Each of the three tiled stages computes row r of its result from row r of its row-indexed operands and from the whole
  of its other operands (the weight matrix, the bias row, the two rows of the centring).  So if a block x0 holds the
  rows rho(p) of an array X0, the scale column x1 the same rows of X1, and the remaining operand is the whole array, then
  the stage of the blocks at (p, q) is the stage of the arrays at (rho(p), q).  Generic in the extents and in the row map.
-/
import proofs.«136093_j68229850464275_1_alg».proof.Proof.Stages

noncomputable section

open scoped BigOperators

namespace Cert.KernelIdeal.RegionValues

open Cert.LibTileOps Cert.Stages
open Idealize.ShloMosaic Idealize.ShloMosaic.ValueIdx

/-- A whole-buffer access starts at offset zero on both axes. -/
theorem zeroOffsets : (![0, 0] : Fin 2 → Nat) = fun _ => 0 := funext fun a => by fin_cases a <;> rfl

variable {N n K B : ℕ}

/-- Rows of the scaled product. -/
theorem project_rows (X0 : FVec Ideal ⟨2, ![N, K]⟩ .f32) (X1 : FVec Ideal ⟨2, ![N, 1]⟩ .f32) (X2 : FVec Ideal ⟨2, ![K, B]⟩ .f32)
    (x0 : FVec Ideal ⟨2, ![n, K]⟩ .f32) (x1 : FVec Ideal ⟨2, ![n, 1]⟩ .f32) (x2 : FVec Ideal ⟨2, ![K, B]⟩ .f32)
    (p : Fin n) (r : Fin N) (q : Fin B)
    (h0 : ∀ k : Fin K, x0 (ix2 p k) = X0 (ix2 r k)) (h1 : x1 (ix2 p (0 : Fin 1)) = X1 (ix2 r (0 : Fin 1)))
    (h2 : ∀ k : Fin K, x2 (ix2 k q) = X2 (ix2 k q)) :
    matProd (scaleRows x0 x1) x2 (ix2 p q) = matProd (scaleRows X0 X1) X2 (ix2 r q) := by
  rw [matProd_apply, matProd_apply]
  refine Finset.sum_congr rfl fun k _ => ?_
  rw [scaleRows_apply, scaleRows_apply, h0 k, h1, h2 k]

/-- Rows of the scaled, biased and clamped array. -/
theorem biasClamp_rows (X0 : FVec Ideal ⟨2, ![N, B]⟩ .f32) (X1 : FVec Ideal ⟨2, ![N, 1]⟩ .f32) (X2 : FVec Ideal ⟨2, ![1, B]⟩ .f32)
    (x0 : FVec Ideal ⟨2, ![n, B]⟩ .f32) (x1 : FVec Ideal ⟨2, ![n, 1]⟩ .f32) (x2 : FVec Ideal ⟨2, ![1, B]⟩ .f32)
    (p : Fin n) (r : Fin N) (q : Fin B)
    (h0 : x0 (ix2 p q) = X0 (ix2 r q)) (h1 : x1 (ix2 p (0 : Fin 1)) = X1 (ix2 r (0 : Fin 1)))
    (h2 : x2 (ix2 (0 : Fin 1) q) = X2 (ix2 (0 : Fin 1) q)) :
    addRowClamp (scaleRows x0 x1) x2 (ix2 p q) = addRowClamp (scaleRows X0 X1) X2 (ix2 r q) := by
  rw [addRowClamp_apply, addRowClamp_apply, scaleRows_apply, scaleRows_apply, h0, h1, h2]

/-- Rows of the centred and scaled array. -/
theorem centre_rows (X0 : FVec Ideal ⟨2, ![N, B]⟩ .f32) (X1 X2 : FVec Ideal ⟨2, ![1, B]⟩ .f32)
    (x0 : FVec Ideal ⟨2, ![n, B]⟩ .f32) (x1 x2 : FVec Ideal ⟨2, ![1, B]⟩ .f32)
    (p : Fin n) (r : Fin N) (q : Fin B)
    (h0 : x0 (ix2 p q) = X0 (ix2 r q)) (h1 : x1 (ix2 (0 : Fin 1) q) = X1 (ix2 (0 : Fin 1) q))
    (h2 : x2 (ix2 (0 : Fin 1) q) = X2 (ix2 (0 : Fin 1) q)) :
    centreScale x0 x1 x2 (ix2 p q) = centreScale X0 X1 X2 (ix2 r q) := by
  rw [centreScale_apply, centreScale_apply, h0, h1, h2]

end Cert.KernelIdeal.RegionValues

end
-- ==== Proof.RegionProject0.lean ====
/-
  The array a projection stage leaves (first graph, first layer): scaled rows times the weight matrix.

  The grid has 25 points; point t works on rows 4000 t … 4000 t + 3999 of the row-indexed arrays and on the whole
  weight matrix, and writes rows 4000 t … 4000 t + 3999 of the result.  Row r is therefore written by point r / 4000,
  every row is written, and what is written at (r, q) is the sum over k of x(r, k) · n(r) · w(k, q).
-/
import proofs.«136093_j68229850464275_1_alg».proof.Proof.Gen.KernelIdeal.Frame
import proofs.«136093_j68229850464275_1_alg».proof.Proof.RegionPayloads
import proofs.«136093_j68229850464275_1_alg».proof.Proof.RegionBlocks

noncomputable section

open scoped BigOperators

namespace Cert.KernelIdeal.RegionValues

open Cert.KernelIdeal Cert.KernelIdeal.Gen Cert.LibTileOps Cert.Stages
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The printed index maps over the grid: the row-indexed windows sit at block row t, the weight matrix at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The array the region ends with. -/
abbrev G0 : S100000x128.Idx → EReal :=
  matProd (scaleRows (V c (Pipeline.arrRef spec0 0) : S100000x128.Idx → EReal) (V c (Pipeline.arrRef spec0 1) : S100000x1.Idx → EReal))
    (V c (Pipeline.arrRef spec0 2) : S128x128.Idx → EReal)

/-- Block t of the first window is rows 4000 t … 4000 t + 3999 of its array. -/
theorem blk0_0 (t : Fin cfg0.N) (p : Fin 4000) (k : Fin 128) (r : Fin 100000) (hr : r.val = 4000 * t.val + p.val) :
    (iblk0 (F := Ideal) V c 0 t : S4000x128.Idx → EReal) (ix2 p k)
      = (V c (Pipeline.arrRef spec0 0) : S100000x128.Idx → EReal) (ix2 r k) := by
  obtain ⟨e0, e1, -⟩ := idx0 t
  unfold iblk0
  rw [View.read_apply]
  refine congrArg (V c (Pipeline.arrRef spec0 0)) ?_
  funext a
  apply Fin.ext
  match a with
  | ⟨0, _⟩ => show win0_0.index t (0 : Fin 2) * 4000 + 1 * p.val = r.val; omega
  | ⟨1, _⟩ => show win0_0.index t (1 : Fin 2) * 128 + 1 * k.val = k.val; omega

/-- Block t of the scale column is rows 4000 t … 4000 t + 3999 of the column. -/
theorem blk0_1 (t : Fin cfg0.N) (p : Fin 4000) (r : Fin 100000) (hr : r.val = 4000 * t.val + p.val) :
    (iblk0 (F := Ideal) V c 1 t : S4000x1.Idx → EReal) (ix2 p (0 : Fin 1))
      = (V c (Pipeline.arrRef spec0 1) : S100000x1.Idx → EReal) (ix2 r (0 : Fin 1)) := by
  obtain ⟨-, -, e0, e1, -⟩ := idx0 t
  unfold iblk0
  rw [View.read_apply]
  refine congrArg (V c (Pipeline.arrRef spec0 1)) ?_
  funext a
  apply Fin.ext
  match a with
  | ⟨0, _⟩ => show win0_1.index t (0 : Fin 2) * 4000 + 1 * p.val = r.val; omega
  | ⟨1, _⟩ => show win0_1.index t (1 : Fin 2) * 1 + 1 * 0 = 0; omega

/-- The one block of the weight matrix is the matrix. -/
theorem blk0_2 (t : Fin cfg0.N) (k q : Fin 128) :
    (iblk0 (F := Ideal) V c 2 t : S128x128.Idx → EReal) (ix2 k q)
      = (V c (Pipeline.arrRef spec0 2) : S128x128.Idx → EReal) (ix2 k q) := by
  obtain ⟨-, -, -, -, e0, e1, -⟩ := idx0 t
  unfold iblk0
  rw [View.read_apply]
  refine congrArg (V c (Pipeline.arrRef spec0 2)) ?_
  funext a
  apply Fin.ext
  match a with
  | ⟨0, _⟩ => show win0_2.index t (0 : Fin 2) * 128 + 1 * k.val = k.val; omega
  | ⟨1, _⟩ => show win0_2.index t (1 : Fin 2) * 128 + 1 * q.val = q.val; omega

/-- What point t writes back is block t of the product of the scaled rows and the weight matrix. -/
theorem flushed0 (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3]
  unfold out0_3
  rw [View.canon_unit_zero zeroOffsets]
  simp only [View.ld_unit_zero (S := S4000x128) zeroOffsets, View.ld_unit_zero (S := S4000x1) zeroOffsets,
    View.ld_unit_zero (S := S128x128) zeroOffsets]
  rw [k0_pay1_eq]
  obtain ⟨-, -, -, -, -, -, e0, e1⟩ := idx0 t
  funext j
  have hN : t.val < 25 := t.isLt
  have hp : (j 0).val < 4000 := (j 0).isLt
  have hq : (j 1).val < 128 := (j 1).isLt
  have hx : win0_3.xinj (grid0.coords t) j = ix2 (⟨(j 0).val, hp⟩ : Fin 4000) (⟨(j 1).val, hq⟩ : Fin 128) :=
    funext fun a => Fin.ext (by match a with | ⟨0, _⟩ => rfl | ⟨1, _⟩ => rfl)
  have he : ((cfg0.win 3).blk t).view.emb j
      = ix2 (⟨4000 * t.val + (j 0).val, by omega⟩ : Fin 100000) (⟨(j 1).val, hq⟩ : Fin 128) :=
    funext fun a => Fin.ext (by
      match a with
      | ⟨0, _⟩ => show win0_3.index t (0 : Fin 2) * 4000 + 1 * (j 0).val = 4000 * t.val + (j 0).val; omega
      | ⟨1, _⟩ => show win0_3.index t (1 : Fin 2) * 128 + 1 * (j 1).val = (j 1).val; omega)
  rw [View.read_apply, he]
  show matProd _ _ (win0_3.xinj (grid0.coords t) j) = _
  rw [hx]
  exact project_rows _ _ _ _ _ _ _ _ _ (fun k => blk0_0 V c t _ k _ rfl) (blk0_1 V c t _ _ rfl) (fun k => blk0_2 V c t k _)

/-- An index of the array is in point t's block iff each coordinate is in the block's range on its axis. -/
theorem mem_blk0 (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v17).slice (win0_3.rect t)).set ↔ _
  rw [View.set_slice_whole, Rect.mem_set_unit]
  exact Iff.rfl

/-- Row r is written by point r / 4000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨-, -, -, -, -, -, e0, e1⟩ := idx0 t
  have ht : t.val = (i 0).val / 4000 := rfl
  refine ⟨t, flush0_3 t, ?_⟩
  rw [mem_blk0]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- The array the projection leaves: the scaled rows times the weight matrix. -/
theorem final0 : (dat0 (F := Ideal) V c).arrAt 3 cfg0.N
    = matProd (scaleRows (V c (Pipeline.arrRef spec0 0) : S100000x128.Idx → EReal) (V c (Pipeline.arrRef spec0 1) : S100000x1.Idx → EReal))
        (V c (Pipeline.arrRef spec0 2) : S128x128.Idx → EReal) :=
  (dat0 (F := Ideal) V c).arrAt_eq_of_cover 3 (G0 V c) (fun t _ => flushed0 V c t) (cover0)

end Cert.KernelIdeal.RegionValues

end
-- ==== Proof.RegionProject2.lean ====
/-
  The array a projection stage leaves (first graph, second layer): scaled rows times the weight matrix.

  The grid has 25 points; point t works on rows 4000 t … 4000 t + 3999 of the row-indexed arrays and on the whole
  weight matrix, and writes rows 4000 t … 4000 t + 3999 of the result.  Row r is therefore written by point r / 4000,
  every row is written, and what is written at (r, q) is the sum over k of x(r, k) · n(r) · w(k, q).
-/
import proofs.«136093_j68229850464275_1_alg».proof.Proof.Gen.KernelIdeal.Frame
import proofs.«136093_j68229850464275_1_alg».proof.Proof.RegionPayloads
import proofs.«136093_j68229850464275_1_alg».proof.Proof.RegionBlocks

noncomputable section

open scoped BigOperators

namespace Cert.KernelIdeal.RegionValues

open Cert.KernelIdeal Cert.KernelIdeal.Gen Cert.LibTileOps Cert.Stages
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The printed index maps over the grid: the row-indexed windows sit at block row t, the weight matrix at block 0. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The array the region ends with. -/
abbrev G2 : S100000x128.Idx → EReal :=
  matProd (scaleRows (V c (Pipeline.arrRef spec2 0) : S100000x128.Idx → EReal) (V c (Pipeline.arrRef spec2 1) : S100000x1.Idx → EReal))
    (V c (Pipeline.arrRef spec2 2) : S128x128.Idx → EReal)

/-- Block t of the first window is rows 4000 t … 4000 t + 3999 of its array. -/
theorem blk2_0 (t : Fin cfg2.N) (p : Fin 4000) (k : Fin 128) (r : Fin 100000) (hr : r.val = 4000 * t.val + p.val) :
    (iblk2 (F := Ideal) V c 0 t : S4000x128.Idx → EReal) (ix2 p k)
      = (V c (Pipeline.arrRef spec2 0) : S100000x128.Idx → EReal) (ix2 r k) := by
  obtain ⟨e0, e1, -⟩ := idx2 t
  unfold iblk2
  rw [View.read_apply]
  refine congrArg (V c (Pipeline.arrRef spec2 0)) ?_
  funext a
  apply Fin.ext
  match a with
  | ⟨0, _⟩ => show win2_0.index t (0 : Fin 2) * 4000 + 1 * p.val = r.val; omega
  | ⟨1, _⟩ => show win2_0.index t (1 : Fin 2) * 128 + 1 * k.val = k.val; omega

/-- Block t of the scale column is rows 4000 t … 4000 t + 3999 of the column. -/
theorem blk2_1 (t : Fin cfg2.N) (p : Fin 4000) (r : Fin 100000) (hr : r.val = 4000 * t.val + p.val) :
    (iblk2 (F := Ideal) V c 1 t : S4000x1.Idx → EReal) (ix2 p (0 : Fin 1))
      = (V c (Pipeline.arrRef spec2 1) : S100000x1.Idx → EReal) (ix2 r (0 : Fin 1)) := by
  obtain ⟨-, -, e0, e1, -⟩ := idx2 t
  unfold iblk2
  rw [View.read_apply]
  refine congrArg (V c (Pipeline.arrRef spec2 1)) ?_
  funext a
  apply Fin.ext
  match a with
  | ⟨0, _⟩ => show win2_1.index t (0 : Fin 2) * 4000 + 1 * p.val = r.val; omega
  | ⟨1, _⟩ => show win2_1.index t (1 : Fin 2) * 1 + 1 * 0 = 0; omega

/-- The one block of the weight matrix is the matrix. -/
theorem blk2_2 (t : Fin cfg2.N) (k q : Fin 128) :
    (iblk2 (F := Ideal) V c 2 t : S128x128.Idx → EReal) (ix2 k q)
      = (V c (Pipeline.arrRef spec2 2) : S128x128.Idx → EReal) (ix2 k q) := by
  obtain ⟨-, -, -, -, e0, e1, -⟩ := idx2 t
  unfold iblk2
  rw [View.read_apply]
  refine congrArg (V c (Pipeline.arrRef spec2 2)) ?_
  funext a
  apply Fin.ext
  match a with
  | ⟨0, _⟩ => show win2_2.index t (0 : Fin 2) * 128 + 1 * k.val = k.val; omega
  | ⟨1, _⟩ => show win2_2.index t (1 : Fin 2) * 128 + 1 * q.val = q.val; omega

/-- What point t writes back is block t of the product of the scaled rows and the weight matrix. -/
theorem flushed2 (t : Fin cfg2.N) :
    (dat2 (F := Ideal) V c).flushed 3 t = ((cfg2.win 3).blk t).view.read (Elt Ideal) (G2 V c) := by
  show (cfg2.win 3).cut (grid2.coords t) ((dat2 V c).after 3 t) = _
  rw [after2_3]
  unfold out2_3
  rw [View.canon_unit_zero zeroOffsets]
  simp only [View.ld_unit_zero (S := S4000x128) zeroOffsets, View.ld_unit_zero (S := S4000x1) zeroOffsets,
    View.ld_unit_zero (S := S128x128) zeroOffsets]
  rw [k2_pay1_eq]
  obtain ⟨-, -, -, -, -, -, e0, e1⟩ := idx2 t
  funext j
  have hN : t.val < 25 := t.isLt
  have hp : (j 0).val < 4000 := (j 0).isLt
  have hq : (j 1).val < 128 := (j 1).isLt
  have hx : win2_3.xinj (grid2.coords t) j = ix2 (⟨(j 0).val, hp⟩ : Fin 4000) (⟨(j 1).val, hq⟩ : Fin 128) :=
    funext fun a => Fin.ext (by match a with | ⟨0, _⟩ => rfl | ⟨1, _⟩ => rfl)
  have he : ((cfg2.win 3).blk t).view.emb j
      = ix2 (⟨4000 * t.val + (j 0).val, by omega⟩ : Fin 100000) (⟨(j 1).val, hq⟩ : Fin 128) :=
    funext fun a => Fin.ext (by
      match a with
      | ⟨0, _⟩ => show win2_3.index t (0 : Fin 2) * 4000 + 1 * (j 0).val = 4000 * t.val + (j 0).val; omega
      | ⟨1, _⟩ => show win2_3.index t (1 : Fin 2) * 128 + 1 * (j 1).val = (j 1).val; omega)
  rw [View.read_apply, he]
  show matProd _ _ (win2_3.xinj (grid2.coords t) j) = _
  rw [hx]
  exact project_rows _ _ _ _ _ _ _ _ _ (fun k => blk2_0 V c t _ k _ rfl) (blk2_1 V c t _ _ rfl) (fun k => blk2_2 V c t k _)

/-- An index of the array is in point t's block iff each coordinate is in the block's range on its axis. -/
theorem mem_blk2 (t : Fin cfg2.N) (i : S100000x128.Idx) :
    i ∈ ((cfg2.win 3).blk t).view.set ↔ ∀ a : Fin 2, win2_3.index t a * S4000x128.size a ≤ (i a).val
      ∧ (i a).val < win2_3.index t a * S4000x128.size a + S4000x128.size a := by
  show i ∈ ((View.whole main_v30).slice (win2_3.rect t)).set ↔ _
  rw [View.set_slice_whole, Rect.mem_set_unit]
  exact Iff.rfl

/-- Row r is written by point r / 4000. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 25 := N_2
  let t : Fin cfg2.N := ⟨(i 0).val / 4000, by rw [hN]; omega⟩
  obtain ⟨-, -, -, -, -, -, e0, e1⟩ := idx2 t
  have ht : t.val = (i 0).val / 4000 := rfl
  refine ⟨t, flush2_3 t, ?_⟩
  rw [mem_blk2]
  intro a
  match a with
  | ⟨0, _⟩ => show win2_3.index t (0 : Fin 2) * 4000 ≤ (i 0).val ∧ (i 0).val < win2_3.index t (0 : Fin 2) * 4000 + 4000; omega
  | ⟨1, _⟩ => show win2_3.index t (1 : Fin 2) * 128 ≤ (i 1).val ∧ (i 1).val < win2_3.index t (1 : Fin 2) * 128 + 128; omega

/-- The array the projection leaves: the scaled rows times the weight matrix. -/
theorem final2 : (dat2 (F := Ideal) V c).arrAt 3 cfg2.N
    = matProd (scaleRows (V c (Pipeline.arrRef spec2 0) : S100000x128.Idx → EReal) (V c (Pipeline.arrRef spec2 1) : S100000x1.Idx → EReal))
        (V c (Pipeline.arrRef spec2 2) : S128x128.Idx → EReal) :=
  (dat2 (F := Ideal) V c).arrAt_eq_of_cover 3 (G2 V c) (fun t _ => flushed2 V c t) (cover2)

end Cert.KernelIdeal.RegionValues

end
-- ==== Proof.RegionProject5.lean ====
/-
  The array a projection stage leaves (second graph, first layer): scaled rows times the weight matrix.

  The grid has 25 points; point t works on rows 4000 t … 4000 t + 3999 of the row-indexed arrays and on the whole
  weight matrix, and writes rows 4000 t … 4000 t + 3999 of the result.  Row r is therefore written by point r / 4000,
  every row is written, and what is written at (r, q) is the sum over k of x(r, k) · n(r) · w(k, q).
-/
import proofs.«136093_j68229850464275_1_alg».proof.Proof.Gen.KernelIdeal.Frame
import proofs.«136093_j68229850464275_1_alg».proof.Proof.RegionPayloads
import proofs.«136093_j68229850464275_1_alg».proof.Proof.RegionBlocks

noncomputable section

open scoped BigOperators

namespace Cert.KernelIdeal.RegionValues

open Cert.KernelIdeal Cert.KernelIdeal.Gen Cert.LibTileOps Cert.Stages
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The printed index maps over the grid: the row-indexed windows sit at block row t, the weight matrix at block 0. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The array the region ends with. -/
abbrev G5 : S100000x128.Idx → EReal :=
  matProd (scaleRows (V c (Pipeline.arrRef spec5 0) : S100000x128.Idx → EReal) (V c (Pipeline.arrRef spec5 1) : S100000x1.Idx → EReal))
    (V c (Pipeline.arrRef spec5 2) : S128x128.Idx → EReal)

/-- Block t of the first window is rows 4000 t … 4000 t + 3999 of its array. -/
theorem blk5_0 (t : Fin cfg5.N) (p : Fin 4000) (k : Fin 128) (r : Fin 100000) (hr : r.val = 4000 * t.val + p.val) :
    (iblk5 (F := Ideal) V c 0 t : S4000x128.Idx → EReal) (ix2 p k)
      = (V c (Pipeline.arrRef spec5 0) : S100000x128.Idx → EReal) (ix2 r k) := by
  obtain ⟨e0, e1, -⟩ := idx5 t
  unfold iblk5
  rw [View.read_apply]
  refine congrArg (V c (Pipeline.arrRef spec5 0)) ?_
  funext a
  apply Fin.ext
  match a with
  | ⟨0, _⟩ => show win5_0.index t (0 : Fin 2) * 4000 + 1 * p.val = r.val; omega
  | ⟨1, _⟩ => show win5_0.index t (1 : Fin 2) * 128 + 1 * k.val = k.val; omega

/-- Block t of the scale column is rows 4000 t … 4000 t + 3999 of the column. -/
theorem blk5_1 (t : Fin cfg5.N) (p : Fin 4000) (r : Fin 100000) (hr : r.val = 4000 * t.val + p.val) :
    (iblk5 (F := Ideal) V c 1 t : S4000x1.Idx → EReal) (ix2 p (0 : Fin 1))
      = (V c (Pipeline.arrRef spec5 1) : S100000x1.Idx → EReal) (ix2 r (0 : Fin 1)) := by
  obtain ⟨-, -, e0, e1, -⟩ := idx5 t
  unfold iblk5
  rw [View.read_apply]
  refine congrArg (V c (Pipeline.arrRef spec5 1)) ?_
  funext a
  apply Fin.ext
  match a with
  | ⟨0, _⟩ => show win5_1.index t (0 : Fin 2) * 4000 + 1 * p.val = r.val; omega
  | ⟨1, _⟩ => show win5_1.index t (1 : Fin 2) * 1 + 1 * 0 = 0; omega

/-- The one block of the weight matrix is the matrix. -/
theorem blk5_2 (t : Fin cfg5.N) (k q : Fin 128) :
    (iblk5 (F := Ideal) V c 2 t : S128x128.Idx → EReal) (ix2 k q)
      = (V c (Pipeline.arrRef spec5 2) : S128x128.Idx → EReal) (ix2 k q) := by
  obtain ⟨-, -, -, -, e0, e1, -⟩ := idx5 t
  unfold iblk5
  rw [View.read_apply]
  refine congrArg (V c (Pipeline.arrRef spec5 2)) ?_
  funext a
  apply Fin.ext
  match a with
  | ⟨0, _⟩ => show win5_2.index t (0 : Fin 2) * 128 + 1 * k.val = k.val; omega
  | ⟨1, _⟩ => show win5_2.index t (1 : Fin 2) * 128 + 1 * q.val = q.val; omega

/-- What point t writes back is block t of the product of the scaled rows and the weight matrix. -/
theorem flushed5 (t : Fin cfg5.N) :
    (dat5 (F := Ideal) V c).flushed 3 t = ((cfg5.win 3).blk t).view.read (Elt Ideal) (G5 V c) := by
  show (cfg5.win 3).cut (grid5.coords t) ((dat5 V c).after 3 t) = _
  rw [after5_3]
  unfold out5_3
  rw [View.canon_unit_zero zeroOffsets]
  simp only [View.ld_unit_zero (S := S4000x128) zeroOffsets, View.ld_unit_zero (S := S4000x1) zeroOffsets,
    View.ld_unit_zero (S := S128x128) zeroOffsets]
  rw [k5_pay1_eq]
  obtain ⟨-, -, -, -, -, -, e0, e1⟩ := idx5 t
  funext j
  have hN : t.val < 25 := t.isLt
  have hp : (j 0).val < 4000 := (j 0).isLt
  have hq : (j 1).val < 128 := (j 1).isLt
  have hx : win5_3.xinj (grid5.coords t) j = ix2 (⟨(j 0).val, hp⟩ : Fin 4000) (⟨(j 1).val, hq⟩ : Fin 128) :=
    funext fun a => Fin.ext (by match a with | ⟨0, _⟩ => rfl | ⟨1, _⟩ => rfl)
  have he : ((cfg5.win 3).blk t).view.emb j
      = ix2 (⟨4000 * t.val + (j 0).val, by omega⟩ : Fin 100000) (⟨(j 1).val, hq⟩ : Fin 128) :=
    funext fun a => Fin.ext (by
      match a with
      | ⟨0, _⟩ => show win5_3.index t (0 : Fin 2) * 4000 + 1 * (j 0).val = 4000 * t.val + (j 0).val; omega
      | ⟨1, _⟩ => show win5_3.index t (1 : Fin 2) * 128 + 1 * (j 1).val = (j 1).val; omega)
  rw [View.read_apply, he]
  show matProd _ _ (win5_3.xinj (grid5.coords t) j) = _
  rw [hx]
  exact project_rows _ _ _ _ _ _ _ _ _ (fun k => blk5_0 V c t _ k _ rfl) (blk5_1 V c t _ _ rfl) (fun k => blk5_2 V c t k _)

/-- An index of the array is in point t's block iff each coordinate is in the block's range on its axis. -/
theorem mem_blk5 (t : Fin cfg5.N) (i : S100000x128.Idx) :
    i ∈ ((cfg5.win 3).blk t).view.set ↔ ∀ a : Fin 2, win5_3.index t a * S4000x128.size a ≤ (i a).val
      ∧ (i a).val < win5_3.index t a * S4000x128.size a + S4000x128.size a := by
  show i ∈ ((View.whole main_v70).slice (win5_3.rect t)).set ↔ _
  rw [View.set_slice_whole, Rect.mem_set_unit]
  exact Iff.rfl

/-- Row r is written by point r / 4000. -/
theorem cover5 (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 25 := N_5
  let t : Fin cfg5.N := ⟨(i 0).val / 4000, by rw [hN]; omega⟩
  obtain ⟨-, -, -, -, -, -, e0, e1⟩ := idx5 t
  have ht : t.val = (i 0).val / 4000 := rfl
  refine ⟨t, flush5_3 t, ?_⟩
  rw [mem_blk5]
  intro a
  match a with
  | ⟨0, _⟩ => show win5_3.index t (0 : Fin 2) * 4000 ≤ (i 0).val ∧ (i 0).val < win5_3.index t (0 : Fin 2) * 4000 + 4000; omega
  | ⟨1, _⟩ => show win5_3.index t (1 : Fin 2) * 128 ≤ (i 1).val ∧ (i 1).val < win5_3.index t (1 : Fin 2) * 128 + 128; omega

/-- The array the projection leaves: the scaled rows times the weight matrix. -/
theorem final5 : (dat5 (F := Ideal) V c).arrAt 3 cfg5.N
    = matProd (scaleRows (V c (Pipeline.arrRef spec5 0) : S100000x128.Idx → EReal) (V c (Pipeline.arrRef spec5 1) : S100000x1.Idx → EReal))
        (V c (Pipeline.arrRef spec5 2) : S128x128.Idx → EReal) :=
  (dat5 (F := Ideal) V c).arrAt_eq_of_cover 3 (G5 V c) (fun t _ => flushed5 V c t) (cover5)

end Cert.KernelIdeal.RegionValues

end
-- ==== Proof.RegionProject7.lean ====
/-
  The array a projection stage leaves (second graph, second layer): scaled rows times the weight matrix.

  The grid has 25 points; point t works on rows 4000 t … 4000 t + 3999 of the row-indexed arrays and on the whole
  weight matrix, and writes rows 4000 t … 4000 t + 3999 of the result.  Row r is therefore written by point r / 4000,
  every row is written, and what is written at (r, q) is the sum over k of x(r, k) · n(r) · w(k, q).
-/
import proofs.«136093_j68229850464275_1_alg».proof.Proof.Gen.KernelIdeal.Frame
import proofs.«136093_j68229850464275_1_alg».proof.Proof.RegionPayloads
import proofs.«136093_j68229850464275_1_alg».proof.Proof.RegionBlocks

noncomputable section

open scoped BigOperators

namespace Cert.KernelIdeal.RegionValues

open Cert.KernelIdeal Cert.KernelIdeal.Gen Cert.LibTileOps Cert.Stages
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The printed index maps over the grid: the row-indexed windows sit at block row t, the weight matrix at block 0. -/
theorem idx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The array the region ends with. -/
abbrev G7 : S100000x128.Idx → EReal :=
  matProd (scaleRows (V c (Pipeline.arrRef spec7 0) : S100000x128.Idx → EReal) (V c (Pipeline.arrRef spec7 1) : S100000x1.Idx → EReal))
    (V c (Pipeline.arrRef spec7 2) : S128x128.Idx → EReal)

/-- Block t of the first window is rows 4000 t … 4000 t + 3999 of its array. -/
theorem blk7_0 (t : Fin cfg7.N) (p : Fin 4000) (k : Fin 128) (r : Fin 100000) (hr : r.val = 4000 * t.val + p.val) :
    (iblk7 (F := Ideal) V c 0 t : S4000x128.Idx → EReal) (ix2 p k)
      = (V c (Pipeline.arrRef spec7 0) : S100000x128.Idx → EReal) (ix2 r k) := by
  obtain ⟨e0, e1, -⟩ := idx7 t
  unfold iblk7
  rw [View.read_apply]
  refine congrArg (V c (Pipeline.arrRef spec7 0)) ?_
  funext a
  apply Fin.ext
  match a with
  | ⟨0, _⟩ => show win7_0.index t (0 : Fin 2) * 4000 + 1 * p.val = r.val; omega
  | ⟨1, _⟩ => show win7_0.index t (1 : Fin 2) * 128 + 1 * k.val = k.val; omega

/-- Block t of the scale column is rows 4000 t … 4000 t + 3999 of the column. -/
theorem blk7_1 (t : Fin cfg7.N) (p : Fin 4000) (r : Fin 100000) (hr : r.val = 4000 * t.val + p.val) :
    (iblk7 (F := Ideal) V c 1 t : S4000x1.Idx → EReal) (ix2 p (0 : Fin 1))
      = (V c (Pipeline.arrRef spec7 1) : S100000x1.Idx → EReal) (ix2 r (0 : Fin 1)) := by
  obtain ⟨-, -, e0, e1, -⟩ := idx7 t
  unfold iblk7
  rw [View.read_apply]
  refine congrArg (V c (Pipeline.arrRef spec7 1)) ?_
  funext a
  apply Fin.ext
  match a with
  | ⟨0, _⟩ => show win7_1.index t (0 : Fin 2) * 4000 + 1 * p.val = r.val; omega
  | ⟨1, _⟩ => show win7_1.index t (1 : Fin 2) * 1 + 1 * 0 = 0; omega

/-- The one block of the weight matrix is the matrix. -/
theorem blk7_2 (t : Fin cfg7.N) (k q : Fin 128) :
    (iblk7 (F := Ideal) V c 2 t : S128x128.Idx → EReal) (ix2 k q)
      = (V c (Pipeline.arrRef spec7 2) : S128x128.Idx → EReal) (ix2 k q) := by
  obtain ⟨-, -, -, -, e0, e1, -⟩ := idx7 t
  unfold iblk7
  rw [View.read_apply]
  refine congrArg (V c (Pipeline.arrRef spec7 2)) ?_
  funext a
  apply Fin.ext
  match a with
  | ⟨0, _⟩ => show win7_2.index t (0 : Fin 2) * 128 + 1 * k.val = k.val; omega
  | ⟨1, _⟩ => show win7_2.index t (1 : Fin 2) * 128 + 1 * q.val = q.val; omega

/-- What point t writes back is block t of the product of the scaled rows and the weight matrix. -/
theorem flushed7 (t : Fin cfg7.N) :
    (dat7 (F := Ideal) V c).flushed 3 t = ((cfg7.win 3).blk t).view.read (Elt Ideal) (G7 V c) := by
  show (cfg7.win 3).cut (grid7.coords t) ((dat7 V c).after 3 t) = _
  rw [after7_3]
  unfold out7_3
  rw [View.canon_unit_zero zeroOffsets]
  simp only [View.ld_unit_zero (S := S4000x128) zeroOffsets, View.ld_unit_zero (S := S4000x1) zeroOffsets,
    View.ld_unit_zero (S := S128x128) zeroOffsets]
  rw [k7_pay1_eq]
  obtain ⟨-, -, -, -, -, -, e0, e1⟩ := idx7 t
  funext j
  have hN : t.val < 25 := t.isLt
  have hp : (j 0).val < 4000 := (j 0).isLt
  have hq : (j 1).val < 128 := (j 1).isLt
  have hx : win7_3.xinj (grid7.coords t) j = ix2 (⟨(j 0).val, hp⟩ : Fin 4000) (⟨(j 1).val, hq⟩ : Fin 128) :=
    funext fun a => Fin.ext (by match a with | ⟨0, _⟩ => rfl | ⟨1, _⟩ => rfl)
  have he : ((cfg7.win 3).blk t).view.emb j
      = ix2 (⟨4000 * t.val + (j 0).val, by omega⟩ : Fin 100000) (⟨(j 1).val, hq⟩ : Fin 128) :=
    funext fun a => Fin.ext (by
      match a with
      | ⟨0, _⟩ => show win7_3.index t (0 : Fin 2) * 4000 + 1 * (j 0).val = 4000 * t.val + (j 0).val; omega
      | ⟨1, _⟩ => show win7_3.index t (1 : Fin 2) * 128 + 1 * (j 1).val = (j 1).val; omega)
  rw [View.read_apply, he]
  show matProd _ _ (win7_3.xinj (grid7.coords t) j) = _
  rw [hx]
  exact project_rows _ _ _ _ _ _ _ _ _ (fun k => blk7_0 V c t _ k _ rfl) (blk7_1 V c t _ _ rfl) (fun k => blk7_2 V c t k _)

/-- An index of the array is in point t's block iff each coordinate is in the block's range on its axis. -/
theorem mem_blk7 (t : Fin cfg7.N) (i : S100000x128.Idx) :
    i ∈ ((cfg7.win 3).blk t).view.set ↔ ∀ a : Fin 2, win7_3.index t a * S4000x128.size a ≤ (i a).val
      ∧ (i a).val < win7_3.index t a * S4000x128.size a + S4000x128.size a := by
  show i ∈ ((View.whole main_v83).slice (win7_3.rect t)).set ↔ _
  rw [View.set_slice_whole, Rect.mem_set_unit]
  exact Iff.rfl

/-- Row r is written by point r / 4000. -/
theorem cover7 (i : S100000x128.Idx) :
    ∃ t : Fin cfg7.N, (cfg7.win 3).flush t = true ∧ i ∈ ((cfg7.win 3).blk t).view.set := by
  have hi0 : (i 0).val < 100000 := (i 0).isLt
  have hi1 : (i 1).val < 128 := (i 1).isLt
  have hN : cfg7.N = 25 := N_7
  let t : Fin cfg7.N := ⟨(i 0).val / 4000, by rw [hN]; omega⟩
  obtain ⟨-, -, -, -, -, -, e0, e1⟩ := idx7 t
  have ht : t.val = (i 0).val / 4000 := rfl
  refine ⟨t, flush7_3 t, ?_⟩
  rw [mem_blk7]
  intro a
  match a with
  | ⟨0, _⟩ => show win7_3.index t (0 : Fin 2) * 4000 ≤ (i 0).val ∧ (i 0).val < win7_3.index t (0 : Fin 2) * 4000 + 4000; omega
  | ⟨1, _⟩ => show win7_3.index t (1 : Fin 2) * 128 ≤ (i 1).val ∧ (i 1).val < win7_3.index t (1 : Fin 2) * 128 + 128; omega

/-- The array the projection leaves: the scaled rows times the weight matrix. -/
theorem final7 : (dat7 (F := Ideal) V c).arrAt 3 cfg7.N
    = matProd (scaleRows (V c (Pipeline.arrRef spec7 0) : S100000x128.Idx → EReal) (V c (Pipeline.arrRef spec7 1) : S100000x1.Idx → EReal))
        (V c (Pipeline.arrRef spec7 2) : S128x128.Idx → EReal) :=
  (dat7 (F := Ideal) V c).arrAt_eq_of_cover 3 (G7 V c) (fun t _ => flushed7 V c t) (cover7)

end Cert.KernelIdeal.RegionValues

end
-- ==== Proof.RegionProject.lean ====
/-
  The four projection stages' final arrays (both graphs, both layers): `final0`, `final2`, `final5`, `final7`,
  each the scaled rows of the stage's input times its weight matrix.
-/
import proofs.«136093_j68229850464275_1_alg».proof.Proof.RegionProject0
import proofs.«136093_j68229850464275_1_alg».proof.Proof.RegionProject2
import proofs.«136093_j68229850464275_1_alg».proof.Proof.RegionProject5
import proofs.«136093_j68229850464275_1_alg».proof.Proof.RegionProject7
-- ==== Proof.RegionBiasClamp1.lean ====
/-
  The array the first layer's closing stage leaves (first graph): each row scaled, the bias row added, the maximum with zero.

  The grid has 25 points; point t works on rows 4000 t … 4000 t + 3999 of the aggregated array and of the scale column
  and on the whole bias row, and writes rows 4000 t … 4000 t + 3999 of the result.  Row r is written by point r / 4000,
  every row is written, and what is written at (r, q) is max (x(r, q) · n(r) + b(q), 0).
-/
import proofs.«136093_j68229850464275_1_alg».proof.Proof.Gen.KernelIdeal.Frame
import proofs.«136093_j68229850464275_1_alg».proof.Proof.RegionPayloads
import proofs.«136093_j68229850464275_1_alg».proof.Proof.RegionBlocks

noncomputable section

open scoped BigOperators

namespace Cert.KernelIdeal.RegionValues

open Cert.KernelIdeal Cert.KernelIdeal.Gen Cert.LibTileOps Cert.Stages
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The printed index maps over the grid: the row-indexed windows sit at block row t, the bias row at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The array the region ends with. -/
abbrev G1 : S100000x128.Idx → EReal :=
  addRowClamp (scaleRows (V c (Pipeline.arrRef spec1 0) : S100000x128.Idx → EReal) (V c (Pipeline.arrRef spec1 1) : S100000x1.Idx → EReal))
    (V c (Pipeline.arrRef spec1 2) : S1x128.Idx → EReal)

/-- Block t of the first window is rows 4000 t … 4000 t + 3999 of its array. -/
theorem blk1_0 (t : Fin cfg1.N) (p : Fin 4000) (k : Fin 128) (r : Fin 100000) (hr : r.val = 4000 * t.val + p.val) :
    (iblk1 (F := Ideal) V c 0 t : S4000x128.Idx → EReal) (ix2 p k)
      = (V c (Pipeline.arrRef spec1 0) : S100000x128.Idx → EReal) (ix2 r k) := by
  obtain ⟨e0, e1, -⟩ := idx1 t
  unfold iblk1
  rw [View.read_apply]
  refine congrArg (V c (Pipeline.arrRef spec1 0)) ?_
  funext a
  apply Fin.ext
  match a with
  | ⟨0, _⟩ => show win1_0.index t (0 : Fin 2) * 4000 + 1 * p.val = r.val; omega
  | ⟨1, _⟩ => show win1_0.index t (1 : Fin 2) * 128 + 1 * k.val = k.val; omega

/-- Block t of the scale column is rows 4000 t … 4000 t + 3999 of the column. -/
theorem blk1_1 (t : Fin cfg1.N) (p : Fin 4000) (r : Fin 100000) (hr : r.val = 4000 * t.val + p.val) :
    (iblk1 (F := Ideal) V c 1 t : S4000x1.Idx → EReal) (ix2 p (0 : Fin 1))
      = (V c (Pipeline.arrRef spec1 1) : S100000x1.Idx → EReal) (ix2 r (0 : Fin 1)) := by
  obtain ⟨-, -, e0, e1, -⟩ := idx1 t
  unfold iblk1
  rw [View.read_apply]
  refine congrArg (V c (Pipeline.arrRef spec1 1)) ?_
  funext a
  apply Fin.ext
  match a with
  | ⟨0, _⟩ => show win1_1.index t (0 : Fin 2) * 4000 + 1 * p.val = r.val; omega
  | ⟨1, _⟩ => show win1_1.index t (1 : Fin 2) * 1 + 1 * 0 = 0; omega

/-- The one block of the bias row is the row. -/
theorem blk1_2 (t : Fin cfg1.N) (q : Fin 128) :
    (iblk1 (F := Ideal) V c 2 t : S1x128.Idx → EReal) (ix2 (0 : Fin 1) q)
      = (V c (Pipeline.arrRef spec1 2) : S1x128.Idx → EReal) (ix2 (0 : Fin 1) q) := by
  obtain ⟨-, -, -, -, e0, e1, -⟩ := idx1 t
  unfold iblk1
  rw [View.read_apply]
  refine congrArg (V c (Pipeline.arrRef spec1 2)) ?_
  funext a
  apply Fin.ext
  match a with
  | ⟨0, _⟩ => show win1_2.index t (0 : Fin 2) * 1 + 1 * 0 = 0; omega
  | ⟨1, _⟩ => show win1_2.index t (1 : Fin 2) * 128 + 1 * q.val = q.val; omega

/-- What point t writes back is block t of the scaled rows plus the bias row, clamped at zero. -/
theorem flushed1 (t : Fin cfg1.N) :
    (dat1 (F := Ideal) V c).flushed 3 t = ((cfg1.win 3).blk t).view.read (Elt Ideal) (G1 V c) := by
  show (cfg1.win 3).cut (grid1.coords t) ((dat1 V c).after 3 t) = _
  rw [after1_3]
  unfold out1_3
  rw [View.canon_unit_zero zeroOffsets]
  simp only [View.ld_unit_zero (S := S4000x128) zeroOffsets, View.ld_unit_zero (S := S4000x1) zeroOffsets,
    View.ld_unit_zero (S := S1x128) zeroOffsets]
  rw [k1_pay1_eq]
  obtain ⟨-, -, -, -, -, -, e0, e1⟩ := idx1 t
  funext j
  have hN : t.val < 25 := t.isLt
  have hp : (j 0).val < 4000 := (j 0).isLt
  have hq : (j 1).val < 128 := (j 1).isLt
  have hx : win1_3.xinj (grid1.coords t) j = ix2 (⟨(j 0).val, hp⟩ : Fin 4000) (⟨(j 1).val, hq⟩ : Fin 128) :=
    funext fun a => Fin.ext (by match a with | ⟨0, _⟩ => rfl | ⟨1, _⟩ => rfl)
  have he : ((cfg1.win 3).blk t).view.emb j
      = ix2 (⟨4000 * t.val + (j 0).val, by omega⟩ : Fin 100000) (⟨(j 1).val, hq⟩ : Fin 128) :=
    funext fun a => Fin.ext (by
      match a with
      | ⟨0, _⟩ => show win1_3.index t (0 : Fin 2) * 4000 + 1 * (j 0).val = 4000 * t.val + (j 0).val; omega
      | ⟨1, _⟩ => show win1_3.index t (1 : Fin 2) * 128 + 1 * (j 1).val = (j 1).val; omega)
  rw [View.read_apply, he]
  show addRowClamp _ _ (win1_3.xinj (grid1.coords t) j) = _
  rw [hx]
  exact biasClamp_rows _ _ _ _ _ _ _ _ _ (blk1_0 V c t _ _ _ rfl) (blk1_1 V c t _ _ rfl) (blk1_2 V c t _)

/-- An index of the array is in point t's block iff each coordinate is in the block's range on its axis. -/
theorem mem_blk1 (t : Fin cfg1.N) (i : S100000x128.Idx) :
    i ∈ ((cfg1.win 3).blk t).view.set ↔ ∀ a : Fin 2, win1_3.index t a * S4000x128.size a ≤ (i a).val
      ∧ (i a).val < win1_3.index t a * S4000x128.size a + S4000x128.size a := by
  show i ∈ ((View.whole main_v29).slice (win1_3.rect t)).set ↔ _
  rw [View.set_slice_whole, Rect.mem_set_unit]
  exact Iff.rfl

/-- Row r is written by point r / 4000. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 25 := N_1
  let t : Fin cfg1.N := ⟨(i 0).val / 4000, by rw [hN]; omega⟩
  obtain ⟨-, -, -, -, -, -, e0, e1⟩ := idx1 t
  have ht : t.val = (i 0).val / 4000 := rfl
  refine ⟨t, flush1_3 t, ?_⟩
  rw [mem_blk1]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 128 ≤ (i 1).val ∧ (i 1).val < win1_3.index t (1 : Fin 2) * 128 + 128; omega

/-- The array the stage leaves: the scaled rows plus the bias row, clamped at zero. -/
theorem final1 : (dat1 (F := Ideal) V c).arrAt 3 cfg1.N
    = addRowClamp (scaleRows (V c (Pipeline.arrRef spec1 0) : S100000x128.Idx → EReal) (V c (Pipeline.arrRef spec1 1) : S100000x1.Idx → EReal))
        (V c (Pipeline.arrRef spec1 2) : S1x128.Idx → EReal) :=
  (dat1 (F := Ideal) V c).arrAt_eq_of_cover 3 (G1 V c) (fun t _ => flushed1 V c t) (cover1)

end Cert.KernelIdeal.RegionValues

end
-- ==== Proof.RegionBiasClamp6.lean ====
/-
  The array the first layer's closing stage leaves (second graph): each row scaled, the bias row added, the maximum with zero.

  The grid has 25 points; point t works on rows 4000 t … 4000 t + 3999 of the aggregated array and of the scale column
  and on the whole bias row, and writes rows 4000 t … 4000 t + 3999 of the result.  Row r is written by point r / 4000,
  every row is written, and what is written at (r, q) is max (x(r, q) · n(r) + b(q), 0).
-/
import proofs.«136093_j68229850464275_1_alg».proof.Proof.Gen.KernelIdeal.Frame
import proofs.«136093_j68229850464275_1_alg».proof.Proof.RegionPayloads
import proofs.«136093_j68229850464275_1_alg».proof.Proof.RegionBlocks

noncomputable section

open scoped BigOperators

namespace Cert.KernelIdeal.RegionValues

open Cert.KernelIdeal Cert.KernelIdeal.Gen Cert.LibTileOps Cert.Stages
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The printed index maps over the grid: the row-indexed windows sit at block row t, the bias row at block 0. -/
theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The array the region ends with. -/
abbrev G6 : S100000x128.Idx → EReal :=
  addRowClamp (scaleRows (V c (Pipeline.arrRef spec6 0) : S100000x128.Idx → EReal) (V c (Pipeline.arrRef spec6 1) : S100000x1.Idx → EReal))
    (V c (Pipeline.arrRef spec6 2) : S1x128.Idx → EReal)

/-- Block t of the first window is rows 4000 t … 4000 t + 3999 of its array. -/
theorem blk6_0 (t : Fin cfg6.N) (p : Fin 4000) (k : Fin 128) (r : Fin 100000) (hr : r.val = 4000 * t.val + p.val) :
    (iblk6 (F := Ideal) V c 0 t : S4000x128.Idx → EReal) (ix2 p k)
      = (V c (Pipeline.arrRef spec6 0) : S100000x128.Idx → EReal) (ix2 r k) := by
  obtain ⟨e0, e1, -⟩ := idx6 t
  unfold iblk6
  rw [View.read_apply]
  refine congrArg (V c (Pipeline.arrRef spec6 0)) ?_
  funext a
  apply Fin.ext
  match a with
  | ⟨0, _⟩ => show win6_0.index t (0 : Fin 2) * 4000 + 1 * p.val = r.val; omega
  | ⟨1, _⟩ => show win6_0.index t (1 : Fin 2) * 128 + 1 * k.val = k.val; omega

/-- Block t of the scale column is rows 4000 t … 4000 t + 3999 of the column. -/
theorem blk6_1 (t : Fin cfg6.N) (p : Fin 4000) (r : Fin 100000) (hr : r.val = 4000 * t.val + p.val) :
    (iblk6 (F := Ideal) V c 1 t : S4000x1.Idx → EReal) (ix2 p (0 : Fin 1))
      = (V c (Pipeline.arrRef spec6 1) : S100000x1.Idx → EReal) (ix2 r (0 : Fin 1)) := by
  obtain ⟨-, -, e0, e1, -⟩ := idx6 t
  unfold iblk6
  rw [View.read_apply]
  refine congrArg (V c (Pipeline.arrRef spec6 1)) ?_
  funext a
  apply Fin.ext
  match a with
  | ⟨0, _⟩ => show win6_1.index t (0 : Fin 2) * 4000 + 1 * p.val = r.val; omega
  | ⟨1, _⟩ => show win6_1.index t (1 : Fin 2) * 1 + 1 * 0 = 0; omega

/-- The one block of the bias row is the row. -/
theorem blk6_2 (t : Fin cfg6.N) (q : Fin 128) :
    (iblk6 (F := Ideal) V c 2 t : S1x128.Idx → EReal) (ix2 (0 : Fin 1) q)
      = (V c (Pipeline.arrRef spec6 2) : S1x128.Idx → EReal) (ix2 (0 : Fin 1) q) := by
  obtain ⟨-, -, -, -, e0, e1, -⟩ := idx6 t
  unfold iblk6
  rw [View.read_apply]
  refine congrArg (V c (Pipeline.arrRef spec6 2)) ?_
  funext a
  apply Fin.ext
  match a with
  | ⟨0, _⟩ => show win6_2.index t (0 : Fin 2) * 1 + 1 * 0 = 0; omega
  | ⟨1, _⟩ => show win6_2.index t (1 : Fin 2) * 128 + 1 * q.val = q.val; omega

/-- What point t writes back is block t of the scaled rows plus the bias row, clamped at zero. -/
theorem flushed6 (t : Fin cfg6.N) :
    (dat6 (F := Ideal) V c).flushed 3 t = ((cfg6.win 3).blk t).view.read (Elt Ideal) (G6 V c) := by
  show (cfg6.win 3).cut (grid6.coords t) ((dat6 V c).after 3 t) = _
  rw [after6_3]
  unfold out6_3
  rw [View.canon_unit_zero zeroOffsets]
  simp only [View.ld_unit_zero (S := S4000x128) zeroOffsets, View.ld_unit_zero (S := S4000x1) zeroOffsets,
    View.ld_unit_zero (S := S1x128) zeroOffsets]
  rw [k6_pay1_eq]
  obtain ⟨-, -, -, -, -, -, e0, e1⟩ := idx6 t
  funext j
  have hN : t.val < 25 := t.isLt
  have hp : (j 0).val < 4000 := (j 0).isLt
  have hq : (j 1).val < 128 := (j 1).isLt
  have hx : win6_3.xinj (grid6.coords t) j = ix2 (⟨(j 0).val, hp⟩ : Fin 4000) (⟨(j 1).val, hq⟩ : Fin 128) :=
    funext fun a => Fin.ext (by match a with | ⟨0, _⟩ => rfl | ⟨1, _⟩ => rfl)
  have he : ((cfg6.win 3).blk t).view.emb j
      = ix2 (⟨4000 * t.val + (j 0).val, by omega⟩ : Fin 100000) (⟨(j 1).val, hq⟩ : Fin 128) :=
    funext fun a => Fin.ext (by
      match a with
      | ⟨0, _⟩ => show win6_3.index t (0 : Fin 2) * 4000 + 1 * (j 0).val = 4000 * t.val + (j 0).val; omega
      | ⟨1, _⟩ => show win6_3.index t (1 : Fin 2) * 128 + 1 * (j 1).val = (j 1).val; omega)
  rw [View.read_apply, he]
  show addRowClamp _ _ (win6_3.xinj (grid6.coords t) j) = _
  rw [hx]
  exact biasClamp_rows _ _ _ _ _ _ _ _ _ (blk6_0 V c t _ _ _ rfl) (blk6_1 V c t _ _ rfl) (blk6_2 V c t _)

/-- An index of the array is in point t's block iff each coordinate is in the block's range on its axis. -/
theorem mem_blk6 (t : Fin cfg6.N) (i : S100000x128.Idx) :
    i ∈ ((cfg6.win 3).blk t).view.set ↔ ∀ a : Fin 2, win6_3.index t a * S4000x128.size a ≤ (i a).val
      ∧ (i a).val < win6_3.index t a * S4000x128.size a + S4000x128.size a := by
  show i ∈ ((View.whole main_v82).slice (win6_3.rect t)).set ↔ _
  rw [View.set_slice_whole, Rect.mem_set_unit]
  exact Iff.rfl

/-- Row r is written by point r / 4000. -/
theorem cover6 (i : S100000x128.Idx) :
    ∃ t : Fin cfg6.N, (cfg6.win 3).flush t = true ∧ i ∈ ((cfg6.win 3).blk t).view.set := by
  have hi0 : (i 0).val < 100000 := (i 0).isLt
  have hi1 : (i 1).val < 128 := (i 1).isLt
  have hN : cfg6.N = 25 := N_6
  let t : Fin cfg6.N := ⟨(i 0).val / 4000, by rw [hN]; omega⟩
  obtain ⟨-, -, -, -, -, -, e0, e1⟩ := idx6 t
  have ht : t.val = (i 0).val / 4000 := rfl
  refine ⟨t, flush6_3 t, ?_⟩
  rw [mem_blk6]
  intro a
  match a with
  | ⟨0, _⟩ => show win6_3.index t (0 : Fin 2) * 4000 ≤ (i 0).val ∧ (i 0).val < win6_3.index t (0 : Fin 2) * 4000 + 4000; omega
  | ⟨1, _⟩ => show win6_3.index t (1 : Fin 2) * 128 ≤ (i 1).val ∧ (i 1).val < win6_3.index t (1 : Fin 2) * 128 + 128; omega

/-- The array the stage leaves: the scaled rows plus the bias row, clamped at zero. -/
theorem final6 : (dat6 (F := Ideal) V c).arrAt 3 cfg6.N
    = addRowClamp (scaleRows (V c (Pipeline.arrRef spec6 0) : S100000x128.Idx → EReal) (V c (Pipeline.arrRef spec6 1) : S100000x1.Idx → EReal))
        (V c (Pipeline.arrRef spec6 2) : S1x128.Idx → EReal) :=
  (dat6 (F := Ideal) V c).arrAt_eq_of_cover 3 (G6 V c) (fun t _ => flushed6 V c t) (cover6)

end Cert.KernelIdeal.RegionValues

end
-- ==== Proof.RegionBiasClamp.lean ====
/-
  The two first-layer closing stages' final arrays (one per graph): `final1`, `final6`, each the scaled rows of the
  aggregated array plus the bias row, clamped at zero.
-/
import proofs.«136093_j68229850464275_1_alg».proof.Proof.RegionBiasClamp1
import proofs.«136093_j68229850464275_1_alg».proof.Proof.RegionBiasClamp6
-- ==== Proof.RegionCentre4.lean ====
/-
  The array the standardising stage leaves (first graph): each entry minus its column's mean, times its column's factor.

  The grid has 25 points; point t works on rows 4000 t … 4000 t + 3999 of the encoder's output and on the whole of the
  two one-row arrays (the means and the factors), and writes rows 4000 t … 4000 t + 3999 of the result.  Row r is written
  by point r / 4000, every row is written, and what is written at (r, q) is (h(r, q) - mu(q)) · iv(q).
-/
import proofs.«136093_j68229850464275_1_alg».proof.Proof.Gen.KernelIdeal.Frame
import proofs.«136093_j68229850464275_1_alg».proof.Proof.RegionPayloads
import proofs.«136093_j68229850464275_1_alg».proof.Proof.RegionBlocks

noncomputable section

open scoped BigOperators

namespace Cert.KernelIdeal.RegionValues

open Cert.KernelIdeal Cert.KernelIdeal.Gen Cert.LibTileOps Cert.Stages
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The printed index maps over the grid: the row-indexed windows sit at block row t, the two rows at block 0. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The array the region ends with. -/
abbrev G4 : S100000x128.Idx → EReal :=
  centreScale (V c (Pipeline.arrRef spec4 0) : S100000x128.Idx → EReal) (V c (Pipeline.arrRef spec4 1) : S1x128.Idx → EReal)
    (V c (Pipeline.arrRef spec4 2) : S1x128.Idx → EReal)

/-- Block t of the first window is rows 4000 t … 4000 t + 3999 of its array. -/
theorem blk4_0 (t : Fin cfg4.N) (p : Fin 4000) (k : Fin 128) (r : Fin 100000) (hr : r.val = 4000 * t.val + p.val) :
    (iblk4 (F := Ideal) V c 0 t : S4000x128.Idx → EReal) (ix2 p k)
      = (V c (Pipeline.arrRef spec4 0) : S100000x128.Idx → EReal) (ix2 r k) := by
  obtain ⟨e0, e1, -⟩ := idx4 t
  unfold iblk4
  rw [View.read_apply]
  refine congrArg (V c (Pipeline.arrRef spec4 0)) ?_
  funext a
  apply Fin.ext
  match a with
  | ⟨0, _⟩ => show win4_0.index t (0 : Fin 2) * 4000 + 1 * p.val = r.val; omega
  | ⟨1, _⟩ => show win4_0.index t (1 : Fin 2) * 128 + 1 * k.val = k.val; omega

/-- The one block of the row that is subtracted is the row. -/
theorem blk4_1 (t : Fin cfg4.N) (q : Fin 128) :
    (iblk4 (F := Ideal) V c 1 t : S1x128.Idx → EReal) (ix2 (0 : Fin 1) q)
      = (V c (Pipeline.arrRef spec4 1) : S1x128.Idx → EReal) (ix2 (0 : Fin 1) q) := by
  obtain ⟨-, -, e0, e1, -⟩ := idx4 t
  unfold iblk4
  rw [View.read_apply]
  refine congrArg (V c (Pipeline.arrRef spec4 1)) ?_
  funext a
  apply Fin.ext
  match a with
  | ⟨0, _⟩ => show win4_1.index t (0 : Fin 2) * 1 + 1 * 0 = 0; omega
  | ⟨1, _⟩ => show win4_1.index t (1 : Fin 2) * 128 + 1 * q.val = q.val; omega

/-- The one block of the row that multiplies is the row. -/
theorem blk4_2 (t : Fin cfg4.N) (q : Fin 128) :
    (iblk4 (F := Ideal) V c 2 t : S1x128.Idx → EReal) (ix2 (0 : Fin 1) q)
      = (V c (Pipeline.arrRef spec4 2) : S1x128.Idx → EReal) (ix2 (0 : Fin 1) q) := by
  obtain ⟨-, -, -, -, e0, e1, -⟩ := idx4 t
  unfold iblk4
  rw [View.read_apply]
  refine congrArg (V c (Pipeline.arrRef spec4 2)) ?_
  funext a
  apply Fin.ext
  match a with
  | ⟨0, _⟩ => show win4_2.index t (0 : Fin 2) * 1 + 1 * 0 = 0; omega
  | ⟨1, _⟩ => show win4_2.index t (1 : Fin 2) * 128 + 1 * q.val = q.val; omega

/-- What point t writes back is block t of the centred and scaled array. -/
theorem flushed4 (t : Fin cfg4.N) :
    (dat4 (F := Ideal) V c).flushed 3 t = ((cfg4.win 3).blk t).view.read (Elt Ideal) (G4 V c) := by
  show (cfg4.win 3).cut (grid4.coords t) ((dat4 V c).after 3 t) = _
  rw [after4_3]
  unfold out4_3
  rw [View.canon_unit_zero zeroOffsets]
  simp only [View.ld_unit_zero (S := S4000x128) zeroOffsets, View.ld_unit_zero (S := S1x128) zeroOffsets]
  rw [k4_pay1_eq]
  obtain ⟨-, -, -, -, -, -, e0, e1⟩ := idx4 t
  funext j
  have hN : t.val < 25 := t.isLt
  have hp : (j 0).val < 4000 := (j 0).isLt
  have hq : (j 1).val < 128 := (j 1).isLt
  have hx : win4_3.xinj (grid4.coords t) j = ix2 (⟨(j 0).val, hp⟩ : Fin 4000) (⟨(j 1).val, hq⟩ : Fin 128) :=
    funext fun a => Fin.ext (by match a with | ⟨0, _⟩ => rfl | ⟨1, _⟩ => rfl)
  have he : ((cfg4.win 3).blk t).view.emb j
      = ix2 (⟨4000 * t.val + (j 0).val, by omega⟩ : Fin 100000) (⟨(j 1).val, hq⟩ : Fin 128) :=
    funext fun a => Fin.ext (by
      match a with
      | ⟨0, _⟩ => show win4_3.index t (0 : Fin 2) * 4000 + 1 * (j 0).val = 4000 * t.val + (j 0).val; omega
      | ⟨1, _⟩ => show win4_3.index t (1 : Fin 2) * 128 + 1 * (j 1).val = (j 1).val; omega)
  rw [View.read_apply, he]
  show centreScale _ _ _ (win4_3.xinj (grid4.coords t) j) = _
  rw [hx]
  exact centre_rows _ _ _ _ _ _ _ _ _ (blk4_0 V c t _ _ _ rfl) (blk4_1 V c t _) (blk4_2 V c t _)

/-- An index of the array is in point t's block iff each coordinate is in the block's range on its axis. -/
theorem mem_blk4 (t : Fin cfg4.N) (i : S100000x128.Idx) :
    i ∈ ((cfg4.win 3).blk t).view.set ↔ ∀ a : Fin 2, win4_3.index t a * S4000x128.size a ≤ (i a).val
      ∧ (i a).val < win4_3.index t a * S4000x128.size a + S4000x128.size a := by
  show i ∈ ((View.whole main_v52).slice (win4_3.rect t)).set ↔ _
  rw [View.set_slice_whole, Rect.mem_set_unit]
  exact Iff.rfl

/-- Row r is written by point r / 4000. -/
theorem cover4 (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 25 := N_4
  let t : Fin cfg4.N := ⟨(i 0).val / 4000, by rw [hN]; omega⟩
  obtain ⟨-, -, -, -, -, -, e0, e1⟩ := idx4 t
  have ht : t.val = (i 0).val / 4000 := rfl
  refine ⟨t, flush4_3 t, ?_⟩
  rw [mem_blk4]
  intro a
  match a with
  | ⟨0, _⟩ => show win4_3.index t (0 : Fin 2) * 4000 ≤ (i 0).val ∧ (i 0).val < win4_3.index t (0 : Fin 2) * 4000 + 4000; omega
  | ⟨1, _⟩ => show win4_3.index t (1 : Fin 2) * 128 ≤ (i 1).val ∧ (i 1).val < win4_3.index t (1 : Fin 2) * 128 + 128; omega

/-- The array the stage leaves: each entry minus its column's entry of the first row, times its column's entry of the second. -/
theorem final4 : (dat4 (F := Ideal) V c).arrAt 3 cfg4.N
    = centreScale (V c (Pipeline.arrRef spec4 0) : S100000x128.Idx → EReal) (V c (Pipeline.arrRef spec4 1) : S1x128.Idx → EReal)
        (V c (Pipeline.arrRef spec4 2) : S1x128.Idx → EReal) :=
  (dat4 (F := Ideal) V c).arrAt_eq_of_cover 3 (G4 V c) (fun t _ => flushed4 V c t) (cover4)

end Cert.KernelIdeal.RegionValues

end
-- ==== Proof.RegionCentre9.lean ====
/-
  The array the standardising stage leaves (second graph): each entry minus its column's mean, times its column's factor.

  The grid has 25 points; point t works on rows 4000 t … 4000 t + 3999 of the encoder's output and on the whole of the
  two one-row arrays (the means and the factors), and writes rows 4000 t … 4000 t + 3999 of the result.  Row r is written
  by point r / 4000, every row is written, and what is written at (r, q) is (h(r, q) - mu(q)) · iv(q).
-/
import proofs.«136093_j68229850464275_1_alg».proof.Proof.Gen.KernelIdeal.Frame
import proofs.«136093_j68229850464275_1_alg».proof.Proof.RegionPayloads
import proofs.«136093_j68229850464275_1_alg».proof.Proof.RegionBlocks

noncomputable section

open scoped BigOperators

namespace Cert.KernelIdeal.RegionValues

open Cert.KernelIdeal Cert.KernelIdeal.Gen Cert.LibTileOps Cert.Stages
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The printed index maps over the grid: the row-indexed windows sit at block row t, the two rows at block 0. -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- The array the region ends with. -/
abbrev G9 : S100000x128.Idx → EReal :=
  centreScale (V c (Pipeline.arrRef spec9 0) : S100000x128.Idx → EReal) (V c (Pipeline.arrRef spec9 1) : S1x128.Idx → EReal)
    (V c (Pipeline.arrRef spec9 2) : S1x128.Idx → EReal)

/-- Block t of the first window is rows 4000 t … 4000 t + 3999 of its array. -/
theorem blk9_0 (t : Fin cfg9.N) (p : Fin 4000) (k : Fin 128) (r : Fin 100000) (hr : r.val = 4000 * t.val + p.val) :
    (iblk9 (F := Ideal) V c 0 t : S4000x128.Idx → EReal) (ix2 p k)
      = (V c (Pipeline.arrRef spec9 0) : S100000x128.Idx → EReal) (ix2 r k) := by
  obtain ⟨e0, e1, -⟩ := idx9 t
  unfold iblk9
  rw [View.read_apply]
  refine congrArg (V c (Pipeline.arrRef spec9 0)) ?_
  funext a
  apply Fin.ext
  match a with
  | ⟨0, _⟩ => show win9_0.index t (0 : Fin 2) * 4000 + 1 * p.val = r.val; omega
  | ⟨1, _⟩ => show win9_0.index t (1 : Fin 2) * 128 + 1 * k.val = k.val; omega

/-- The one block of the row that is subtracted is the row. -/
theorem blk9_1 (t : Fin cfg9.N) (q : Fin 128) :
    (iblk9 (F := Ideal) V c 1 t : S1x128.Idx → EReal) (ix2 (0 : Fin 1) q)
      = (V c (Pipeline.arrRef spec9 1) : S1x128.Idx → EReal) (ix2 (0 : Fin 1) q) := by
  obtain ⟨-, -, e0, e1, -⟩ := idx9 t
  unfold iblk9
  rw [View.read_apply]
  refine congrArg (V c (Pipeline.arrRef spec9 1)) ?_
  funext a
  apply Fin.ext
  match a with
  | ⟨0, _⟩ => show win9_1.index t (0 : Fin 2) * 1 + 1 * 0 = 0; omega
  | ⟨1, _⟩ => show win9_1.index t (1 : Fin 2) * 128 + 1 * q.val = q.val; omega

/-- The one block of the row that multiplies is the row. -/
theorem blk9_2 (t : Fin cfg9.N) (q : Fin 128) :
    (iblk9 (F := Ideal) V c 2 t : S1x128.Idx → EReal) (ix2 (0 : Fin 1) q)
      = (V c (Pipeline.arrRef spec9 2) : S1x128.Idx → EReal) (ix2 (0 : Fin 1) q) := by
  obtain ⟨-, -, -, -, e0, e1, -⟩ := idx9 t
  unfold iblk9
  rw [View.read_apply]
  refine congrArg (V c (Pipeline.arrRef spec9 2)) ?_
  funext a
  apply Fin.ext
  match a with
  | ⟨0, _⟩ => show win9_2.index t (0 : Fin 2) * 1 + 1 * 0 = 0; omega
  | ⟨1, _⟩ => show win9_2.index t (1 : Fin 2) * 128 + 1 * q.val = q.val; omega

/-- What point t writes back is block t of the centred and scaled array. -/
theorem flushed9 (t : Fin cfg9.N) :
    (dat9 (F := Ideal) V c).flushed 3 t = ((cfg9.win 3).blk t).view.read (Elt Ideal) (G9 V c) := by
  show (cfg9.win 3).cut (grid9.coords t) ((dat9 V c).after 3 t) = _
  rw [after9_3]
  unfold out9_3
  rw [View.canon_unit_zero zeroOffsets]
  simp only [View.ld_unit_zero (S := S4000x128) zeroOffsets, View.ld_unit_zero (S := S1x128) zeroOffsets]
  rw [k9_pay1_eq]
  obtain ⟨-, -, -, -, -, -, e0, e1⟩ := idx9 t
  funext j
  have hN : t.val < 25 := t.isLt
  have hp : (j 0).val < 4000 := (j 0).isLt
  have hq : (j 1).val < 128 := (j 1).isLt
  have hx : win9_3.xinj (grid9.coords t) j = ix2 (⟨(j 0).val, hp⟩ : Fin 4000) (⟨(j 1).val, hq⟩ : Fin 128) :=
    funext fun a => Fin.ext (by match a with | ⟨0, _⟩ => rfl | ⟨1, _⟩ => rfl)
  have he : ((cfg9.win 3).blk t).view.emb j
      = ix2 (⟨4000 * t.val + (j 0).val, by omega⟩ : Fin 100000) (⟨(j 1).val, hq⟩ : Fin 128) :=
    funext fun a => Fin.ext (by
      match a with
      | ⟨0, _⟩ => show win9_3.index t (0 : Fin 2) * 4000 + 1 * (j 0).val = 4000 * t.val + (j 0).val; omega
      | ⟨1, _⟩ => show win9_3.index t (1 : Fin 2) * 128 + 1 * (j 1).val = (j 1).val; omega)
  rw [View.read_apply, he]
  show centreScale _ _ _ (win9_3.xinj (grid9.coords t) j) = _
  rw [hx]
  exact centre_rows _ _ _ _ _ _ _ _ _ (blk9_0 V c t _ _ _ rfl) (blk9_1 V c t _) (blk9_2 V c t _)

/-- An index of the array is in point t's block iff each coordinate is in the block's range on its axis. -/
theorem mem_blk9 (t : Fin cfg9.N) (i : S100000x128.Idx) :
    i ∈ ((cfg9.win 3).blk t).view.set ↔ ∀ a : Fin 2, win9_3.index t a * S4000x128.size a ≤ (i a).val
      ∧ (i a).val < win9_3.index t a * S4000x128.size a + S4000x128.size a := by
  show i ∈ ((View.whole main_v105).slice (win9_3.rect t)).set ↔ _
  rw [View.set_slice_whole, Rect.mem_set_unit]
  exact Iff.rfl

/-- Row r is written by point r / 4000. -/
theorem cover9 (i : S100000x128.Idx) :
    ∃ t : Fin cfg9.N, (cfg9.win 3).flush t = true ∧ i ∈ ((cfg9.win 3).blk t).view.set := by
  have hi0 : (i 0).val < 100000 := (i 0).isLt
  have hi1 : (i 1).val < 128 := (i 1).isLt
  have hN : cfg9.N = 25 := N_9
  let t : Fin cfg9.N := ⟨(i 0).val / 4000, by rw [hN]; omega⟩
  obtain ⟨-, -, -, -, -, -, e0, e1⟩ := idx9 t
  have ht : t.val = (i 0).val / 4000 := rfl
  refine ⟨t, flush9_3 t, ?_⟩
  rw [mem_blk9]
  intro a
  match a with
  | ⟨0, _⟩ => show win9_3.index t (0 : Fin 2) * 4000 ≤ (i 0).val ∧ (i 0).val < win9_3.index t (0 : Fin 2) * 4000 + 4000; omega
  | ⟨1, _⟩ => show win9_3.index t (1 : Fin 2) * 128 ≤ (i 1).val ∧ (i 1).val < win9_3.index t (1 : Fin 2) * 128 + 128; omega

/-- The array the stage leaves: each entry minus its column's entry of the first row, times its column's entry of the second. -/
theorem final9 : (dat9 (F := Ideal) V c).arrAt 3 cfg9.N
    = centreScale (V c (Pipeline.arrRef spec9 0) : S100000x128.Idx → EReal) (V c (Pipeline.arrRef spec9 1) : S1x128.Idx → EReal)
        (V c (Pipeline.arrRef spec9 2) : S1x128.Idx → EReal) :=
  (dat9 (F := Ideal) V c).arrAt_eq_of_cover 3 (G9 V c) (fun t _ => flushed9 V c t) (cover9)

end Cert.KernelIdeal.RegionValues

end
-- ==== Proof.RegionCentre.lean ====
/-
  The two standardising stages' final arrays (one per graph): `final4`, `final9`, each entry minus its column's
  mean, times its column's factor.
-/
import proofs.«136093_j68229850464275_1_alg».proof.Proof.RegionCentre4
import proofs.«136093_j68229850464275_1_alg».proof.Proof.RegionCentre9
-- ==== Proof.LibTileSum.lean ====
/-
  A sum over J consecutive tiles of R entries each is the sum over all J * R entries.

  For `f : ℕ → M` into any additive commutative monoid (the extended reals among them), any tile length `R` and any
  number of tiles `J`:

    `tile_sum` :  Σ_{j < J} Σ_{r : Fin R} f (j * R + r) = Σ_{s : Fin (J * R)} f s.

  This is pure reindexing (the position `s` is `j * R + r` with `j = s / R`, `r = s % R`); no property of the
  summands is used.  `tile_sum_range` is the same with both sides as sums over ranges of naturals, and
  `tile_sum_fin` has the outer sum over `Fin J`.
-/
import Mathlib.Algebra.BigOperators.Fin
import Mathlib.Algebra.BigOperators.Intervals

open scoped BigOperators

namespace Cert.LibTileSum

variable {M : Type*} [AddCommMonoid M]

/-- Both sides over ranges of naturals: Σ_{j < J} Σ_{r < R} f (j * R + r) = Σ_{s < J * R} f s. -/
theorem tile_sum_range (R : ℕ) (f : ℕ → M) (J : ℕ) :
    ∑ j ∈ Finset.range J, ∑ r ∈ Finset.range R, f (j * R + r) = ∑ s ∈ Finset.range (J * R), f s := by
  induction J with
  | zero => simp
  | succ J ih =>
    rw [Finset.sum_range_succ, ih, Nat.succ_mul, Finset.sum_range_add]

/-- A sum over J consecutive tiles of R entries each is the sum over all J * R entries. -/
theorem tile_sum (R : ℕ) (f : ℕ → M) (J : ℕ) :
    (Finset.range J).sum (fun j => ∑ r : Fin R, f (j * R + r.val)) = ∑ s : Fin (J * R), f s.val := by
  rw [Fin.sum_univ_eq_sum_range (fun s => f s) (J * R), ← tile_sum_range R f J]
  refine Finset.sum_congr rfl fun j _ => ?_
  exact Fin.sum_univ_eq_sum_range (fun r => f (j * R + r)) R

/-- The same with the outer sum over `Fin J`. -/
theorem tile_sum_fin (R : ℕ) (f : ℕ → M) (J : ℕ) :
    ∑ j : Fin J, ∑ r : Fin R, f (j.val * R + r.val) = ∑ s : Fin (J * R), f s.val := by
  rw [← tile_sum R f J]
  exact Fin.sum_univ_eq_sum_range (fun j => ∑ r : Fin R, f (j * R + r.val)) J

end Cert.LibTileSum
-- ==== Proof.RegionStatsRows.lean ====
/-
  Column sums over 100000 rows taken 4000 rows at a time.

  An array of 100000 rows is walked in 25 blocks of 4000 rows; row  n * 4000 + r  is row r of block n.  Reading an
  entry by its natural row number (zero past the last row) makes "the sum over the first n + 1 blocks" a sum over
  tiles of a function of the naturals, and the sum over all 25 tiles is the sum over all 100000 rows.  A block of
  features, its column of scales and the bias row give the block's activations  x * scale + bias, which are the
  whole array's activations at the block's rows.
-/
import proofs.«136093_j68229850464275_1_alg».proof.Proof.Stages
import proofs.«136093_j68229850464275_1_alg».proof.Proof.LibTileSum

noncomputable section

open scoped BigOperators
open Idealize.ShloMosaic Idealize.ShloMosaic.ValueIdx

namespace Cert.KernelIdeal.RegionValues

open Cert.LibTileOps Cert.Stages

/-! ## Rows by their natural number -/

/-- Entry (s, j) of a 100000-row array as a function of the natural row number s (zero past the last row). -/
def rowAt (H : FVec Ideal ⟨2, ![100000, 128]⟩ .f32) (j : Fin 128) (s : ℕ) : EReal :=
  if h : s < 100000 then H (ix2 ⟨s, h⟩ j) else 0

theorem rowAt_of_lt (H : FVec Ideal ⟨2, ![100000, 128]⟩ .f32) (j : Fin 128) (s : ℕ) (h : s < 100000) :
    rowAt H j s = H (ix2 ⟨s, h⟩ j) := dif_pos h

/-- A sum over 25 tiles of 4000 rows of any function of the entries is the sum over all rows. -/
theorem tiles_sum_map (H : FVec Ideal ⟨2, ![100000, 128]⟩ .f32) (j : Fin 128) (f : EReal → EReal) :
    ∑ t' ∈ Finset.range 25, ∑ r : Fin 4000, f (rowAt H j (t' * 4000 + r.val)) = ∑ r : Fin 100000, f (H (ix2 r j)) := by
  rw [Cert.LibTileSum.tile_sum 4000 (fun s => f (rowAt H j s)) 25]
  rw [Fin.sum_univ_eq_sum_range (fun s => f (rowAt H j s)) (25 * 4000)]
  rw [show (25 * 4000 : ℕ) = 100000 from rfl, ← Fin.sum_univ_eq_sum_range (fun s => f (rowAt H j s)) 100000]
  exact Finset.sum_congr rfl fun r _ => congrArg f (rowAt_of_lt H j r.val r.isLt)

/-- The sum over 25 tiles of 4000 rows is the column's sum over all rows. -/
theorem tiles_sum (H : FVec Ideal ⟨2, ![100000, 128]⟩ .f32) (j : Fin 128) :
    ∑ t' ∈ Finset.range 25, ∑ r : Fin 4000, rowAt H j (t' * 4000 + r.val) = ∑ r : Fin 100000, H (ix2 r j) :=
  tiles_sum_map H j (fun x => x)

/-- The same for the squares. -/
theorem tiles_sum_sq (H : FVec Ideal ⟨2, ![100000, 128]⟩ .f32) (j : Fin 128) :
    ∑ t' ∈ Finset.range 25, ∑ r : Fin 4000, rowAt H j (t' * 4000 + r.val) * rowAt H j (t' * 4000 + r.val)
      = ∑ r : Fin 100000, H (ix2 r j) * H (ix2 r j) :=
  tiles_sum_map H j (fun x => x * x)

/-- A block of 4000 rows read at row offset n * 4000: its activations are the array's activations at those rows. -/
theorem block_act (X : FVec Ideal ⟨2, ![100000, 128]⟩ .f32) (S : FVec Ideal ⟨2, ![100000, 1]⟩ .f32) (Bv : FVec Ideal ⟨2, ![1, 128]⟩ .f32)
    (x0 : FVec Ideal ⟨2, ![4000, 128]⟩ .f32) (x1 : FVec Ideal ⟨2, ![4000, 1]⟩ .f32) (x2 : FVec Ideal ⟨2, ![1, 128]⟩ .f32) (n : ℕ)
    (e0 : ∀ (r : Fin 4000) (j : Fin 128) (h : n * 4000 + r.val < 100000), x0 (ix2 r j) = X (ix2 ⟨n * 4000 + r.val, h⟩ j))
    (e1 : ∀ (r : Fin 4000) (h : n * 4000 + r.val < 100000),
      x1 (ix2 r (0 : Fin 1)) = S (ix2 ⟨n * 4000 + r.val, h⟩ (0 : Fin 1)))
    (e2 : x2 = Bv) (r : Fin 4000) (j : Fin 128) (h : n * 4000 + r.val < 100000) :
    addRow (scaleRows x0 x1) x2 (ix2 r j) = addRow (scaleRows X S) Bv (ix2 ⟨n * 4000 + r.val, h⟩ j) := by
  rw [addRow_apply, scaleRows_apply, addRow_apply, scaleRows_apply, e0 r j h, e1 r h, e2]

end Cert.KernelIdeal.RegionValues

end
-- ==== Proof.RegionStatsPieces.lean ====
/-
  What one grid point of the statistics region leaves in its three output buffers, as values.

  The body writes the block of activations  h = x * scale + bias  (one covering store), and adds to two carried
  one-row buffers the block's column sums and column sums of squares.  At the first point the two rows are first set
  to the zero row and read back; at every later point they are read as the point before left them.  Each output
  buffer's pieces therefore read back as one payload of the point's input blocks (and of the carried row).
  Generic in the float instance.
-/
import proofs.«136093_j68229850464275_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.RegionValues

open Cert.KernelIdeal Cert.KernelIdeal.Gen

variable {F : FTy → Type} [FloatOps F]

theorem hz2 : (![0, 0] : Fin 2 → Nat) = fun _ => 0 := funext fun a => by fin_cases a <;> rfl

/-! ## The first point: the two carried rows start from the zero row -/

/-- The first point: the activations' buffer holds the block's activations. -/
theorem piece3_A_3 (c : Dev nD) (i : grid3.Coords) (a1 : Memref sig .tc .vmem S4000x128 .f32) (h1 : a1.IsWhole)
    (a2 : Memref sig .tc .vmem S4000x1 .f32) (h2 : a2.IsWhole) (a3 : Memref sig .tc .vmem S1x128 .f32) (h3 : a3.IsWhole)
    (a4 : Memref sig .tc .vmem S4000x128 .f32) (h4 : a4.IsWhole) (a5 : Memref sig .tc .vmem S1x128 .f32) (h5 : a5.IsWhole)
    (a6 : Memref sig .tc .vmem S1x128 .f32) (h6 : a6.IsWhole) (hc : cond3_0 i)
    (x0 : Vec F S4000x128 .f32) (x1 : Vec F S4000x1 .f32) (x2 : Vec F S1x128 .f32) :
    out3_A_3 c i a1 h1 a2 h2 a3 h3 a4 h4 a5 h5 a6 h6 hc x0 x1 x2 = k3_pay3 x0 x1 x2 := by
  unfold out3_A_3
  rw [View.read_writes_eq_canon _ _ _ (cover3_A_3 c i a1 h1 a2 h2 a3 h3 a4 h4 a5 h5 a6 h6 hc x0 x1 x2)]
  unfold kernelRun3_A
  dsimp only
  rw [View.canon_unit_zero hz2]
  simp only [View.readAt_eq_ld, h1.read_unread, h2.read_unread, h3.read_unread,
    View.ld_unit_zero (S := S4000x128) hz2, View.ld_unit_zero (S := S4000x1) hz2, View.ld_unit_zero (S := S1x128) hz2]

/-- The first point: the row of sums holds the zero row plus the block's column sums. -/
theorem piece3_A_4 (c : Dev nD) (i : grid3.Coords) (a1 : Memref sig .tc .vmem S4000x128 .f32) (h1 : a1.IsWhole)
    (a2 : Memref sig .tc .vmem S4000x1 .f32) (h2 : a2.IsWhole) (a3 : Memref sig .tc .vmem S1x128 .f32) (h3 : a3.IsWhole)
    (a4 : Memref sig .tc .vmem S4000x128 .f32) (h4 : a4.IsWhole) (a5 : Memref sig .tc .vmem S1x128 .f32) (h5 : a5.IsWhole)
    (a6 : Memref sig .tc .vmem S1x128 .f32) (h6 : a6.IsWhole) (hc : cond3_0 i)
    (x0 : Vec F S4000x128 .f32) (x1 : Vec F S4000x1 .f32) (x2 : Vec F S1x128 .f32) :
    out3_A_4 c i a1 h1 a2 h2 a3 h3 a4 h4 a5 h5 a6 h6 hc x0 x1 x2 = k3_pay4 x0 x1 x2 (k3_pay1 (F := F)) := by
  unfold out3_A_4
  rw [View.read_writes_eq_canon _ _ _ (cover3_A_4 c i a1 h1 a2 h2 a3 h3 a4 h4 a5 h5 a6 h6 hc x0 x1 x2)]
  unfold kernelRun3_A
  dsimp only
  sl_unfold_words
  rw [View.canon_cons_unit_zero (S := S1x128) hz2, View.readCov_unit_zero (S := S1x128) _ hz2]
  simp only [View.readAt_eq_ld, h1.read_unread, h2.read_unread, h3.read_unread,
    View.ld_unit_zero (S := S4000x128) hz2, View.ld_unit_zero (S := S4000x1) hz2, View.ld_unit_zero (S := S1x128) hz2]

/-- The first point: the row of sums of squares holds the zero row plus the block's column sums of squares. -/
theorem piece3_A_5 (c : Dev nD) (i : grid3.Coords) (a1 : Memref sig .tc .vmem S4000x128 .f32) (h1 : a1.IsWhole)
    (a2 : Memref sig .tc .vmem S4000x1 .f32) (h2 : a2.IsWhole) (a3 : Memref sig .tc .vmem S1x128 .f32) (h3 : a3.IsWhole)
    (a4 : Memref sig .tc .vmem S4000x128 .f32) (h4 : a4.IsWhole) (a5 : Memref sig .tc .vmem S1x128 .f32) (h5 : a5.IsWhole)
    (a6 : Memref sig .tc .vmem S1x128 .f32) (h6 : a6.IsWhole) (hc : cond3_0 i)
    (x0 : Vec F S4000x128 .f32) (x1 : Vec F S4000x1 .f32) (x2 : Vec F S1x128 .f32) :
    out3_A_5 c i a1 h1 a2 h2 a3 h3 a4 h4 a5 h5 a6 h6 hc x0 x1 x2 = k3_pay5 x0 x1 x2 (k3_pay2 (F := F)) := by
  unfold out3_A_5
  rw [View.read_writes_eq_canon _ _ _ (cover3_A_5 c i a1 h1 a2 h2 a3 h3 a4 h4 a5 h5 a6 h6 hc x0 x1 x2)]
  unfold kernelRun3_A
  dsimp only
  sl_unfold_words
  rw [View.canon_cons_unit_zero (S := S1x128) hz2, View.readCov_unit_zero (S := S1x128) _ hz2]
  simp only [View.readAt_eq_ld, h1.read_unread, h2.read_unread, h3.read_unread,
    View.ld_unit_zero (S := S4000x128) hz2, View.ld_unit_zero (S := S4000x1) hz2, View.ld_unit_zero (S := S1x128) hz2]

/-! ## Every later point: the two carried rows continue from what the point before left -/

/-- A later point: the activations' buffer holds the block's activations. -/
theorem piece3_B_3 (c : Dev nD) (i : grid3.Coords) (a1 : Memref sig .tc .vmem S4000x128 .f32) (h1 : a1.IsWhole)
    (a2 : Memref sig .tc .vmem S4000x1 .f32) (h2 : a2.IsWhole) (a3 : Memref sig .tc .vmem S1x128 .f32) (h3 : a3.IsWhole)
    (a4 : Memref sig .tc .vmem S4000x128 .f32) (h4 : a4.IsWhole) (a5 : Memref sig .tc .vmem S1x128 .f32) (h5 : a5.IsWhole)
    (a6 : Memref sig .tc .vmem S1x128 .f32) (h6 : a6.IsWhole) (hc : ¬cond3_0 i)
    (x0 : Vec F S4000x128 .f32) (x1 : Vec F S4000x1 .f32) (x2 : Vec F S1x128 .f32) (xo4 xo5 : Vec F S1x128 .f32) :
    out3_B_3 c i a1 h1 a2 h2 a3 h3 a4 h4 a5 h5 a6 h6 hc x0 x1 x2 xo4 xo5 = k3_pay3 x0 x1 x2 := by
  unfold out3_B_3
  rw [View.read_writes_eq_canon _ _ _ (cover3_B_3 c i a1 h1 a2 h2 a3 h3 a4 h4 a5 h5 a6 h6 hc x0 x1 x2 xo4 xo5)]
  unfold kernelRun3_B
  dsimp only
  rw [View.canon_unit_zero hz2]
  simp only [View.readAt_eq_ld, h1.read_unread, h2.read_unread, h3.read_unread, h5.read_unread, h6.read_unread,
    View.ld_unit_zero (S := S4000x128) hz2, View.ld_unit_zero (S := S4000x1) hz2, View.ld_unit_zero (S := S1x128) hz2]

/-- A later point: the row of sums holds the carried row plus the block's column sums. -/
theorem piece3_B_4 (c : Dev nD) (i : grid3.Coords) (a1 : Memref sig .tc .vmem S4000x128 .f32) (h1 : a1.IsWhole)
    (a2 : Memref sig .tc .vmem S4000x1 .f32) (h2 : a2.IsWhole) (a3 : Memref sig .tc .vmem S1x128 .f32) (h3 : a3.IsWhole)
    (a4 : Memref sig .tc .vmem S4000x128 .f32) (h4 : a4.IsWhole) (a5 : Memref sig .tc .vmem S1x128 .f32) (h5 : a5.IsWhole)
    (a6 : Memref sig .tc .vmem S1x128 .f32) (h6 : a6.IsWhole) (hc : ¬cond3_0 i)
    (x0 : Vec F S4000x128 .f32) (x1 : Vec F S4000x1 .f32) (x2 : Vec F S1x128 .f32) (xo4 xo5 : Vec F S1x128 .f32) :
    out3_B_4 c i a1 h1 a2 h2 a3 h3 a4 h4 a5 h5 a6 h6 hc x0 x1 x2 xo4 xo5 = k3_pay4 x0 x1 x2 xo4 := by
  unfold out3_B_4
  rw [View.read_writes_eq_canon _ _ _ (cover3_B_4 c i a1 h1 a2 h2 a3 h3 a4 h4 a5 h5 a6 h6 hc x0 x1 x2 xo4 xo5)]
  unfold kernelRun3_B
  dsimp only
  rw [View.canon_unit_zero hz2]
  simp only [View.readAt_eq_ld, h1.read_unread, h2.read_unread, h3.read_unread, h5.read_unread, h6.read_unread,
    View.ld_unit_zero (S := S4000x128) hz2, View.ld_unit_zero (S := S4000x1) hz2, View.ld_unit_zero (S := S1x128) hz2]

/-- A later point: the row of sums of squares holds the carried row plus the block's column sums of squares. -/
theorem piece3_B_5 (c : Dev nD) (i : grid3.Coords) (a1 : Memref sig .tc .vmem S4000x128 .f32) (h1 : a1.IsWhole)
    (a2 : Memref sig .tc .vmem S4000x1 .f32) (h2 : a2.IsWhole) (a3 : Memref sig .tc .vmem S1x128 .f32) (h3 : a3.IsWhole)
    (a4 : Memref sig .tc .vmem S4000x128 .f32) (h4 : a4.IsWhole) (a5 : Memref sig .tc .vmem S1x128 .f32) (h5 : a5.IsWhole)
    (a6 : Memref sig .tc .vmem S1x128 .f32) (h6 : a6.IsWhole) (hc : ¬cond3_0 i)
    (x0 : Vec F S4000x128 .f32) (x1 : Vec F S4000x1 .f32) (x2 : Vec F S1x128 .f32) (xo4 xo5 : Vec F S1x128 .f32) :
    out3_B_5 c i a1 h1 a2 h2 a3 h3 a4 h4 a5 h5 a6 h6 hc x0 x1 x2 xo4 xo5 = k3_pay5 x0 x1 x2 xo5 := by
  unfold out3_B_5
  rw [View.read_writes_eq_canon _ _ _ (cover3_B_5 c i a1 h1 a2 h2 a3 h3 a4 h4 a5 h5 a6 h6 hc x0 x1 x2 xo4 xo5)]
  unfold kernelRun3_B
  dsimp only
  rw [View.canon_unit_zero hz2]
  simp only [View.readAt_eq_ld, h1.read_unread, h2.read_unread, h3.read_unread, h5.read_unread, h6.read_unread,
    View.ld_unit_zero (S := S4000x128) hz2, View.ld_unit_zero (S := S4000x1) hz2, View.ld_unit_zero (S := S1x128) hz2]

/-! ## What the three buffers hold after a point, as payloads of the point's blocks -/

section Point

variable (V : (c : Dev nD) → (b : Ref sig .tc) → Buf (Elt F) ((c : Thread nD τ).loc b))

/-- After the first point: the block's activations, and the two rows started from the zero row. -/
theorem outsAt3_first (c : Dev nD) (t : Fin cfg3.N) (h0 : t.val % 25 = 0) :
    outsAt3 V c t.val t.isLt
      = (k3_pay3 (iblk3 V c 0 t) (iblk3 V c 1 t) (iblk3 V c 2 t),
         k3_pay4 (iblk3 V c 0 t) (iblk3 V c 1 t) (iblk3 V c 2 t) (k3_pay1 (F := F)),
         k3_pay5 (iblk3 V c 0 t) (iblk3 V c 1 t) (iblk3 V c 2 t) (k3_pay2 (F := F))) :=
  (outsAt3_A V c t h0).trans (congrArg₂ Prod.mk
    (piece3_A_3 c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (iblk3 V c 0 t) (iblk3 V c 1 t) (iblk3 V c 2 t))
    (congrArg₂ Prod.mk
      (piece3_A_4 c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (iblk3 V c 0 t) (iblk3 V c 1 t) (iblk3 V c 2 t))
      (piece3_A_5 c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (iblk3 V c 0 t) (iblk3 V c 1 t) (iblk3 V c 2 t))))

/-- After a later point: the block's activations, and the two rows continued from the point before. -/
theorem outsAt3_later (c : Dev nD) (t : Fin cfg3.N) (h0 : ¬t.val % 25 = 0) :
    outsAt3 V c t.val t.isLt
      = (k3_pay3 (iblk3 V c 0 t) (iblk3 V c 1 t) (iblk3 V c 2 t),
         k3_pay4 (iblk3 V c 0 t) (iblk3 V c 1 t) (iblk3 V c 2 t) (outsAt3 V c (t.val - 1) (Nat.lt_of_le_of_lt (Nat.sub_le _ _) t.isLt)).2.1,
         k3_pay5 (iblk3 V c 0 t) (iblk3 V c 1 t) (iblk3 V c 2 t) (outsAt3 V c (t.val - 1) (Nat.lt_of_le_of_lt (Nat.sub_le _ _) t.isLt)).2.2) :=
  (outsAt3_B V c t h0).trans (congrArg₂ Prod.mk
    (piece3_B_3 c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2)
    (congrArg₂ Prod.mk
      (piece3_B_4 c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2)
      (piece3_B_5 c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2)))

/-- At every point the activations' buffer holds the block's activations. -/
theorem outsAt3_act (c : Dev nD) (t : Fin cfg3.N) :
    (outsAt3 V c t.val t.isLt).1 = k3_pay3 (iblk3 V c 0 t) (iblk3 V c 1 t) (iblk3 V c 2 t) := by
  by_cases h0 : t.val % 25 = 0
  · rw [outsAt3_first V c t h0]
  · rw [outsAt3_later V c t h0]

end Point

end Cert.KernelIdeal.RegionValues

end
-- ==== Proof.LibColumnSum.lean ====
/-
  The sum of a two-axis array along its FIRST axis, read at an entry: over the extended reals, started from the zero
  word, the sum of an `[a, b]` array over its rows is at column `j` the sum over the rows `k` of the entries
  `(k, j)`.  It holds for any extents; with `b = 1` it is the total of a one-column array.
-/
import Idealize.ShloMosaic.Lib.ValueIdx
import Idealize.ShloMosaic.PureOps.Ideal.Laws

noncomputable section

open scoped BigOperators

namespace Cert.LibColumnSum

open Idealize.ShloMosaic Idealize.ShloMosaic.ValueIdx

/-- Over the extended reals, the sum of an `[a, b]` array along its first axis, started from the zero word, is at
    column `j` the sum over the rows `k` of the entries `(k, j)`. -/
theorem multiReduction_add_cols_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ k : Fin a, src (ix2 k j) := by
  refine (Ideal.multiReduction_add_single src 0x00000000#32 h hφ hacc (ix1 j)).trans ?_
  refine Finset.sum_congr rfl fun k _ => congrArg src ?_
  funext ax
  apply Fin.ext
  match ax with
  | ⟨0, _⟩ => rfl
  | ⟨1, _⟩ => rfl

end Cert.LibColumnSum

end
-- ==== Proof.RegionStatsPay.lean ====
/-
  The statistics region's payloads over the extended reals, as array operations on one block.

  With  x0  a block of 4000 rows of the aggregated features,  x1  the block's column of row scales and  x2  the bias
  row, the stored activations are  addRow (scaleRows x0 x1) x2 : entry (r, j) is  x0(r, j) * x1(r) + x2(j).
  The two one-row payloads add to a carried row, column by column, the sum over the block's 4000 rows of the
  activations, respectively of their squares.  The rows the first point starts from are the zero literal's value.
-/
import proofs.«136093_j68229850464275_1_alg».proof.Proof.Gen.KernelIdeal.Skeleton
import proofs.«136093_j68229850464275_1_alg».proof.Proof.Stages
import proofs.«136093_j68229850464275_1_alg».proof.Proof.LibColumnSum
import proofs.«136093_j68229850464275_1_alg».proof.Proof.LibKeepdims
import proofs.«136093_j68229850464275_1_alg».proof.Proof.LibRowLayout
import Idealize.ShloMosaic.Lib.Pipeline.Value

noncomputable section

open scoped BigOperators
open Idealize.ShloMosaic Idealize.ShloMosaic.ValueIdx

namespace Cert.KernelIdeal.RegionValues

open Cert.KernelIdeal Cert.KernelIdeal.Gen Cert.LibTileOps Cert.Stages

/-- The stored block of activations: each row of the block times its scale, plus the bias row. -/
theorem pay3_eq (v3 : FVec Ideal S4000x128 .f32) (v5 : FVec Ideal S4000x1 .f32) (v9 : FVec Ideal S1x128 .f32) :
    k3_pay3 (F := Ideal) v3 v5 v9 = addRow (scaleRows v3 v5) v9 := by
  funext i
  obtain ⟨p, q, rfl⟩ : ∃ (p : Fin 4000) (q : Fin 128), i = ix2 p q := ⟨i 0, i 1, eq_ix2 i⟩
  rw [addRow_apply, scaleRows_apply]
  unfold k3_pay3
  refine (addf_apply _ _ _).trans ?_
  refine congrArg₂ (· + ·) ((mulf_apply _ _ _).trans (congrArg₂ (· * ·) ?_ ?_)) ?_
  · exact congrFun (shapeCast_self v3 _) _
  · refine (Cert.LibKeepdims.broadcastTo_a1_ab_apply _ _ p q).trans ?_
    exact congrFun (shapeCast_self v5 _) _
  · refine (Cert.LibRowLayout.broadcastTo_1b_ab_apply _ _ p q).trans ?_
    exact congrFun (shapeCast_self v9 _) _

/-- The row of sums: the carried row plus, in column j, the sum over the block's rows of the activations. -/
theorem pay4_apply (v3 : FVec Ideal S4000x128 .f32) (v5 : FVec Ideal S4000x1 .f32) (v9 : FVec Ideal S1x128 .f32)
    (v14 : FVec Ideal S1x128 .f32) (u : Fin 1) (j : Fin 128) :
    k3_pay4 (F := Ideal) v3 v5 v9 v14 (ix2 u j)
      = v14 (ix2 u j) + ∑ r : Fin 4000, addRow (scaleRows v3 v5) v9 (ix2 r j) := by
  unfold k3_pay4
  dsimp only
  refine (addf_apply _ _ _).trans ?_
  refine congrArg₂ (· + ·) (congrFun (shapeCast_self v14 _) _) ?_
  refine (Cert.LibRowLayout.shapeCast_b_1b_apply _ _ u j).trans ?_
  refine (Cert.LibColumnSum.multiReduction_add_cols_apply (a := 4000) (b := 128)
    (k3_pay3 (F := Ideal) v3 v5 v9) _ _ _ j).trans ?_
  rw [pay3_eq]

/-- The row of sums of squares: the carried row plus, in column j, the sum over the block's rows of the squared
    activations. -/
theorem pay5_apply (v3 : FVec Ideal S4000x128 .f32) (v5 : FVec Ideal S4000x1 .f32) (v9 : FVec Ideal S1x128 .f32)
    (v20 : FVec Ideal S1x128 .f32) (u : Fin 1) (j : Fin 128) :
    k3_pay5 (F := Ideal) v3 v5 v9 v20 (ix2 u j)
      = v20 (ix2 u j) + ∑ r : Fin 4000,
          addRow (scaleRows v3 v5) v9 (ix2 r j) * addRow (scaleRows v3 v5) v9 (ix2 r j) := by
  unfold k3_pay5
  dsimp only
  refine (addf_apply _ _ _).trans ?_
  refine congrArg₂ (· + ·) (congrFun (shapeCast_self v20 _) _) ?_
  refine (Cert.LibRowLayout.shapeCast_b_1b_apply _ _ u j).trans ?_
  refine (Cert.LibColumnSum.multiReduction_add_cols_apply (a := 4000) (b := 128)
    (mulf (k3_pay3 (F := Ideal) v3 v5 v9) (k3_pay3 (F := Ideal) v3 v5 v9)) _ _ _ j).trans ?_
  rw [pay3_eq]
  rfl

/-- The row the sums start from is zero. -/
theorem pay1_apply (i : S1x128.Idx) : k3_pay1 (F := Ideal) i = 0 := by
  unfold k3_pay1
  exact Ideal.ofBits_zero_f32

/-- The row the sums of squares start from is zero. -/
theorem pay2_apply (i : S1x128.Idx) : k3_pay2 (F := Ideal) i = 0 := by
  unfold k3_pay2
  exact Ideal.ofBits_zero_f32

end Cert.KernelIdeal.RegionValues

end
-- ==== Proof.RegionStats.lean ====
/-
  The final arrays of the first graph's statistics region: the activations and the two accumulated rows.

  The region walks the 100000 rows of the aggregated features in 25 blocks of 4000 rows.  Point t writes back block t of
  the activations  H = addRow (scaleRows X S) B  (entry (r, j) is X(r, j) * S(r) + B(j)), so the activations' array
  ends holding H: row r lies in block r / 4000.  The two one-row outputs have a single block that is written back after
  the last point only; after point t they hold, in column j, the sum of H(r, j), respectively of H(r, j)², over the
  rows r < 4000 * (t + 1) — by induction on the point: the first point starts from the zero row, every later point adds
  its block's column sums to what the point before left.  After the last point the sums run over all 100000 rows
  (a sum over 25 tiles of 4000 entries is the sum over 25 * 4000 entries).
-/
import proofs.«136093_j68229850464275_1_alg».proof.Proof.RegionStatsRows
import proofs.«136093_j68229850464275_1_alg».proof.Proof.RegionStatsPieces
import proofs.«136093_j68229850464275_1_alg».proof.Proof.RegionStatsPay

noncomputable section

open scoped BigOperators
open Idealize.ShloMosaic Idealize.ShloMosaic.TcCoe Idealize.SL.Sem Idealize.ShloMosaic.ValueIdx
open Idealize.ShloMosaic.Pipeline (Dat)

namespace Cert.KernelIdeal.RegionValues

open Cert.KernelIdeal Cert.KernelIdeal.Gen Cert.LibTileOps Cert.Stages

/-! ## The region's blocks -/

section Region

variable (V : (c : Dev nD) → (b : Ref sig .tc) → Buf (Elt Ideal) ((c : Thread nD τ).loc b)) (c : Dev nD)

/-- The printed index maps, decided over the 25 points: the row-blocked windows are at block (t, 0), the one-block
    windows at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

theorem lt_rows3 (t : Fin cfg3.N) (r : Fin 4000) : t.val * 4000 + r.val < 100000 := by
  have hN : t.val < 25 := lt_of_lt_of_eq t.isLt (show cfg3.N = 25 from N_3)
  have hr := r.isLt
  omega

/-- The features' block at point t holds rows t * 4000 … of the features. -/
theorem iblk3_0_apply (t : Fin cfg3.N) (r : Fin 4000) (j : Fin 128) (h : t.val * 4000 + r.val < 100000) :
    (iblk3 V c 0 t : S4000x128.Idx → EReal) (ix2 r j)
      = (V c (Pipeline.arrRef spec3 0) : S100000x128.Idx → EReal) (ix2 ⟨t.val * 4000 + r.val, h⟩ j) := by
  obtain ⟨e00, e01, -⟩ := idx_facts3 t
  show (V c (Pipeline.arrRef spec3 0) : S100000x128.Idx → EReal) (((cfg3.win 0).blk t).view.emb (ix2 r j)) = _
  refine congrArg _ ?_
  funext a
  apply Fin.ext
  match a with
  | ⟨0, _⟩ => show win3_0.index t (0 : Fin 2) * 4000 + 1 * r.val = t.val * 4000 + r.val; rw [e00]; omega
  | ⟨1, _⟩ => show win3_0.index t (1 : Fin 2) * 128 + 1 * j.val = j.val; rw [e01]; omega

/-- The scales' block at point t holds rows t * 4000 … of the scales. -/
theorem iblk3_1_apply (t : Fin cfg3.N) (r : Fin 4000) (h : t.val * 4000 + r.val < 100000) :
    (iblk3 V c 1 t : S4000x1.Idx → EReal) (ix2 r (0 : Fin 1))
      = (V c (Pipeline.arrRef spec3 1) : S100000x1.Idx → EReal) (ix2 ⟨t.val * 4000 + r.val, h⟩ (0 : Fin 1)) := by
  obtain ⟨-, -, e10, e11, -⟩ := idx_facts3 t
  show (V c (Pipeline.arrRef spec3 1) : S100000x1.Idx → EReal) (((cfg3.win 1).blk t).view.emb (ix2 r (0 : Fin 1))) = _
  refine congrArg _ ?_
  funext a
  apply Fin.ext
  match a with
  | ⟨0, _⟩ => show win3_1.index t (0 : Fin 2) * 4000 + 1 * r.val = t.val * 4000 + r.val; rw [e10]; omega
  | ⟨1, _⟩ => show win3_1.index t (1 : Fin 2) * 1 + 1 * 0 = 0; rw [e11]

/-- The bias row's one block is the bias row. -/
theorem iblk3_2_eq (t : Fin cfg3.N) :
    (iblk3 V c 2 t : S1x128.Idx → EReal) = (V c (Pipeline.arrRef spec3 2) : S1x128.Idx → EReal) := by
  obtain ⟨-, -, -, -, e20, e21, -⟩ := idx_facts3 t
  funext y
  show (V c (Pipeline.arrRef spec3 2) : S1x128.Idx → EReal) (((cfg3.win 2).blk t).view.emb y) = _
  refine congrArg _ ?_
  funext a
  apply Fin.ext
  match a with
  | ⟨0, _⟩ => show win3_2.index t (0 : Fin 2) * 1 + 1 * (y 0).val = (y 0).val; rw [e20]; omega
  | ⟨1, _⟩ => show win3_2.index t (1 : Fin 2) * 128 + 1 * (y 1).val = (y 1).val; rw [e21]; omega

/-- The activations of the whole array: every row of the features times its scale, plus the bias row. -/
abbrev act3 : FVec Ideal S100000x128 .f32 := addRow (scaleRows (V c (Pipeline.arrRef spec3 0) : S100000x128.Idx → EReal) (V c (Pipeline.arrRef spec3 1) : S100000x1.Idx → EReal)) (V c (Pipeline.arrRef spec3 2) : S1x128.Idx → EReal)

/-- The block's activations at point t are rows t * 4000 … of the array's activations. -/
theorem block_row3 (t : Fin cfg3.N) (r : Fin 4000) (j : Fin 128) :
    addRow (scaleRows (iblk3 V c 0 t : S4000x128.Idx → EReal) (iblk3 V c 1 t : S4000x1.Idx → EReal)) (iblk3 V c 2 t : S1x128.Idx → EReal) (ix2 r j) = rowAt (act3 V c) j (t.val * 4000 + r.val) := by
  rw [rowAt_of_lt _ _ _ (lt_rows3 t r)]
  exact block_act (V c (Pipeline.arrRef spec3 0) : S100000x128.Idx → EReal) (V c (Pipeline.arrRef spec3 1) : S100000x1.Idx → EReal) (V c (Pipeline.arrRef spec3 2) : S1x128.Idx → EReal) (iblk3 V c 0 t : S4000x128.Idx → EReal) (iblk3 V c 1 t : S4000x1.Idx → EReal) (iblk3 V c 2 t : S1x128.Idx → EReal) t.val
    (fun r j h => iblk3_0_apply V c t r j h) (fun r h => iblk3_1_apply V c t r h) (iblk3_2_eq V c t) r j _

/-! ## The two carried rows, by induction on the point -/

/-- After point n the row of sums holds, in column j, the sum of the activations over the first n + 1 blocks of rows. -/
theorem sums_after3 : ∀ (n : ℕ) (h : n < cfg3.N) (u : Fin 1) (j : Fin 128),
    (outsAt3 V c n h).2.1 (ix2 u j)
      = ∑ t' ∈ Finset.range (n + 1), ∑ r : Fin 4000, rowAt (act3 V c) j (t' * 4000 + r.val)
  | 0, h, u, j => by
    rw [outsAt3_first V c ⟨0, h⟩ rfl]
    refine (pay4_apply (iblk3 V c 0 ⟨0, h⟩ : S4000x128.Idx → EReal) (iblk3 V c 1 ⟨0, h⟩ : S4000x1.Idx → EReal) (iblk3 V c 2 ⟨0, h⟩ : S1x128.Idx → EReal) (k3_pay1 (F := Ideal)) u j).trans ?_
    rw [pay1_apply, zero_add, Finset.sum_range_one]
    exact Finset.sum_congr rfl fun r _ => block_row3 V c ⟨0, h⟩ r j
  | n + 1, h, u, j => by
    have hB : ¬(⟨n + 1, h⟩ : Fin cfg3.N).val % 25 = 0 := by
      have hN : n + 1 < 25 := lt_of_lt_of_eq h (show cfg3.N = 25 from N_3)
      dsimp only; omega
    rw [outsAt3_later V c ⟨n + 1, h⟩ hB]
    refine (pay4_apply (iblk3 V c 0 ⟨n + 1, h⟩ : S4000x128.Idx → EReal) (iblk3 V c 1 ⟨n + 1, h⟩ : S4000x1.Idx → EReal) (iblk3 V c 2 ⟨n + 1, h⟩ : S1x128.Idx → EReal)
      (outsAt3 V c n (Nat.lt_of_succ_lt h)).2.1 u j).trans ?_
    rw [sums_after3 n (Nat.lt_of_succ_lt h) u j, Finset.sum_range_succ _ (n + 1)]
    exact congrArg _ (Finset.sum_congr rfl fun r _ => block_row3 V c ⟨n + 1, h⟩ r j)

/-- After point n the row of sums of squares holds, in column j, the sum of the squared activations over the first
    n + 1 blocks of rows. -/
theorem squares_after3 : ∀ (n : ℕ) (h : n < cfg3.N) (u : Fin 1) (j : Fin 128),
    (outsAt3 V c n h).2.2 (ix2 u j)
      = ∑ t' ∈ Finset.range (n + 1), ∑ r : Fin 4000,
          rowAt (act3 V c) j (t' * 4000 + r.val) * rowAt (act3 V c) j (t' * 4000 + r.val)
  | 0, h, u, j => by
    rw [outsAt3_first V c ⟨0, h⟩ rfl]
    refine (pay5_apply (iblk3 V c 0 ⟨0, h⟩ : S4000x128.Idx → EReal) (iblk3 V c 1 ⟨0, h⟩ : S4000x1.Idx → EReal) (iblk3 V c 2 ⟨0, h⟩ : S1x128.Idx → EReal) (k3_pay2 (F := Ideal)) u j).trans ?_
    rw [pay2_apply, zero_add, Finset.sum_range_one]
    exact Finset.sum_congr rfl fun r _ => by rw [block_row3 V c ⟨0, h⟩ r j]
  | n + 1, h, u, j => by
    have hB : ¬(⟨n + 1, h⟩ : Fin cfg3.N).val % 25 = 0 := by
      have hN : n + 1 < 25 := lt_of_lt_of_eq h (show cfg3.N = 25 from N_3)
      dsimp only; omega
    rw [outsAt3_later V c ⟨n + 1, h⟩ hB]
    refine (pay5_apply (iblk3 V c 0 ⟨n + 1, h⟩ : S4000x128.Idx → EReal) (iblk3 V c 1 ⟨n + 1, h⟩ : S4000x1.Idx → EReal) (iblk3 V c 2 ⟨n + 1, h⟩ : S1x128.Idx → EReal)
      (outsAt3 V c n (Nat.lt_of_succ_lt h)).2.2 u j).trans ?_
    rw [squares_after3 n (Nat.lt_of_succ_lt h) u j, Finset.sum_range_succ _ (n + 1)]
    exact congrArg _ (Finset.sum_congr rfl fun r _ => by rw [block_row3 V c ⟨n + 1, h⟩ r j])

/-! ## The activations' array -/

/-- What point t writes back is block t of the activations. -/
theorem flushed3_h (t : Fin cfg3.N) :
    (dat3 (F := Ideal) V c).flushed 3 t = ((cfg3.win 3).blk t).view.read (Elt Ideal) (act3 V c) := by
  show (cfg3.win 3).cut (grid3.coords t) ((dat3 (F := Ideal) V c).after 3 t) = _
  rw [after3_3, outsAt3_act]
  refine (pay3_eq (iblk3 V c 0 t : S4000x128.Idx → EReal) (iblk3 V c 1 t : S4000x1.Idx → EReal) (iblk3 V c 2 t : S1x128.Idx → EReal)).trans ?_
  obtain ⟨-, -, -, -, -, -, e30, e31, -⟩ := idx_facts3 t
  funext y
  obtain ⟨r, j, rfl⟩ : ∃ (r : Fin 4000) (j : Fin 128), y = ix2 r j := ⟨y 0, y 1, eq_ix2 y⟩
  refine (block_row3 V c t r j).trans ?_
  rw [rowAt_of_lt _ _ _ (lt_rows3 t r)]
  show act3 V c _ = act3 V c (((cfg3.win 3).blk t).view.emb (ix2 r j))
  refine congrArg _ ?_
  funext a
  apply Fin.ext
  match a with
  | ⟨0, _⟩ => show t.val * 4000 + r.val = win3_3.index t (0 : Fin 2) * 4000 + 1 * r.val; rw [e30]; omega
  | ⟨1, _⟩ => show j.val = win3_3.index t (1 : Fin 2) * 128 + 1 * j.val; rw [e31]; omega

/-- An index of the activations' array is in point t's block iff each coordinate is in the block's range on its axis. -/
theorem mem_blk3_h (t : Fin cfg3.N) (i : S100000x128.Idx) :
    i ∈ ((cfg3.win 3).blk t).view.set ↔ ∀ a : Fin 2, win3_3.index t a * S4000x128.size a ≤ (i a).val
      ∧ (i a).val < win3_3.index t a * S4000x128.size a + S4000x128.size a := by
  show i ∈ ((View.whole main_v42_0).slice (win3_3.rect t)).set ↔ _
  rw [View.set_slice_whole, Rect.mem_set_unit]
  exact Iff.rfl

/-- Row r of the array lies in the block of point r / 4000. -/
theorem cover3_h (i : S100000x128.Idx) :
    ∃ t : Fin cfg3.N, (cfg3.win 3).flush t = true ∧ i ∈ ((cfg3.win 3).blk t).view.set := by
  have h0 : (i 0).val < 100000 := (i 0).isLt
  have h1 : (i 1).val < 128 := (i 1).isLt
  have ht : (i 0).val / 4000 < cfg3.N := by rw [show cfg3.N = 25 from N_3]; omega
  refine ⟨⟨(i 0).val / 4000, ht⟩, flush3_3 _, ?_⟩
  obtain ⟨-, -, -, -, -, -, e30, e31, -⟩ := idx_facts3 ⟨(i 0).val / 4000, ht⟩
  rw [mem_blk3_h]
  intro a
  match a with
  | ⟨0, _⟩ =>
    show win3_3.index ⟨(i 0).val / 4000, ht⟩ (0 : Fin 2) * 4000 ≤ (i 0).val
      ∧ (i 0).val < win3_3.index ⟨(i 0).val / 4000, ht⟩ (0 : Fin 2) * 4000 + 4000
    rw [e30]; dsimp only; omega
  | ⟨1, _⟩ =>
    show win3_3.index ⟨(i 0).val / 4000, ht⟩ (1 : Fin 2) * 128 ≤ (i 1).val
      ∧ (i 1).val < win3_3.index ⟨(i 0).val / 4000, ht⟩ (1 : Fin 2) * 128 + 128
    rw [e31]; omega

/-- The activations' array ends holding the activations. -/
theorem final3_h : (dat3 (F := Ideal) V c).arrAt 3 cfg3.N
    = addRow (scaleRows (V c (Pipeline.arrRef spec3 0) : S100000x128.Idx → EReal) (V c (Pipeline.arrRef spec3 1) : S100000x1.Idx → EReal)) (V c (Pipeline.arrRef spec3 2) : S1x128.Idx → EReal) :=
  (dat3 (F := Ideal) V c).arrAt_eq_of_cover 3 (act3 V c) (fun t _ => flushed3_h V c t) cover3_h

/-! ## The row of column sums -/

/-- The row of sums' one block reads a one-row array as it is. -/
theorem read_blk3_s (t : Fin cfg3.N) (G : S1x128.Idx → EReal) (u : Fin 1) (j : Fin 128) :
    ((cfg3.win 4).blk t).view.read (Elt Ideal) G (ix2 u j) = G (ix2 u j) := by
  obtain ⟨-, -, -, -, -, -, -, -, e40, e41, e50, e51⟩ := idx_facts3 t
  show G (((cfg3.win 4).blk t).view.emb (ix2 u j)) = _
  refine congrArg G ?_
  funext a
  apply Fin.ext
  match a with
  | ⟨0, _⟩ => show win3_4.index t (0 : Fin 2) * 1 + 1 * u.val = u.val; rw [e40]; omega
  | ⟨1, _⟩ => show win3_4.index t (1 : Fin 2) * 128 + 1 * j.val = j.val; rw [e41]; omega

/-- The one write-back of the row of sums, after the last point, writes the column sums of the activations over all rows. -/
theorem flushed3_s (t : Fin cfg3.N) (hf : (cfg3.win 4).flush t = true) :
    (dat3 (F := Ideal) V c).flushed 4 t = ((cfg3.win 4).blk t).view.read (Elt Ideal) (colSum (act3 V c)) := by
  have hN : t.val < 25 := lt_of_lt_of_eq t.isLt (show cfg3.N = 25 from N_3)
  have h24 : t.val = 24 := by have := (flush3_4 t).mp hf; omega
  show (cfg3.win 4).cut (grid3.coords t) ((dat3 (F := Ideal) V c).after 4 t) = _
  rw [after3_4]
  funext y
  obtain ⟨u, j, rfl⟩ : ∃ (u : Fin 1) (j : Fin 128), y = ix2 u j := ⟨y 0, y 1, eq_ix2 y⟩
  refine (sums_after3 V c t.val t.isLt u j).trans ?_
  rw [h24, tiles_sum (act3 V c) j]
  exact ((read_blk3_s t (colSum (act3 V c)) u j).trans (colSum_apply (act3 V c) u j)).symm

/-- An index of the row of sums is in point t's block iff each coordinate is in the block's range on its axis. -/
theorem mem_blk3_s (t : Fin cfg3.N) (i : S1x128.Idx) :
    i ∈ ((cfg3.win 4).blk t).view.set ↔ ∀ a : Fin 2, win3_4.index t a * S1x128.size a ≤ (i a).val
      ∧ (i a).val < win3_4.index t a * S1x128.size a + S1x128.size a := by
  show i ∈ ((View.whole main_v42_1).slice (win3_4.rect t)).set ↔ _
  rw [View.set_slice_whole, Rect.mem_set_unit]
  exact Iff.rfl

/-- The one block, written back after the last point, is the whole row. -/
theorem cover3_s (i : S1x128.Idx) :
    ∃ t : Fin cfg3.N, (cfg3.win 4).flush t = true ∧ i ∈ ((cfg3.win 4).blk t).view.set := by
  have h0 : (i 0).val < 1 := (i 0).isLt
  have h1 : (i 1).val < 128 := (i 1).isLt
  have ht : 24 < cfg3.N := by rw [show cfg3.N = 25 from N_3]; omega
  refine ⟨⟨24, ht⟩, (flush3_4 ⟨24, ht⟩).mpr rfl, ?_⟩
  obtain ⟨-, -, -, -, -, -, -, -, e40, e41, e50, e51⟩ := idx_facts3 ⟨24, ht⟩
  rw [mem_blk3_s]
  intro a
  match a with
  | ⟨0, _⟩ =>
    show win3_4.index ⟨24, ht⟩ (0 : Fin 2) * 1 ≤ (i 0).val ∧ (i 0).val < win3_4.index ⟨24, ht⟩ (0 : Fin 2) * 1 + 1
    rw [e40]; omega
  | ⟨1, _⟩ =>
    show win3_4.index ⟨24, ht⟩ (1 : Fin 2) * 128 ≤ (i 1).val ∧ (i 1).val < win3_4.index ⟨24, ht⟩ (1 : Fin 2) * 128 + 128
    rw [e41]; omega

/-- The row of sums ends holding the column sums of the activations. -/
theorem final3_s : (dat3 (F := Ideal) V c).arrAt 4 cfg3.N
    = colSum (addRow (scaleRows (V c (Pipeline.arrRef spec3 0) : S100000x128.Idx → EReal) (V c (Pipeline.arrRef spec3 1) : S100000x1.Idx → EReal)) (V c (Pipeline.arrRef spec3 2) : S1x128.Idx → EReal)) :=
  (dat3 (F := Ideal) V c).arrAt_eq_of_cover 4 (colSum (act3 V c)) (flushed3_s V c) cover3_s

/-! ## The row of column sums of squares -/

/-- The row of sums of squares' one block reads a one-row array as it is. -/
theorem read_blk3_q (t : Fin cfg3.N) (G : S1x128.Idx → EReal) (u : Fin 1) (j : Fin 128) :
    ((cfg3.win 5).blk t).view.read (Elt Ideal) G (ix2 u j) = G (ix2 u j) := by
  obtain ⟨-, -, -, -, -, -, -, -, e40, e41, e50, e51⟩ := idx_facts3 t
  show G (((cfg3.win 5).blk t).view.emb (ix2 u j)) = _
  refine congrArg G ?_
  funext a
  apply Fin.ext
  match a with
  | ⟨0, _⟩ => show win3_5.index t (0 : Fin 2) * 1 + 1 * u.val = u.val; rw [e50]; omega
  | ⟨1, _⟩ => show win3_5.index t (1 : Fin 2) * 128 + 1 * j.val = j.val; rw [e51]; omega

/-- The one write-back of the row of sums of squares, after the last point, writes the column sums of the squared activations over all rows. -/
theorem flushed3_q (t : Fin cfg3.N) (hf : (cfg3.win 5).flush t = true) :
    (dat3 (F := Ideal) V c).flushed 5 t = ((cfg3.win 5).blk t).view.read (Elt Ideal) (colSumSq (act3 V c)) := by
  have hN : t.val < 25 := lt_of_lt_of_eq t.isLt (show cfg3.N = 25 from N_3)
  have h24 : t.val = 24 := by have := (flush3_5 t).mp hf; omega
  show (cfg3.win 5).cut (grid3.coords t) ((dat3 (F := Ideal) V c).after 5 t) = _
  rw [after3_5]
  funext y
  obtain ⟨u, j, rfl⟩ : ∃ (u : Fin 1) (j : Fin 128), y = ix2 u j := ⟨y 0, y 1, eq_ix2 y⟩
  refine (squares_after3 V c t.val t.isLt u j).trans ?_
  rw [h24, tiles_sum_sq (act3 V c) j]
  exact ((read_blk3_q t (colSumSq (act3 V c)) u j).trans (colSumSq_apply (act3 V c) u j)).symm

/-- An index of the row of sums of squares is in point t's block iff each coordinate is in the block's range on its axis. -/
theorem mem_blk3_q (t : Fin cfg3.N) (i : S1x128.Idx) :
    i ∈ ((cfg3.win 5).blk t).view.set ↔ ∀ a : Fin 2, win3_5.index t a * S1x128.size a ≤ (i a).val
      ∧ (i a).val < win3_5.index t a * S1x128.size a + S1x128.size a := by
  show i ∈ ((View.whole main_v42_2).slice (win3_5.rect t)).set ↔ _
  rw [View.set_slice_whole, Rect.mem_set_unit]
  exact Iff.rfl

/-- The one block, written back after the last point, is the whole row. -/
theorem cover3_q (i : S1x128.Idx) :
    ∃ t : Fin cfg3.N, (cfg3.win 5).flush t = true ∧ i ∈ ((cfg3.win 5).blk t).view.set := by
  have h0 : (i 0).val < 1 := (i 0).isLt
  have h1 : (i 1).val < 128 := (i 1).isLt
  have ht : 24 < cfg3.N := by rw [show cfg3.N = 25 from N_3]; omega
  refine ⟨⟨24, ht⟩, (flush3_5 ⟨24, ht⟩).mpr rfl, ?_⟩
  obtain ⟨-, -, -, -, -, -, -, -, e40, e41, e50, e51⟩ := idx_facts3 ⟨24, ht⟩
  rw [mem_blk3_q]
  intro a
  match a with
  | ⟨0, _⟩ =>
    show win3_5.index ⟨24, ht⟩ (0 : Fin 2) * 1 ≤ (i 0).val ∧ (i 0).val < win3_5.index ⟨24, ht⟩ (0 : Fin 2) * 1 + 1
    rw [e50]; omega
  | ⟨1, _⟩ =>
    show win3_5.index ⟨24, ht⟩ (1 : Fin 2) * 128 ≤ (i 1).val ∧ (i 1).val < win3_5.index ⟨24, ht⟩ (1 : Fin 2) * 128 + 128
    rw [e51]; omega

/-- The row of sums of squares ends holding the column sums of the squared activations. -/
theorem final3_q : (dat3 (F := Ideal) V c).arrAt 5 cfg3.N
    = colSumSq (addRow (scaleRows (V c (Pipeline.arrRef spec3 0) : S100000x128.Idx → EReal) (V c (Pipeline.arrRef spec3 1) : S100000x1.Idx → EReal)) (V c (Pipeline.arrRef spec3 2) : S1x128.Idx → EReal)) :=
  (dat3 (F := Ideal) V c).arrAt_eq_of_cover 5 (colSumSq (act3 V c)) (flushed3_q V c) cover3_q

end Region

end Cert.KernelIdeal.RegionValues

end
-- ==== Proof.RegionStatsPieces8.lean ====
/-
  What one grid point of the statistics region leaves in its three output buffers, as values.

  The body writes the block of activations  h = x * scale + bias  (one covering store), and adds to two carried
  one-row buffers the block's column sums and column sums of squares.  At the first point the two rows are first set
  to the zero row and read back; at every later point they are read as the point before left them.  Each output
  buffer's pieces therefore read back as one payload of the point's input blocks (and of the carried row).
  Generic in the float instance.
-/
import proofs.«136093_j68229850464275_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.RegionValues

open Cert.KernelIdeal Cert.KernelIdeal.Gen

variable {F : FTy → Type} [FloatOps F]

theorem hz2_8 : (![0, 0] : Fin 2 → Nat) = fun _ => 0 := funext fun a => by fin_cases a <;> rfl

/-! ## The first point: the two carried rows start from the zero row -/

/-- The first point: the activations' buffer holds the block's activations. -/
theorem piece8_A_3 (c : Dev nD) (i : grid8.Coords) (a1 : Memref sig .tc .vmem S4000x128 .f32) (h1 : a1.IsWhole)
    (a2 : Memref sig .tc .vmem S4000x1 .f32) (h2 : a2.IsWhole) (a3 : Memref sig .tc .vmem S1x128 .f32) (h3 : a3.IsWhole)
    (a4 : Memref sig .tc .vmem S4000x128 .f32) (h4 : a4.IsWhole) (a5 : Memref sig .tc .vmem S1x128 .f32) (h5 : a5.IsWhole)
    (a6 : Memref sig .tc .vmem S1x128 .f32) (h6 : a6.IsWhole) (hc : cond8_0 i)
    (x0 : Vec F S4000x128 .f32) (x1 : Vec F S4000x1 .f32) (x2 : Vec F S1x128 .f32) :
    out8_A_3 c i a1 h1 a2 h2 a3 h3 a4 h4 a5 h5 a6 h6 hc x0 x1 x2 = k8_pay3 x0 x1 x2 := by
  unfold out8_A_3
  rw [View.read_writes_eq_canon _ _ _ (cover8_A_3 c i a1 h1 a2 h2 a3 h3 a4 h4 a5 h5 a6 h6 hc x0 x1 x2)]
  unfold kernelRun8_A
  dsimp only
  rw [View.canon_unit_zero hz2_8]
  simp only [View.readAt_eq_ld, h1.read_unread, h2.read_unread, h3.read_unread,
    View.ld_unit_zero (S := S4000x128) hz2_8, View.ld_unit_zero (S := S4000x1) hz2_8, View.ld_unit_zero (S := S1x128) hz2_8]

/-- The first point: the row of sums holds the zero row plus the block's column sums. -/
theorem piece8_A_4 (c : Dev nD) (i : grid8.Coords) (a1 : Memref sig .tc .vmem S4000x128 .f32) (h1 : a1.IsWhole)
    (a2 : Memref sig .tc .vmem S4000x1 .f32) (h2 : a2.IsWhole) (a3 : Memref sig .tc .vmem S1x128 .f32) (h3 : a3.IsWhole)
    (a4 : Memref sig .tc .vmem S4000x128 .f32) (h4 : a4.IsWhole) (a5 : Memref sig .tc .vmem S1x128 .f32) (h5 : a5.IsWhole)
    (a6 : Memref sig .tc .vmem S1x128 .f32) (h6 : a6.IsWhole) (hc : cond8_0 i)
    (x0 : Vec F S4000x128 .f32) (x1 : Vec F S4000x1 .f32) (x2 : Vec F S1x128 .f32) :
    out8_A_4 c i a1 h1 a2 h2 a3 h3 a4 h4 a5 h5 a6 h6 hc x0 x1 x2 = k8_pay4 x0 x1 x2 (k8_pay1 (F := F)) := by
  unfold out8_A_4
  rw [View.read_writes_eq_canon _ _ _ (cover8_A_4 c i a1 h1 a2 h2 a3 h3 a4 h4 a5 h5 a6 h6 hc x0 x1 x2)]
  unfold kernelRun8_A
  dsimp only
  sl_unfold_words
  rw [View.canon_cons_unit_zero (S := S1x128) hz2_8, View.readCov_unit_zero (S := S1x128) _ hz2_8]
  simp only [View.readAt_eq_ld, h1.read_unread, h2.read_unread, h3.read_unread,
    View.ld_unit_zero (S := S4000x128) hz2_8, View.ld_unit_zero (S := S4000x1) hz2_8, View.ld_unit_zero (S := S1x128) hz2_8]

/-- The first point: the row of sums of squares holds the zero row plus the block's column sums of squares. -/
theorem piece8_A_5 (c : Dev nD) (i : grid8.Coords) (a1 : Memref sig .tc .vmem S4000x128 .f32) (h1 : a1.IsWhole)
    (a2 : Memref sig .tc .vmem S4000x1 .f32) (h2 : a2.IsWhole) (a3 : Memref sig .tc .vmem S1x128 .f32) (h3 : a3.IsWhole)
    (a4 : Memref sig .tc .vmem S4000x128 .f32) (h4 : a4.IsWhole) (a5 : Memref sig .tc .vmem S1x128 .f32) (h5 : a5.IsWhole)
    (a6 : Memref sig .tc .vmem S1x128 .f32) (h6 : a6.IsWhole) (hc : cond8_0 i)
    (x0 : Vec F S4000x128 .f32) (x1 : Vec F S4000x1 .f32) (x2 : Vec F S1x128 .f32) :
    out8_A_5 c i a1 h1 a2 h2 a3 h3 a4 h4 a5 h5 a6 h6 hc x0 x1 x2 = k8_pay5 x0 x1 x2 (k8_pay2 (F := F)) := by
  unfold out8_A_5
  rw [View.read_writes_eq_canon _ _ _ (cover8_A_5 c i a1 h1 a2 h2 a3 h3 a4 h4 a5 h5 a6 h6 hc x0 x1 x2)]
  unfold kernelRun8_A
  dsimp only
  sl_unfold_words
  rw [View.canon_cons_unit_zero (S := S1x128) hz2_8, View.readCov_unit_zero (S := S1x128) _ hz2_8]
  simp only [View.readAt_eq_ld, h1.read_unread, h2.read_unread, h3.read_unread,
    View.ld_unit_zero (S := S4000x128) hz2_8, View.ld_unit_zero (S := S4000x1) hz2_8, View.ld_unit_zero (S := S1x128) hz2_8]

/-! ## Every later point: the two carried rows continue from what the point before left -/

/-- A later point: the activations' buffer holds the block's activations. -/
theorem piece8_B_3 (c : Dev nD) (i : grid8.Coords) (a1 : Memref sig .tc .vmem S4000x128 .f32) (h1 : a1.IsWhole)
    (a2 : Memref sig .tc .vmem S4000x1 .f32) (h2 : a2.IsWhole) (a3 : Memref sig .tc .vmem S1x128 .f32) (h3 : a3.IsWhole)
    (a4 : Memref sig .tc .vmem S4000x128 .f32) (h4 : a4.IsWhole) (a5 : Memref sig .tc .vmem S1x128 .f32) (h5 : a5.IsWhole)
    (a6 : Memref sig .tc .vmem S1x128 .f32) (h6 : a6.IsWhole) (hc : ¬cond8_0 i)
    (x0 : Vec F S4000x128 .f32) (x1 : Vec F S4000x1 .f32) (x2 : Vec F S1x128 .f32) (xo4 xo5 : Vec F S1x128 .f32) :
    out8_B_3 c i a1 h1 a2 h2 a3 h3 a4 h4 a5 h5 a6 h6 hc x0 x1 x2 xo4 xo5 = k8_pay3 x0 x1 x2 := by
  unfold out8_B_3
  rw [View.read_writes_eq_canon _ _ _ (cover8_B_3 c i a1 h1 a2 h2 a3 h3 a4 h4 a5 h5 a6 h6 hc x0 x1 x2 xo4 xo5)]
  unfold kernelRun8_B
  dsimp only
  rw [View.canon_unit_zero hz2_8]
  simp only [View.readAt_eq_ld, h1.read_unread, h2.read_unread, h3.read_unread, h5.read_unread, h6.read_unread,
    View.ld_unit_zero (S := S4000x128) hz2_8, View.ld_unit_zero (S := S4000x1) hz2_8, View.ld_unit_zero (S := S1x128) hz2_8]

/-- A later point: the row of sums holds the carried row plus the block's column sums. -/
theorem piece8_B_4 (c : Dev nD) (i : grid8.Coords) (a1 : Memref sig .tc .vmem S4000x128 .f32) (h1 : a1.IsWhole)
    (a2 : Memref sig .tc .vmem S4000x1 .f32) (h2 : a2.IsWhole) (a3 : Memref sig .tc .vmem S1x128 .f32) (h3 : a3.IsWhole)
    (a4 : Memref sig .tc .vmem S4000x128 .f32) (h4 : a4.IsWhole) (a5 : Memref sig .tc .vmem S1x128 .f32) (h5 : a5.IsWhole)
    (a6 : Memref sig .tc .vmem S1x128 .f32) (h6 : a6.IsWhole) (hc : ¬cond8_0 i)
    (x0 : Vec F S4000x128 .f32) (x1 : Vec F S4000x1 .f32) (x2 : Vec F S1x128 .f32) (xo4 xo5 : Vec F S1x128 .f32) :
    out8_B_4 c i a1 h1 a2 h2 a3 h3 a4 h4 a5 h5 a6 h6 hc x0 x1 x2 xo4 xo5 = k8_pay4 x0 x1 x2 xo4 := by
  unfold out8_B_4
  rw [View.read_writes_eq_canon _ _ _ (cover8_B_4 c i a1 h1 a2 h2 a3 h3 a4 h4 a5 h5 a6 h6 hc x0 x1 x2 xo4 xo5)]
  unfold kernelRun8_B
  dsimp only
  rw [View.canon_unit_zero hz2_8]
  simp only [View.readAt_eq_ld, h1.read_unread, h2.read_unread, h3.read_unread, h5.read_unread, h6.read_unread,
    View.ld_unit_zero (S := S4000x128) hz2_8, View.ld_unit_zero (S := S4000x1) hz2_8, View.ld_unit_zero (S := S1x128) hz2_8]

/-- A later point: the row of sums of squares holds the carried row plus the block's column sums of squares. -/
theorem piece8_B_5 (c : Dev nD) (i : grid8.Coords) (a1 : Memref sig .tc .vmem S4000x128 .f32) (h1 : a1.IsWhole)
    (a2 : Memref sig .tc .vmem S4000x1 .f32) (h2 : a2.IsWhole) (a3 : Memref sig .tc .vmem S1x128 .f32) (h3 : a3.IsWhole)
    (a4 : Memref sig .tc .vmem S4000x128 .f32) (h4 : a4.IsWhole) (a5 : Memref sig .tc .vmem S1x128 .f32) (h5 : a5.IsWhole)
    (a6 : Memref sig .tc .vmem S1x128 .f32) (h6 : a6.IsWhole) (hc : ¬cond8_0 i)
    (x0 : Vec F S4000x128 .f32) (x1 : Vec F S4000x1 .f32) (x2 : Vec F S1x128 .f32) (xo4 xo5 : Vec F S1x128 .f32) :
    out8_B_5 c i a1 h1 a2 h2 a3 h3 a4 h4 a5 h5 a6 h6 hc x0 x1 x2 xo4 xo5 = k8_pay5 x0 x1 x2 xo5 := by
  unfold out8_B_5
  rw [View.read_writes_eq_canon _ _ _ (cover8_B_5 c i a1 h1 a2 h2 a3 h3 a4 h4 a5 h5 a6 h6 hc x0 x1 x2 xo4 xo5)]
  unfold kernelRun8_B
  dsimp only
  rw [View.canon_unit_zero hz2_8]
  simp only [View.readAt_eq_ld, h1.read_unread, h2.read_unread, h3.read_unread, h5.read_unread, h6.read_unread,
    View.ld_unit_zero (S := S4000x128) hz2_8, View.ld_unit_zero (S := S4000x1) hz2_8, View.ld_unit_zero (S := S1x128) hz2_8]

/-! ## What the three buffers hold after a point, as payloads of the point's blocks -/

section Point

variable (V : (c : Dev nD) → (b : Ref sig .tc) → Buf (Elt F) ((c : Thread nD τ).loc b))

/-- After the first point: the block's activations, and the two rows started from the zero row. -/
theorem outsAt8_first (c : Dev nD) (t : Fin cfg8.N) (h0 : t.val % 25 = 0) :
    outsAt8 V c t.val t.isLt
      = (k8_pay3 (iblk8 V c 0 t) (iblk8 V c 1 t) (iblk8 V c 2 t),
         k8_pay4 (iblk8 V c 0 t) (iblk8 V c 1 t) (iblk8 V c 2 t) (k8_pay1 (F := F)),
         k8_pay5 (iblk8 V c 0 t) (iblk8 V c 1 t) (iblk8 V c 2 t) (k8_pay2 (F := F))) :=
  (outsAt8_A V c t h0).trans (congrArg₂ Prod.mk
    (piece8_A_3 c (grid8.coords t) (ms8_0 t) (hs8_0 t) (ms8_1 t) (hs8_1 t) (ms8_2 t) (hs8_2 t) (ms8_3 t) (hs8_3 t) (ms8_4 t) (hs8_4 t) (ms8_5 t) (hs8_5 t) ((hcond8_0 t).mpr h0) (iblk8 V c 0 t) (iblk8 V c 1 t) (iblk8 V c 2 t))
    (congrArg₂ Prod.mk
      (piece8_A_4 c (grid8.coords t) (ms8_0 t) (hs8_0 t) (ms8_1 t) (hs8_1 t) (ms8_2 t) (hs8_2 t) (ms8_3 t) (hs8_3 t) (ms8_4 t) (hs8_4 t) (ms8_5 t) (hs8_5 t) ((hcond8_0 t).mpr h0) (iblk8 V c 0 t) (iblk8 V c 1 t) (iblk8 V c 2 t))
      (piece8_A_5 c (grid8.coords t) (ms8_0 t) (hs8_0 t) (ms8_1 t) (hs8_1 t) (ms8_2 t) (hs8_2 t) (ms8_3 t) (hs8_3 t) (ms8_4 t) (hs8_4 t) (ms8_5 t) (hs8_5 t) ((hcond8_0 t).mpr h0) (iblk8 V c 0 t) (iblk8 V c 1 t) (iblk8 V c 2 t))))

/-- After a later point: the block's activations, and the two rows continued from the point before. -/
theorem outsAt8_later (c : Dev nD) (t : Fin cfg8.N) (h0 : ¬t.val % 25 = 0) :
    outsAt8 V c t.val t.isLt
      = (k8_pay3 (iblk8 V c 0 t) (iblk8 V c 1 t) (iblk8 V c 2 t),
         k8_pay4 (iblk8 V c 0 t) (iblk8 V c 1 t) (iblk8 V c 2 t) (outsAt8 V c (t.val - 1) (Nat.lt_of_le_of_lt (Nat.sub_le _ _) t.isLt)).2.1,
         k8_pay5 (iblk8 V c 0 t) (iblk8 V c 1 t) (iblk8 V c 2 t) (outsAt8 V c (t.val - 1) (Nat.lt_of_le_of_lt (Nat.sub_le _ _) t.isLt)).2.2) :=
  (outsAt8_B V c t h0).trans (congrArg₂ Prod.mk
    (piece8_B_3 c (grid8.coords t) (ms8_0 t) (hs8_0 t) (ms8_1 t) (hs8_1 t) (ms8_2 t) (hs8_2 t) (ms8_3 t) (hs8_3 t) (ms8_4 t) (hs8_4 t) (ms8_5 t) (hs8_5 t) (fun h => h0 ((hcond8_0 t).mp h)) (iblk8 V c 0 t) (iblk8 V c 1 t) (iblk8 V c 2 t) (outsAt8 V c (t.val - 1) (Nat.lt_of_le_of_lt (Nat.sub_le _ _) t.isLt)).2.1 (outsAt8 V c (t.val - 1) (Nat.lt_of_le_of_lt (Nat.sub_le _ _) t.isLt)).2.2)
    (congrArg₂ Prod.mk
      (piece8_B_4 c (grid8.coords t) (ms8_0 t) (hs8_0 t) (ms8_1 t) (hs8_1 t) (ms8_2 t) (hs8_2 t) (ms8_3 t) (hs8_3 t) (ms8_4 t) (hs8_4 t) (ms8_5 t) (hs8_5 t) (fun h => h0 ((hcond8_0 t).mp h)) (iblk8 V c 0 t) (iblk8 V c 1 t) (iblk8 V c 2 t) (outsAt8 V c (t.val - 1) (Nat.lt_of_le_of_lt (Nat.sub_le _ _) t.isLt)).2.1 (outsAt8 V c (t.val - 1) (Nat.lt_of_le_of_lt (Nat.sub_le _ _) t.isLt)).2.2)
      (piece8_B_5 c (grid8.coords t) (ms8_0 t) (hs8_0 t) (ms8_1 t) (hs8_1 t) (ms8_2 t) (hs8_2 t) (ms8_3 t) (hs8_3 t) (ms8_4 t) (hs8_4 t) (ms8_5 t) (hs8_5 t) (fun h => h0 ((hcond8_0 t).mp h)) (iblk8 V c 0 t) (iblk8 V c 1 t) (iblk8 V c 2 t) (outsAt8 V c (t.val - 1) (Nat.lt_of_le_of_lt (Nat.sub_le _ _) t.isLt)).2.1 (outsAt8 V c (t.val - 1) (Nat.lt_of_le_of_lt (Nat.sub_le _ _) t.isLt)).2.2)))

/-- At every point the activations' buffer holds the block's activations. -/
theorem outsAt8_act (c : Dev nD) (t : Fin cfg8.N) :
    (outsAt8 V c t.val t.isLt).1 = k8_pay3 (iblk8 V c 0 t) (iblk8 V c 1 t) (iblk8 V c 2 t) := by
  by_cases h0 : t.val % 25 = 0
  · rw [outsAt8_first V c t h0]
  · rw [outsAt8_later V c t h0]

end Point

end Cert.KernelIdeal.RegionValues

end
-- ==== Proof.RegionStatsPay8.lean ====
/-
  The statistics region's payloads over the extended reals, as array operations on one block.

  With  x0  a block of 4000 rows of the aggregated features,  x1  the block's column of row scales and  x2  the bias
  row, the stored activations are  addRow (scaleRows x0 x1) x2 : entry (r, j) is  x0(r, j) * x1(r) + x2(j).
  The two one-row payloads add to a carried row, column by column, the sum over the block's 4000 rows of the
  activations, respectively of their squares.  The rows the first point starts from are the zero literal's value.
-/
import proofs.«136093_j68229850464275_1_alg».proof.Proof.Gen.KernelIdeal.Skeleton
import proofs.«136093_j68229850464275_1_alg».proof.Proof.Stages
import proofs.«136093_j68229850464275_1_alg».proof.Proof.LibColumnSum
import proofs.«136093_j68229850464275_1_alg».proof.Proof.LibKeepdims
import proofs.«136093_j68229850464275_1_alg».proof.Proof.LibRowLayout
import Idealize.ShloMosaic.Lib.Pipeline.Value

noncomputable section

open scoped BigOperators
open Idealize.ShloMosaic Idealize.ShloMosaic.ValueIdx

namespace Cert.KernelIdeal.RegionValues

open Cert.KernelIdeal Cert.KernelIdeal.Gen Cert.LibTileOps Cert.Stages

/-- The stored block of activations: each row of the block times its scale, plus the bias row. -/
theorem pay8_3_eq (v3 : FVec Ideal S4000x128 .f32) (v5 : FVec Ideal S4000x1 .f32) (v9 : FVec Ideal S1x128 .f32) :
    k8_pay3 (F := Ideal) v3 v5 v9 = addRow (scaleRows v3 v5) v9 := by
  funext i
  obtain ⟨p, q, rfl⟩ : ∃ (p : Fin 4000) (q : Fin 128), i = ix2 p q := ⟨i 0, i 1, eq_ix2 i⟩
  rw [addRow_apply, scaleRows_apply]
  unfold k8_pay3
  refine (addf_apply _ _ _).trans ?_
  refine congrArg₂ (· + ·) ((mulf_apply _ _ _).trans (congrArg₂ (· * ·) ?_ ?_)) ?_
  · exact congrFun (shapeCast_self v3 _) _
  · refine (Cert.LibKeepdims.broadcastTo_a1_ab_apply _ _ p q).trans ?_
    exact congrFun (shapeCast_self v5 _) _
  · refine (Cert.LibRowLayout.broadcastTo_1b_ab_apply _ _ p q).trans ?_
    exact congrFun (shapeCast_self v9 _) _

/-- The row of sums: the carried row plus, in column j, the sum over the block's rows of the activations. -/
theorem pay8_4_apply (v3 : FVec Ideal S4000x128 .f32) (v5 : FVec Ideal S4000x1 .f32) (v9 : FVec Ideal S1x128 .f32)
    (v14 : FVec Ideal S1x128 .f32) (u : Fin 1) (j : Fin 128) :
    k8_pay4 (F := Ideal) v3 v5 v9 v14 (ix2 u j)
      = v14 (ix2 u j) + ∑ r : Fin 4000, addRow (scaleRows v3 v5) v9 (ix2 r j) := by
  unfold k8_pay4
  dsimp only
  refine (addf_apply _ _ _).trans ?_
  refine congrArg₂ (· + ·) (congrFun (shapeCast_self v14 _) _) ?_
  refine (Cert.LibRowLayout.shapeCast_b_1b_apply _ _ u j).trans ?_
  refine (Cert.LibColumnSum.multiReduction_add_cols_apply (a := 4000) (b := 128)
    (k8_pay3 (F := Ideal) v3 v5 v9) _ _ _ j).trans ?_
  rw [pay8_3_eq]

/-- The row of sums of squares: the carried row plus, in column j, the sum over the block's rows of the squared
    activations. -/
theorem pay8_5_apply (v3 : FVec Ideal S4000x128 .f32) (v5 : FVec Ideal S4000x1 .f32) (v9 : FVec Ideal S1x128 .f32)
    (v20 : FVec Ideal S1x128 .f32) (u : Fin 1) (j : Fin 128) :
    k8_pay5 (F := Ideal) v3 v5 v9 v20 (ix2 u j)
      = v20 (ix2 u j) + ∑ r : Fin 4000,
          addRow (scaleRows v3 v5) v9 (ix2 r j) * addRow (scaleRows v3 v5) v9 (ix2 r j) := by
  unfold k8_pay5
  dsimp only
  refine (addf_apply _ _ _).trans ?_
  refine congrArg₂ (· + ·) (congrFun (shapeCast_self v20 _) _) ?_
  refine (Cert.LibRowLayout.shapeCast_b_1b_apply _ _ u j).trans ?_
  refine (Cert.LibColumnSum.multiReduction_add_cols_apply (a := 4000) (b := 128)
    (mulf (k8_pay3 (F := Ideal) v3 v5 v9) (k8_pay3 (F := Ideal) v3 v5 v9)) _ _ _ j).trans ?_
  rw [pay8_3_eq]
  rfl

/-- The row the sums start from is zero. -/
theorem pay8_1_apply (i : S1x128.Idx) : k8_pay1 (F := Ideal) i = 0 := by
  unfold k8_pay1
  exact Ideal.ofBits_zero_f32

/-- The row the sums of squares start from is zero. -/
theorem pay8_2_apply (i : S1x128.Idx) : k8_pay2 (F := Ideal) i = 0 := by
  unfold k8_pay2
  exact Ideal.ofBits_zero_f32

end Cert.KernelIdeal.RegionValues

end
-- ==== Proof.RegionStats8.lean ====
/-
  The final arrays of the second graph's statistics region: the activations and the two accumulated rows.

  The region walks the 100000 rows of the aggregated features in 25 blocks of 4000 rows.  Point t writes back block t of
  the activations  H = addRow (scaleRows X S) B  (entry (r, j) is X(r, j) * S(r) + B(j)), so the activations' array
  ends holding H: row r lies in block r / 4000.  The two one-row outputs have a single block that is written back after
  the last point only; after point t they hold, in column j, the sum of H(r, j), respectively of H(r, j)², over the
  rows r < 4000 * (t + 1) — by induction on the point: the first point starts from the zero row, every later point adds
  its block's column sums to what the point before left.  After the last point the sums run over all 100000 rows
  (a sum over 25 tiles of 4000 entries is the sum over 25 * 4000 entries).
-/
import proofs.«136093_j68229850464275_1_alg».proof.Proof.RegionStatsRows
import proofs.«136093_j68229850464275_1_alg».proof.Proof.RegionStatsPieces8
import proofs.«136093_j68229850464275_1_alg».proof.Proof.RegionStatsPay8

noncomputable section

open scoped BigOperators
open Idealize.ShloMosaic Idealize.ShloMosaic.TcCoe Idealize.SL.Sem Idealize.ShloMosaic.ValueIdx
open Idealize.ShloMosaic.Pipeline (Dat)

namespace Cert.KernelIdeal.RegionValues

open Cert.KernelIdeal Cert.KernelIdeal.Gen Cert.LibTileOps Cert.Stages

/-! ## The region's blocks -/

section Region

variable (V : (c : Dev nD) → (b : Ref sig .tc) → Buf (Elt Ideal) ((c : Thread nD τ).loc b)) (c : Dev nD)

/-- The printed index maps, decided over the 25 points: the row-blocked windows are at block (t, 0), the one-block
    windows at block (0, 0). -/
theorem idx_facts8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0 :=
  (by decide +kernel : ∀ t : Fin grid8.N, _)

theorem lt_rows8 (t : Fin cfg8.N) (r : Fin 4000) : t.val * 4000 + r.val < 100000 := by
  have hN : t.val < 25 := lt_of_lt_of_eq t.isLt (show cfg8.N = 25 from N_8)
  have hr := r.isLt
  omega

/-- The features' block at point t holds rows t * 4000 … of the features. -/
theorem iblk8_0_apply (t : Fin cfg8.N) (r : Fin 4000) (j : Fin 128) (h : t.val * 4000 + r.val < 100000) :
    (iblk8 V c 0 t : S4000x128.Idx → EReal) (ix2 r j)
      = (V c (Pipeline.arrRef spec8 0) : S100000x128.Idx → EReal) (ix2 ⟨t.val * 4000 + r.val, h⟩ j) := by
  obtain ⟨e00, e01, -⟩ := idx_facts8 t
  show (V c (Pipeline.arrRef spec8 0) : S100000x128.Idx → EReal) (((cfg8.win 0).blk t).view.emb (ix2 r j)) = _
  refine congrArg _ ?_
  funext a
  apply Fin.ext
  match a with
  | ⟨0, _⟩ => show win8_0.index t (0 : Fin 2) * 4000 + 1 * r.val = t.val * 4000 + r.val; rw [e00]; omega
  | ⟨1, _⟩ => show win8_0.index t (1 : Fin 2) * 128 + 1 * j.val = j.val; rw [e01]; omega

/-- The scales' block at point t holds rows t * 4000 … of the scales. -/
theorem iblk8_1_apply (t : Fin cfg8.N) (r : Fin 4000) (h : t.val * 4000 + r.val < 100000) :
    (iblk8 V c 1 t : S4000x1.Idx → EReal) (ix2 r (0 : Fin 1))
      = (V c (Pipeline.arrRef spec8 1) : S100000x1.Idx → EReal) (ix2 ⟨t.val * 4000 + r.val, h⟩ (0 : Fin 1)) := by
  obtain ⟨-, -, e10, e11, -⟩ := idx_facts8 t
  show (V c (Pipeline.arrRef spec8 1) : S100000x1.Idx → EReal) (((cfg8.win 1).blk t).view.emb (ix2 r (0 : Fin 1))) = _
  refine congrArg _ ?_
  funext a
  apply Fin.ext
  match a with
  | ⟨0, _⟩ => show win8_1.index t (0 : Fin 2) * 4000 + 1 * r.val = t.val * 4000 + r.val; rw [e10]; omega
  | ⟨1, _⟩ => show win8_1.index t (1 : Fin 2) * 1 + 1 * 0 = 0; rw [e11]

/-- The bias row's one block is the bias row. -/
theorem iblk8_2_eq (t : Fin cfg8.N) :
    (iblk8 V c 2 t : S1x128.Idx → EReal) = (V c (Pipeline.arrRef spec8 2) : S1x128.Idx → EReal) := by
  obtain ⟨-, -, -, -, e20, e21, -⟩ := idx_facts8 t
  funext y
  show (V c (Pipeline.arrRef spec8 2) : S1x128.Idx → EReal) (((cfg8.win 2).blk t).view.emb y) = _
  refine congrArg _ ?_
  funext a
  apply Fin.ext
  match a with
  | ⟨0, _⟩ => show win8_2.index t (0 : Fin 2) * 1 + 1 * (y 0).val = (y 0).val; rw [e20]; omega
  | ⟨1, _⟩ => show win8_2.index t (1 : Fin 2) * 128 + 1 * (y 1).val = (y 1).val; rw [e21]; omega

/-- The activations of the whole array: every row of the features times its scale, plus the bias row. -/
abbrev act8 : FVec Ideal S100000x128 .f32 := addRow (scaleRows (V c (Pipeline.arrRef spec8 0) : S100000x128.Idx → EReal) (V c (Pipeline.arrRef spec8 1) : S100000x1.Idx → EReal)) (V c (Pipeline.arrRef spec8 2) : S1x128.Idx → EReal)

/-- The block's activations at point t are rows t * 4000 … of the array's activations. -/
theorem block_row8 (t : Fin cfg8.N) (r : Fin 4000) (j : Fin 128) :
    addRow (scaleRows (iblk8 V c 0 t : S4000x128.Idx → EReal) (iblk8 V c 1 t : S4000x1.Idx → EReal)) (iblk8 V c 2 t : S1x128.Idx → EReal) (ix2 r j) = rowAt (act8 V c) j (t.val * 4000 + r.val) := by
  rw [rowAt_of_lt _ _ _ (lt_rows8 t r)]
  exact block_act (V c (Pipeline.arrRef spec8 0) : S100000x128.Idx → EReal) (V c (Pipeline.arrRef spec8 1) : S100000x1.Idx → EReal) (V c (Pipeline.arrRef spec8 2) : S1x128.Idx → EReal) (iblk8 V c 0 t : S4000x128.Idx → EReal) (iblk8 V c 1 t : S4000x1.Idx → EReal) (iblk8 V c 2 t : S1x128.Idx → EReal) t.val
    (fun r j h => iblk8_0_apply V c t r j h) (fun r h => iblk8_1_apply V c t r h) (iblk8_2_eq V c t) r j _

/-! ## The two carried rows, by induction on the point -/

/-- After point n the row of sums holds, in column j, the sum of the activations over the first n + 1 blocks of rows. -/
theorem sums_after8 : ∀ (n : ℕ) (h : n < cfg8.N) (u : Fin 1) (j : Fin 128),
    (outsAt8 V c n h).2.1 (ix2 u j)
      = ∑ t' ∈ Finset.range (n + 1), ∑ r : Fin 4000, rowAt (act8 V c) j (t' * 4000 + r.val)
  | 0, h, u, j => by
    rw [outsAt8_first V c ⟨0, h⟩ rfl]
    refine (pay8_4_apply (iblk8 V c 0 ⟨0, h⟩ : S4000x128.Idx → EReal) (iblk8 V c 1 ⟨0, h⟩ : S4000x1.Idx → EReal) (iblk8 V c 2 ⟨0, h⟩ : S1x128.Idx → EReal) (k8_pay1 (F := Ideal)) u j).trans ?_
    rw [pay8_1_apply, zero_add, Finset.sum_range_one]
    exact Finset.sum_congr rfl fun r _ => block_row8 V c ⟨0, h⟩ r j
  | n + 1, h, u, j => by
    have hB : ¬(⟨n + 1, h⟩ : Fin cfg8.N).val % 25 = 0 := by
      have hN : n + 1 < 25 := lt_of_lt_of_eq h (show cfg8.N = 25 from N_8)
      dsimp only; omega
    rw [outsAt8_later V c ⟨n + 1, h⟩ hB]
    refine (pay8_4_apply (iblk8 V c 0 ⟨n + 1, h⟩ : S4000x128.Idx → EReal) (iblk8 V c 1 ⟨n + 1, h⟩ : S4000x1.Idx → EReal) (iblk8 V c 2 ⟨n + 1, h⟩ : S1x128.Idx → EReal)
      (outsAt8 V c n (Nat.lt_of_succ_lt h)).2.1 u j).trans ?_
    rw [sums_after8 n (Nat.lt_of_succ_lt h) u j, Finset.sum_range_succ _ (n + 1)]
    exact congrArg _ (Finset.sum_congr rfl fun r _ => block_row8 V c ⟨n + 1, h⟩ r j)

/-- After point n the row of sums of squares holds, in column j, the sum of the squared activations over the first
    n + 1 blocks of rows. -/
theorem squares_after8 : ∀ (n : ℕ) (h : n < cfg8.N) (u : Fin 1) (j : Fin 128),
    (outsAt8 V c n h).2.2 (ix2 u j)
      = ∑ t' ∈ Finset.range (n + 1), ∑ r : Fin 4000,
          rowAt (act8 V c) j (t' * 4000 + r.val) * rowAt (act8 V c) j (t' * 4000 + r.val)
  | 0, h, u, j => by
    rw [outsAt8_first V c ⟨0, h⟩ rfl]
    refine (pay8_5_apply (iblk8 V c 0 ⟨0, h⟩ : S4000x128.Idx → EReal) (iblk8 V c 1 ⟨0, h⟩ : S4000x1.Idx → EReal) (iblk8 V c 2 ⟨0, h⟩ : S1x128.Idx → EReal) (k8_pay2 (F := Ideal)) u j).trans ?_
    rw [pay8_2_apply, zero_add, Finset.sum_range_one]
    exact Finset.sum_congr rfl fun r _ => by rw [block_row8 V c ⟨0, h⟩ r j]
  | n + 1, h, u, j => by
    have hB : ¬(⟨n + 1, h⟩ : Fin cfg8.N).val % 25 = 0 := by
      have hN : n + 1 < 25 := lt_of_lt_of_eq h (show cfg8.N = 25 from N_8)
      dsimp only; omega
    rw [outsAt8_later V c ⟨n + 1, h⟩ hB]
    refine (pay8_5_apply (iblk8 V c 0 ⟨n + 1, h⟩ : S4000x128.Idx → EReal) (iblk8 V c 1 ⟨n + 1, h⟩ : S4000x1.Idx → EReal) (iblk8 V c 2 ⟨n + 1, h⟩ : S1x128.Idx → EReal)
      (outsAt8 V c n (Nat.lt_of_succ_lt h)).2.2 u j).trans ?_
    rw [squares_after8 n (Nat.lt_of_succ_lt h) u j, Finset.sum_range_succ _ (n + 1)]
    exact congrArg _ (Finset.sum_congr rfl fun r _ => by rw [block_row8 V c ⟨n + 1, h⟩ r j])

/-! ## The activations' array -/

/-- What point t writes back is block t of the activations. -/
theorem flushed8_h (t : Fin cfg8.N) :
    (dat8 (F := Ideal) V c).flushed 3 t = ((cfg8.win 3).blk t).view.read (Elt Ideal) (act8 V c) := by
  show (cfg8.win 3).cut (grid8.coords t) ((dat8 (F := Ideal) V c).after 3 t) = _
  rw [after8_3, outsAt8_act]
  refine (pay8_3_eq (iblk8 V c 0 t : S4000x128.Idx → EReal) (iblk8 V c 1 t : S4000x1.Idx → EReal) (iblk8 V c 2 t : S1x128.Idx → EReal)).trans ?_
  obtain ⟨-, -, -, -, -, -, e30, e31, -⟩ := idx_facts8 t
  funext y
  obtain ⟨r, j, rfl⟩ : ∃ (r : Fin 4000) (j : Fin 128), y = ix2 r j := ⟨y 0, y 1, eq_ix2 y⟩
  refine (block_row8 V c t r j).trans ?_
  rw [rowAt_of_lt _ _ _ (lt_rows8 t r)]
  show act8 V c _ = act8 V c (((cfg8.win 3).blk t).view.emb (ix2 r j))
  refine congrArg _ ?_
  funext a
  apply Fin.ext
  match a with
  | ⟨0, _⟩ => show t.val * 4000 + r.val = win8_3.index t (0 : Fin 2) * 4000 + 1 * r.val; rw [e30]; omega
  | ⟨1, _⟩ => show j.val = win8_3.index t (1 : Fin 2) * 128 + 1 * j.val; rw [e31]; omega

/-- An index of the activations' array is in point t's block iff each coordinate is in the block's range on its axis. -/
theorem mem_blk8_h (t : Fin cfg8.N) (i : S100000x128.Idx) :
    i ∈ ((cfg8.win 3).blk t).view.set ↔ ∀ a : Fin 2, win8_3.index t a * S4000x128.size a ≤ (i a).val
      ∧ (i a).val < win8_3.index t a * S4000x128.size a + S4000x128.size a := by
  show i ∈ ((View.whole main_v95_0).slice (win8_3.rect t)).set ↔ _
  rw [View.set_slice_whole, Rect.mem_set_unit]
  exact Iff.rfl

/-- Row r of the array lies in the block of point r / 4000. -/
theorem cover8_h (i : S100000x128.Idx) :
    ∃ t : Fin cfg8.N, (cfg8.win 3).flush t = true ∧ i ∈ ((cfg8.win 3).blk t).view.set := by
  have h0 : (i 0).val < 100000 := (i 0).isLt
  have h1 : (i 1).val < 128 := (i 1).isLt
  have ht : (i 0).val / 4000 < cfg8.N := by rw [show cfg8.N = 25 from N_8]; omega
  refine ⟨⟨(i 0).val / 4000, ht⟩, flush8_3 _, ?_⟩
  obtain ⟨-, -, -, -, -, -, e30, e31, -⟩ := idx_facts8 ⟨(i 0).val / 4000, ht⟩
  rw [mem_blk8_h]
  intro a
  match a with
  | ⟨0, _⟩ =>
    show win8_3.index ⟨(i 0).val / 4000, ht⟩ (0 : Fin 2) * 4000 ≤ (i 0).val
      ∧ (i 0).val < win8_3.index ⟨(i 0).val / 4000, ht⟩ (0 : Fin 2) * 4000 + 4000
    rw [e30]; dsimp only; omega
  | ⟨1, _⟩ =>
    show win8_3.index ⟨(i 0).val / 4000, ht⟩ (1 : Fin 2) * 128 ≤ (i 1).val
      ∧ (i 1).val < win8_3.index ⟨(i 0).val / 4000, ht⟩ (1 : Fin 2) * 128 + 128
    rw [e31]; omega

/-- The activations' array ends holding the activations. -/
theorem final8_h : (dat8 (F := Ideal) V c).arrAt 3 cfg8.N
    = addRow (scaleRows (V c (Pipeline.arrRef spec8 0) : S100000x128.Idx → EReal) (V c (Pipeline.arrRef spec8 1) : S100000x1.Idx → EReal)) (V c (Pipeline.arrRef spec8 2) : S1x128.Idx → EReal) :=
  (dat8 (F := Ideal) V c).arrAt_eq_of_cover 3 (act8 V c) (fun t _ => flushed8_h V c t) cover8_h

/-! ## The row of column sums -/

/-- The row of sums' one block reads a one-row array as it is. -/
theorem read_blk8_s (t : Fin cfg8.N) (G : S1x128.Idx → EReal) (u : Fin 1) (j : Fin 128) :
    ((cfg8.win 4).blk t).view.read (Elt Ideal) G (ix2 u j) = G (ix2 u j) := by
  obtain ⟨-, -, -, -, -, -, -, -, e40, e41, e50, e51⟩ := idx_facts8 t
  show G (((cfg8.win 4).blk t).view.emb (ix2 u j)) = _
  refine congrArg G ?_
  funext a
  apply Fin.ext
  match a with
  | ⟨0, _⟩ => show win8_4.index t (0 : Fin 2) * 1 + 1 * u.val = u.val; rw [e40]; omega
  | ⟨1, _⟩ => show win8_4.index t (1 : Fin 2) * 128 + 1 * j.val = j.val; rw [e41]; omega

/-- The one write-back of the row of sums, after the last point, writes the column sums of the activations over all rows. -/
theorem flushed8_s (t : Fin cfg8.N) (hf : (cfg8.win 4).flush t = true) :
    (dat8 (F := Ideal) V c).flushed 4 t = ((cfg8.win 4).blk t).view.read (Elt Ideal) (colSum (act8 V c)) := by
  have hN : t.val < 25 := lt_of_lt_of_eq t.isLt (show cfg8.N = 25 from N_8)
  have h24 : t.val = 24 := by have := (flush8_4 t).mp hf; omega
  show (cfg8.win 4).cut (grid8.coords t) ((dat8 (F := Ideal) V c).after 4 t) = _
  rw [after8_4]
  funext y
  obtain ⟨u, j, rfl⟩ : ∃ (u : Fin 1) (j : Fin 128), y = ix2 u j := ⟨y 0, y 1, eq_ix2 y⟩
  refine (sums_after8 V c t.val t.isLt u j).trans ?_
  rw [h24, tiles_sum (act8 V c) j]
  exact ((read_blk8_s t (colSum (act8 V c)) u j).trans (colSum_apply (act8 V c) u j)).symm

/-- An index of the row of sums is in point t's block iff each coordinate is in the block's range on its axis. -/
theorem mem_blk8_s (t : Fin cfg8.N) (i : S1x128.Idx) :
    i ∈ ((cfg8.win 4).blk t).view.set ↔ ∀ a : Fin 2, win8_4.index t a * S1x128.size a ≤ (i a).val
      ∧ (i a).val < win8_4.index t a * S1x128.size a + S1x128.size a := by
  show i ∈ ((View.whole main_v95_1).slice (win8_4.rect t)).set ↔ _
  rw [View.set_slice_whole, Rect.mem_set_unit]
  exact Iff.rfl

/-- The one block, written back after the last point, is the whole row. -/
theorem cover8_s (i : S1x128.Idx) :
    ∃ t : Fin cfg8.N, (cfg8.win 4).flush t = true ∧ i ∈ ((cfg8.win 4).blk t).view.set := by
  have h0 : (i 0).val < 1 := (i 0).isLt
  have h1 : (i 1).val < 128 := (i 1).isLt
  have ht : 24 < cfg8.N := by rw [show cfg8.N = 25 from N_8]; omega
  refine ⟨⟨24, ht⟩, (flush8_4 ⟨24, ht⟩).mpr rfl, ?_⟩
  obtain ⟨-, -, -, -, -, -, -, -, e40, e41, e50, e51⟩ := idx_facts8 ⟨24, ht⟩
  rw [mem_blk8_s]
  intro a
  match a with
  | ⟨0, _⟩ =>
    show win8_4.index ⟨24, ht⟩ (0 : Fin 2) * 1 ≤ (i 0).val ∧ (i 0).val < win8_4.index ⟨24, ht⟩ (0 : Fin 2) * 1 + 1
    rw [e40]; omega
  | ⟨1, _⟩ =>
    show win8_4.index ⟨24, ht⟩ (1 : Fin 2) * 128 ≤ (i 1).val ∧ (i 1).val < win8_4.index ⟨24, ht⟩ (1 : Fin 2) * 128 + 128
    rw [e41]; omega

/-- The row of sums ends holding the column sums of the activations. -/
theorem final8_s : (dat8 (F := Ideal) V c).arrAt 4 cfg8.N
    = colSum (addRow (scaleRows (V c (Pipeline.arrRef spec8 0) : S100000x128.Idx → EReal) (V c (Pipeline.arrRef spec8 1) : S100000x1.Idx → EReal)) (V c (Pipeline.arrRef spec8 2) : S1x128.Idx → EReal)) :=
  (dat8 (F := Ideal) V c).arrAt_eq_of_cover 4 (colSum (act8 V c)) (flushed8_s V c) cover8_s

/-! ## The row of column sums of squares -/

/-- The row of sums of squares' one block reads a one-row array as it is. -/
theorem read_blk8_q (t : Fin cfg8.N) (G : S1x128.Idx → EReal) (u : Fin 1) (j : Fin 128) :
    ((cfg8.win 5).blk t).view.read (Elt Ideal) G (ix2 u j) = G (ix2 u j) := by
  obtain ⟨-, -, -, -, -, -, -, -, e40, e41, e50, e51⟩ := idx_facts8 t
  show G (((cfg8.win 5).blk t).view.emb (ix2 u j)) = _
  refine congrArg G ?_
  funext a
  apply Fin.ext
  match a with
  | ⟨0, _⟩ => show win8_5.index t (0 : Fin 2) * 1 + 1 * u.val = u.val; rw [e50]; omega
  | ⟨1, _⟩ => show win8_5.index t (1 : Fin 2) * 128 + 1 * j.val = j.val; rw [e51]; omega

/-- The one write-back of the row of sums of squares, after the last point, writes the column sums of the squared activations over all rows. -/
theorem flushed8_q (t : Fin cfg8.N) (hf : (cfg8.win 5).flush t = true) :
    (dat8 (F := Ideal) V c).flushed 5 t = ((cfg8.win 5).blk t).view.read (Elt Ideal) (colSumSq (act8 V c)) := by
  have hN : t.val < 25 := lt_of_lt_of_eq t.isLt (show cfg8.N = 25 from N_8)
  have h24 : t.val = 24 := by have := (flush8_5 t).mp hf; omega
  show (cfg8.win 5).cut (grid8.coords t) ((dat8 (F := Ideal) V c).after 5 t) = _
  rw [after8_5]
  funext y
  obtain ⟨u, j, rfl⟩ : ∃ (u : Fin 1) (j : Fin 128), y = ix2 u j := ⟨y 0, y 1, eq_ix2 y⟩
  refine (squares_after8 V c t.val t.isLt u j).trans ?_
  rw [h24, tiles_sum_sq (act8 V c) j]
  exact ((read_blk8_q t (colSumSq (act8 V c)) u j).trans (colSumSq_apply (act8 V c) u j)).symm

/-- An index of the row of sums of squares is in point t's block iff each coordinate is in the block's range on its axis. -/
theorem mem_blk8_q (t : Fin cfg8.N) (i : S1x128.Idx) :
    i ∈ ((cfg8.win 5).blk t).view.set ↔ ∀ a : Fin 2, win8_5.index t a * S1x128.size a ≤ (i a).val
      ∧ (i a).val < win8_5.index t a * S1x128.size a + S1x128.size a := by
  show i ∈ ((View.whole main_v95_2).slice (win8_5.rect t)).set ↔ _
  rw [View.set_slice_whole, Rect.mem_set_unit]
  exact Iff.rfl

/-- The one block, written back after the last point, is the whole row. -/
theorem cover8_q (i : S1x128.Idx) :
    ∃ t : Fin cfg8.N, (cfg8.win 5).flush t = true ∧ i ∈ ((cfg8.win 5).blk t).view.set := by
  have h0 : (i 0).val < 1 := (i 0).isLt
  have h1 : (i 1).val < 128 := (i 1).isLt
  have ht : 24 < cfg8.N := by rw [show cfg8.N = 25 from N_8]; omega
  refine ⟨⟨24, ht⟩, (flush8_5 ⟨24, ht⟩).mpr rfl, ?_⟩
  obtain ⟨-, -, -, -, -, -, -, -, e40, e41, e50, e51⟩ := idx_facts8 ⟨24, ht⟩
  rw [mem_blk8_q]
  intro a
  match a with
  | ⟨0, _⟩ =>
    show win8_5.index ⟨24, ht⟩ (0 : Fin 2) * 1 ≤ (i 0).val ∧ (i 0).val < win8_5.index ⟨24, ht⟩ (0 : Fin 2) * 1 + 1
    rw [e50]; omega
  | ⟨1, _⟩ =>
    show win8_5.index ⟨24, ht⟩ (1 : Fin 2) * 128 ≤ (i 1).val ∧ (i 1).val < win8_5.index ⟨24, ht⟩ (1 : Fin 2) * 128 + 128
    rw [e51]; omega

/-- The row of sums of squares ends holding the column sums of the squared activations. -/
theorem final8_q : (dat8 (F := Ideal) V c).arrAt 5 cfg8.N
    = colSumSq (addRow (scaleRows (V c (Pipeline.arrRef spec8 0) : S100000x128.Idx → EReal) (V c (Pipeline.arrRef spec8 1) : S100000x1.Idx → EReal)) (V c (Pipeline.arrRef spec8 2) : S1x128.Idx → EReal)) :=
  (dat8 (F := Ideal) V c).arrAt_eq_of_cover 5 (colSumSq (act8 V c)) (flushed8_q V c) cover8_q

end Region

end Cert.KernelIdeal.RegionValues

end
-- ==== Proof.KernelWalk.lean ====
/-
  The boundary walk, assembled: the two result buffers at the last segment boundary as functions of the launch contents.

  The walks of graph 1 and graph 2 take each region's final arrays as hypotheses; here those are discharged by the
  regions' value lemmas, and the two results are stated outright.
-/
import proofs.«136093_j68229850464275_1_alg».proof.Proof.KernelWalkA
import proofs.«136093_j68229850464275_1_alg».proof.Proof.KernelWalkB
import proofs.«136093_j68229850464275_1_alg».proof.Proof.RegionProject
import proofs.«136093_j68229850464275_1_alg».proof.Proof.RegionBiasClamp
import proofs.«136093_j68229850464275_1_alg».proof.Proof.RegionCentre
import proofs.«136093_j68229850464275_1_alg».proof.Proof.RegionStats
import proofs.«136093_j68229850464275_1_alg».proof.Proof.RegionStats8

set_option maxRecDepth 16384

noncomputable section

namespace Cert.KernelIdeal.Walk

open Cert.KernelIdeal Cert.KernelIdeal.Gen Cert.KernelIdeal.RegionValues Cert.LibTileOps Cert.Stages
open Idealize.ShloMosaic Idealize.ShloMosaic.TcCoe Idealize.ShloMosaic.ValueIdx

set_option maxHeartbeats 4000000 in
/-- Every region's final arrays, from the regions' value lemmas. -/
theorem finals : Finals :=
  ⟨final0, final1, final2, final3_h, final3_s, final3_q, final4,
   final5, final6, final7, final8_h, final8_s, final8_q, final9⟩

variable (m : (ℓ : Loc nD τ sig) → Buf (Elt Ideal) ℓ) (ρ : Dev nD → PrngReg) (c : Dev nD)

/-- Graph 1's result at the last boundary: the encoder's activations standardised by their column sums. -/
theorem kv52 : W18 m ρ c (Proc.devRef .tc main_v52)
    = standardiseBySums 0x47C35000#32 0x47C34F80#32
        (encode (aggregate (a6 m c) (a7 m c)) (invSqrtDeg (a6 m c)) (invSqrtDeg (a7 m c))
          (a0 m c) (a2 m c) (rowOf (a3 m c)) (a4 m c) (rowOf (a5 m c))) :=
  kv52_of finals m ρ c

/-- Graph 2's result at the last boundary. -/
theorem kv105 : W18 m ρ c (Proc.devRef .tc main_v105)
    = standardiseBySums 0x47C35000#32 0x47C34F80#32
        (encode (aggregate (a8 m c) (a9 m c)) (invSqrtDeg (a8 m c)) (invSqrtDeg (a9 m c))
          (a1 m c) (a2 m c) (rowOf (a3 m c)) (a4 m c) (rowOf (a5 m c))) :=
  kv105_of finals m ρ c

end Cert.KernelIdeal.Walk

end
-- ==== Proof.RefOps.lean ====
import proofs.«136093_j68229850464275_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 62 operations of the window main_part0, in order, a called function's operations inline at its call. -/
abbrev ops0 : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg6 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_1 (constant S_ .f32 0x00000000#32),
    StableHlo.unary main_cst_1 main_v4 (broadcastInDim S100000 ![] bcast_S_S100000 : (⟨S_, .f32⟩ : BufTy).Contents (Elt F) → (⟨S100000, .f32⟩ : BufTy).Contents (Elt F)),
    StableHlo.unary main_arg7 main_v5 (broadcastInDim S800000x1 ![0] bcast_S800000_S800000x1_0 : (⟨S800000, .i32⟩ : BufTy).Contents (Elt F) → (⟨S800000x1, .i32⟩ : BufTy).Contents (Elt F)),
    StableHlo.ternary main_v4 main_v5 main_v0 main_v6 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_2 (constant S_ .f32 0x3F800000#32),
    StableHlo.unary main_cst_2 main_v7 (broadcastInDim S100000 ![] bcast_S_S100000 : (⟨S_, .f32⟩ : BufTy).Contents (Elt F) → (⟨S100000, .f32⟩ : BufTy).Contents (Elt F)),
    StableHlo.binary main_v3 main_v7 main_v8 (maximumf : (⟨S100000, .f32⟩ : BufTy).Contents (Elt F) → (⟨S100000, .f32⟩ : BufTy).Contents (Elt F) → (⟨S100000, .f32⟩ : BufTy).Contents (Elt F)),
    StableHlo.nullary main_cst_3 (constant S_ .f32 0xBF000000#32),
    StableHlo.unary main_cst_3 main_v9 (broadcastInDim S100000 ![] bcast_S_S100000 : (⟨S_, .f32⟩ : BufTy).Contents (Elt F) → (⟨S100000, .f32⟩ : BufTy).Contents (Elt F)),
    StableHlo.binary main_v8 main_v9 main_v10 (Host.powf : (⟨S100000, .f32⟩ : BufTy).Contents (Elt F) → (⟨S100000, .f32⟩ : BufTy).Contents (Elt F) → (⟨S100000, .f32⟩ : BufTy).Contents (Elt F)),
    StableHlo.unary main_v10 main_v11 (broadcastInDim S100000x1 ![0] bcast_S100000_S100000x1_0 : (⟨S100000, .f32⟩ : BufTy).Contents (Elt F) → (⟨S100000x1, .f32⟩ : BufTy).Contents (Elt F)),
    StableHlo.unary main_v11 main_v12 (broadcastInDim S100000x128 ![0, 1] bcast_S100000x1_S100000x128_0_1 : (⟨S100000x1, .f32⟩ : BufTy).Contents (Elt F) → (⟨S100000x128, .f32⟩ : BufTy).Contents (Elt F)),
    StableHlo.binary main_arg0 main_v12 main_v13 (mulf : (⟨S100000x128, .f32⟩ : BufTy).Contents (Elt F) → (⟨S100000x128, .f32⟩ : BufTy).Contents (Elt F) → (⟨S100000x128, .f32⟩ : BufTy).Contents (Elt F)),
    StableHlo.binary main_v13 main_arg2 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c (constantI S_ 32 0#32),
    StableHlo.unary main_c main_v15 (broadcastInDim S800000 ![] bcast_S_S800000 : (⟨S_, .i32⟩ : BufTy).Contents (Elt F) → (⟨S800000, .i32⟩ : BufTy).Contents (Elt F)),
    StableHlo.binary main_arg6 main_v15 main_v16 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 100000#32),
    StableHlo.unary main_c_4 main_v17 (broadcastInDim S800000 ![] bcast_S_S800000 : (⟨S_, .i32⟩ : BufTy).Contents (Elt F) → (⟨S800000, .i32⟩ : BufTy).Contents (Elt F)),
    StableHlo.binary main_arg6 main_v17 main_v18 (addi : (⟨S800000, .i32⟩ : BufTy).Contents (Elt F) → (⟨S800000, .i32⟩ : BufTy).Contents (Elt F) → (⟨S800000, .i32⟩ : BufTy).Contents (Elt F)),
    StableHlo.ternary main_v16 main_v18 main_arg6 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v19 main_v20 (broadcastInDim S800000x1 ![0] bcast_S800000_S800000x1_0 : (⟨S800000, .i32⟩ : BufTy).Contents (Elt F) → (⟨S800000x1, .i32⟩ : BufTy).Contents (Elt F)),
    StableHlo.binary main_v14 main_v20 main_v21 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst_5 (constant S_ .f32 0x00000000#32),
    StableHlo.unary main_cst_5 main_v22 (broadcastInDim S100000x128 ![] bcast_S_S100000x128 : (⟨S_, .f32⟩ : BufTy).Contents (Elt F) → (⟨S100000x128, .f32⟩ : BufTy).Contents (Elt F)),
    StableHlo.unary main_arg7 main_v23 (broadcastInDim S800000x1 ![0] bcast_S800000_S800000x1_0 : (⟨S800000, .i32⟩ : BufTy).Contents (Elt F) → (⟨S800000x1, .i32⟩ : BufTy).Contents (Elt F)),
    StableHlo.ternary main_v22 main_v23 main_v21 main_v24 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.nullary main_cst_6 (constant S_ .f32 0x3F800000#32),
    StableHlo.unary main_cst_6 main_v25 (broadcastInDim S100000 ![] bcast_S_S100000 : (⟨S_, .f32⟩ : BufTy).Contents (Elt F) → (⟨S100000, .f32⟩ : BufTy).Contents (Elt F)),
    StableHlo.binary main_v6 main_v25 main_v26 (maximumf : (⟨S100000, .f32⟩ : BufTy).Contents (Elt F) → (⟨S100000, .f32⟩ : BufTy).Contents (Elt F) → (⟨S100000, .f32⟩ : BufTy).Contents (Elt F)),
    StableHlo.nullary main_cst_7 (constant S_ .f32 0xBF000000#32),
    StableHlo.unary main_cst_7 main_v27 (broadcastInDim S100000 ![] bcast_S_S100000 : (⟨S_, .f32⟩ : BufTy).Contents (Elt F) → (⟨S100000, .f32⟩ : BufTy).Contents (Elt F)),
    StableHlo.binary main_v26 main_v27 main_v28 (Host.powf : (⟨S100000, .f32⟩ : BufTy).Contents (Elt F) → (⟨S100000, .f32⟩ : BufTy).Contents (Elt F) → (⟨S100000, .f32⟩ : BufTy).Contents (Elt F)),
    StableHlo.unary main_v28 main_v29 (broadcastInDim S100000x1 ![0] bcast_S100000_S100000x1_0 : (⟨S100000, .f32⟩ : BufTy).Contents (Elt F) → (⟨S100000x1, .f32⟩ : BufTy).Contents (Elt F)),
    StableHlo.unary main_v29 main_v30 (broadcastInDim S100000x128 ![0, 1] bcast_S100000x1_S100000x128_0_1 : (⟨S100000x1, .f32⟩ : BufTy).Contents (Elt F) → (⟨S100000x128, .f32⟩ : BufTy).Contents (Elt F)),
    StableHlo.binary main_v24 main_v30 main_v31 (mulf : (⟨S100000x128, .f32⟩ : BufTy).Contents (Elt F) → (⟨S100000x128, .f32⟩ : BufTy).Contents (Elt F) → (⟨S100000x128, .f32⟩ : BufTy).Contents (Elt F)),
    StableHlo.unary main_arg3 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v33 main_v34 (addf : (⟨S100000x128, .f32⟩ : BufTy).Contents (Elt F) → (⟨S100000x128, .f32⟩ : BufTy).Contents (Elt F) → (⟨S100000x128, .f32⟩ : BufTy).Contents (Elt F)),
    StableHlo.nullary main_call0_cst (constant S_ .f32 0x00000000#32),
    StableHlo.unary main_call0_cst main_call0_v0 ((broadcastInDim S100000x128 ![] bcast_S_S100000x128) : (⟨S_, .f32⟩ : BufTy).Contents (Elt F) → (⟨S100000x128, .f32⟩ : BufTy).Contents (Elt F)),
    StableHlo.binary main_v34 main_call0_v0 main_v35 (maximumf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x3F800000#32),
    StableHlo.unary main_cst_8 main_v36 (broadcastInDim S800000 ![] bcast_S_S800000 : (⟨S_, .f32⟩ : BufTy).Contents (Elt F) → (⟨S800000, .f32⟩ : BufTy).Contents (Elt F)),
    StableHlo.nullary main_cst_9 (constant S_ .f32 0x00000000#32),
    StableHlo.unary main_cst_9 main_v37 (broadcastInDim S100000 ![] bcast_S_S100000 : (⟨S_, .f32⟩ : BufTy).Contents (Elt F) → (⟨S100000, .f32⟩ : BufTy).Contents (Elt F)),
    StableHlo.unary main_arg6 main_v38 (broadcastInDim S800000x1 ![0] bcast_S800000_S800000x1_0 : (⟨S800000, .i32⟩ : BufTy).Contents (Elt F) → (⟨S800000x1, .i32⟩ : BufTy).Contents (Elt F)),
    StableHlo.ternary main_v37 main_v38 main_v36 main_v39 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_10 (constant S_ .f32 0x00000000#32),
    StableHlo.unary main_cst_10 main_v40 (broadcastInDim S100000 ![] bcast_S_S100000 : (⟨S_, .f32⟩ : BufTy).Contents (Elt F) → (⟨S100000, .f32⟩ : BufTy).Contents (Elt F)),
    StableHlo.unary main_arg7 main_v41 (broadcastInDim S800000x1 ![0] bcast_S800000_S800000x1_0 : (⟨S800000, .i32⟩ : BufTy).Contents (Elt F) → (⟨S800000x1, .i32⟩ : BufTy).Contents (Elt F)),
    StableHlo.ternary main_v40 main_v41 main_v36 main_v42 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_11 (constant S_ .f32 0x3F800000#32),
    StableHlo.unary main_cst_11 main_v43 (broadcastInDim S100000 ![] bcast_S_S100000 : (⟨S_, .f32⟩ : BufTy).Contents (Elt F) → (⟨S100000, .f32⟩ : BufTy).Contents (Elt F)),
    StableHlo.binary main_v39 main_v43 main_v44 (maximumf : (⟨S100000, .f32⟩ : BufTy).Contents (Elt F) → (⟨S100000, .f32⟩ : BufTy).Contents (Elt F) → (⟨S100000, .f32⟩ : BufTy).Contents (Elt F)),
    StableHlo.nullary main_cst_12 (constant S_ .f32 0xBF000000#32) ]

/-- The 60 operations of the window main_part1, in order, a called function's operations inline at its call. -/
abbrev ops1 : List (HloOp τ sig (Elt F)) :=
  [ StableHlo.unary main_cst_12 main_v45 (broadcastInDim S100000 ![] bcast_S_S100000 : (⟨S_, .f32⟩ : BufTy).Contents (Elt F) → (⟨S100000, .f32⟩ : BufTy).Contents (Elt F)),
    StableHlo.binary main_v44 main_v45 main_v46 (Host.powf : (⟨S100000, .f32⟩ : BufTy).Contents (Elt F) → (⟨S100000, .f32⟩ : BufTy).Contents (Elt F) → (⟨S100000, .f32⟩ : BufTy).Contents (Elt F)),
    StableHlo.unary main_v46 main_v47 (broadcastInDim S100000x1 ![0] bcast_S100000_S100000x1_0 : (⟨S100000, .f32⟩ : BufTy).Contents (Elt F) → (⟨S100000x1, .f32⟩ : BufTy).Contents (Elt F)),
    StableHlo.unary main_v47 main_v48 (broadcastInDim S100000x128 ![0, 1] bcast_S100000x1_S100000x128_0_1 : (⟨S100000x1, .f32⟩ : BufTy).Contents (Elt F) → (⟨S100000x128, .f32⟩ : BufTy).Contents (Elt F)),
    StableHlo.binary main_v35 main_v48 main_v49 (mulf : (⟨S100000x128, .f32⟩ : BufTy).Contents (Elt F) → (⟨S100000x128, .f32⟩ : BufTy).Contents (Elt F) → (⟨S100000x128, .f32⟩ : BufTy).Contents (Elt F)),
    StableHlo.binary main_v49 main_arg4 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_13 (constantI S_ 32 0#32),
    StableHlo.unary main_c_13 main_v51 (broadcastInDim S800000 ![] bcast_S_S800000 : (⟨S_, .i32⟩ : BufTy).Contents (Elt F) → (⟨S800000, .i32⟩ : BufTy).Contents (Elt F)),
    StableHlo.binary main_arg6 main_v51 main_v52 (cmpi .slt : (⟨S800000, .i32⟩ : BufTy).Contents (Elt F) → (⟨S800000, .i32⟩ : BufTy).Contents (Elt F) → (⟨S800000, .i1⟩ : BufTy).Contents (Elt F)),
    StableHlo.nullary main_c_14 (constantI S_ 32 100000#32),
    StableHlo.unary main_c_14 main_v53 (broadcastInDim S800000 ![] bcast_S_S800000 : (⟨S_, .i32⟩ : BufTy).Contents (Elt F) → (⟨S800000, .i32⟩ : BufTy).Contents (Elt F)),
    StableHlo.binary main_arg6 main_v53 main_v54 (addi : (⟨S800000, .i32⟩ : BufTy).Contents (Elt F) → (⟨S800000, .i32⟩ : BufTy).Contents (Elt F) → (⟨S800000, .i32⟩ : BufTy).Contents (Elt F)),
    StableHlo.ternary main_v52 main_v54 main_arg6 main_v55 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v55 main_v56 (broadcastInDim S800000x1 ![0] bcast_S800000_S800000x1_0 : (⟨S800000, .i32⟩ : BufTy).Contents (Elt F) → (⟨S800000x1, .i32⟩ : BufTy).Contents (Elt F)),
    StableHlo.binary main_v50 main_v56 main_v57 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst_15 (constant S_ .f32 0x00000000#32),
    StableHlo.unary main_cst_15 main_v58 (broadcastInDim S100000x128 ![] bcast_S_S100000x128 : (⟨S_, .f32⟩ : BufTy).Contents (Elt F) → (⟨S100000x128, .f32⟩ : BufTy).Contents (Elt F)),
    StableHlo.unary main_arg7 main_v59 (broadcastInDim S800000x1 ![0] bcast_S800000_S800000x1_0 : (⟨S800000, .i32⟩ : BufTy).Contents (Elt F) → (⟨S800000x1, .i32⟩ : BufTy).Contents (Elt F)),
    StableHlo.ternary main_v58 main_v59 main_v57 main_v60 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.nullary main_cst_16 (constant S_ .f32 0x3F800000#32),
    StableHlo.unary main_cst_16 main_v61 (broadcastInDim S100000 ![] bcast_S_S100000 : (⟨S_, .f32⟩ : BufTy).Contents (Elt F) → (⟨S100000, .f32⟩ : BufTy).Contents (Elt F)),
    StableHlo.binary main_v42 main_v61 main_v62 (maximumf : (⟨S100000, .f32⟩ : BufTy).Contents (Elt F) → (⟨S100000, .f32⟩ : BufTy).Contents (Elt F) → (⟨S100000, .f32⟩ : BufTy).Contents (Elt F)),
    StableHlo.nullary main_cst_17 (constant S_ .f32 0xBF000000#32),
    StableHlo.unary main_cst_17 main_v63 (broadcastInDim S100000 ![] bcast_S_S100000 : (⟨S_, .f32⟩ : BufTy).Contents (Elt F) → (⟨S100000, .f32⟩ : BufTy).Contents (Elt F)),
    StableHlo.binary main_v62 main_v63 main_v64 (Host.powf : (⟨S100000, .f32⟩ : BufTy).Contents (Elt F) → (⟨S100000, .f32⟩ : BufTy).Contents (Elt F) → (⟨S100000, .f32⟩ : BufTy).Contents (Elt F)),
    StableHlo.unary main_v64 main_v65 (broadcastInDim S100000x1 ![0] bcast_S100000_S100000x1_0 : (⟨S100000, .f32⟩ : BufTy).Contents (Elt F) → (⟨S100000x1, .f32⟩ : BufTy).Contents (Elt F)),
    StableHlo.unary main_v65 main_v66 (broadcastInDim S100000x128 ![0, 1] bcast_S100000x1_S100000x128_0_1 : (⟨S100000x1, .f32⟩ : BufTy).Contents (Elt F) → (⟨S100000x128, .f32⟩ : BufTy).Contents (Elt F)),
    StableHlo.binary main_v60 main_v66 main_v67 (mulf : (⟨S100000x128, .f32⟩ : BufTy).Contents (Elt F) → (⟨S100000x128, .f32⟩ : BufTy).Contents (Elt F) → (⟨S100000x128, .f32⟩ : BufTy).Contents (Elt F)),
    StableHlo.unary main_arg5 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S100000x128 ![0, 1] bcast_S1x128_S100000x128_0_1 : (⟨S1x128, .f32⟩ : BufTy).Contents (Elt F) → (⟨S100000x128, .f32⟩ : BufTy).Contents (Elt F)),
    StableHlo.binary main_v67 main_v69 main_v70 (addf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3F800000#32),
    StableHlo.unary main_cst_18 main_v71 (broadcastInDim S800000 ![] bcast_S_S800000 : (⟨S_, .f32⟩ : BufTy).Contents (Elt F) → (⟨S800000, .f32⟩ : BufTy).Contents (Elt F)),
    StableHlo.nullary main_cst_19 (constant S_ .f32 0x00000000#32),
    StableHlo.unary main_cst_19 main_v72 (broadcastInDim S100000 ![] bcast_S_S100000 : (⟨S_, .f32⟩ : BufTy).Contents (Elt F) → (⟨S100000, .f32⟩ : BufTy).Contents (Elt F)),
    StableHlo.unary main_arg8 main_v73 (broadcastInDim S800000x1 ![0] bcast_S800000_S800000x1_0 : (⟨S800000, .i32⟩ : BufTy).Contents (Elt F) → (⟨S800000x1, .i32⟩ : BufTy).Contents (Elt F)),
    StableHlo.ternary main_v72 main_v73 main_v71 main_v74 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_20 (constant S_ .f32 0x00000000#32),
    StableHlo.unary main_cst_20 main_v75 (broadcastInDim S100000 ![] bcast_S_S100000 : (⟨S_, .f32⟩ : BufTy).Contents (Elt F) → (⟨S100000, .f32⟩ : BufTy).Contents (Elt F)),
    StableHlo.unary main_arg9 main_v76 (broadcastInDim S800000x1 ![0] bcast_S800000_S800000x1_0 : (⟨S800000, .i32⟩ : BufTy).Contents (Elt F) → (⟨S800000x1, .i32⟩ : BufTy).Contents (Elt F)),
    StableHlo.ternary main_v75 main_v76 main_v71 main_v77 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_21 (constant S_ .f32 0x3F800000#32),
    StableHlo.unary main_cst_21 main_v78 (broadcastInDim S100000 ![] bcast_S_S100000 : (⟨S_, .f32⟩ : BufTy).Contents (Elt F) → (⟨S100000, .f32⟩ : BufTy).Contents (Elt F)),
    StableHlo.binary main_v74 main_v78 main_v79 (maximumf : (⟨S100000, .f32⟩ : BufTy).Contents (Elt F) → (⟨S100000, .f32⟩ : BufTy).Contents (Elt F) → (⟨S100000, .f32⟩ : BufTy).Contents (Elt F)),
    StableHlo.nullary main_cst_22 (constant S_ .f32 0xBF000000#32),
    StableHlo.unary main_cst_22 main_v80 (broadcastInDim S100000 ![] bcast_S_S100000 : (⟨S_, .f32⟩ : BufTy).Contents (Elt F) → (⟨S100000, .f32⟩ : BufTy).Contents (Elt F)),
    StableHlo.binary main_v79 main_v80 main_v81 (Host.powf : (⟨S100000, .f32⟩ : BufTy).Contents (Elt F) → (⟨S100000, .f32⟩ : BufTy).Contents (Elt F) → (⟨S100000, .f32⟩ : BufTy).Contents (Elt F)),
    StableHlo.unary main_v81 main_v82 (broadcastInDim S100000x1 ![0] bcast_S100000_S100000x1_0 : (⟨S100000, .f32⟩ : BufTy).Contents (Elt F) → (⟨S100000x1, .f32⟩ : BufTy).Contents (Elt F)),
    StableHlo.unary main_v82 main_v83 (broadcastInDim S100000x128 ![0, 1] bcast_S100000x1_S100000x128_0_1 : (⟨S100000x1, .f32⟩ : BufTy).Contents (Elt F) → (⟨S100000x128, .f32⟩ : BufTy).Contents (Elt F)),
    StableHlo.binary main_arg1 main_v83 main_v84 (mulf : (⟨S100000x128, .f32⟩ : BufTy).Contents (Elt F) → (⟨S100000x128, .f32⟩ : BufTy).Contents (Elt F) → (⟨S100000x128, .f32⟩ : BufTy).Contents (Elt F)),
    StableHlo.binary main_v84 main_arg2 main_v85 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_23 (constantI S_ 32 0#32),
    StableHlo.unary main_c_23 main_v86 (broadcastInDim S800000 ![] bcast_S_S800000 : (⟨S_, .i32⟩ : BufTy).Contents (Elt F) → (⟨S800000, .i32⟩ : BufTy).Contents (Elt F)),
    StableHlo.binary main_arg8 main_v86 main_v87 (cmpi .slt : (⟨S800000, .i32⟩ : BufTy).Contents (Elt F) → (⟨S800000, .i32⟩ : BufTy).Contents (Elt F) → (⟨S800000, .i1⟩ : BufTy).Contents (Elt F)),
    StableHlo.nullary main_c_24 (constantI S_ 32 100000#32),
    StableHlo.unary main_c_24 main_v88 (broadcastInDim S800000 ![] bcast_S_S800000 : (⟨S_, .i32⟩ : BufTy).Contents (Elt F) → (⟨S800000, .i32⟩ : BufTy).Contents (Elt F)),
    StableHlo.binary main_arg8 main_v88 main_v89 (addi : (⟨S800000, .i32⟩ : BufTy).Contents (Elt F) → (⟨S800000, .i32⟩ : BufTy).Contents (Elt F) → (⟨S800000, .i32⟩ : BufTy).Contents (Elt F)),
    StableHlo.ternary main_v87 main_v89 main_arg8 main_v90 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v90 main_v91 (broadcastInDim S800000x1 ![0] bcast_S800000_S800000x1_0 : (⟨S800000, .i32⟩ : BufTy).Contents (Elt F) → (⟨S800000x1, .i32⟩ : BufTy).Contents (Elt F)),
    StableHlo.binary main_v85 main_v91 main_v92 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)) ]

/-- The 62 operations of the window main_part2, in order, a called function's operations inline at its call. -/
abbrev ops2 : List (HloOp τ sig (Elt F)) :=
  [ StableHlo.nullary main_cst_25 (constant S_ .f32 0x00000000#32),
    StableHlo.unary main_cst_25 main_v93 (broadcastInDim S100000x128 ![] bcast_S_S100000x128 : (⟨S_, .f32⟩ : BufTy).Contents (Elt F) → (⟨S100000x128, .f32⟩ : BufTy).Contents (Elt F)),
    StableHlo.unary main_arg9 main_v94 (broadcastInDim S800000x1 ![0] bcast_S800000_S800000x1_0 : (⟨S800000, .i32⟩ : BufTy).Contents (Elt F) → (⟨S800000x1, .i32⟩ : BufTy).Contents (Elt F)),
    StableHlo.ternary main_v93 main_v94 main_v92 main_v95 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.nullary main_cst_26 (constant S_ .f32 0x3F800000#32),
    StableHlo.unary main_cst_26 main_v96 (broadcastInDim S100000 ![] bcast_S_S100000 : (⟨S_, .f32⟩ : BufTy).Contents (Elt F) → (⟨S100000, .f32⟩ : BufTy).Contents (Elt F)),
    StableHlo.binary main_v77 main_v96 main_v97 (maximumf : (⟨S100000, .f32⟩ : BufTy).Contents (Elt F) → (⟨S100000, .f32⟩ : BufTy).Contents (Elt F) → (⟨S100000, .f32⟩ : BufTy).Contents (Elt F)),
    StableHlo.nullary main_cst_27 (constant S_ .f32 0xBF000000#32),
    StableHlo.unary main_cst_27 main_v98 (broadcastInDim S100000 ![] bcast_S_S100000 : (⟨S_, .f32⟩ : BufTy).Contents (Elt F) → (⟨S100000, .f32⟩ : BufTy).Contents (Elt F)),
    StableHlo.binary main_v97 main_v98 main_v99 (Host.powf : (⟨S100000, .f32⟩ : BufTy).Contents (Elt F) → (⟨S100000, .f32⟩ : BufTy).Contents (Elt F) → (⟨S100000, .f32⟩ : BufTy).Contents (Elt F)),
    StableHlo.unary main_v99 main_v100 (broadcastInDim S100000x1 ![0] bcast_S100000_S100000x1_0 : (⟨S100000, .f32⟩ : BufTy).Contents (Elt F) → (⟨S100000x1, .f32⟩ : BufTy).Contents (Elt F)),
    StableHlo.unary main_v100 main_v101 (broadcastInDim S100000x128 ![0, 1] bcast_S100000x1_S100000x128_0_1 : (⟨S100000x1, .f32⟩ : BufTy).Contents (Elt F) → (⟨S100000x128, .f32⟩ : BufTy).Contents (Elt F)),
    StableHlo.binary main_v95 main_v101 main_v102 (mulf : (⟨S100000x128, .f32⟩ : BufTy).Contents (Elt F) → (⟨S100000x128, .f32⟩ : BufTy).Contents (Elt F) → (⟨S100000x128, .f32⟩ : BufTy).Contents (Elt F)),
    StableHlo.unary main_arg3 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S100000x128 ![0, 1] bcast_S1x128_S100000x128_0_1 : (⟨S1x128, .f32⟩ : BufTy).Contents (Elt F) → (⟨S100000x128, .f32⟩ : BufTy).Contents (Elt F)),
    StableHlo.binary main_v102 main_v104 main_v105 (addf : (⟨S100000x128, .f32⟩ : BufTy).Contents (Elt F) → (⟨S100000x128, .f32⟩ : BufTy).Contents (Elt F) → (⟨S100000x128, .f32⟩ : BufTy).Contents (Elt F)),
    StableHlo.nullary main_call1_cst (constant S_ .f32 0x00000000#32),
    StableHlo.unary main_call1_cst main_call1_v0 ((broadcastInDim S100000x128 ![] bcast_S_S100000x128) : (⟨S_, .f32⟩ : BufTy).Contents (Elt F) → (⟨S100000x128, .f32⟩ : BufTy).Contents (Elt F)),
    StableHlo.binary main_v105 main_call1_v0 main_v106 (maximumf : (⟨S100000x128, .f32⟩ : BufTy).Contents (Elt F) → (⟨S100000x128, .f32⟩ : BufTy).Contents (Elt F) → (⟨S100000x128, .f32⟩ : BufTy).Contents (Elt F)),
    StableHlo.nullary main_cst_28 (constant S_ .f32 0x3F800000#32),
    StableHlo.unary main_cst_28 main_v107 (broadcastInDim S800000 ![] bcast_S_S800000 : (⟨S_, .f32⟩ : BufTy).Contents (Elt F) → (⟨S800000, .f32⟩ : BufTy).Contents (Elt F)),
    StableHlo.nullary main_cst_29 (constant S_ .f32 0x00000000#32),
    StableHlo.unary main_cst_29 main_v108 (broadcastInDim S100000 ![] bcast_S_S100000 : (⟨S_, .f32⟩ : BufTy).Contents (Elt F) → (⟨S100000, .f32⟩ : BufTy).Contents (Elt F)),
    StableHlo.unary main_arg8 main_v109 (broadcastInDim S800000x1 ![0] bcast_S800000_S800000x1_0 : (⟨S800000, .i32⟩ : BufTy).Contents (Elt F) → (⟨S800000x1, .i32⟩ : BufTy).Contents (Elt F)),
    StableHlo.ternary main_v108 main_v109 main_v107 main_v110 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_30 (constant S_ .f32 0x00000000#32),
    StableHlo.unary main_cst_30 main_v111 (broadcastInDim S100000 ![] bcast_S_S100000 : (⟨S_, .f32⟩ : BufTy).Contents (Elt F) → (⟨S100000, .f32⟩ : BufTy).Contents (Elt F)),
    StableHlo.unary main_arg9 main_v112 (broadcastInDim S800000x1 ![0] bcast_S800000_S800000x1_0 : (⟨S800000, .i32⟩ : BufTy).Contents (Elt F) → (⟨S800000x1, .i32⟩ : BufTy).Contents (Elt F)),
    StableHlo.ternary main_v111 main_v112 main_v107 main_v113 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_31 (constant S_ .f32 0x3F800000#32),
    StableHlo.unary main_cst_31 main_v114 (broadcastInDim S100000 ![] bcast_S_S100000 : (⟨S_, .f32⟩ : BufTy).Contents (Elt F) → (⟨S100000, .f32⟩ : BufTy).Contents (Elt F)),
    StableHlo.binary main_v110 main_v114 main_v115 (maximumf : (⟨S100000, .f32⟩ : BufTy).Contents (Elt F) → (⟨S100000, .f32⟩ : BufTy).Contents (Elt F) → (⟨S100000, .f32⟩ : BufTy).Contents (Elt F)),
    StableHlo.nullary main_cst_32 (constant S_ .f32 0xBF000000#32),
    StableHlo.unary main_cst_32 main_v116 (broadcastInDim S100000 ![] bcast_S_S100000 : (⟨S_, .f32⟩ : BufTy).Contents (Elt F) → (⟨S100000, .f32⟩ : BufTy).Contents (Elt F)),
    StableHlo.binary main_v115 main_v116 main_v117 (Host.powf : (⟨S100000, .f32⟩ : BufTy).Contents (Elt F) → (⟨S100000, .f32⟩ : BufTy).Contents (Elt F) → (⟨S100000, .f32⟩ : BufTy).Contents (Elt F)),
    StableHlo.unary main_v117 main_v118 (broadcastInDim S100000x1 ![0] bcast_S100000_S100000x1_0 : (⟨S100000, .f32⟩ : BufTy).Contents (Elt F) → (⟨S100000x1, .f32⟩ : BufTy).Contents (Elt F)),
    StableHlo.unary main_v118 main_v119 (broadcastInDim S100000x128 ![0, 1] bcast_S100000x1_S100000x128_0_1 : (⟨S100000x1, .f32⟩ : BufTy).Contents (Elt F) → (⟨S100000x128, .f32⟩ : BufTy).Contents (Elt F)),
    StableHlo.binary main_v106 main_v119 main_v120 (mulf : (⟨S100000x128, .f32⟩ : BufTy).Contents (Elt F) → (⟨S100000x128, .f32⟩ : BufTy).Contents (Elt F) → (⟨S100000x128, .f32⟩ : BufTy).Contents (Elt F)),
    StableHlo.binary main_v120 main_arg4 main_v121 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_33 (constantI S_ 32 0#32),
    StableHlo.unary main_c_33 main_v122 (broadcastInDim S800000 ![] bcast_S_S800000 : (⟨S_, .i32⟩ : BufTy).Contents (Elt F) → (⟨S800000, .i32⟩ : BufTy).Contents (Elt F)),
    StableHlo.binary main_arg8 main_v122 main_v123 (cmpi .slt : (⟨S800000, .i32⟩ : BufTy).Contents (Elt F) → (⟨S800000, .i32⟩ : BufTy).Contents (Elt F) → (⟨S800000, .i1⟩ : BufTy).Contents (Elt F)),
    StableHlo.nullary main_c_34 (constantI S_ 32 100000#32),
    StableHlo.unary main_c_34 main_v124 (broadcastInDim S800000 ![] bcast_S_S800000 : (⟨S_, .i32⟩ : BufTy).Contents (Elt F) → (⟨S800000, .i32⟩ : BufTy).Contents (Elt F)),
    StableHlo.binary main_arg8 main_v124 main_v125 (addi : (⟨S800000, .i32⟩ : BufTy).Contents (Elt F) → (⟨S800000, .i32⟩ : BufTy).Contents (Elt F) → (⟨S800000, .i32⟩ : BufTy).Contents (Elt F)),
    StableHlo.ternary main_v123 main_v125 main_arg8 main_v126 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v126 main_v127 (broadcastInDim S800000x1 ![0] bcast_S800000_S800000x1_0 : (⟨S800000, .i32⟩ : BufTy).Contents (Elt F) → (⟨S800000x1, .i32⟩ : BufTy).Contents (Elt F)),
    StableHlo.binary main_v121 main_v127 main_v128 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst_35 (constant S_ .f32 0x00000000#32),
    StableHlo.unary main_cst_35 main_v129 (broadcastInDim S100000x128 ![] bcast_S_S100000x128 : (⟨S_, .f32⟩ : BufTy).Contents (Elt F) → (⟨S100000x128, .f32⟩ : BufTy).Contents (Elt F)),
    StableHlo.unary main_arg9 main_v130 (broadcastInDim S800000x1 ![0] bcast_S800000_S800000x1_0 : (⟨S800000, .i32⟩ : BufTy).Contents (Elt F) → (⟨S800000x1, .i32⟩ : BufTy).Contents (Elt F)),
    StableHlo.ternary main_v129 main_v130 main_v128 main_v131 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.nullary main_cst_36 (constant S_ .f32 0x3F800000#32),
    StableHlo.unary main_cst_36 main_v132 (broadcastInDim S100000 ![] bcast_S_S100000 : (⟨S_, .f32⟩ : BufTy).Contents (Elt F) → (⟨S100000, .f32⟩ : BufTy).Contents (Elt F)),
    StableHlo.binary main_v113 main_v132 main_v133 (maximumf : (⟨S100000, .f32⟩ : BufTy).Contents (Elt F) → (⟨S100000, .f32⟩ : BufTy).Contents (Elt F) → (⟨S100000, .f32⟩ : BufTy).Contents (Elt F)),
    StableHlo.nullary main_cst_37 (constant S_ .f32 0xBF000000#32),
    StableHlo.unary main_cst_37 main_v134 (broadcastInDim S100000 ![] bcast_S_S100000 : (⟨S_, .f32⟩ : BufTy).Contents (Elt F) → (⟨S100000, .f32⟩ : BufTy).Contents (Elt F)),
    StableHlo.binary main_v133 main_v134 main_v135 (Host.powf : (⟨S100000, .f32⟩ : BufTy).Contents (Elt F) → (⟨S100000, .f32⟩ : BufTy).Contents (Elt F) → (⟨S100000, .f32⟩ : BufTy).Contents (Elt F)),
    StableHlo.unary main_v135 main_v136 (broadcastInDim S100000x1 ![0] bcast_S100000_S100000x1_0 : (⟨S100000, .f32⟩ : BufTy).Contents (Elt F) → (⟨S100000x1, .f32⟩ : BufTy).Contents (Elt F)),
    StableHlo.unary main_v136 main_v137 (broadcastInDim S100000x128 ![0, 1] bcast_S100000x1_S100000x128_0_1 : (⟨S100000x1, .f32⟩ : BufTy).Contents (Elt F) → (⟨S100000x128, .f32⟩ : BufTy).Contents (Elt F)),
    StableHlo.binary main_v131 main_v137 main_v138 (mulf : (⟨S100000x128, .f32⟩ : BufTy).Contents (Elt F) → (⟨S100000x128, .f32⟩ : BufTy).Contents (Elt F) → (⟨S100000x128, .f32⟩ : BufTy).Contents (Elt F)),
    StableHlo.unary main_arg5 main_v139 (broadcastInDim S1x128 ![1] bcast_S128_S1x128_1 : (⟨S128, .f32⟩ : BufTy).Contents (Elt F) → (⟨S1x128, .f32⟩ : BufTy).Contents (Elt F)) ]

/-- The 72 operations of the window main_part3, in order, a called function's operations inline at its call. -/
abbrev ops3 : List (HloOp τ sig (Elt F)) :=
  [ StableHlo.unary main_v139 main_v140 (broadcastInDim S100000x128 ![0, 1] bcast_S1x128_S100000x128_0_1 : (⟨S1x128, .f32⟩ : BufTy).Contents (Elt F) → (⟨S100000x128, .f32⟩ : BufTy).Contents (Elt F)),
    StableHlo.binary main_v138 main_v140 main_v141 (addf : (⟨S100000x128, .f32⟩ : BufTy).Contents (Elt F) → (⟨S100000x128, .f32⟩ : BufTy).Contents (Elt F) → (⟨S100000x128, .f32⟩ : BufTy).Contents (Elt F)),
    StableHlo.nullary main_cst_38 (constant S_ .f32 0x00000000#32),
    StableHlo.binary main_v70 main_cst_38 main_v142 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_39 (constant S_ .f32 0x47C35000#32),
    StableHlo.unary main_cst_39 main_v143 (broadcastInDim S128 ![] bcast_S_S128 : (⟨S_, .f32⟩ : BufTy).Contents (Elt F) → (⟨S128, .f32⟩ : BufTy).Contents (Elt F)),
    StableHlo.binary main_v142 main_v143 main_v144 (Host.divf : (⟨S128, .f32⟩ : BufTy).Contents (Elt F) → (⟨S128, .f32⟩ : BufTy).Contents (Elt F) → (⟨S128, .f32⟩ : BufTy).Contents (Elt F)),
    StableHlo.unary main_v144 main_v145 (broadcastInDim S1x128 ![1] bcast_S128_S1x128_1 : (⟨S128, .f32⟩ : BufTy).Contents (Elt F) → (⟨S1x128, .f32⟩ : BufTy).Contents (Elt F)),
    StableHlo.unary main_v145 main_v146 (broadcastInDim S100000x128 ![0, 1] bcast_S1x128_S100000x128_0_1 : (⟨S1x128, .f32⟩ : BufTy).Contents (Elt F) → (⟨S100000x128, .f32⟩ : BufTy).Contents (Elt F)),
    StableHlo.binary main_v70 main_v146 main_v147 (subf : (⟨S100000x128, .f32⟩ : BufTy).Contents (Elt F) → (⟨S100000x128, .f32⟩ : BufTy).Contents (Elt F) → (⟨S100000x128, .f32⟩ : BufTy).Contents (Elt F)),
    StableHlo.nullary main_c_40 (constantI S_ 32 1#32),
    StableHlo.nullary main_call2_call0_cst (constant S_ .f32 0x00000000#32),
    StableHlo.binary main_v70 main_call2_call0_cst main_call2_call0_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call2_call0_v0 main_call2_call0_v1 ((broadcastInDim S1x128 ![1] bcast_S128_S1x128_1) : (⟨S128, .f32⟩ : BufTy).Contents (Elt F) → (⟨S1x128, .f32⟩ : BufTy).Contents (Elt F)),
    StableHlo.nullary main_call2_call0_cst_0 (constant S_ .f32 0x47C35000#32),
    StableHlo.unary main_call2_call0_cst_0 main_call2_call0_v2 ((broadcastInDim S1x128 ![] bcast_S_S1x128) : (⟨S_, .f32⟩ : BufTy).Contents (Elt F) → (⟨S1x128, .f32⟩ : BufTy).Contents (Elt F)),
    StableHlo.binary main_call2_call0_v1 main_call2_call0_v2 main_call2_call0_v3 (Host.divf : (⟨S1x128, .f32⟩ : BufTy).Contents (Elt F) → (⟨S1x128, .f32⟩ : BufTy).Contents (Elt F) → (⟨S1x128, .f32⟩ : BufTy).Contents (Elt F)),
    StableHlo.unary main_call2_call0_v3 main_call2_call0_v4 ((broadcastInDim S100000x128 ![0, 1] bcast_S1x128_S100000x128_0_1) : (⟨S1x128, .f32⟩ : BufTy).Contents (Elt F) → (⟨S100000x128, .f32⟩ : BufTy).Contents (Elt F)),
    StableHlo.binary main_v70 main_call2_call0_v4 main_call2_call0_v5 (subf : (⟨S100000x128, .f32⟩ : BufTy).Contents (Elt F) → (⟨S100000x128, .f32⟩ : BufTy).Contents (Elt F) → (⟨S100000x128, .f32⟩ : BufTy).Contents (Elt F)),
    StableHlo.binary main_call2_call0_v5 main_call2_call0_v5 main_call2_call0_v6 (mulf : (⟨S100000x128, .f32⟩ : BufTy).Contents (Elt F) → (⟨S100000x128, .f32⟩ : BufTy).Contents (Elt F) → (⟨S100000x128, .f32⟩ : BufTy).Contents (Elt F)),
    StableHlo.unary main_c_40 main_call2_call0_v7 ((sitofp .f32) : (⟨S_, .i32⟩ : BufTy).Contents (Elt F) → (⟨S_, .f32⟩ : BufTy).Contents (Elt F)),
    StableHlo.nullary main_call2_call0_cst_1 (constant S_ .f32 0x47C35000#32),
    StableHlo.binary main_call2_call0_cst_1 main_call2_call0_v7 main_call2_call0_v8 (subf : (⟨S_, .f32⟩ : BufTy).Contents (Elt F) → (⟨S_, .f32⟩ : BufTy).Contents (Elt F) → (⟨S_, .f32⟩ : BufTy).Contents (Elt F)),
    StableHlo.nullary main_call2_call0_cst_2 (constant S_ .f32 0x00000000#32),
    StableHlo.binary main_call2_call0_v6 main_call2_call0_cst_2 main_call2_call0_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call2_call0_v8 main_call2_call0_v10 ((broadcastInDim S128 ![] bcast_S_S128) : (⟨S_, .f32⟩ : BufTy).Contents (Elt F) → (⟨S128, .f32⟩ : BufTy).Contents (Elt F)),
    StableHlo.binary main_call2_call0_v9 main_call2_call0_v10 main_call2_call0_v11 (Host.divf : (⟨S128, .f32⟩ : BufTy).Contents (Elt F) → (⟨S128, .f32⟩ : BufTy).Contents (Elt F) → (⟨S128, .f32⟩ : BufTy).Contents (Elt F)),
    StableHlo.nullary main_call2_call0_cst_3 (constant S_ .f32 0x00000000#32),
    StableHlo.binary main_call2_call0_v8 main_call2_call0_cst_3 main_call2_call0_v12 ((cmpf .ogt) : (⟨S_, .f32⟩ : BufTy).Contents (Elt F) → (⟨S_, .f32⟩ : BufTy).Contents (Elt F) → (⟨S_, .i1⟩ : BufTy).Contents (Elt F)),
    StableHlo.nullary main_call2_call0_cst_4 (constant S_ .f32 0x7FC00000#32),
    StableHlo.unary main_call2_call0_cst_4 main_call2_call0_call0_v0 (id : (⟨S_, .f32⟩ : BufTy).Contents (Elt F) → (⟨S_, .f32⟩ : BufTy).Contents (Elt F)),
    StableHlo.unary main_call2_call0_call0_v0 main_call2_call0_call0_v1 ((broadcastInDim S128 ![] bcast_S_S128) : (⟨S_, .f32⟩ : BufTy).Contents (Elt F) → (⟨S128, .f32⟩ : BufTy).Contents (Elt F)),
    StableHlo.ternary main_call2_call0_v12 main_call2_call0_v11 main_call2_call0_call0_v1 main_call2_v0 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_call2_v0 main_v148 (Host.sqrt : (⟨S128, .f32⟩ : BufTy).Contents (Elt F) → (⟨S128, .f32⟩ : BufTy).Contents (Elt F)),
    StableHlo.unary main_v148 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S100000x128 ![0, 1] bcast_S1x128_S100000x128_0_1 : (⟨S1x128, .f32⟩ : BufTy).Contents (Elt F) → (⟨S100000x128, .f32⟩ : BufTy).Contents (Elt F)),
    StableHlo.binary main_v147 main_v150 main_v151 (Host.divf : (⟨S100000x128, .f32⟩ : BufTy).Contents (Elt F) → (⟨S100000x128, .f32⟩ : BufTy).Contents (Elt F) → (⟨S100000x128, .f32⟩ : BufTy).Contents (Elt F)),
    StableHlo.nullary main_cst_41 (constant S_ .f32 0x00000000#32),
    StableHlo.binary main_v141 main_cst_41 main_v152 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_42 (constant S_ .f32 0x47C35000#32),
    StableHlo.unary main_cst_42 main_v153 (broadcastInDim S128 ![] bcast_S_S128 : (⟨S_, .f32⟩ : BufTy).Contents (Elt F) → (⟨S128, .f32⟩ : BufTy).Contents (Elt F)),
    StableHlo.binary main_v152 main_v153 main_v154 (Host.divf : (⟨S128, .f32⟩ : BufTy).Contents (Elt F) → (⟨S128, .f32⟩ : BufTy).Contents (Elt F) → (⟨S128, .f32⟩ : BufTy).Contents (Elt F)),
    StableHlo.unary main_v154 main_v155 (broadcastInDim S1x128 ![1] bcast_S128_S1x128_1 : (⟨S128, .f32⟩ : BufTy).Contents (Elt F) → (⟨S1x128, .f32⟩ : BufTy).Contents (Elt F)),
    StableHlo.unary main_v155 main_v156 (broadcastInDim S100000x128 ![0, 1] bcast_S1x128_S100000x128_0_1 : (⟨S1x128, .f32⟩ : BufTy).Contents (Elt F) → (⟨S100000x128, .f32⟩ : BufTy).Contents (Elt F)),
    StableHlo.binary main_v141 main_v156 main_v157 (subf : (⟨S100000x128, .f32⟩ : BufTy).Contents (Elt F) → (⟨S100000x128, .f32⟩ : BufTy).Contents (Elt F) → (⟨S100000x128, .f32⟩ : BufTy).Contents (Elt F)),
    StableHlo.nullary main_c_43 (constantI S_ 32 1#32),
    StableHlo.nullary main_call3_call0_cst (constant S_ .f32 0x00000000#32),
    StableHlo.binary main_v141 main_call3_call0_cst main_call3_call0_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call3_call0_v0 main_call3_call0_v1 ((broadcastInDim S1x128 ![1] bcast_S128_S1x128_1) : (⟨S128, .f32⟩ : BufTy).Contents (Elt F) → (⟨S1x128, .f32⟩ : BufTy).Contents (Elt F)),
    StableHlo.nullary main_call3_call0_cst_0 (constant S_ .f32 0x47C35000#32),
    StableHlo.unary main_call3_call0_cst_0 main_call3_call0_v2 ((broadcastInDim S1x128 ![] bcast_S_S1x128) : (⟨S_, .f32⟩ : BufTy).Contents (Elt F) → (⟨S1x128, .f32⟩ : BufTy).Contents (Elt F)),
    StableHlo.binary main_call3_call0_v1 main_call3_call0_v2 main_call3_call0_v3 (Host.divf : (⟨S1x128, .f32⟩ : BufTy).Contents (Elt F) → (⟨S1x128, .f32⟩ : BufTy).Contents (Elt F) → (⟨S1x128, .f32⟩ : BufTy).Contents (Elt F)),
    StableHlo.unary main_call3_call0_v3 main_call3_call0_v4 ((broadcastInDim S100000x128 ![0, 1] bcast_S1x128_S100000x128_0_1) : (⟨S1x128, .f32⟩ : BufTy).Contents (Elt F) → (⟨S100000x128, .f32⟩ : BufTy).Contents (Elt F)),
    StableHlo.binary main_v141 main_call3_call0_v4 main_call3_call0_v5 (subf : (⟨S100000x128, .f32⟩ : BufTy).Contents (Elt F) → (⟨S100000x128, .f32⟩ : BufTy).Contents (Elt F) → (⟨S100000x128, .f32⟩ : BufTy).Contents (Elt F)),
    StableHlo.binary main_call3_call0_v5 main_call3_call0_v5 main_call3_call0_v6 (mulf : (⟨S100000x128, .f32⟩ : BufTy).Contents (Elt F) → (⟨S100000x128, .f32⟩ : BufTy).Contents (Elt F) → (⟨S100000x128, .f32⟩ : BufTy).Contents (Elt F)),
    StableHlo.unary main_c_43 main_call3_call0_v7 ((sitofp .f32) : (⟨S_, .i32⟩ : BufTy).Contents (Elt F) → (⟨S_, .f32⟩ : BufTy).Contents (Elt F)),
    StableHlo.nullary main_call3_call0_cst_1 (constant S_ .f32 0x47C35000#32),
    StableHlo.binary main_call3_call0_cst_1 main_call3_call0_v7 main_call3_call0_v8 (subf : (⟨S_, .f32⟩ : BufTy).Contents (Elt F) → (⟨S_, .f32⟩ : BufTy).Contents (Elt F) → (⟨S_, .f32⟩ : BufTy).Contents (Elt F)),
    StableHlo.nullary main_call3_call0_cst_2 (constant S_ .f32 0x00000000#32),
    StableHlo.binary main_call3_call0_v6 main_call3_call0_cst_2 main_call3_call0_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call3_call0_v8 main_call3_call0_v10 ((broadcastInDim S128 ![] bcast_S_S128) : (⟨S_, .f32⟩ : BufTy).Contents (Elt F) → (⟨S128, .f32⟩ : BufTy).Contents (Elt F)),
    StableHlo.binary main_call3_call0_v9 main_call3_call0_v10 main_call3_call0_v11 (Host.divf : (⟨S128, .f32⟩ : BufTy).Contents (Elt F) → (⟨S128, .f32⟩ : BufTy).Contents (Elt F) → (⟨S128, .f32⟩ : BufTy).Contents (Elt F)),
    StableHlo.nullary main_call3_call0_cst_3 (constant S_ .f32 0x00000000#32),
    StableHlo.binary main_call3_call0_v8 main_call3_call0_cst_3 main_call3_call0_v12 ((cmpf .ogt) : (⟨S_, .f32⟩ : BufTy).Contents (Elt F) → (⟨S_, .f32⟩ : BufTy).Contents (Elt F) → (⟨S_, .i1⟩ : BufTy).Contents (Elt F)),
    StableHlo.nullary main_call3_call0_cst_4 (constant S_ .f32 0x7FC00000#32),
    StableHlo.unary main_call3_call0_cst_4 main_call3_call0_call0_v0 (id : (⟨S_, .f32⟩ : BufTy).Contents (Elt F) → (⟨S_, .f32⟩ : BufTy).Contents (Elt F)),
    StableHlo.unary main_call3_call0_call0_v0 main_call3_call0_call0_v1 ((broadcastInDim S128 ![] bcast_S_S128) : (⟨S_, .f32⟩ : BufTy).Contents (Elt F) → (⟨S128, .f32⟩ : BufTy).Contents (Elt F)),
    StableHlo.ternary main_call3_call0_v12 main_call3_call0_v11 main_call3_call0_call0_v1 main_call3_v0 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_call3_v0 main_v158 (Host.sqrt : (⟨S128, .f32⟩ : BufTy).Contents (Elt F) → (⟨S128, .f32⟩ : BufTy).Contents (Elt F)),
    StableHlo.unary main_v158 main_v159 (broadcastInDim S1x128 ![1] bcast_S128_S1x128_1 : (⟨S128, .f32⟩ : BufTy).Contents (Elt F) → (⟨S1x128, .f32⟩ : BufTy).Contents (Elt F)),
    StableHlo.unary main_v159 main_v160 (broadcastInDim S100000x128 ![0, 1] bcast_S1x128_S100000x128_0_1 : (⟨S1x128, .f32⟩ : BufTy).Contents (Elt F) → (⟨S100000x128, .f32⟩ : BufTy).Contents (Elt F)),
    StableHlo.binary main_v157 main_v160 main_v161 (Host.divf : (⟨S100000x128, .f32⟩ : BufTy).Contents (Elt F) → (⟨S100000x128, .f32⟩ : BufTy).Contents (Elt F) → (⟨S100000x128, .f32⟩ : BufTy).Contents (Elt F)) ]

/-- The whole program's operations: the windows' lists one after the other. -/
abbrev ops : List (HloOp τ sig (Elt F)) :=
  ops0 ++ (ops1 ++ (ops2 ++ (ops3)))

end Cert.ReferenceIdeal.RefRun

end
-- ==== Proof.RefSeq.lean ====
/-
  The reference program as a straight line.

  @main runs its four windows in order, and each window is the sequence of its operations once the called functions
  (the clamp at zero, the standard deviation with its variance and its guarded quotient) are unfolded at their calls and
  the sequencing is reassociated.  A straight line of host operations terminates from any memory, and leaves every
  buffer at the fold of the operations' results over the contents it was launched with.
-/
import proofs.«136093_j68229850464275_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part0_eq (c : Dev nD) : main_part0 (F := F) c = seq ops0 := by
  simp only [main_part0, fn_relu.body, seq, bind_assoc, pure_bind]
  rfl

set_option maxRecDepth 8192 in
theorem main_part1_eq (c : Dev nD) : main_part1 (F := F) c = seq ops1 := rfl

set_option maxRecDepth 8192 in
theorem main_part2_eq (c : Dev nD) : main_part2 (F := F) c = seq ops2 := by
  simp only [main_part2, fn_relu.body, seq, bind_assoc, pure_bind]
  rfl

set_option maxRecDepth 8192 in
theorem main_part3_eq (c : Dev nD) : main_part3 (F := F) c = seq ops3 := by
  simp only [main_part3, fn_std.body, fn_var.body, fn_where.body, seq, bind_assoc, pure_bind]
  rfl

theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation stays among the device's buffers, and determines its result -/

theorem ops0_sub : (ops0 : List (HloOp τ sig (Elt F))).Forall fun op => op.bufs ⊆ tcRefs τ sig := by
  simp only [ops0, List.Forall, nullary_bufs_sub, unary_bufs_sub, binary_bufs_sub, ternary_bufs_sub, and_self]

theorem ops1_sub : (ops1 : List (HloOp τ sig (Elt F))).Forall fun op => op.bufs ⊆ tcRefs τ sig := by
  simp only [ops1, List.Forall, nullary_bufs_sub, unary_bufs_sub, binary_bufs_sub, ternary_bufs_sub, and_self]

theorem ops2_sub : (ops2 : List (HloOp τ sig (Elt F))).Forall fun op => op.bufs ⊆ tcRefs τ sig := by
  simp only [ops2, List.Forall, nullary_bufs_sub, unary_bufs_sub, binary_bufs_sub, ternary_bufs_sub, and_self]

theorem ops3_sub : (ops3 : List (HloOp τ sig (Elt F))).Forall fun op => op.bufs ⊆ tcRefs τ sig := by
  simp only [ops3, List.Forall, nullary_bufs_sub, unary_bufs_sub, binary_bufs_sub, ternary_bufs_sub, and_self]

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

set_option maxRecDepth 8192 in
theorem ops0_fresh : ∀ op ∈ (ops0 : List (HloOp τ sig (Elt F))), op.fresh = ∅ := by
  intro _ h; (repeat (cases h with | head => rfl | tail _ h => ?_)); exact nomatch h

set_option maxRecDepth 8192 in
theorem ops1_fresh : ∀ op ∈ (ops1 : List (HloOp τ sig (Elt F))), op.fresh = ∅ := by
  intro _ h; (repeat (cases h with | head => rfl | tail _ h => ?_)); exact nomatch h

set_option maxRecDepth 8192 in
theorem ops2_fresh : ∀ op ∈ (ops2 : List (HloOp τ sig (Elt F))), op.fresh = ∅ := by
  intro _ h; (repeat (cases h with | head => rfl | tail _ h => ?_)); exact nomatch h

set_option maxRecDepth 8192 in
theorem ops3_fresh : ∀ op ∈ (ops3 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h
  exacts [ops0_fresh op h, ops1_fresh op h, ops2_fresh op h, ops3_fresh op h]

/-- From any memory with zero counters, every weakly fair execution of @main terminates, and leaves every buffer at
    the fold of the operations over the contents the device was launched with. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefTerm.lean ====
/-
  The reference program's two results as terms: `refZ (refH …)`, the host operations of its @main composed.

  `refH` is the two graph-convolution layers (the array the z-score is taken of) and `refZ` the z-score: each entry minus its
  column's mean, divided by the square root of the column's sample variance, the variance taken of the centred entries.
  Every piece is the printed operation applied to the printed operands, so that the run's result is this term by unfolding.
-/
import proofs.«136093_j68229850464275_1_alg».proof.ReferenceIdeal
import Idealize.ShloMosaic.PureOps.Ideal

noncomputable section

namespace Cert.ReferenceIdeal.RefTerm

open Idealize.ShloMosaic Cert.ReferenceIdeal

variable [Facts]
open Facts₀ Facts

/-- `max(deg, 1) ^ (-1/2)` per node, `deg` the number of edges whose endpoint (read from `idx`) is the node. -/
def invSqrtDeg (idx : IVec S800000 32) : FVec Ideal S100000 .f32 :=
  Host.powf (F := Ideal)
    (maximumf
      (Host.scatterAdd (F := Ideal) scatter_S100000_S800000x1_S800000_n_0_0_1
        (broadcastInDim S100000 ![] bcast_S_S100000 (constant (F := Ideal) S_ .f32 0x00000000#32))
        (broadcastInDim S800000x1 ![0] bcast_S800000_S800000x1_0 idx)
        (broadcastInDim S800000 ![] bcast_S_S800000 (constant (F := Ideal) S_ .f32 0x3F800000#32)))
      (broadcastInDim S100000 ![] bcast_S_S100000 (constant (F := Ideal) S_ .f32 0x3F800000#32)))
    (broadcastInDim S100000 ![] bcast_S_S100000 (constant (F := Ideal) S_ .f32 0xBF000000#32))

/-- A node number read the way array indexing reads it: a negative one counts from the end. -/
def wrapIdx (src : IVec S800000 32) : IVec S800000 32 :=
  select (cmpi .slt src (broadcastInDim S800000 ![] bcast_S_S800000 (constantI S_ 32 0#32)))
    (addi src (broadcastInDim S800000 ![] bcast_S_S800000 (constantI S_ 32 100000#32))) src

/-- The rows of `p` gathered at the edges' sources and added into the edges' destinations. -/
def aggregate (src dst : IVec S800000 32) (p : FVec Ideal S100000x128 .f32) : FVec Ideal S100000x128 .f32 :=
  Host.scatterAdd (F := Ideal) scatter_S100000x128_S800000x1_S800000x128_1_0_0_1
    (broadcastInDim S100000x128 ![] bcast_S_S100000x128 (constant (F := Ideal) S_ .f32 0x00000000#32))
    (broadcastInDim S800000x1 ![0] bcast_S800000_S800000x1_0 dst)
    (Host.gather gather_S100000x128_S800000x1_S800000x128_1_0_n_n_0_1_1128 p
      (broadcastInDim S800000x1 ![0] bcast_S800000_S800000x1_0 (wrapIdx src)))

/-- Row `r` of `y` times entry `r` of `v`. -/
def scaleBy (y : FVec Ideal S100000x128 .f32) (v : FVec Ideal S100000 .f32) : FVec Ideal S100000x128 .f32 :=
  mulf y (broadcastInDim S100000x128 ![0, 1] bcast_S100000x1_S100000x128_0_1
    (broadcastInDim S100000x1 ![0] bcast_S100000_S100000x1_0 v))

/-- The row `b` added to every row of `y`. -/
def addBias (y : FVec Ideal S100000x128 .f32) (b : FVec Ideal S128 .f32) : FVec Ideal S100000x128 .f32 :=
  addf y (broadcastInDim S100000x128 ![0, 1] bcast_S1x128_S100000x128_0_1
    (broadcastInDim S1x128 ![1] bcast_S128_S1x128_1 b))

/-- One layer before its bias: scale by the out-degrees, multiply by `w`, aggregate, scale by the in-degrees. -/
def conv (src dst : IVec S800000 32) (x : FVec Ideal S100000x128 .f32) (w : FVec Ideal S128x128 .f32) :
    FVec Ideal S100000x128 .f32 :=
  scaleBy (aggregate src dst
    (Host.dotGeneral (F := Ideal) dot_S100000x128_S128x128_S100000x128_1_0_0_1_n_n none (scaleBy x (invSqrtDeg src)) w))
    (invSqrtDeg dst)

/-- The two layers: the array the z-score is taken of. -/
def refH (x : FVec Ideal S100000x128 .f32) (w1 : FVec Ideal S128x128 .f32) (b1 : FVec Ideal S128 .f32)
    (w2 : FVec Ideal S128x128 .f32) (b2 : FVec Ideal S128 .f32) (src dst : IVec S800000 32) : FVec Ideal S100000x128 .f32 :=
  addBias (conv src dst
    (maximumf (addBias (conv src dst x w1) b1)
      (broadcastInDim S100000x128 ![] bcast_S_S100000x128 (constant (F := Ideal) S_ .f32 0x00000000#32))) w2) b2

/-- The column sums of `h` as a vector. -/
def colTotals (h : FVec Ideal S100000x128 .f32) : FVec Ideal S128 .f32 :=
  Host.reduceAdd (F := Ideal) h (constant (F := Ideal) S_ .f32 0x00000000#32) reducesTo_S100000x128_S128_d0 h_S_

/-- The divisor of the sample variance: the row count minus one. -/
def dof : FVec Ideal S_ .f32 :=
  subf (constant (F := Ideal) S_ .f32 0x47C35000#32) (sitofp (F := Ideal) .f32 (constantI S_ 32 1#32))

/-- `h` minus its column means, the means kept as a one-row array (the spelling inside the variance). -/
def centredRow (h : FVec Ideal S100000x128 .f32) : FVec Ideal S100000x128 .f32 :=
  subf h (broadcastInDim S100000x128 ![0, 1] bcast_S1x128_S100000x128_0_1
    (Host.divf (F := Ideal) (broadcastInDim S1x128 ![1] bcast_S128_S1x128_1 (colTotals h))
      (broadcastInDim S1x128 ![] bcast_S_S1x128 (constant (F := Ideal) S_ .f32 0x47C35000#32))))

/-- The sample variance of each column, from the entries centred at the column mean. -/
def sampleVar (h : FVec Ideal S100000x128 .f32) : FVec Ideal S128 .f32 :=
  Host.divf (F := Ideal) (colTotals (mulf (centredRow h) (centredRow h))) (broadcastInDim S128 ![] bcast_S_S128 dof)

/-- The standard deviation of each column (the variance where the divisor is positive, else the fill word). -/
def stdDev (h : FVec Ideal S100000x128 .f32) : FVec Ideal S128 .f32 :=
  Host.sqrt (F := Ideal)
    (select (broadcastInDim S128 ![] bcast_S_S128 (cmpf .ogt dof (constant (F := Ideal) S_ .f32 0x00000000#32)))
      (sampleVar h)
      (broadcastInDim S128 ![] bcast_S_S128 (id (constant (F := Ideal) S_ .f32 0x7FC00000#32))))

/-- `h` minus its column means. -/
def centred (h : FVec Ideal S100000x128 .f32) : FVec Ideal S100000x128 .f32 :=
  subf h (broadcastInDim S100000x128 ![0, 1] bcast_S1x128_S100000x128_0_1
    (broadcastInDim S1x128 ![1] bcast_S128_S1x128_1
      (Host.divf (F := Ideal) (colTotals h) (broadcastInDim S128 ![] bcast_S_S128 (constant (F := Ideal) S_ .f32 0x47C35000#32)))))

/-- The z-score of `h`, column by column. -/
def refZ (h : FVec Ideal S100000x128 .f32) : FVec Ideal S100000x128 .f32 :=
  Host.divf (F := Ideal) (centred h)
    (broadcastInDim S100000x128 ![0, 1] bcast_S1x128_S100000x128_0_1
      (broadcastInDim S1x128 ![1] bcast_S128_S1x128_1 (stdDev h)))

end Cert.ReferenceIdeal.RefTerm

end
-- ==== Proof.RefDeg.lean ====
/-
  The count of edges at each node, the piece the two per-node scales are built from.

  `edgeCount idx` adds one at node `idx e` for every edge `e`, starting from zero; the reference's per-node scale is
  its maximum with one raised to the power minus one half.
-/
import proofs.«136093_j68229850464275_1_alg».proof.Proof.Gen.ReferenceIdeal
import proofs.«136093_j68229850464275_1_alg».proof.Proof.RefTerm

noncomputable section

namespace Cert.ReferenceIdeal.RefRun

open Idealize.ShloMosaic Cert.ReferenceIdeal Cert.ReferenceIdeal.Gen

/-- The number of edges whose endpoint, read from `idx`, is each node. -/
def edgeCount (idx : IVec S800000 32) : FVec Ideal S100000 .f32 :=
  Host.scatterAdd (F := Ideal) scatter_S100000_S800000x1_S800000_n_0_0_1
    (broadcastInDim S100000 ![] bcast_S_S100000 (constant (F := Ideal) S_ .f32 0x00000000#32))
    (broadcastInDim S800000x1 ![0] bcast_S800000_S800000x1_0 idx)
    (broadcastInDim S800000 ![] bcast_S_S800000 (constant (F := Ideal) S_ .f32 0x3F800000#32))

/-- The per-node scale is the edge count's maximum with one, to the power minus one half. -/
theorem invSqrtDeg_eq (idx : IVec S800000 32) :
    RefTerm.invSqrtDeg idx
      = Host.powf (F := Ideal)
          (maximumf (edgeCount idx) (broadcastInDim S100000 ![] bcast_S_S100000 (constant (F := Ideal) S_ .f32 0x3F800000#32)))
          (broadcastInDim S100000 ![] bcast_S_S100000 (constant (F := Ideal) S_ .f32 0xBF000000#32)) := rfl

end Cert.ReferenceIdeal.RefRun

end
-- ==== Proof.RefVal0.lean ====
/-
  The first window of the reference's run: the first graph's first layer.

  From the launch contents `V` the window leaves the first layer's clamped output (scale by the out-degrees, multiply
  by the first weight matrix, aggregate along the edges, scale by the in-degrees, add the bias, maximum with zero), and,
  recomputed for the second layer, the edge counts at the destinations, the clamped edge counts at the sources, and the
  exponent's literal.
-/
import proofs.«136093_j68229850464275_1_alg».proof.Proof.RefOps
import proofs.«136093_j68229850464275_1_alg».proof.Proof.RefTerm
import proofs.«136093_j68229850464275_1_alg».proof.Proof.RefDeg

noncomputable section

namespace Cert.ReferenceIdeal.RefRun

open Cert.ReferenceIdeal Cert.ReferenceIdeal.Gen Idealize.ShloMosaic Idealize.ShloMosaic.TcCoe Idealize.SL.Sem Idealize.ShloMosaic.StableHlo

attribute [local irreducible] Host.reduceAdd Host.scatterAdd Host.gather

set_option maxRecDepth 8192 in
set_option maxHeartbeats 4000000 in
/-- The first layer's output, clamped at zero. -/
theorem w0_v35 (V : Valuation τ sig (Elt Ideal)) :
    after (ops0 (F := Ideal)) V (main_v35 : DevRef τ sig)
      = maximumf
          (RefTerm.addBias (RefTerm.conv (V (main_arg6 : DevRef τ sig)) (V (main_arg7 : DevRef τ sig))
            (V (main_arg0 : DevRef τ sig)) (V (main_arg2 : DevRef τ sig))) (V (main_arg3 : DevRef τ sig)))
          (broadcastInDim S100000x128 ![] bcast_S_S100000x128 (constant (F := Ideal) S_ .f32 0x00000000#32)) := by
  simp only [ops0]
  after_results_simp
  rfl

set_option maxRecDepth 8192 in
set_option maxHeartbeats 4000000 in
/-- The edge counts at the destinations, as the second layer recomputes them. -/
theorem w0_v42 (V : Valuation τ sig (Elt Ideal)) :
    after (ops0 (F := Ideal)) V (main_v42 : DevRef τ sig) = edgeCount (V (main_arg7 : DevRef τ sig)) := by
  simp only [ops0]
  after_results_simp
  rfl

set_option maxRecDepth 8192 in
set_option maxHeartbeats 4000000 in
/-- The edge counts at the sources, as the second layer recomputes them, clamped below at one. -/
theorem w0_v44 (V : Valuation τ sig (Elt Ideal)) :
    after (ops0 (F := Ideal)) V (main_v44 : DevRef τ sig)
      = maximumf (edgeCount (V (main_arg6 : DevRef τ sig)))
          (broadcastInDim S100000 ![] bcast_S_S100000 (constant (F := Ideal) S_ .f32 0x3F800000#32)) := by
  simp only [ops0]
  after_results_simp
  rfl

set_option maxRecDepth 8192 in
set_option maxHeartbeats 4000000 in
/-- The exponent minus one half. -/
theorem w0_cst_12 (V : Valuation τ sig (Elt Ideal)) :
    after (ops0 (F := Ideal)) V (main_cst_12 : DevRef τ sig) = constant (F := Ideal) S_ .f32 0xBF000000#32 := by
  simp only [ops0]
  after_results_simp

set_option maxRecDepth 8192 in
set_option maxHeartbeats 4000000 in
/-- The window writes none of the program's arguments. -/
theorem w0_args (V : Valuation τ sig (Elt Ideal)) :
    after (ops0 (F := Ideal)) V (main_arg0 : DevRef τ sig) = V (main_arg0 : DevRef τ sig)
    ∧ after (ops0 (F := Ideal)) V (main_arg1 : DevRef τ sig) = V (main_arg1 : DevRef τ sig)
    ∧ after (ops0 (F := Ideal)) V (main_arg2 : DevRef τ sig) = V (main_arg2 : DevRef τ sig)
    ∧ after (ops0 (F := Ideal)) V (main_arg3 : DevRef τ sig) = V (main_arg3 : DevRef τ sig)
    ∧ after (ops0 (F := Ideal)) V (main_arg4 : DevRef τ sig) = V (main_arg4 : DevRef τ sig)
    ∧ after (ops0 (F := Ideal)) V (main_arg5 : DevRef τ sig) = V (main_arg5 : DevRef τ sig)
    ∧ after (ops0 (F := Ideal)) V (main_arg6 : DevRef τ sig) = V (main_arg6 : DevRef τ sig)
    ∧ after (ops0 (F := Ideal)) V (main_arg7 : DevRef τ sig) = V (main_arg7 : DevRef τ sig)
    ∧ after (ops0 (F := Ideal)) V (main_arg8 : DevRef τ sig) = V (main_arg8 : DevRef τ sig)
    ∧ after (ops0 (F := Ideal)) V (main_arg9 : DevRef τ sig) = V (main_arg9 : DevRef τ sig) := by
  simp only [ops0]
  after_results_simp
  simp only [and_self]

end Cert.ReferenceIdeal.RefRun

end
-- ==== Proof.RefVal1.lean ====
/-
  The second window of the reference's run: the first graph's second layer, and the start of the second graph's first.

  From contents `W` in which the earlier window's buffers hold the first layer's clamped output `x`, the edge counts
  and the exponent, the window leaves the first graph's encoder output (the second layer applied to `x`, plus its
  bias); and, for the second graph, the edge counts at its destinations and the rows of its scaled, multiplied
  features gathered at its edges' sources.
-/
import proofs.«136093_j68229850464275_1_alg».proof.Proof.RefOps
import proofs.«136093_j68229850464275_1_alg».proof.Proof.RefTerm
import proofs.«136093_j68229850464275_1_alg».proof.Proof.RefDeg

noncomputable section

namespace Cert.ReferenceIdeal.RefRun

open Cert.ReferenceIdeal Cert.ReferenceIdeal.Gen Idealize.ShloMosaic Idealize.ShloMosaic.TcCoe Idealize.SL.Sem Idealize.ShloMosaic.StableHlo

attribute [local irreducible] Host.reduceAdd Host.scatterAdd Host.gather

set_option maxRecDepth 8192 in
set_option maxHeartbeats 4000000 in
/-- The first graph's encoder output. -/
theorem w1_v70 (W : Valuation τ sig (Elt Ideal)) (x : FVec Ideal S100000x128 .f32) (s d : IVec S800000 32)
    (w : FVec Ideal S128x128 .f32) (b : FVec Ideal S128 .f32)
    (h35 : W (main_v35 : DevRef τ sig) = x)
    (h44 : W (main_v44 : DevRef τ sig) = maximumf (edgeCount s) (broadcastInDim S100000 ![] bcast_S_S100000 (constant (F := Ideal) S_ .f32 0x3F800000#32)))
    (h42 : W (main_v42 : DevRef τ sig) = edgeCount d)
    (h12 : W (main_cst_12 : DevRef τ sig) = constant (F := Ideal) S_ .f32 0xBF000000#32)
    (h6 : W (main_arg6 : DevRef τ sig) = s) (h7 : W (main_arg7 : DevRef τ sig) = d) (h4 : W (main_arg4 : DevRef τ sig) = w) (h5 : W (main_arg5 : DevRef τ sig) = b) :
    after (ops1 (F := Ideal)) W (main_v70 : DevRef τ sig) = RefTerm.addBias (RefTerm.conv s d x w) b := by
  simp only [ops1]
  after_results_simp
  rw [h35, h44, h42, h12, h6, h7, h4, h5]
  rfl

set_option maxRecDepth 8192 in
set_option maxHeartbeats 4000000 in
/-- The second graph's edge counts at the destinations. -/
theorem w1_v77 (W : Valuation τ sig (Elt Ideal)) (d : IVec S800000 32) (h9 : W (main_arg9 : DevRef τ sig) = d) :
    after (ops1 (F := Ideal)) W (main_v77 : DevRef τ sig) = edgeCount d := by
  simp only [ops1]
  after_results_simp
  rw [h9]
  rfl

set_option maxRecDepth 8192 in
set_option maxHeartbeats 4000000 in
/-- The second graph's features, scaled by the out-degrees and multiplied by the first weights, gathered at the sources. -/
theorem w1_v92 (W : Valuation τ sig (Elt Ideal)) (x : FVec Ideal S100000x128 .f32) (s : IVec S800000 32)
    (w : FVec Ideal S128x128 .f32)
    (h1 : W (main_arg1 : DevRef τ sig) = x) (h2 : W (main_arg2 : DevRef τ sig) = w) (h8 : W (main_arg8 : DevRef τ sig) = s) :
    after (ops1 (F := Ideal)) W (main_v92 : DevRef τ sig)
      = Host.gather gather_S100000x128_S800000x1_S800000x128_1_0_n_n_0_1_1128
          (Host.dotGeneral (F := Ideal) dot_S100000x128_S128x128_S100000x128_1_0_0_1_n_n none (RefTerm.scaleBy x (RefTerm.invSqrtDeg s)) w)
          (broadcastInDim S800000x1 ![0] bcast_S800000_S800000x1_0 (RefTerm.wrapIdx s)) := by
  simp only [ops1]
  after_results_simp
  rw [h1, h2, h8]
  rfl

set_option maxRecDepth 8192 in
set_option maxHeartbeats 4000000 in
/-- The window writes none of the program's arguments. -/
theorem w1_args (W : Valuation τ sig (Elt Ideal)) :
    after (ops1 (F := Ideal)) W (main_arg0 : DevRef τ sig) = W (main_arg0 : DevRef τ sig)
    ∧ after (ops1 (F := Ideal)) W (main_arg1 : DevRef τ sig) = W (main_arg1 : DevRef τ sig)
    ∧ after (ops1 (F := Ideal)) W (main_arg2 : DevRef τ sig) = W (main_arg2 : DevRef τ sig)
    ∧ after (ops1 (F := Ideal)) W (main_arg3 : DevRef τ sig) = W (main_arg3 : DevRef τ sig)
    ∧ after (ops1 (F := Ideal)) W (main_arg4 : DevRef τ sig) = W (main_arg4 : DevRef τ sig)
    ∧ after (ops1 (F := Ideal)) W (main_arg5 : DevRef τ sig) = W (main_arg5 : DevRef τ sig)
    ∧ after (ops1 (F := Ideal)) W (main_arg6 : DevRef τ sig) = W (main_arg6 : DevRef τ sig)
    ∧ after (ops1 (F := Ideal)) W (main_arg7 : DevRef τ sig) = W (main_arg7 : DevRef τ sig)
    ∧ after (ops1 (F := Ideal)) W (main_arg8 : DevRef τ sig) = W (main_arg8 : DevRef τ sig)
    ∧ after (ops1 (F := Ideal)) W (main_arg9 : DevRef τ sig) = W (main_arg9 : DevRef τ sig) := by
  simp only [ops1]
  after_results_simp
  simp only [and_self]

end Cert.ReferenceIdeal.RefRun

end
-- ==== Proof.RefVal2.lean ====
/-
  The third window of the reference's run: the rest of the second graph's two layers, up to the last bias.

  From contents `W` in which the earlier window's buffers hold the gathered rows of a product `p` and the edge
  counts at the destinations, the window leaves the second layer's aggregate scaled by the in-degrees (the encoder
  output before its bias) and the bias as one row; it leaves the first graph's encoder output where it was.
-/
import proofs.«136093_j68229850464275_1_alg».proof.Proof.RefOps
import proofs.«136093_j68229850464275_1_alg».proof.Proof.RefTerm
import proofs.«136093_j68229850464275_1_alg».proof.Proof.RefDeg

noncomputable section

namespace Cert.ReferenceIdeal.RefRun

open Cert.ReferenceIdeal Cert.ReferenceIdeal.Gen Idealize.ShloMosaic Idealize.ShloMosaic.TcCoe Idealize.SL.Sem Idealize.ShloMosaic.StableHlo

attribute [local irreducible] Host.reduceAdd Host.scatterAdd Host.gather

set_option maxRecDepth 8192 in
set_option maxHeartbeats 4000000 in
/-- The second graph's second layer before its bias, from the first layer's product `p`. -/
theorem w2_v138 (W : Valuation τ sig (Elt Ideal)) (p : FVec Ideal S100000x128 .f32) (s d : IVec S800000 32)
    (b1 : FVec Ideal S128 .f32) (w2 : FVec Ideal S128x128 .f32)
    (h92 : W (main_v92 : DevRef τ sig)
      = Host.gather gather_S100000x128_S800000x1_S800000x128_1_0_n_n_0_1_1128 p (broadcastInDim S800000x1 ![0] bcast_S800000_S800000x1_0 (RefTerm.wrapIdx s)))
    (h77 : W (main_v77 : DevRef τ sig) = edgeCount d)
    (h8 : W (main_arg8 : DevRef τ sig) = s) (h9 : W (main_arg9 : DevRef τ sig) = d) (h3 : W (main_arg3 : DevRef τ sig) = b1) (h4 : W (main_arg4 : DevRef τ sig) = w2) :
    after (ops2 (F := Ideal)) W (main_v138 : DevRef τ sig)
      = RefTerm.conv s d
          (maximumf (RefTerm.addBias (RefTerm.scaleBy (RefTerm.aggregate s d p) (RefTerm.invSqrtDeg d)) b1) (broadcastInDim S100000x128 ![] bcast_S_S100000x128 (constant (F := Ideal) S_ .f32 0x00000000#32)))
          w2 := by
  simp only [ops2]
  after_results_simp
  rw [h92, h77, h8, h9, h3, h4]
  rfl

set_option maxRecDepth 8192 in
set_option maxHeartbeats 4000000 in
/-- The last bias as one row. -/
theorem w2_v139 (W : Valuation τ sig (Elt Ideal)) (b : FVec Ideal S128 .f32) (h5 : W (main_arg5 : DevRef τ sig) = b) :
    after (ops2 (F := Ideal)) W (main_v139 : DevRef τ sig) = broadcastInDim S1x128 ![1] bcast_S128_S1x128_1 b := by
  simp only [ops2]
  after_results_simp
  rw [h5]

set_option maxRecDepth 8192 in
set_option maxHeartbeats 4000000 in
/-- The first graph's encoder output is not written. -/
theorem w2_v70 (W : Valuation τ sig (Elt Ideal)) :
    after (ops2 (F := Ideal)) W (main_v70 : DevRef τ sig) = W (main_v70 : DevRef τ sig) := by
  simp only [ops2]
  after_results_simp

set_option maxRecDepth 8192 in
set_option maxHeartbeats 4000000 in
/-- The window writes none of the program's arguments. -/
theorem w2_args (W : Valuation τ sig (Elt Ideal)) :
    after (ops2 (F := Ideal)) W (main_arg0 : DevRef τ sig) = W (main_arg0 : DevRef τ sig)
    ∧ after (ops2 (F := Ideal)) W (main_arg1 : DevRef τ sig) = W (main_arg1 : DevRef τ sig)
    ∧ after (ops2 (F := Ideal)) W (main_arg2 : DevRef τ sig) = W (main_arg2 : DevRef τ sig)
    ∧ after (ops2 (F := Ideal)) W (main_arg3 : DevRef τ sig) = W (main_arg3 : DevRef τ sig)
    ∧ after (ops2 (F := Ideal)) W (main_arg4 : DevRef τ sig) = W (main_arg4 : DevRef τ sig)
    ∧ after (ops2 (F := Ideal)) W (main_arg5 : DevRef τ sig) = W (main_arg5 : DevRef τ sig)
    ∧ after (ops2 (F := Ideal)) W (main_arg6 : DevRef τ sig) = W (main_arg6 : DevRef τ sig)
    ∧ after (ops2 (F := Ideal)) W (main_arg7 : DevRef τ sig) = W (main_arg7 : DevRef τ sig)
    ∧ after (ops2 (F := Ideal)) W (main_arg8 : DevRef τ sig) = W (main_arg8 : DevRef τ sig)
    ∧ after (ops2 (F := Ideal)) W (main_arg9 : DevRef τ sig) = W (main_arg9 : DevRef τ sig) := by
  simp only [ops2]
  after_results_simp
  simp only [and_self]

end Cert.ReferenceIdeal.RefRun

end
-- ==== Proof.RefVal3.lean ====
/-
  The last window of the reference's run: the z-score of each encoder output.

  From any contents `W` of the buffers, the window's operations leave in each result buffer the z-score
  (`RefTerm.refZ`) of the array it standardises: for the first graph that array is a buffer an earlier window wrote;
  for the second it is the sum, computed in this window, of an earlier buffer and the bias row.
-/
import proofs.«136093_j68229850464275_1_alg».proof.Proof.RefOps
import proofs.«136093_j68229850464275_1_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

attribute [local irreducible] Host.reduceAdd

set_option maxRecDepth 8192 in
set_option maxHeartbeats 4000000 in
/-- The first graph's result is the z-score of the buffer holding its encoder output. -/
theorem w3_v151 (W : Valuation τ sig (Elt Ideal)) (h : FVec Ideal S100000x128 .f32)
    (h70 : W (main_v70 : DevRef τ sig) = h) :
    after (ops3 (F := Ideal)) W (main_v151 : DevRef τ sig) = RefTerm.refZ h := by
  simp only [ops3]
  after_results_simp
  rw [h70]
  rfl

set_option maxRecDepth 8192 in
set_option maxHeartbeats 4000000 in
/-- The second graph's result is the z-score of its encoder output: the earlier buffer plus the bias row. -/
theorem w3_v161 (W : Valuation τ sig (Elt Ideal)) (y : FVec Ideal S100000x128 .f32) (b : FVec Ideal S128 .f32)
    (h138 : W (main_v138 : DevRef τ sig) = y)
    (h139 : W (main_v139 : DevRef τ sig) = broadcastInDim S1x128 ![1] bcast_S128_S1x128_1 b) :
    after (ops3 (F := Ideal)) W (main_v161 : DevRef τ sig) = RefTerm.refZ (RefTerm.addBias y b) := by
  simp only [ops3]
  after_results_simp
  rw [h138, h139]
  rfl

set_option maxRecDepth 8192 in
set_option maxHeartbeats 4000000 in
/-- The window writes none of the program's arguments. -/
theorem w3_args (W : Valuation τ sig (Elt Ideal)) :
    after (ops3 (F := Ideal)) W (main_arg0 : DevRef τ sig) = W (main_arg0 : DevRef τ sig)
    ∧ after (ops3 (F := Ideal)) W (main_arg1 : DevRef τ sig) = W (main_arg1 : DevRef τ sig)
    ∧ after (ops3 (F := Ideal)) W (main_arg2 : DevRef τ sig) = W (main_arg2 : DevRef τ sig)
    ∧ after (ops3 (F := Ideal)) W (main_arg3 : DevRef τ sig) = W (main_arg3 : DevRef τ sig)
    ∧ after (ops3 (F := Ideal)) W (main_arg4 : DevRef τ sig) = W (main_arg4 : DevRef τ sig)
    ∧ after (ops3 (F := Ideal)) W (main_arg5 : DevRef τ sig) = W (main_arg5 : DevRef τ sig)
    ∧ after (ops3 (F := Ideal)) W (main_arg6 : DevRef τ sig) = W (main_arg6 : DevRef τ sig)
    ∧ after (ops3 (F := Ideal)) W (main_arg7 : DevRef τ sig) = W (main_arg7 : DevRef τ sig)
    ∧ after (ops3 (F := Ideal)) W (main_arg8 : DevRef τ sig) = W (main_arg8 : DevRef τ sig)
    ∧ after (ops3 (F := Ideal)) W (main_arg9 : DevRef τ sig) = W (main_arg9 : DevRef τ sig) := by
  simp only [ops3]
  after_results_simp
  simp only [and_self]

end Cert.ReferenceIdeal.RefRun

end
-- ==== Proof.RefRun.lean ====
/-
  The reference's run and its two results.

  @main's operations are four windows one after the other, so the fold over all of them is the four folds composed.
  Read window by window: the first graph's encoder output is complete after the second window, is left alone by the
  third, and is standardised in the fourth; the second graph's is started in the second window (the first layer's
  product, gathered at the edge sources), carried through the third (both layers up to the last bias) and completed and
  standardised in the fourth.  Each result is therefore `RefTerm.refZ (RefTerm.refH …)` of that graph's arguments, and
  no window writes an argument.
-/
import proofs.«136093_j68229850464275_1_alg».proof.Proof.RefSeq
import proofs.«136093_j68229850464275_1_alg».proof.Proof.RefVal0
import proofs.«136093_j68229850464275_1_alg».proof.Proof.RefVal1
import proofs.«136093_j68229850464275_1_alg».proof.Proof.RefVal2
import proofs.«136093_j68229850464275_1_alg».proof.Proof.RefVal3

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The fold over a concatenation is the fold over the second list from the fold over the first. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-- The fold over the whole program is the four windows' folds composed. -/
theorem after_ops (V : Valuation τ sig (Elt Ideal)) :
    after (ops (F := Ideal)) V = after ops3 (after ops2 (after ops1 (after ops0 V))) := by
  show after (ops0 ++ (ops1 ++ (ops2 ++ ops3))) V = _
  rw [after_app, after_app, after_app]

/-- The first graph's result, from any contents `V` of the buffers. -/
theorem val151_V (V : Valuation τ sig (Elt Ideal)) :
    after (ops (F := Ideal)) V (main_v151 : DevRef τ sig)
      = RefTerm.refZ (RefTerm.refH (V (main_arg0 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig))) := by
  obtain ⟨-, -, -, -, e4, e5, e6, e7, -, -⟩ := w0_args V
  rw [after_ops]
  refine w3_v151 _ _ ?_
  rw [w2_v70]
  exact w1_v70 (after ops0 V) _ _ _ _ _ (w0_v35 V) (w0_v44 V) (w0_v42 V) (w0_cst_12 V) e6 e7 e4 e5

/-- The second graph's result, from any contents `V` of the buffers. -/
theorem val161_V (V : Valuation τ sig (Elt Ideal)) :
    after (ops (F := Ideal)) V (main_v161 : DevRef τ sig)
      = RefTerm.refZ (RefTerm.refH (V (main_arg1 : DevRef τ sig)) (V (main_arg2 : DevRef τ sig)) (V (main_arg3 : DevRef τ sig)) (V (main_arg4 : DevRef τ sig)) (V (main_arg5 : DevRef τ sig)) (V (main_arg8 : DevRef τ sig)) (V (main_arg9 : DevRef τ sig))) := by
  obtain ⟨-, e1, e2, e3, e4, e5, -, -, e8, e9⟩ := w0_args V
  obtain ⟨-, -, -, f3, f4, f5, -, -, f8, f9⟩ := w1_args (after ops0 V)
  have h92 := w1_v92 (after ops0 V) _ _ _ e1 e2 e8
  have h77 := w1_v77 (after ops0 V) _ e9
  have h138 := w2_v138 (after ops1 (after ops0 V)) _ _ _ _ _ h92 h77 (f8.trans e8) (f9.trans e9) (f3.trans e3)
    (f4.trans e4)
  have h139 := w2_v139 (after ops1 (after ops0 V)) _ (f5.trans e5)
  rw [after_ops]
  exact w3_v161 _ _ _ h138 h139

/-- No operation writes an argument. -/
theorem args_V (V : Valuation τ sig (Elt Ideal)) :
    after (ops (F := Ideal)) V (main_arg0 : DevRef τ sig) = V (main_arg0 : DevRef τ sig)
    ∧ after (ops (F := Ideal)) V (main_arg1 : DevRef τ sig) = V (main_arg1 : DevRef τ sig)
    ∧ after (ops (F := Ideal)) V (main_arg2 : DevRef τ sig) = V (main_arg2 : DevRef τ sig)
    ∧ after (ops (F := Ideal)) V (main_arg3 : DevRef τ sig) = V (main_arg3 : DevRef τ sig)
    ∧ after (ops (F := Ideal)) V (main_arg4 : DevRef τ sig) = V (main_arg4 : DevRef τ sig)
    ∧ after (ops (F := Ideal)) V (main_arg5 : DevRef τ sig) = V (main_arg5 : DevRef τ sig)
    ∧ after (ops (F := Ideal)) V (main_arg6 : DevRef τ sig) = V (main_arg6 : DevRef τ sig)
    ∧ after (ops (F := Ideal)) V (main_arg7 : DevRef τ sig) = V (main_arg7 : DevRef τ sig)
    ∧ after (ops (F := Ideal)) V (main_arg8 : DevRef τ sig) = V (main_arg8 : DevRef τ sig)
    ∧ after (ops (F := Ideal)) V (main_arg9 : DevRef τ sig) = V (main_arg9 : DevRef τ sig) := by
  obtain ⟨a0, a1, a2, a3, a4, a5, a6, a7, a8, a9⟩ := w0_args V
  obtain ⟨b0, b1, b2, b3, b4, b5, b6, b7, b8, b9⟩ := w1_args (after ops0 V)
  obtain ⟨c0, c1, c2, c3, c4, c5, c6, c7, c8, c9⟩ := w2_args (after ops1 (after ops0 V))
  obtain ⟨d0, d1, d2, d3, d4, d5, d6, d7, d8, d9⟩ := w3_args (after ops2 (after ops1 (after ops0 V)))
  rw [after_ops]
  exact ⟨((d0.trans c0).trans b0).trans a0,
    ((d1.trans c1).trans b1).trans a1,
    ((d2.trans c2).trans b2).trans a2,
    ((d3.trans c3).trans b3).trans a3,
    ((d4.trans c4).trans b4).trans a4,
    ((d5.trans c5).trans b5).trans a5,
    ((d6.trans c6).trans b6).trans a6,
    ((d7.trans c7).trans b7).trans a7,
    ((d8.trans c8).trans b8).trans a8,
    ((d9.trans c9).trans b9).trans a9⟩

/-- From any memory with zero counters, every weakly fair execution of @main terminates with each result at the fold
    of the operations over the launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v151) = after (ops (F := Ideal)) (launchContents m c) (main_v151 : DevRef τ sig)
      ∧ r.2.mem ((c.tc : Thread nD τ).loc main_v161) = after (ops (F := Ideal)) (launchContents m c) (main_v161 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
      obtain ⟨a0, a1, a2, a3, a4, a5, a6, a7, a8, a9⟩ := args_V (launchContents m c)
      exact ⟨h c main_v151, h c main_v161, (h c main_arg0).trans a0, (h c main_arg1).trans a1, (h c main_arg2).trans a2, (h c main_arg3).trans a3, (h c main_arg4).trans a4, (h c main_arg5).trans a5, (h c main_arg6).trans a6, (h c main_arg7).trans a7, (h c main_arg8).trans a8, (h c main_arg9).trans a9⟩)
    (run_all m ρ)

/-- The first graph's result as the composed term of the launch contents of its arguments. -/
theorem val151 (m : (ℓ : Loc nD τ sig) → Buf (Elt Ideal) ℓ) (c : Dev nD) :
    after (ops (F := Ideal)) (launchContents m c) (main_v151 : DevRef τ sig)
      = RefTerm.refZ (RefTerm.refH (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  val151_V (launchContents m c)

/-- The second graph's result as the composed term of the launch contents of its arguments. -/
theorem val161 (m : (ℓ : Loc nD τ sig) → Buf (Elt Ideal) ℓ) (c : Dev nD) :
    after (ops (F := Ideal)) (launchContents m c) (main_v161 : DevRef τ sig)
      = RefTerm.refZ (RefTerm.refH (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9))) :=
  val161_V (launchContents m c)

end Cert.ReferenceIdeal.RefRun

end
-- ==== Proof.RefLayers.lean ====
/-
  The reference's two layers are the shared `encode`: a multiplication by a twice-broadcast column is a row scaling,
  an addition of a twice-broadcast vector is the addition of a bias row (followed by the maximum with zero in the first
  layer), and the host's plain contraction is the matrix product. The aggregation along the edges and the per-node
  scales stay the terms they are.
-/
import proofs.«136093_j68229850464275_1_alg».proof.Proof.RefTerm
import proofs.«136093_j68229850464275_1_alg».proof.Proof.Stages
import proofs.«136093_j68229850464275_1_alg».proof.Proof.LibTileOps

noncomputable section

namespace Cert.RefLayers

open Idealize.ShloMosaic Cert.ReferenceIdeal Cert.ReferenceIdeal.RefTerm Cert.LibTileOps Cert.Stages

variable [Facts]
open Facts₀ Facts

theorem plain_dot : Cert.LibPlainDot.Plain dot_S100000x128_S128x128_S100000x128_1_0_0_1_n_n :=
  ⟨rfl, rfl, rfl, rfl, rfl, rfl⟩

theorem hcol : S100000.ShapeCasts S100000x1 := by decide
theorem hrow : S128.ShapeCasts S1x128 := by decide

/-- The per-node scale as a column. -/
def scaleCol (idx : IVec S800000 32) : FVec Ideal S100000x1 .f32 := shapeCast S100000x1 (invSqrtDeg idx) hcol

/-- A bias vector as a row. -/
def biasRow (b : FVec Ideal S128 .f32) : FVec Ideal S1x128 .f32 := shapeCast S1x128 b hrow

theorem scaleBy_eq (y : FVec Ideal S100000x128 .f32) (v : FVec Ideal S100000 .f32) :
    scaleBy y v = scaleRows y (shapeCast S100000x1 v hcol) :=
  mulf_bcast_col_eq_scaleRows _ _ hcol y v

theorem addBias_eq (y : FVec Ideal S100000x128 .f32) (b : FVec Ideal S128 .f32) :
    addBias y b = addRow y (biasRow b) :=
  addf_bcast_row_eq_addRow _ _ hrow y b

theorem clamp_eq (y : FVec Ideal S100000x128 .f32) (b : FVec Ideal S128 .f32) :
    maximumf (addBias y b)
        (broadcastInDim S100000x128 ![] bcast_S_S100000x128 (constant (F := Ideal) S_ .f32 0x00000000#32))
      = addRowClamp y (biasRow b) :=
  maximumf_addf_bcast_row_eq_addRowClamp _ _ hrow _ y b

theorem dot_eq (x : FVec Ideal S100000x128 .f32) (w : FVec Ideal S128x128 .f32) :
    Host.dotGeneral (F := Ideal) dot_S100000x128_S128x128_S100000x128_1_0_0_1_n_n none x w = matProd x w :=
  dotGeneral_eq_matProd plain_dot none x w

/-- The reference's layers in the shared form. -/
theorem refH_eq (x : FVec Ideal S100000x128 .f32) (w1 : FVec Ideal S128x128 .f32) (b1 : FVec Ideal S128 .f32)
    (w2 : FVec Ideal S128x128 .f32) (b2 : FVec Ideal S128 .f32) (src dst : IVec S800000 32) :
    refH x w1 b1 w2 b2 src dst
      = encode (aggregate src dst) (scaleCol src) (scaleCol dst) x w1 (biasRow b1) w2 (biasRow b2) := by
  unfold refH conv
  rw [clamp_eq, addBias_eq]
  simp only [scaleBy_eq, dot_eq]
  rfl

end Cert.RefLayers

end
-- ==== Proof.LibRealEntries.lean ====
/-
  Entries that are real numbers, and the array operations that keep them so (at the ideal instance, where a float is
  an extended real). A sum, a product, a maximum and a finite sum of real numbers are real; hence entrywise sums,
  products and maxima of arrays with real entries, their broadcasts, a gather from such an array (each result entry
  is an entry of the operand), an accumulating scatter of such updates into such an operand (each entry gains
  finitely many real updates), and a contraction of two such arrays (finite sums of real products from zero) all
  have real entries. The reciprocal square root of an extended real that is at least one is real (it is 0 at +∞), so a
  reciprocal square root of anything clamped below at one is real, whatever was clamped.
-/
import Idealize.ShloMosaic.PureOps.Ideal.Laws

noncomputable section

namespace Cert.LibRealEntries

open Idealize.ShloMosaic Idealize.ShloMosaic.TcCoe

/-- An extended real that is a real number. -/
def IsReal (x : EReal) : Prop := ∃ y : ℝ, x = (y : EReal)

theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  obtain ⟨a, rfl⟩ := hx; obtain ⟨b, rfl⟩ := hy; exact ⟨Max.max a b, (EReal.coe_strictMono.monotone.map_max).symm⟩
theorem IsReal.sum {ι : Type} (s : Finset ι) (f : ι → EReal) (h : ∀ i ∈ s, IsReal (f i)) : IsReal (∑ i ∈ s, f i) :=
  Finset.sum_induction f IsReal (fun _ _ => IsReal.add) IsReal.zero h

/-- The reciprocal square root of an extended real that is at least one is a real number. -/
theorem isReal_rsqrt_of_one_le {x : EReal} (h : 1 ≤ x) : IsReal (Ideal.rsqrt x) := by
  induction x using EReal.rec with
  | bot =>
    have hlt : (⊥ : EReal) < 1 := by exact_mod_cast EReal.bot_lt_coe 1
    exact absurd h (not_le.mpr hlt)
  | top => exact ⟨0, rfl⟩
  | coe r =>
    have hr : (1 : ℝ) ≤ r := by exact_mod_cast h
    show IsReal (if r < 0 then ⊥ else if r = 0 then ⊤ else (((Real.sqrt r)⁻¹ : ℝ) : EReal))
    rw [if_neg (by linarith), if_neg (by linarith)]
    exact ⟨_, rfl⟩

theorem isReal_zero_word : IsReal (Ideal.ofBits .f32 0x00000000#32) := by
  rw [Ideal.ofBits_zero_f32]; exact IsReal.zero

/-! ## The operations keep entries real (any shapes) -/

section Generic
variable {s t si u sl sr so : Shape} {w : Nat}

theorem real_maximumf (a b : FVec Ideal s .f32) (ha : ∀ i, IsReal (a i)) (hb : ∀ i, IsReal (b i)) (i : s.Idx) :
    IsReal (maximumf a b i) := (ha i).max (hb i)
theorem real_addf (a b : FVec Ideal s .f32) (ha : ∀ i, IsReal (a i)) (hb : ∀ i, IsReal (b i)) (i : s.Idx) :
    IsReal (addf a b i) := (ha i).add (hb i)
theorem real_mulf (a b : FVec Ideal s .f32) (ha : ∀ i, IsReal (a i)) (hb : ∀ i, IsReal (b i)) (i : s.Idx) :
    IsReal (mulf a b i) := (ha i).mul (hb i)
theorem real_bcast (dims : Fin s.rank → Fin t.rank) (h : s.BroadcastsInDim t dims) (x : FVec Ideal s .f32)
    (hx : ∀ i, IsReal (x i)) (j : t.Idx) : IsReal (broadcastInDim t dims h x j) := hx _
theorem real_gather (d : GatherDims s si t) (x : FVec Ideal s .f32) (idx : IVec si w) (hx : ∀ i, IsReal (x i)) (j : t.Idx) :
    IsReal (Host.gather d x idx j) := hx _
theorem real_scatterAdd (d : ScatterDims s si u) (x : FVec Ideal s .f32) (idx : IVec si w) (upd : FVec Ideal u .f32)
    (hx : ∀ i, IsReal (x i)) (hu : ∀ j, IsReal (upd j)) (i : s.Idx) : IsReal (Host.scatterAdd d x idx upd i) :=
  (hx i).add (IsReal.sum _ _ fun j _ => hu j)
theorem real_dot (d : DotDims sl sr so) (prec : Option ContractPrecision) (l : FVec Ideal sl .f32) (r : FVec Ideal sr .f32)
    (hl : ∀ i, IsReal (l i)) (hr : ∀ i, IsReal (r i)) (j : so.Idx) : IsReal (Host.dotGeneral d prec l r j) :=
  IsReal.zero.add (IsReal.sum _ _ fun k _ => (hl _).mul (hr _))
/-- A reciprocal square root of a value clamped below at one. -/
theorem real_rsqrt_clamp (one y : FVec Ideal s .f32) (h1 : ∀ i, one i = 1) (i : s.Idx) :
    IsReal (Host.rsqrt (maximumf one y) i) := by
  show IsReal (Ideal.rsqrt (Max.max (one i) (y i)))
  rw [h1 i]; exact isReal_rsqrt_of_one_le (le_max_left _ _)

end Generic

end Cert.LibRealEntries

end
-- ==== Proof.LibRecipMean.lean ====
/-
  Small facts about extended-real arithmetic and identity conversions that a mean over a clamped count needs; none
  mentions a program.

  * a product with the reciprocal of a NONZERO divisor is the quotient, at the infinities too (the quotient by d ≠ 0 is
    by definition the product with d⁻¹, and 1 / d = 1 · d⁻¹);
  * something clamped below by one is not zero; the f32 word 0x3F800000 denotes one;
  * the host quotient of two arrays read at an index; and rounding a table to bf16 before a gather, widening after,
    is the plain gather (both conversions are the identity on extended reals).
-/
import Idealize.ShloMosaic.Lib.ValueIdx
import Idealize.ShloMosaic.PureOps.Ideal.Laws

noncomputable section

namespace Cert.LibRecipMean

open Idealize.ShloMosaic Idealize.ShloMosaic.ValueIdx

/-- A product with the reciprocal of a nonzero divisor is the quotient. -/
theorem mul_recip_eq_div (s d : EReal) (hd : d ≠ 0) : s * Ideal.div 1 d = Ideal.div s d := by
  unfold Ideal.div
  rw [if_neg hd, if_neg hd, one_mul]

/-- The f32 word of one denotes one. -/
theorem ofBits_one_f32 : Ideal.ofBits .f32 0x3F800000#32 = 1 := by
  simp [Ideal.ofBits, Ideal.ieee]
  norm_cast
  norm_num

/-- Something clamped below by one is not zero. -/
theorem clamp_ne_zero (y : EReal) : max y 1 ≠ 0 := by
  intro h
  have h1 : (1 : EReal) ≤ max y 1 := le_max_right _ _
  rw [h] at h1
  exact absurd h1 (not_le.mpr (by exact_mod_cast (zero_lt_one : (0 : ℝ) < 1)))

/-- The host quotient of two arrays reads, at an index, the quotient of the entries. -/
theorem hostDivf_apply {s : Shape} {φ : FTy} (a b : FVec Ideal s φ) (i : s.Idx) : Host.divf a b i = Ideal.div (a i) (b i) := rfl

/-- Rounding a table before a gather and widening the gathered rows is the plain gather. -/
theorem gather_rounded {s si t : Shape} {w : Nat} (D : GatherDims s si t) (x : FVec Ideal s .f32) (idx : IVec si w)
    (h : FTy.bits .bf16 < FTy.bits .f32) :
    extf .f32 (Host.gather D (truncf .bf16 x h) idx) h = Host.gather D x idx := rfl

end Cert.LibRecipMean

end
-- ==== Proof.RealActs.lean ====
/-
  The layers' output is real-valued when the arguments are: every stage is a finite sum, product or maximum of real
  numbers, the aggregation adds finitely many gathered entries into zeros, and a per-node scale is a real power of a
  real base (`max(deg, 1) ^ (-1/2)`, the degree a finite sum of ones).
-/
import proofs.«136093_j68229850464275_1_alg».proof.Proof.RefLayers
import proofs.«136093_j68229850464275_1_alg».proof.Proof.LibRealEntries
import proofs.«136093_j68229850464275_1_alg».proof.Proof.LibRecipMean
import Idealize.ShloMosaic.Lib.ValueIdx

noncomputable section

open scoped BigOperators

namespace Cert.RealActs

open Idealize.ShloMosaic Idealize.ShloMosaic.ValueIdx Cert.ReferenceIdeal Cert.ReferenceIdeal.RefTerm Cert.LibTileOps
  Cert.Stages Cert.LibRealEntries Cert.RefLayers

variable {A K B : ℕ}

theorem real_matProd (x : FVec Ideal ⟨2, ![A, K]⟩ .f32) (w : FVec Ideal ⟨2, ![K, B]⟩ .f32)
    (hx : ∀ i, IsReal (x i)) (hw : ∀ i, IsReal (w i)) (i : (⟨2, ![A, B]⟩ : Shape).Idx) : IsReal (matProd x w i) := by
  obtain ⟨p, c, rfl⟩ : ∃ (p : Fin A) (c : Fin B), i = ix2 p c := ⟨i 0, i 1, eq_ix2 i⟩
  rw [matProd_apply]
  exact IsReal.sum _ _ fun k _ => (hx _).mul (hw _)

theorem real_scaleRows (x : FVec Ideal ⟨2, ![A, B]⟩ .f32) (n : FVec Ideal ⟨2, ![A, 1]⟩ .f32)
    (hx : ∀ i, IsReal (x i)) (hn : ∀ i, IsReal (n i)) (i : (⟨2, ![A, B]⟩ : Shape).Idx) : IsReal (scaleRows x n i) := by
  obtain ⟨p, q, rfl⟩ : ∃ (p : Fin A) (q : Fin B), i = ix2 p q := ⟨i 0, i 1, eq_ix2 i⟩
  rw [scaleRows_apply]
  exact (hx _).mul (hn _)

theorem real_addRow (x : FVec Ideal ⟨2, ![A, B]⟩ .f32) (b : FVec Ideal ⟨2, ![1, B]⟩ .f32)
    (hx : ∀ i, IsReal (x i)) (hb : ∀ i, IsReal (b i)) (i : (⟨2, ![A, B]⟩ : Shape).Idx) : IsReal (addRow x b i) := by
  obtain ⟨p, q, rfl⟩ : ∃ (p : Fin A) (q : Fin B), i = ix2 p q := ⟨i 0, i 1, eq_ix2 i⟩
  rw [addRow_apply]
  exact (hx _).add (hb _)

theorem real_addRowClamp (x : FVec Ideal ⟨2, ![A, B]⟩ .f32) (b : FVec Ideal ⟨2, ![1, B]⟩ .f32)
    (hx : ∀ i, IsReal (x i)) (hb : ∀ i, IsReal (b i)) (i : (⟨2, ![A, B]⟩ : Shape).Idx) : IsReal (addRowClamp x b i) := by
  obtain ⟨p, q, rfl⟩ : ∃ (p : Fin A) (q : Fin B), i = ix2 p q := ⟨i 0, i 1, eq_ix2 i⟩
  rw [addRowClamp_apply]
  exact ((hx _).add (hb _)).max isReal_zero_word

/-- The word `0xBF000000` is `-1/2`. -/
theorem ofBits_neg_half : Ideal.ofBits .f32 0xBF000000#32 = (((-1 / 2 : ℝ)) : EReal) := by
  simp [Ideal.ofBits, Ideal.ieee, -EReal.coe_mul]; norm_num

/-- A real base to a real exponent is a real number. -/
theorem isReal_pow {x y : EReal} (hx : IsReal x) (hy : IsReal y) : IsReal (Ideal.pow x y) := by
  obtain ⟨a, rfl⟩ := hx
  obtain ⟨b, rfl⟩ := hy
  exact ⟨Real.rpow a b, rfl⟩

section
variable [Facts]
open Facts₀ Facts

/-- The host's power at an index. -/
theorem hostPowf_apply {s : Shape} (x y : FVec Ideal s .f32) (i : s.Idx) :
    Host.powf (F := Ideal) x y i = Ideal.pow (x i) (y i) := rfl

theorem real_zeroWord (k : S_.Idx) : IsReal (constant (F := Ideal) S_ .f32 0x00000000#32 k) := by
  rw [constant_apply]; exact isReal_zero_word

theorem real_oneWord (k : S_.Idx) : IsReal (constant (F := Ideal) S_ .f32 0x3F800000#32 k) := by
  rw [constant_apply, Cert.LibRecipMean.ofBits_one_f32]; exact IsReal.one

theorem real_negHalfWord (k : S_.Idx) : IsReal (constant (F := Ideal) S_ .f32 0xBF000000#32 k) := by
  rw [constant_apply, ofBits_neg_half]; exact ⟨_, rfl⟩

/-- A node's degree (a sum of ones added into zero) is a real number. -/
theorem real_degree (idx : IVec S800000 32) (i : S100000.Idx) :
    IsReal (Host.scatterAdd (F := Ideal) scatter_S100000_S800000x1_S800000_n_0_0_1
      (broadcastInDim S100000 ![] bcast_S_S100000 (constant (F := Ideal) S_ .f32 0x00000000#32))
      (broadcastInDim S800000x1 ![0] bcast_S800000_S800000x1_0 idx)
      (broadcastInDim S800000 ![] bcast_S_S800000 (constant (F := Ideal) S_ .f32 0x3F800000#32)) i) := by
  refine real_scatterAdd _ _ _ _ (fun i => ?_) (fun j => ?_) i
  · exact real_bcast ![] bcast_S_S100000 _ real_zeroWord i
  · exact real_bcast ![] bcast_S_S800000 _ real_oneWord j

theorem real_invSqrtDeg (idx : IVec S800000 32) (i : S100000.Idx) : IsReal (invSqrtDeg idx i) := by
  unfold invSqrtDeg
  rw [hostPowf_apply]
  refine isReal_pow ?_ ?_
  · refine real_maximumf _ _ (fun i => real_degree idx i) (fun i => ?_) i
    exact real_bcast ![] bcast_S_S100000 _ real_oneWord i
  · exact real_bcast ![] bcast_S_S100000 _ real_negHalfWord i

theorem real_scaleCol (idx : IVec S800000 32) (i : S100000x1.Idx) : IsReal (scaleCol idx i) :=
  real_invSqrtDeg idx _

theorem real_biasRow (b : FVec Ideal S128 .f32) (hb : ∀ i, IsReal (b i)) (i : S1x128.Idx) : IsReal (biasRow b i) :=
  hb _

theorem real_aggregate (src dst : IVec S800000 32) (p : FVec Ideal S100000x128 .f32) (hp : ∀ i, IsReal (p i))
    (i : S100000x128.Idx) : IsReal (aggregate src dst p i) := by
  unfold aggregate
  refine real_scatterAdd _ _ _ _ (fun i => ?_) (fun j => ?_) i
  · exact real_bcast ![] bcast_S_S100000x128 _ real_zeroWord i
  · exact real_gather _ _ _ hp j

/-- The layers' output is real-valued. -/
theorem real_refH (x : FVec Ideal S100000x128 .f32) (w1 : FVec Ideal S128x128 .f32) (b1 : FVec Ideal S128 .f32)
    (w2 : FVec Ideal S128x128 .f32) (b2 : FVec Ideal S128 .f32) (src dst : IVec S800000 32)
    (hx : ∀ i, IsReal (x i)) (hw1 : ∀ i, IsReal (w1 i)) (hb1 : ∀ i, IsReal (b1 i))
    (hw2 : ∀ i, IsReal (w2 i)) (hb2 : ∀ i, IsReal (b2 i)) (i : S100000x128.Idx) :
    IsReal (refH x w1 b1 w2 b2 src dst i) := by
  rw [refH_eq]
  unfold encode
  refine real_addRow _ _ (real_scaleRows _ _ (real_aggregate _ _ _ (real_matProd _ _ (real_scaleRows _ _
    (real_addRowClamp _ _ (real_scaleRows _ _ (real_aggregate _ _ _ (real_matProd _ _ (real_scaleRows _ _ hx
      (real_scaleCol src)) hw1)) (real_scaleCol dst)) (real_biasRow b1 hb1)) (real_scaleCol src)) hw2))
    (real_scaleCol dst)) (real_biasRow b2 hb2) i

end

end Cert.RealActs

end
-- ==== Proof.LibVariance.lean ====
import Idealize.ShloMosaic.PureOps.Ideal
import Mathlib.Tactic.FieldSimp
import Mathlib.Tactic.Ring
import Mathlib.Tactic.NormNum

/-!
# The two forms of a population variance agree on real samples

For samples `f r` that are all real numbers and a count `N` equal to the number of samples,
the mean of the squares minus the square of the mean is the mean of the squared deviations
from the mean:  `(Σ f²)/N − ((Σ f)/N)² = (Σ (f − (Σ f)/N)²)/N`.
On the extended reals the two sides differ when a sample is infinite, so the hypothesis that
every sample is real is needed.  Division is the extended-real division `Ideal.div`; by a nonzero
real it is the product with the reciprocal.
-/

namespace Cert.LibVariance

open Idealize.ShloMosaic

/-- The coercion of reals into the extended reals commutes with finite sums. -/
theorem coe_finset_sum {ι : Type*} (s : Finset ι) (x : ι → ℝ) :
    (∑ r ∈ s, ((x r : ℝ) : EReal)) = ((∑ r ∈ s, x r : ℝ) : EReal) := by
  classical
  induction s using Finset.induction_on with
  | empty => simp
  | insert a s ha ih => rw [Finset.sum_insert ha, Finset.sum_insert ha, ih, EReal.coe_add]

/-- The real identity: with `m = s/N` the mean of `N` samples,
    `(Σ x²)/N − m² = (Σ (x − m)²)/N`. -/
theorem real_variance {n : ℕ} (x : Fin n → ℝ) (N : ℝ) (hN : N = (n : ℝ)) (hn : N ≠ 0) (m : ℝ)
    (hm : m = (∑ r, x r) * (1 / N)) :
    (∑ r, x r * x r) * (1 / N) - m * m = (∑ r, (x r - m) * (x r - m)) * (1 / N) := by
  have hs : (∑ r, x r) = N * m := by rw [hm]; field_simp
  have hsq : ∀ r, (x r - m) * (x r - m) = x r * x r - 2 * m * x r + m * m := fun r => by ring
  have hsum : (∑ r, (x r - m) * (x r - m)) = (∑ r, x r * x r) - 2 * m * (∑ r, x r) + N * (m * m) := by
    simp only [hsq, Finset.sum_add_distrib, Finset.sum_sub_distrib, ← Finset.mul_sum,
      Finset.sum_const, Finset.card_univ, Fintype.card_fin, nsmul_eq_mul, hN]
    ring
  rw [hsum, hs]
  field_simp
  ring

/-- The mean of the squares minus the square of the mean is the mean of the squared deviations,
    for real samples and `N` the (nonzero) number of samples. -/
theorem variance_law {n : ℕ} (f : Fin n → EReal) (hf : ∀ r, ∃ x : ℝ, f r = (x : EReal)) (N : ℝ) (hN : N = (n : ℝ)) (hn : N ≠ 0) :
    Ideal.div (∑ r, f r * f r) (N : EReal) - Ideal.div (∑ r, f r) (N : EReal) * Ideal.div (∑ r, f r) (N : EReal)
      = Ideal.div (∑ r, (f r - Ideal.div (∑ r, f r) (N : EReal)) * (f r - Ideal.div (∑ r, f r) (N : EReal))) (N : EReal) := by
  choose x hx using hf
  obtain rfl : f = fun r => ((x r : ℝ) : EReal) := funext hx
  simp only [Ideal.div_coe hn]
  -- the sum of the samples and the mean, as reals
  have h1 : (∑ r, ((x r : ℝ) : EReal)) = ((∑ r, x r : ℝ) : EReal) := coe_finset_sum _ _
  rw [h1]
  obtain ⟨m, hm⟩ : ∃ m : ℝ, m = (∑ r, x r) * (1 / N) := ⟨_, rfl⟩
  have hmE : ((∑ r, x r : ℝ) : EReal) * ((1 / N : ℝ) : EReal) = (m : EReal) := by
    rw [hm, EReal.coe_mul]
  rw [hmE]
  -- the sum of the squares and the sum of the squared deviations, as reals
  have h2 : (∑ r, ((x r : ℝ) : EReal) * ((x r : ℝ) : EReal)) = ((∑ r, x r * x r : ℝ) : EReal) := by
    simp only [← EReal.coe_mul]; exact coe_finset_sum _ _
  have h3 : (∑ r, (((x r : ℝ) : EReal) - (m : EReal)) * (((x r : ℝ) : EReal) - (m : EReal)))
      = ((∑ r, (x r - m) * (x r - m) : ℝ) : EReal) := by
    simp only [← EReal.coe_sub, ← EReal.coe_mul]; exact coe_finset_sum _ _
  rw [h2, h3, ← EReal.coe_mul, ← EReal.coe_mul, ← EReal.coe_mul, ← EReal.coe_sub]
  exact congrArg _ (real_variance x N hN hn m hm)

/-- The single-precision word `0x47C35000` is the number 100000. -/
theorem ofBits_1e5 : Ideal.ofBits .f32 0x47C35000#32 = ((100000 : ℝ) : EReal) := by
  simp [Ideal.ofBits, Ideal.ieee, -EReal.coe_mul]; norm_num

end Cert.LibVariance
-- ==== Proof.LibRsqrtDivide.lean ====
/-
  Three small facts about floats read as exact extended reals, each generic (no program is imported).

  * Multiplying by a reciprocal square root is dividing by the square root wherever the radicand is positive:
    `a · rsqrt x = a / √x` for every extended real `a` and every `x > 0`, the top element included
    (at `x = ⊤` both sides are `a · 0`; at a positive real `r` both are `a · (√r)⁻¹`, the divisor `√r` being nonzero).
    At `x = 0` and at `x < 0` the two sides differ (`0 · ⊤ = 0` against `0 / 0 = ⊥`; `a · ⊥` against `a / ⊥ = 0`),
    so positivity of the radicand is exactly what the law needs.
  * A family of extended reals all of one strict sign has every pairwise product positive, and conversely a
    family whose products `d (f i) · d j` are all positive is of one strict sign: "all positive or all negative"
    is the weakest condition on the family that keeps every such product positive.
  * The two spellings of a leaky rectifier, `x` where `0 < x` and `c · x` elsewhere against `x` where `0 ≤ x`
    and `c · x` elsewhere, are one function: they differ only at `x = 0`, where `c · 0 = 0`.
-/
import Idealize.ShloMosaic.PureOps.Ideal

noncomputable section

namespace Cert.Lib.RsqrtDivide

open Idealize.ShloMosaic

/-- `a · rsqrt x = a / √x` on the extended reals for every `a` and every positive `x` (`⊤` included). -/
theorem mul_rsqrt_eq_div_sqrt (a x : EReal) (hx : 0 < x) :
    a * Ideal.rsqrt x = Ideal.div a (Ideal.sqrt x) := by
  induction x using EReal.rec with
  | bot => exact absurd hx (by simp)
  | top => simp [Ideal.div, EReal.top_ne_zero, EReal.inv_top]
  | coe r =>
    have hr : 0 < r := by exact_mod_cast hx
    have hs : Real.sqrt r ≠ 0 := (Real.sqrt_pos.mpr hr).ne'
    have hs' : ((Real.sqrt r : ℝ) : EReal) ≠ 0 := by exact_mod_cast hs
    rw [Ideal.rsqrt_coe, Ideal.sqrt_coe, if_neg (not_lt.mpr hr.le), if_neg hr.ne', if_neg (not_lt.mpr hr.le),
      Ideal.div, if_neg hs', EReal.coe_inv]

/-- In a family of one strict sign every product of two members is positive. -/
theorem mul_pos_of_same_sign {ι : Type*} (d : ι → EReal) (h : (∀ j, 0 < d j) ∨ (∀ j, d j < 0)) (i j : ι) :
    0 < d i * d j :=
  EReal.mul_pos_iff.mpr (h.elim (fun hp => .inl ⟨hp i, hp j⟩) (fun hn => .inr ⟨hn i, hn j⟩))

/-- Conversely: if every product `d (f i) · d j` is positive (`f` any re-indexing, as a gather is), the family is
    of one strict sign. -/
theorem same_sign_of_mul_pos {ι : Type*} [Nonempty ι] (d : ι → EReal) (f : ι → ι)
    (h : ∀ i j, 0 < d (f i) * d j) : (∀ j, 0 < d j) ∨ (∀ j, d j < 0) := by
  obtain ⟨i0⟩ := ‹Nonempty ι›
  rcases EReal.mul_pos_iff.mp (h i0 i0) with ⟨h0, _⟩ | ⟨h0, _⟩
  · left; intro j
    rcases EReal.mul_pos_iff.mp (h i0 j) with ⟨_, hj⟩ | ⟨hneg, _⟩
    · exact hj
    · exact absurd h0 (not_lt.mpr hneg.le)
  · right; intro j
    rcases EReal.mul_pos_iff.mp (h i0 j) with ⟨hpos, _⟩ | ⟨_, hj⟩
    · exact absurd h0 (not_lt.mpr hpos.le)
    · exact hj

/-- The strict and the weak spelling of a leaky rectifier agree: at `x = 0` the other branch is `c · 0 = 0`. -/
theorem leaky_gt_eq_ge (c x : EReal) :
    (if 0 < x then x else c * x) = (if 0 ≤ x then x else c * x) := by
  rcases lt_trichotomy 0 x with h | h | h
  · rw [if_pos h, if_pos h.le]
  · subst h; simp
  · rw [if_neg (not_lt.mpr h.le), if_neg (not_le.mpr h)]

end Cert.Lib.RsqrtDivide

end
-- ==== Proof.LibStandardise.lean ====
/-
  The two ways of standardising a column agree on the extended reals when the column's entries are real numbers and
  its centred sum of squares is positive.

  For samples `x` with mean `μ = (∑ x) / N`, `∑ x² - N μ μ = ∑ (x - μ)²` over the reals; dividing both by the same
  positive `N₁` gives one variance `v > 0`, and for `v > 0` a product with `rsqrt v` is the quotient by `sqrt v`.
-/
import Idealize.ShloMosaic.PureOps.Ideal
import Mathlib.Tactic.FieldSimp
import Mathlib.Tactic.Ring
import Mathlib.Tactic.NormNum
import proofs.«136093_j68229850464275_1_alg».proof.Proof.LibVariance
import proofs.«136093_j68229850464275_1_alg».proof.Proof.LibRsqrtDivide

noncomputable section

open scoped BigOperators

namespace Cert.Standardise

open Idealize.ShloMosaic

/-- `∑ x² - N μ μ = ∑ (x - μ)²` for `μ` the mean of the `N` samples. -/
theorem real_centred {n : ℕ} (x : Fin n → ℝ) (N : ℝ) (hN : N = (n : ℝ)) (hn : N ≠ 0) (m : ℝ)
    (hm : m = (∑ r, x r) * (1 / N)) :
    (∑ r, x r * x r) - N * m * m = ∑ r, (x r - m) * (x r - m) := by
  have hs : (∑ r, x r) = N * m := by rw [hm]; field_simp
  have hsq : ∀ r, (x r - m) * (x r - m) = x r * x r - 2 * m * x r + m * m := fun r => by ring
  have hsum : (∑ r, (x r - m) * (x r - m)) = (∑ r, x r * x r) - 2 * m * (∑ r, x r) + N * (m * m) := by
    simp only [hsq, Finset.sum_add_distrib, Finset.sum_sub_distrib, ← Finset.mul_sum,
      Finset.sum_const, Finset.card_univ, Fintype.card_fin, nsmul_eq_mul, hN]
    ring
  rw [hsum, hs]
  ring

/-- The numerators of the two variances are one extended real when every sample is a real number. -/
theorem centred_law {n : ℕ} (f : Fin n → EReal) (hf : ∀ r, ∃ x : ℝ, f r = (x : EReal)) (N : ℝ) (hN : N = (n : ℝ)) (hn : N ≠ 0) :
    (∑ r, f r * f r) - (N : EReal) * Ideal.div (∑ r, f r) (N : EReal) * Ideal.div (∑ r, f r) (N : EReal)
      = ∑ r, (f r - Ideal.div (∑ r, f r) (N : EReal)) * (f r - Ideal.div (∑ r, f r) (N : EReal)) := by
  choose x hx using hf
  obtain rfl : f = fun r => ((x r : ℝ) : EReal) := funext hx
  simp only [Ideal.div_coe hn]
  have h1 : (∑ r, ((x r : ℝ) : EReal)) = ((∑ r, x r : ℝ) : EReal) := Cert.LibVariance.coe_finset_sum _ _
  rw [h1]
  obtain ⟨m, hm⟩ : ∃ m : ℝ, m = (∑ r, x r) * (1 / N) := ⟨_, rfl⟩
  have hmE : ((∑ r, x r : ℝ) : EReal) * ((1 / N : ℝ) : EReal) = (m : EReal) := by
    rw [hm, EReal.coe_mul]
  rw [hmE]
  have h2 : (∑ r, ((x r : ℝ) : EReal) * ((x r : ℝ) : EReal)) = ((∑ r, x r * x r : ℝ) : EReal) := by
    simp only [← EReal.coe_mul]; exact Cert.LibVariance.coe_finset_sum _ _
  have h3 : (∑ r, (((x r : ℝ) : EReal) - (m : EReal)) * (((x r : ℝ) : EReal) - (m : EReal)))
      = ((∑ r, (x r - m) * (x r - m) : ℝ) : EReal) := by
    simp only [← EReal.coe_sub, ← EReal.coe_mul]; exact Cert.LibVariance.coe_finset_sum _ _
  rw [h2, h3, ← EReal.coe_mul, ← EReal.coe_mul, ← EReal.coe_sub]
  exact congrArg _ (real_centred x N hN hn m hm)

/-- A positive extended real divided by a positive real is positive. -/
theorem div_pos_of_pos (v : EReal) (hv : 0 < v) (N1 : ℝ) (h1 : 0 < N1) : 0 < Ideal.div v (N1 : EReal) := by
  rw [Ideal.div_coe (ne_of_gt h1)]
  exact EReal.mul_pos hv (by exact_mod_cast (one_div_pos.mpr h1))

/-- The entry `a` of a column standardised through the sums equals the entry standardised through the centred
    entries, when the column is real-valued with a positive centred sum of squares. -/
theorem standardise_eq {n : ℕ} (f : Fin n → EReal) (hf : ∀ r, ∃ x : ℝ, f r = (x : EReal)) (N N1 : ℝ)
    (hN : N = (n : ℝ)) (hn : N ≠ 0) (h1 : 0 < N1) (a : EReal)
    (hpos : 0 < ∑ r, (f r - Ideal.div (∑ r, f r) (N : EReal)) * (f r - Ideal.div (∑ r, f r) (N : EReal))) :
    (a - Ideal.div (∑ r, f r) (N : EReal)) *
        Ideal.rsqrt (Ideal.div ((∑ r, f r * f r)
          - (N : EReal) * Ideal.div (∑ r, f r) (N : EReal) * Ideal.div (∑ r, f r) (N : EReal)) (N1 : EReal))
      = Ideal.div (a - Ideal.div (∑ r, f r) (N : EReal))
          (Ideal.sqrt (Ideal.div (∑ r, (f r - Ideal.div (∑ r, f r) (N : EReal)) * (f r - Ideal.div (∑ r, f r) (N : EReal))) (N1 : EReal))) := by
  rw [centred_law f hf N hN hn]
  exact Cert.Lib.RsqrtDivide.mul_rsqrt_eq_div_sqrt _ _ (div_pos_of_pos _ hpos N1 h1)

/-- The single-precision word `0x47C34F80` is the number 99999. -/
theorem ofBits_99999 : Ideal.ofBits .f32 0x47C34F80#32 = ((99999 : ℝ) : EReal) := by
  simp [Ideal.ofBits, Ideal.ieee, -EReal.coe_mul]; norm_num

end Cert.Standardise

end
-- ==== Proof.ZScore.lean ====
/-
  The z-score of a real-valued array whose columns have positive centred sums of squares, computed through the column
  sums and sums of squares with a reciprocal square root, is the reference's z-score (centred entries over the square
  root of the sample variance of the centred entries).

  Entry `(r, j)` of either side depends on column `j` only: with `μ = (∑ h(·, j)) / 100000`,
    left  = (h(r, j) - μ) * rsqrt ((∑ h(·, j)² - 100000 μ μ) / 99999),
    right = (h(r, j) - μ) / sqrt ((∑ (h(·, j) - μ)²) / (100000 - 1)),
  the reference's divisor `100000 - 1` being positive, so that its guard selects the variance.
-/
import proofs.«136093_j68229850464275_1_alg».proof.Proof.RefTerm
import proofs.«136093_j68229850464275_1_alg».proof.Proof.Stages
import proofs.«136093_j68229850464275_1_alg».proof.Proof.LibStandardise
import proofs.«136093_j68229850464275_1_alg».proof.Proof.LibRowBcast
import proofs.«136093_j68229850464275_1_alg».proof.Proof.LibRealEntries
import Idealize.ShloMosaic.Lib.IdealHost
import Idealize.ShloMosaic.Lib.ValueIdx
import Idealize.ShloMosaic.PureOps.Ideal.Laws

noncomputable section

open scoped BigOperators

namespace Cert.ZScore

open Idealize.ShloMosaic Idealize.ShloMosaic.ValueIdx Cert.ReferenceIdeal Cert.ReferenceIdeal.RefTerm Cert.LibRealEntries

variable [Facts]
open Facts₀ Facts

/-- The column totals at column `j`: the sum over the rows. -/
theorem colTotals_apply (h : FVec Ideal S100000x128 .f32) (j : Fin 128) :
    colTotals h (ix1 j) = ∑ r : Fin 100000, h (ix2 r j) := by
  unfold colTotals
  rw [hostReduceAdd_apply, Ideal.hostReduceAdd_single reducesTo_S100000x128_S128_d0 (by decide), constant_apply,
    Ideal.ofBits_zero_f32, zero_add]
  refine Finset.sum_congr rfl fun k _ => ?_
  exact congrArg h (funext fun a => Fin.ext (by match a with | ⟨0, _⟩ => rfl | ⟨1, _⟩ => rfl))

/-- The column mean the reference subtracts. -/
def colMean (h : FVec Ideal S100000x128 .f32) (j : Fin 128) : EReal :=
  Ideal.div (∑ r : Fin 100000, h (ix2 r j)) (Ideal.ofBits .f32 0x47C35000#32)

/-- An entry of the centred array. -/
theorem centred_apply (h : FVec Ideal S100000x128 .f32) (r : Fin 100000) (j : Fin 128) :
    centred h (ix2 r j) = h (ix2 r j) - colMean h j := by
  unfold centred colMean
  rw [subf_apply, Cert.LibRowBcast.bcast_vec_rows_apply, hostDivf_apply, colTotals_apply, broadcastInDim_scalar_apply,
    constant_apply]

/-- The divisor of the sample variance is 99999. -/
theorem dof_eq : dof ix0 = ((99999 : ℝ) : EReal) := by
  unfold dof
  rw [subf_apply, constant_apply, sitofp_apply, Cert.LibVariance.ofBits_1e5]
  show ((100000 : ℝ) : EReal) - ((((constantI S_ 32 1#32 : IVec S_ 32) ix0).toInt : ℝ) : EReal) = _
  have h1 : (((constantI S_ 32 1#32 : IVec S_ 32) ix0).toInt : ℝ) = 1 := by
    have e : ((constantI S_ 32 1#32 : IVec S_ 32) ix0).toInt = 1 := by decide
    rw [e]; norm_num
  rw [h1, ← EReal.coe_sub]
  norm_num

/-- An entry of the array centred inside the variance: the same value as `centred`'s. -/
theorem centredRow_apply (h : FVec Ideal S100000x128 .f32) (r : Fin 100000) (j : Fin 128) :
    centredRow h (ix2 r j) = h (ix2 r j) - colMean h j := by
  unfold centredRow colMean
  rw [subf_apply, Cert.LibRowBcast.bcast_row_rows_apply, hostDivf_apply, Cert.LibRowBcast.bcast_vec_row_apply,
    colTotals_apply, broadcastInDim_scalar_apply, constant_apply]

/-- The sample variance of column `j`. -/
theorem sampleVar_apply (h : FVec Ideal S100000x128 .f32) (j : Fin 128) :
    sampleVar h (ix1 j)
      = Ideal.div (∑ r : Fin 100000, (h (ix2 r j) - colMean h j) * (h (ix2 r j) - colMean h j)) ((99999 : ℝ) : EReal) := by
  unfold sampleVar
  refine (hostDivf_apply _ _ (ix1 j)).trans ?_
  refine congrArg₂ Ideal.div ?_ ((broadcastInDim_scalar_apply _ _ _).trans dof_eq)
  refine (colTotals_apply _ j).trans (Finset.sum_congr rfl fun r _ => ?_)
  rw [mulf_apply, centredRow_apply]

/-- The reference's guard on the divisor holds: `100000 - 1 > 0`. -/
theorem guard_one (j : S128.Idx) :
    broadcastInDim S128 ![] bcast_S_S128 (cmpf .ogt dof (constant (F := Ideal) S_ .f32 0x00000000#32)) j = 1#1 := by
  rw [broadcastInDim_scalar_apply, cmpf_apply, dof_eq, constant_apply, Ideal.ofBits_zero_f32]
  show Ideal.cmp .ogt ((99999 : ℝ) : EReal) 0 = 1#1
  have : (0 : EReal) < ((99999 : ℝ) : EReal) := by exact_mod_cast (by norm_num : (0 : ℝ) < 99999)
  simp [Ideal.cmp, this]

/-- The standard deviation of column `j`: the square root of its sample variance. -/
theorem stdDev_apply (h : FVec Ideal S100000x128 .f32) (j : Fin 128) :
    stdDev h (ix1 j) = Ideal.sqrt (sampleVar h (ix1 j)) := by
  unfold stdDev
  show Ideal.sqrt (select _ (sampleVar h) _ (ix1 j)) = _
  rw [select_apply, guard_one, select_one]

/-- An entry of the reference's z-score. -/
theorem refZ_apply (h : FVec Ideal S100000x128 .f32) (r : Fin 100000) (j : Fin 128) :
    refZ h (ix2 r j) = Ideal.div (h (ix2 r j) - colMean h j)
      (Ideal.sqrt (Ideal.div (∑ r : Fin 100000, (h (ix2 r j) - colMean h j) * (h (ix2 r j) - colMean h j)) ((99999 : ℝ) : EReal))) := by
  unfold refZ
  rw [hostDivf_apply, centred_apply, Cert.LibRowBcast.bcast_vec_rows_apply, stdDev_apply, sampleVar_apply]

/-- The precondition's comparison, read at a column: the centred sum of squares is positive. -/
theorem centredSq_pos (h : FVec Ideal S100000x128 .f32) (j : Fin 128)
    (hp : colTotals (mulf (centred h) (centred h)) (ix1 j) > Ideal.ofBits .f32 0x00000000#32) :
    0 < ∑ r : Fin 100000, (h (ix2 r j) - colMean h j) * (h (ix2 r j) - colMean h j) := by
  rw [colTotals_apply, Ideal.ofBits_zero_f32] at hp
  have e : (∑ r : Fin 100000, mulf (centred h) (centred h) (ix2 r j))
      = ∑ r : Fin 100000, (h (ix2 r j) - colMean h j) * (h (ix2 r j) - colMean h j) :=
    Finset.sum_congr rfl fun r _ => by rw [mulf_apply, centred_apply]
  rw [e] at hp
  exact hp

/-- THE Z-SCORE: through the sums with a reciprocal square root, or through the centred entries with a quotient. -/
theorem standardise_eq_refZ (h : FVec Ideal S100000x128 .f32) (hr : ∀ i, IsReal (h i))
    (hp : ∀ j, colTotals (mulf (centred h) (centred h)) j > Ideal.ofBits .f32 0x00000000#32) :
    Cert.Stages.standardiseBySums 0x47C35000#32 0x47C34F80#32 h = refZ h := by
  funext i
  obtain ⟨r, j, rfl⟩ : ∃ (r : Fin 100000) (j : Fin 128), i = ix2 r j := ⟨i 0, i 1, eq_ix2 i⟩
  rw [refZ_apply]
  have hpos := centredSq_pos h j (hp (ix1 j))
  unfold colMean at hpos ⊢
  rw [Cert.LibVariance.ofBits_1e5] at hpos ⊢
  have key := Cert.Standardise.standardise_eq (fun r' : Fin 100000 => h (ix2 r' j)) (fun r' => hr _) 100000 99999
    (by norm_num) (by norm_num) (by norm_num) (h (ix2 r j)) hpos
  rw [← key]
  show (h (ix2 r j) - Ideal.div (∑ r' : Fin 100000, h (ix2 r' j)) (Ideal.ofBits .f32 0x47C35000#32))
      * Ideal.rsqrt (Ideal.div ((∑ r' : Fin 100000, h (ix2 r' j) * h (ix2 r' j))
          - Ideal.ofBits .f32 0x47C35000#32 * Ideal.div (∑ r' : Fin 100000, h (ix2 r' j)) (Ideal.ofBits .f32 0x47C35000#32)
            * Ideal.div (∑ r' : Fin 100000, h (ix2 r' j)) (Ideal.ofBits .f32 0x47C35000#32)) (Ideal.ofBits .f32 0x47C34F80#32)) = _
  rw [Cert.LibVariance.ofBits_1e5, Cert.Standardise.ofBits_99999]

end Cert.ZScore

end
-- ==== Proof.PreTerm.lean ====
/-
  The layers' output and its centred form as the precondition spells them: the same composition of operations as the
  reference's, over the precondition's own copies of the shapes, dimension records and side conditions.
-/
import proofs.«136093_j68229850464275_1_alg».proof.Pre_finite_inputs
import Idealize.ShloMosaic.PureOps.Ideal

noncomputable section

namespace Cert.Pre_finite_inputs.PreTerm

open Idealize.ShloMosaic Cert.Pre_finite_inputs

variable [Facts]
open Facts

/-- `max(deg, 1) ^ (-1/2)` per node, `deg` the number of edges whose endpoint (read from `idx`) is the node. -/
def invSqrtDeg (idx : IVec S800000 32) : FVec Ideal S100000 .f32 :=
  Host.powf (F := Ideal)
    (maximumf
      (Host.scatterAdd (F := Ideal) scatter_S100000_S800000x1_S800000_n_0_0_1
        (broadcastInDim S100000 ![] bcast_S_S100000 (constant (F := Ideal) S_ .f32 0x00000000#32))
        (broadcastInDim S800000x1 ![0] bcast_S800000_S800000x1_0 idx)
        (broadcastInDim S800000 ![] bcast_S_S800000 (constant (F := Ideal) S_ .f32 0x3F800000#32)))
      (broadcastInDim S100000 ![] bcast_S_S100000 (constant (F := Ideal) S_ .f32 0x3F800000#32)))
    (broadcastInDim S100000 ![] bcast_S_S100000 (constant (F := Ideal) S_ .f32 0xBF000000#32))

/-- A node number read the way array indexing reads it: a negative one counts from the end. -/
def wrapIdx (src : IVec S800000 32) : IVec S800000 32 :=
  select (cmpi .slt src (broadcastInDim S800000 ![] bcast_S_S800000 (constantI S_ 32 0#32)))
    (addi src (broadcastInDim S800000 ![] bcast_S_S800000 (constantI S_ 32 100000#32))) src

/-- The rows of `p` gathered at the edges' sources and added into the edges' destinations. -/
def aggregate (src dst : IVec S800000 32) (p : FVec Ideal S100000x128 .f32) : FVec Ideal S100000x128 .f32 :=
  Host.scatterAdd (F := Ideal) scatter_S100000x128_S800000x1_S800000x128_1_0_0_1
    (broadcastInDim S100000x128 ![] bcast_S_S100000x128 (constant (F := Ideal) S_ .f32 0x00000000#32))
    (broadcastInDim S800000x1 ![0] bcast_S800000_S800000x1_0 dst)
    (Host.gather gather_S100000x128_S800000x1_S800000x128_1_0_n_n_0_1_1128 p
      (broadcastInDim S800000x1 ![0] bcast_S800000_S800000x1_0 (wrapIdx src)))

/-- Row `r` of `y` times entry `r` of `v`. -/
def scaleBy (y : FVec Ideal S100000x128 .f32) (v : FVec Ideal S100000 .f32) : FVec Ideal S100000x128 .f32 :=
  mulf y (broadcastInDim S100000x128 ![0, 1] bcast_S100000x1_S100000x128_0_1
    (broadcastInDim S100000x1 ![0] bcast_S100000_S100000x1_0 v))

/-- The row `b` added to every row of `y`. -/
def addBias (y : FVec Ideal S100000x128 .f32) (b : FVec Ideal S128 .f32) : FVec Ideal S100000x128 .f32 :=
  addf y (broadcastInDim S100000x128 ![0, 1] bcast_S1x128_S100000x128_0_1
    (broadcastInDim S1x128 ![1] bcast_S128_S1x128_1 b))

/-- One layer before its bias: scale by the out-degrees, multiply by `w`, aggregate, scale by the in-degrees. -/
def conv (src dst : IVec S800000 32) (x : FVec Ideal S100000x128 .f32) (w : FVec Ideal S128x128 .f32) :
    FVec Ideal S100000x128 .f32 :=
  scaleBy (aggregate src dst
    (Host.dotGeneral (F := Ideal) dot_S100000x128_S128x128_S100000x128_1_0_0_1_n_n none (scaleBy x (invSqrtDeg src)) w))
    (invSqrtDeg dst)

/-- The two layers: the array the z-score is taken of. -/
def refH (x : FVec Ideal S100000x128 .f32) (w1 : FVec Ideal S128x128 .f32) (b1 : FVec Ideal S128 .f32)
    (w2 : FVec Ideal S128x128 .f32) (b2 : FVec Ideal S128 .f32) (src dst : IVec S800000 32) : FVec Ideal S100000x128 .f32 :=
  addBias (conv src dst
    (maximumf (addBias (conv src dst x w1) b1)
      (broadcastInDim S100000x128 ![] bcast_S_S100000x128 (constant (F := Ideal) S_ .f32 0x00000000#32))) w2) b2

/-- The column sums of `h` as a vector. -/
def colTotals (h : FVec Ideal S100000x128 .f32) : FVec Ideal S128 .f32 :=
  Host.reduceAdd (F := Ideal) h (constant (F := Ideal) S_ .f32 0x00000000#32) reducesTo_S100000x128_S128_d0 h_S_

/-- `h` minus its column means. -/
def centred (h : FVec Ideal S100000x128 .f32) : FVec Ideal S100000x128 .f32 :=
  subf h (broadcastInDim S100000x128 ![0, 1] bcast_S1x128_S100000x128_0_1
    (broadcastInDim S1x128 ![1] bcast_S128_S1x128_1
      (Host.divf (F := Ideal) (colTotals h) (broadcastInDim S128 ![] bcast_S_S128 (constant (F := Ideal) S_ .f32 0x47C35000#32)))))

end Cert.Pre_finite_inputs.PreTerm

end
-- ==== Proof.LibAllFinite.lean ====
/-
  Reading a precondition's words. A precondition printed from `jnp.all(jnp.abs(x) < inf) & … & jnp.all(s > 0)` is a
  conjunction of `and`-reductions of comparison words, read at its one index. A comparison word that is `1` is the
  comparison of the two extended reals; `|x| < +∞` makes `x` a real number; hence an all-reduction of `|a| < +∞`
  that is `1` makes every entry of `a` real, and a word `a > b` at an index is `b j < a j`.
-/
import proofs.«136093_j68229850464275_1_alg».proof.Proof.LibRealEntries
import Idealize.ShloMosaic.Lib.ReduceAll
import Idealize.ShloMosaic.Lib.ValueIdx
import Idealize.ShloMosaic.PureOps.Ideal.Laws

noncomputable section

namespace Cert.LibAllFinite

open Idealize.ShloMosaic Idealize.ShloMosaic.ValueIdx Cert.LibRealEntries

instance : Subsingleton (⟨0, ![]⟩ : Shape).Idx := ⟨fun a b => funext fun d => d.elim0⟩

/-- The word `0x7F800000` is `+∞`. -/
theorem ofBits_inf : Ideal.ofBits .f32 0x7F800000#32 = (⊤ : EReal) := by
  simp [Ideal.ofBits, Ideal.ieee]

/-- A true comparison word is the comparison. -/
theorem lt_of_cmp_olt {x y : EReal} (h : Ideal.cmp .olt x y = 1#1) : x < y := by
  by_contra hn
  have : decide (x < y) = false := decide_eq_false hn
  simp [Ideal.cmp, this] at h

theorem lt_of_cmp_ogt {x y : EReal} (h : Ideal.cmp .ogt x y = 1#1) : y < x := by
  by_contra hn
  have : decide (y < x) = false := decide_eq_false hn
  simp [Ideal.cmp, this] at h

/-- `|x| < +∞` makes `x` a real number. -/
theorem isReal_of_abs_lt_top (x : EReal) (h : max x (-x) < (⊤ : EReal)) : IsReal x := by
  induction x using EReal.rec with
  | bot => simp at h
  | coe r => exact ⟨r, rfl⟩
  | top => simp at h

/-- `jnp.all(|a| < +∞)` that is true makes every entry of `a` a real number. -/
theorem real_of_all {s : Shape} {axes : List (Fin s.rank)} (a : FVec Ideal s .f32)
    (hb : (⟨0, ![]⟩ : Shape).BroadcastsInDim s (![] : Fin 0 → Fin s.rank))
    (init : IVec ⟨0, ![]⟩ 1) (hred : s.ReducesTo axes ⟨0, ![]⟩) (hu : 0 < (⟨0, ![]⟩ : Shape).numel)
    (h : Host.reduce IntOp.andi
      (cmpf .olt (Host.absf a) (broadcastInDim s ![] hb (constant (F := Ideal) ⟨0, ![]⟩ .f32 0x7F800000#32)))
      init hred hu ix0 = 1#1) (i : s.Idx) : IsReal (a i) := by
  have hi := Host.reduce_andi_all _ init hred hu ix0 h i
  have h1 : Ideal.cmp .olt (max (a i) (-(a i))) (Ideal.ofBits .f32 0x7F800000#32) = 1#1 := hi
  rw [ofBits_inf] at h1
  exact isReal_of_abs_lt_top _ (lt_of_cmp_olt h1)

/-- A true comparison word between two arrays at an index is the inequality of their entries. -/
theorem lt_of_cmpf_ogt {s : Shape} (a b : FVec Ideal s .f32) (j : s.Idx) (h : cmpf .ogt a b j = 1#1) : b j < a j :=
  lt_of_cmp_ogt h

end Cert.LibAllFinite

end
-- ==== Proof.PreFacts.lean ====
/-
  What the precondition gives: every entry of the six float arguments is a real number, and in each of the two graphs
  every column of the two layers' output has a positive centred sum of squares.

  The precondition is a conjunction of `all`-reductions read at its one index; the layers' output inside it is named by
  `PreTerm.refH`, the precondition's own spelling of the reference's layers, and unfolding the names gives its printed term.
-/
import proofs.«136093_j68229850464275_1_alg».proof.Pre_finite_inputs
import proofs.«136093_j68229850464275_1_alg».proof.Proof.PreTerm
import proofs.«136093_j68229850464275_1_alg».proof.Proof.LibRealEntries
import proofs.«136093_j68229850464275_1_alg».proof.Proof.LibAllFinite
import proofs.«136093_j68229850464275_1_alg».proof.Proof.LibJoinedRows
import Idealize.ShloMosaic.Lib.ReduceAll
import Idealize.ShloMosaic.Lib.Affine
import Idealize.ShloMosaic.Lib.ValueIdx
import Idealize.ShloMosaic.PureOps.Ideal.Laws

noncomputable section

namespace Cert.PreFacts

open Idealize.ShloMosaic Idealize.ShloMosaic.ValueIdx Cert.LibRealEntries

open Cert.LibAllFinite

section
open Cert.Pre_finite_inputs Cert.Pre_finite_inputs.PreTerm

variable [Cert.Pre_finite_inputs.Facts]
open Cert.Pre_finite_inputs.Facts

/-- The zero the precondition compares the centred sums of squares with. -/
def zeroVec : FVec Ideal S128 .f32 :=
  broadcastInDim S128 ![] bcast_S_S128 (constant (F := Ideal) S_ .f32 0x00000000#32)

/-- A true precondition: the six float arguments are real-valued, and in both graphs every column of the layers' output has
    a positive centred sum of squares. -/
theorem consequences (a0 a1 : FVec Ideal S100000x128 .f32) (a2 : FVec Ideal S128x128 .f32) (a3 : FVec Ideal S128 .f32)
    (a4 : FVec Ideal S128x128 .f32) (a5 : FVec Ideal S128 .f32) (a6 a7 a8 a9 : IVec S800000 32)
    (h : fn (F := Ideal) a0 a1 a2 a3 a4 a5 a6 a7 a8 a9 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i))
      ∧ (∀ j, zeroVec j < colTotals (mulf (centred (refH a0 a2 a3 a4 a5 a6 a7)) (centred (refH a0 a2 a3 a4 a5 a6 a7))) j)
      ∧ (∀ j, zeroVec j < colTotals (mulf (centred (refH a1 a2 a3 a4 a5 a8 a9)) (centred (refH a1 a2 a3 a4 a5 a8 a9))) j) := by
  have h0 := congrFun h ix0
  dsimp only [fn, fn_part1, fn_part2, fn_part3, fn_part4, fn_part5, fn_part6, fn_part7, fn_part8, fn_part9, fn_part10] at h0
  obtain ⟨h0, hg2⟩ := IntOp.andi_eq_one.1 h0
  obtain ⟨h0, hg1⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  refine ⟨real_of_all a0 _ _ _ _ h0, real_of_all a1 _ _ _ _ h1, real_of_all a2 _ _ _ _ h2, real_of_all a3 _ _ _ _ h3,
    real_of_all a4 _ _ _ _ h4, real_of_all a5 _ _ _ _ h5, fun j => ?_, fun j => ?_⟩
  · have hj := lt_of_cmpf_ogt _ _ j (Host.reduce_andi_all _ _ _ _ ix0 hg1 j)
    simp only [zeroVec, colTotals, centred, refH, conv, scaleBy, addBias, aggregate, wrapIdx, invSqrtDeg]
    exact hj
  · have hj := lt_of_cmpf_ogt _ _ j (Host.reduce_andi_all _ _ _ _ ix0 hg2 j)
    simp only [zeroVec, colTotals, centred, refH, conv, scaleBy, addBias, aggregate, wrapIdx, invSqrtDeg]
    exact hj

end

end Cert.PreFacts

end
-- ==== Proof.PreRef.lean ====
/-
  The precondition's spelling of the layers' output is the reference's: the two modules carry their own copies of the
  shapes, the dimension records of the scatter, gather and contraction, and the side conditions; the copies are equal,
  one definition at a time.
-/
import proofs.«136093_j68229850464275_1_alg».proof.Proof.PreTerm
import proofs.«136093_j68229850464275_1_alg».proof.Proof.RefTerm

noncomputable section

namespace Cert.PreRef

open Idealize.ShloMosaic

variable [Cert.Pre_finite_inputs.Facts] [Cert.ReferenceIdeal.Facts]

theorem invSqrtDeg_eq (idx : IVec Cert.ReferenceIdeal.S800000 32) :
    Cert.Pre_finite_inputs.PreTerm.invSqrtDeg idx = Cert.ReferenceIdeal.RefTerm.invSqrtDeg idx := rfl

theorem wrapIdx_eq (src : IVec Cert.ReferenceIdeal.S800000 32) :
    Cert.Pre_finite_inputs.PreTerm.wrapIdx src = Cert.ReferenceIdeal.RefTerm.wrapIdx src := rfl

theorem aggregate_eq (src dst : IVec Cert.ReferenceIdeal.S800000 32) (p : FVec Ideal Cert.ReferenceIdeal.S100000x128 .f32) :
    Cert.Pre_finite_inputs.PreTerm.aggregate src dst p = Cert.ReferenceIdeal.RefTerm.aggregate src dst p := by
  unfold Cert.Pre_finite_inputs.PreTerm.aggregate Cert.ReferenceIdeal.RefTerm.aggregate
  rw [wrapIdx_eq]
  rfl

theorem scaleBy_eq (y : FVec Ideal Cert.ReferenceIdeal.S100000x128 .f32) (v : FVec Ideal Cert.ReferenceIdeal.S100000 .f32) :
    Cert.Pre_finite_inputs.PreTerm.scaleBy y v = Cert.ReferenceIdeal.RefTerm.scaleBy y v := rfl

theorem addBias_eq (y : FVec Ideal Cert.ReferenceIdeal.S100000x128 .f32) (b : FVec Ideal Cert.ReferenceIdeal.S128 .f32) :
    Cert.Pre_finite_inputs.PreTerm.addBias y b = Cert.ReferenceIdeal.RefTerm.addBias y b := rfl

theorem conv_eq (src dst : IVec Cert.ReferenceIdeal.S800000 32) (x : FVec Ideal Cert.ReferenceIdeal.S100000x128 .f32)
    (w : FVec Ideal Cert.ReferenceIdeal.S128x128 .f32) :
    Cert.Pre_finite_inputs.PreTerm.conv src dst x w = Cert.ReferenceIdeal.RefTerm.conv src dst x w := by
  unfold Cert.Pre_finite_inputs.PreTerm.conv Cert.ReferenceIdeal.RefTerm.conv
  rw [scaleBy_eq, scaleBy_eq, aggregate_eq, invSqrtDeg_eq, invSqrtDeg_eq]
  rfl

theorem refH_eq (x : FVec Ideal Cert.ReferenceIdeal.S100000x128 .f32) (w1 : FVec Ideal Cert.ReferenceIdeal.S128x128 .f32)
    (b1 : FVec Ideal Cert.ReferenceIdeal.S128 .f32) (w2 : FVec Ideal Cert.ReferenceIdeal.S128x128 .f32)
    (b2 : FVec Ideal Cert.ReferenceIdeal.S128 .f32) (src dst : IVec Cert.ReferenceIdeal.S800000 32) :
    Cert.Pre_finite_inputs.PreTerm.refH x w1 b1 w2 b2 src dst = Cert.ReferenceIdeal.RefTerm.refH x w1 b1 w2 b2 src dst := by
  unfold Cert.Pre_finite_inputs.PreTerm.refH Cert.ReferenceIdeal.RefTerm.refH
  rw [addBias_eq, addBias_eq, conv_eq, conv_eq]

theorem colTotals_eq (h : FVec Ideal Cert.ReferenceIdeal.S100000x128 .f32) :
    Cert.Pre_finite_inputs.PreTerm.colTotals h = Cert.ReferenceIdeal.RefTerm.colTotals h := rfl

theorem centred_eq (h : FVec Ideal Cert.ReferenceIdeal.S100000x128 .f32) :
    Cert.Pre_finite_inputs.PreTerm.centred h = Cert.ReferenceIdeal.RefTerm.centred h := by
  unfold Cert.Pre_finite_inputs.PreTerm.centred Cert.ReferenceIdeal.RefTerm.centred
  rw [colTotals_eq]

end Cert.PreRef

end
-- ==== Proof.ValueEq.lean ====
/-
  The kernel's value is the reference's: the layers' output written with the kernel program's copies of the host
  operations is the reference's `refH` (the same operations, copy by copy), and on that real-valued array with positive
  centred sums of squares the two standardisations agree.
-/
import proofs.«136093_j68229850464275_1_alg».proof.Proof.KernelWalkDefs
import proofs.«136093_j68229850464275_1_alg».proof.Proof.RefLayers
import proofs.«136093_j68229850464275_1_alg».proof.Proof.RealActs
import proofs.«136093_j68229850464275_1_alg».proof.Proof.ZScore
import proofs.«136093_j68229850464275_1_alg».proof.Proof.PreFacts
import proofs.«136093_j68229850464275_1_alg».proof.Proof.PreRef
import Idealize.ShloMosaic.Lib.IdealHost

noncomputable section

namespace Cert.ValueEq

open Idealize.ShloMosaic Idealize.ShloMosaic.ValueIdx Cert.LibRealEntries Cert.Stages

variable [Cert.KernelIdeal.Facts] [Cert.ReferenceIdeal.Facts] [Cert.Pre_finite_inputs.Facts]

theorem bridge_scale (idx : IVec Cert.ReferenceIdeal.S800000 32) :
    Cert.KernelIdeal.Walk.invSqrtDeg idx = Cert.RefLayers.scaleCol idx := rfl

theorem bridge_aggregate (src dst : IVec Cert.ReferenceIdeal.S800000 32) :
    Cert.KernelIdeal.Walk.aggregate src dst = Cert.ReferenceIdeal.RefTerm.aggregate src dst := rfl

theorem bridge_row (b : FVec Ideal Cert.ReferenceIdeal.S128 .f32) :
    Cert.KernelIdeal.Walk.rowOf b = Cert.RefLayers.biasRow b := rfl

/-- The zero vector the precondition compares with reads the zero word. -/
theorem zeroVec_apply (j : Cert.Pre_finite_inputs.S128.Idx) :
    Cert.PreFacts.zeroVec j = Ideal.ofBits .f32 0x00000000#32 := by
  unfold Cert.PreFacts.zeroVec
  rw [broadcastInDim_scalar_apply, constant_apply]

/-- One graph: the kernel's standardised layers are the reference's z-score of its layers, given real-valued
    arguments and positive centred sums of squares of the layers' columns. -/
theorem graph_eq (x : FVec Ideal Cert.ReferenceIdeal.S100000x128 .f32) (w1 : FVec Ideal Cert.ReferenceIdeal.S128x128 .f32)
    (b1 : FVec Ideal Cert.ReferenceIdeal.S128 .f32) (w2 : FVec Ideal Cert.ReferenceIdeal.S128x128 .f32)
    (b2 : FVec Ideal Cert.ReferenceIdeal.S128 .f32) (src dst : IVec Cert.ReferenceIdeal.S800000 32)
    (hx : ∀ i, IsReal (x i)) (hw1 : ∀ i, IsReal (w1 i)) (hb1 : ∀ i, IsReal (b1 i))
    (hw2 : ∀ i, IsReal (w2 i)) (hb2 : ∀ i, IsReal (b2 i))
    (hp : ∀ j, Cert.PreFacts.zeroVec j < Cert.Pre_finite_inputs.PreTerm.colTotals
        (mulf (Cert.Pre_finite_inputs.PreTerm.centred (Cert.Pre_finite_inputs.PreTerm.refH x w1 b1 w2 b2 src dst))
          (Cert.Pre_finite_inputs.PreTerm.centred (Cert.Pre_finite_inputs.PreTerm.refH x w1 b1 w2 b2 src dst))) j) :
    standardiseBySums 0x47C35000#32 0x47C34F80#32
        (encode (Cert.KernelIdeal.Walk.aggregate src dst) (Cert.KernelIdeal.Walk.invSqrtDeg src)
          (Cert.KernelIdeal.Walk.invSqrtDeg dst) x w1 (Cert.KernelIdeal.Walk.rowOf b1) w2 (Cert.KernelIdeal.Walk.rowOf b2))
      = Cert.ReferenceIdeal.RefTerm.refZ (Cert.ReferenceIdeal.RefTerm.refH x w1 b1 w2 b2 src dst) := by
  rw [bridge_scale, bridge_scale, bridge_aggregate, bridge_row, bridge_row, ← Cert.RefLayers.refH_eq]
  refine Cert.ZScore.standardise_eq_refZ _ (Cert.RealActs.real_refH x w1 b1 w2 b2 src dst hx hw1 hb1 hw2 hb2) (fun j => ?_)
  have h := hp j
  rw [Cert.PreRef.refH_eq, Cert.PreRef.centred_eq, Cert.PreRef.colTotals_eq, zeroVec_apply] at h
  exact h

/-- Both graphs, from a true precondition. -/
theorem value_eq (a0 a1 : FVec Ideal Cert.ReferenceIdeal.S100000x128 .f32) (a2 : FVec Ideal Cert.ReferenceIdeal.S128x128 .f32)
    (a3 : FVec Ideal Cert.ReferenceIdeal.S128 .f32) (a4 : FVec Ideal Cert.ReferenceIdeal.S128x128 .f32)
    (a5 : FVec Ideal Cert.ReferenceIdeal.S128 .f32) (a6 a7 a8 a9 : IVec Cert.ReferenceIdeal.S800000 32)
    (hpre : Cert.Pre_finite_inputs.fn (F := Ideal) a0 a1 a2 a3 a4 a5 a6 a7 a8 a9 = fun _ => 1#1) :
    standardiseBySums 0x47C35000#32 0x47C34F80#32
        (encode (Cert.KernelIdeal.Walk.aggregate a6 a7) (Cert.KernelIdeal.Walk.invSqrtDeg a6)
          (Cert.KernelIdeal.Walk.invSqrtDeg a7) a0 a2 (Cert.KernelIdeal.Walk.rowOf a3) a4 (Cert.KernelIdeal.Walk.rowOf a5))
        = Cert.ReferenceIdeal.RefTerm.refZ (Cert.ReferenceIdeal.RefTerm.refH a0 a2 a3 a4 a5 a6 a7)
      ∧ standardiseBySums 0x47C35000#32 0x47C34F80#32
        (encode (Cert.KernelIdeal.Walk.aggregate a8 a9) (Cert.KernelIdeal.Walk.invSqrtDeg a8)
          (Cert.KernelIdeal.Walk.invSqrtDeg a9) a1 a2 (Cert.KernelIdeal.Walk.rowOf a3) a4 (Cert.KernelIdeal.Walk.rowOf a5))
        = Cert.ReferenceIdeal.RefTerm.refZ (Cert.ReferenceIdeal.RefTerm.refH a1 a2 a3 a4 a5 a8 a9) := by
  obtain ⟨r0, r1, r2, r3, r4, r5, p1, p2⟩ := Cert.PreFacts.consequences a0 a1 a2 a3 a4 a5 a6 a7 a8 a9 hpre
  exact ⟨graph_eq a0 a2 a3 a4 a5 a6 a7 r0 r2 r3 r4 r5 p1, graph_eq a1 a2 a3 a4 a5 a8 a9 r1 r2 r3 r4 r5 p2⟩

end Cert.ValueEq

end
-- ==== Proof.lean ====
/-
  The certificate of a two-layer graph-convolution encoder with a column z-score, run on two graphs.

  The kernel program computes each layer as: scale the rows by the out-degree scale and multiply by the weights (a tiled
  kernel), aggregate along the edges (host gather and scatter-add), scale the rows by the in-degree scale and add the bias
  (a tiled kernel, with the maximum with zero in the first layer). The last of these kernels also accumulates, over its grid,
  each column's sum and sum of squares; the host turns them into the column mean and the sample variance
  `(q - n * mean * mean) / (n - 1)`, takes its reciprocal square root, and a last tiled kernel standardises the array.
  The reference computes the same layers by host operations and standardises by `(h - mean) / sqrt (∑ (h - mean)² / (n - 1))`.

  Every tiled kernel's output is one whole-array function of its operands (the blocks tile the arrays; the accumulated
  rows are sums over all rows), the host operations between them are the reference's, and on a real-valued array whose
  columns have positive centred sums of squares the two standardisations agree: over real entries
  `∑ x² - n μ² = ∑ (x - μ)²`, and for a positive variance `a * rsqrt v = a / sqrt v`. The precondition supplies
  real-valued arguments (hence a real-valued array, every stage keeping entries real) and the positivity.

  The three frames are the generated frames of the two kernel programs and the reference's run with its results dropped;
  the idealisation rewrote nothing, so `preserves` is trivial.
-/
import proofs.«136093_j68229850464275_1_alg».proof.Defs
import proofs.«136093_j68229850464275_1_alg».proof.Proof.Gen.Kernel
import proofs.«136093_j68229850464275_1_alg».proof.Proof.Gen.Kernel.Frame
import proofs.«136093_j68229850464275_1_alg».proof.Proof.Gen.KernelIdeal
import proofs.«136093_j68229850464275_1_alg».proof.Proof.Gen.KernelIdeal.Frame
import proofs.«136093_j68229850464275_1_alg».proof.Proof.Gen.ReferenceIdeal
import proofs.«136093_j68229850464275_1_alg».proof.Proof.Gen.Pre_finite_inputs
import proofs.«136093_j68229850464275_1_alg».proof.Proof.KernelRun
import proofs.«136093_j68229850464275_1_alg».proof.Proof.KernelWalk
import proofs.«136093_j68229850464275_1_alg».proof.Proof.RefRun
import proofs.«136093_j68229850464275_1_alg».proof.Proof.ValueEq
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the two results dropped. -/
theorem frame_reference : Cert.frame_ReferenceIdeal := fun m ρ _ =>
  (θ_run Cert.ReferenceIdeal.defs _ _).mono (fun _ h c => (h c).2.2) (Cert.ReferenceIdeal.RefRun.run m ρ)

theorem preserves : Cert.preserves_Kernel_KernelIdeal := trivial

/-- From memories agreeing on the arguments both programs end with the same two arrays: the kernel's at the
    standardised layers (its run, read back to the arguments), the reference's at the z-score of its layers (its run), and
    these are one array under the precondition. -/
theorem algebraic : Cert.algebraic_KernelIdeal_ReferenceIdeal := by
  intro m ρ m' ρ' hpre hagree
  refine ⟨fun c => Cert.KernelIdeal.Gen.W18 m ρ c (Proc.devRef .tc Cert.KernelIdeal.main_v52),
    fun c => Cert.KernelIdeal.Gen.W18 m ρ c (Proc.devRef .tc Cert.KernelIdeal.main_v105),
    Cert.KernelIdeal.Walk.run_values m ρ, ?_⟩
  refine (θ_run Cert.ReferenceIdeal.defs _ _).mono (fun r h c => ?_) (Cert.ReferenceIdeal.RefRun.run m' ρ')
  obtain ⟨h1, h2, hargs⟩ := h c
  obtain ⟨g0, g1, g2, g3, g4, g5, g6, g7, g8, g9⟩ := hagree c
  obtain ⟨e1, e2⟩ := Cert.ValueEq.value_eq _ _ _ _ _ _ _ _ _ _ (hpre c)
  refine ⟨h1.trans ?_, h2.trans ?_, hargs⟩
  · beta_reduce
    rw [Cert.ReferenceIdeal.RefRun.val151, g0, g2, g3, g4, g5, g6, g7, Cert.KernelIdeal.Walk.kv52]
    exact e1.symm
  · beta_reduce
    rw [Cert.ReferenceIdeal.RefRun.val161, g1, g2, g3, g4, g5, g8, g9, Cert.KernelIdeal.Walk.kv105]
    exact e2.symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
